-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x10 : Shape := ⟨2, ![50000, 10]⟩
abbrev S200000x64 : Shape := ⟨2, ![200000, 64]⟩
abbrev S2x1000000 : Shape := ⟨2, ![2, 1000000]⟩
abbrev S1000000 : Shape := ⟨1, ![1000000]⟩
abbrev S50000x85 : Shape := ⟨2, ![50000, 85]⟩
abbrev S2x16 : Shape := ⟨2, ![2, 16]⟩
abbrev S2x85x128 : Shape := ⟨3, ![2, 85, 128]⟩
abbrev S2x128 : Shape := ⟨2, ![2, 128]⟩
abbrev S2x64x128 : Shape := ⟨3, ![2, 64, 128]⟩
abbrev S128 : Shape := ⟨1, ![128]⟩
abbrev S_ : Shape := ⟨0, ![]⟩

class Facts : Prop where
  bcast_S_S50000x10 : S_.BroadcastsInDim S50000x10 (![] : Fin 0 → Fin S50000x10.rank)
  reducesTo_S50000x10_S_d0_1 : S50000x10.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S50000x85 : S_.BroadcastsInDim S50000x85 (![] : Fin 0 → Fin S50000x85.rank)
  reducesTo_S50000x85_S_d0_1 : S50000x85.ReducesTo [0, 1] S_
  bcast_S_S2x16 : S_.BroadcastsInDim S2x16 (![] : Fin 0 → Fin S2x16.rank)
  reducesTo_S2x16_S_d0_1 : S2x16.ReducesTo [0, 1] S_
  bcast_S_S2x85x128 : S_.BroadcastsInDim S2x85x128 (![] : Fin 0 → Fin S2x85x128.rank)
  reducesTo_S2x85x128_S_d0_1_2 : S2x85x128.ReducesTo [0, 1, 2] S_
  bcast_S_S2x128 : S_.BroadcastsInDim S2x128 (![] : Fin 0 → Fin S2x128.rank)
  reducesTo_S2x128_S_d0_1 : S2x128.ReducesTo [0, 1] S_
  bcast_S_S2x64x128 : S_.BroadcastsInDim S2x64x128 (![] : Fin 0 → Fin S2x64x128.rank)
  reducesTo_S2x64x128_S_d0_1_2 : S2x64x128.ReducesTo [0, 1, 2] S_
  bcast_S_S128 : S_.BroadcastsInDim S128 (![] : Fin 0 → Fin S128.rank)
  reducesTo_S128_S_d0 : S128.ReducesTo [0] S_

variable [Facts]

def fn_part4 {F : FTy → Type} [FloatOps F] (main_arg18 : FVec F S128 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg15 : FVec F S2x128 .f32) (main_arg16 : FVec F S2x85x128 .f32) (main_arg17 : FVec F S128 .f32) (main_arg18 : FVec F S128 .f32) (main_v48 : IVec S_ 1) (main_v49 : FVec F S2x64x128 .f32) (main_v50 : FVec F S2x64x128 .f32) : IVec S_ 1 :=
  let main_v51 : IVec S2x64x128 1 := cmpf .olt main_v49 main_v50
  let main_c_19 : IVec S_ 1 := constantI S_ 1 1#1
  let main_v52 : IVec S_ 1 := (fun x v => Host.reduce IntOp.andi x v reducesTo_S2x64x128_S_d0_1_2 h_S_) main_v51 main_c_19
  let main_v53 : IVec S_ 1 := andi main_v48 main_v52
  let main_v54 : FVec F S2x128 .f32 := Host.absf main_arg15
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x85x128 .f32 := Host.absf main_arg16
  let main_cst_22 : FVec F S_ .f32 := constant S_ .f32 0x7F800000#32
  let main_v60 : FVec F S2x85x128 .f32 := broadcastInDim S2x85x128 ![] bcast_S_S2x85x128 main_cst_22
  let main_v61 : IVec S2x85x128 1 := cmpf .olt main_v59 main_v60
  let main_c_23 : IVec S_ 1 := constantI S_ 1 1#1
  let main_v62 : IVec S_ 1 := (fun x v => Host.reduce IntOp.andi x v reducesTo_S2x85x128_S_d0_1_2 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_v63 main_v67

def fn_part2 {F : FTy → Type} [FloatOps F] (main_arg11 : FVec F S2x16 .f32) (main_arg12 : FVec F S2x85x128 .f32) (main_arg13 : FVec F S2x128 .f32) (main_arg14 : FVec F S2x64x128 .f32) (main_arg15 : FVec F S2x128 .f32) (main_arg16 : FVec F S2x85x128 .f32) (main_arg17 : FVec F S128 .f32) (main_arg18 : FVec F S128 .f32) (main_v33 : IVec S_ 1) : IVec S_ 1 :=
  let main_v34 : FVec F S2x16 .f32 := Host.absf main_arg11
  let main_cst_12 : FVec F S_ .f32 := constant S_ .f32 0x7F800000#32
  let main_v35 : FVec F S2x16 .f32 := broadcastInDim S2x16 ![] bcast_S_S2x16 main_cst_12
  let main_v36 : IVec S2x16 1 := cmpf .olt main_v34 main_v35
  let main_c_13 : IVec S_ 1 := constantI S_ 1 1#1
  let main_v37 : IVec S_ 1 := (fun x v => Host.reduce IntOp.andi x v reducesTo_S2x16_S_d0_1 h_S_) main_v36 main_c_13
  let main_v38 : IVec S_ 1 := andi main_v33 main_v37
  let main_v39 : FVec F S2x85x128 .f32 := Host.absf main_arg12
  let main_cst_14 : FVec F S_ .f32 := constant S_ .f32 0x7F800000#32
  let main_v40 : FVec F S2x85x128 .f32 := broadcastInDim S2x85x128 ![] bcast_S_S2x85x128 main_cst_14
  let main_v41 : IVec S2x85x128 1 := cmpf .olt main_v39 main_v40
  let main_c_15 : IVec S_ 1 := constantI S_ 1 1#1
  let main_v42 : IVec S_ 1 := (fun x v => Host.reduce IntOp.andi x v reducesTo_S2x85x128_S_d0_1_2 h_S_) main_v41 main_c_15
  let main_v43 : IVec S_ 1 := andi main_v38 main_v42
  let main_v44 : FVec F S2x128 .f32 := Host.absf main_arg13
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x64x128 .f32 := Host.absf main_arg14
  let main_cst_18 : FVec F S_ .f32 := constant S_ .f32 0x7F800000#32
  let main_v50 : FVec F S2x64x128 .f32 := broadcastInDim S2x64x128 ![] bcast_S_S2x64x128 main_cst_18
  fn_part3 (F := F) main_arg15 main_arg16 main_arg17 main_arg18 main_v48 main_v49 main_v50

def fn_part1 {F : FTy → Type} [FloatOps F] (main_arg8 : FVec F S2x16 .f32) (main_arg9 : FVec F S2x16 .f32) (main_arg10 : FVec F S2x16 .f32) (main_arg11 : FVec F S2x16 .f32) (main_arg12 : FVec F S2x85x128 .f32) (main_arg13 : FVec F S2x128 .f32) (main_arg14 : FVec F S2x64x128 .f32) (main_arg15 : FVec F S2x128 .f32) (main_arg16 : FVec F S2x85x128 .f32) (main_arg17 : FVec F S128 .f32) (main_arg18 : FVec F S128 .f32) (main_v13 : IVec S_ 1) (main_v16 : IVec S2x16 1) : IVec S_ 1 :=
  let main_c_5 : IVec S_ 1 := constantI S_ 1 1#1
  let main_v17 : IVec S_ 1 := (fun x v => Host.reduce IntOp.andi x v reducesTo_S2x16_S_d0_1 h_S_) main_v16 main_c_5
  let main_v18 : IVec S_ 1 := andi main_v13 main_v17
  let main_v19 : FVec F S2x16 .f32 := Host.absf main_arg8
  let main_cst_6 : FVec F S_ .f32 := constant S_ .f32 0x7F800000#32
  let main_v20 : FVec F S2x16 .f32 := broadcastInDim S2x16 ![] bcast_S_S2x16 main_cst_6
  let main_v21 : IVec S2x16 1 := cmpf .olt main_v19 main_v20
  let main_c_7 : IVec S_ 1 := constantI S_ 1 1#1
  let main_v22 : IVec S_ 1 := (fun x v => Host.reduce IntOp.andi x v reducesTo_S2x16_S_d0_1 h_S_) main_v21 main_c_7
  let main_v23 : IVec S_ 1 := andi main_v18 main_v22
  let main_v24 : FVec F S2x16 .f32 := Host.absf main_arg9
  let main_cst_8 : FVec F S_ .f32 := constant S_ .f32 0x7F800000#32
  let main_v25 : FVec F S2x16 .f32 := broadcastInDim S2x16 ![] bcast_S_S2x16 main_cst_8
  let main_v26 : IVec S2x16 1 := cmpf .olt main_v24 main_v25
  let main_c_9 : IVec S_ 1 := constantI S_ 1 1#1
  let main_v27 : IVec S_ 1 := (fun x v => Host.reduce IntOp.andi x v reducesTo_S2x16_S_d0_1 h_S_) main_v26 main_c_9
  let main_v28 : IVec S_ 1 := andi main_v23 main_v27
  let main_v29 : FVec F S2x16 .f32 := Host.absf main_arg10
  let main_cst_10 : FVec F S_ .f32 := constant S_ .f32 0x7F800000#32
  let main_v30 : FVec F S2x16 .f32 := broadcastInDim S2x16 ![] bcast_S_S2x16 main_cst_10
  let main_v31 : IVec S2x16 1 := cmpf .olt main_v29 main_v30
  let main_c_11 : IVec S_ 1 := constantI S_ 1 1#1
  let main_v32 : IVec S_ 1 := (fun x v => Host.reduce IntOp.andi x v reducesTo_S2x16_S_d0_1 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : IVec S50000 32) (main_arg1 : FVec F S50000x10 .f32) (main_arg2 : FVec F S200000x64 .f32) (main_arg3 : IVec S2x1000000 32) (main_arg4 : IVec S1000000 32) (main_arg5 : IVec S1000000 32) (main_arg6 : FVec F S50000x85 .f32) (main_arg7 : FVec F S2x16 .f32) (main_arg8 : FVec F S2x16 .f32) (main_arg9 : FVec F S2x16 .f32) (main_arg10 : FVec F S2x16 .f32) (main_arg11 : FVec F S2x16 .f32) (main_arg12 : FVec F S2x85x128 .f32) (main_arg13 : FVec F S2x128 .f32) (main_arg14 : FVec F S2x64x128 .f32) (main_arg15 : FVec F S2x128 .f32) (main_arg16 : FVec F S2x85x128 .f32) (main_arg17 : FVec F S128 .f32) (main_arg18 : FVec F S128 .f32) : IVec S_ 1 :=
  let main_v0 : FVec F S50000x10 .f32 := Host.absf main_arg1
  let main_cst : FVec F S_ .f32 := constant S_ .f32 0x7F800000#32
  let main_v1 : FVec F S50000x10 .f32 := broadcastInDim S50000x10 ![] bcast_S_S50000x10 main_cst
  let main_v2 : IVec S50000x10 1 := cmpf .olt main_v0 main_v1
  let main_c : IVec S_ 1 := constantI S_ 1 1#1
  let main_v3 : IVec S_ 1 := (fun x v => Host.reduce IntOp.andi x v reducesTo_S50000x10_S_d0_1 h_S_) main_v2 main_c
  let main_v4 : FVec F S200000x64 .f32 := Host.absf main_arg2
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S50000x85 .f32 := Host.absf main_arg6
  let main_cst_2 : FVec F S_ .f32 := constant S_ .f32 0x7F800000#32
  let main_v10 : FVec F S50000x85 .f32 := broadcastInDim S50000x85 ![] bcast_S_S50000x85 main_cst_2
  let main_v11 : IVec S50000x85 1 := cmpf .olt main_v9 main_v10
  let main_c_3 : IVec S_ 1 := constantI S_ 1 1#1
  let main_v12 : IVec S_ 1 := (fun x v => Host.reduce IntOp.andi x v reducesTo_S50000x85_S_d0_1 h_S_) main_v11 main_c_3
  let main_v13 : IVec S_ 1 := andi main_v8 main_v12
  let main_v14 : FVec F S2x16 .f32 := Host.absf main_arg7
  let main_cst_4 : FVec F S_ .f32 := constant S_ .f32 0x7F800000#32
  let main_v15 : FVec F S2x16 .f32 := broadcastInDim S2x16 ![] bcast_S_S2x16 main_cst_4
  let main_v16 : IVec S2x16 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S50000 : Shape := ⟨1, ![50000]⟩
abbrev S50000x10 : Shape := ⟨2, ![50000, 10]⟩
abbrev S200000x64 : Shape := ⟨2, ![200000, 64]⟩
abbrev S2x1000000 : Shape := ⟨2, ![2, 1000000]⟩
abbrev S1000000 : Shape := ⟨1, ![1000000]⟩
abbrev S50000x85 : Shape := ⟨2, ![50000, 85]⟩
abbrev S2x16 : Shape := ⟨2, ![2, 16]⟩
abbrev S2x85x128 : Shape := ⟨3, ![2, 85, 128]⟩
abbrev S2x128 : Shape := ⟨2, ![2, 128]⟩
abbrev S2x64x128 : Shape := ⟨3, ![2, 64, 128]⟩
abbrev S128 : Shape := ⟨1, ![128]⟩
abbrev S_ : Shape := ⟨0, ![]⟩
abbrev S50000x1 : Shape := ⟨2, ![50000, 1]⟩
abbrev S50000x16 : Shape := ⟨2, ![50000, 16]⟩
abbrev S50000x2 : Shape := ⟨2, ![50000, 2]⟩
abbrev S50000x3 : Shape := ⟨2, ![50000, 3]⟩
abbrev S100000x85 : Shape := ⟨2, ![100000, 85]⟩
abbrev S1x1000000 : Shape := ⟨2, ![1, 1000000]⟩
abbrev S100000 : Shape := ⟨1, ![100000]⟩
abbrev S1000000x1 : Shape := ⟨2, ![1000000, 1]⟩
abbrev S1000000x64 : Shape := ⟨2, ![1000000, 64]⟩
abbrev S100000x64 : Shape := ⟨2, ![100000, 64]⟩
abbrev S100000x1 : Shape := ⟨2, ![100000, 1]⟩
abbrev S85x2x128 : Shape := ⟨3, ![85, 2, 128]⟩
abbrev S85x256 : Shape := ⟨2, ![85, 256]⟩
abbrev S64x2x128 : Shape := ⟨3, ![64, 2, 128]⟩
abbrev S64x256 : Shape := ⟨2, ![64, 256]⟩
abbrev S1x256 : Shape := ⟨2, ![1, 256]⟩
abbrev S100000x256 : Shape := ⟨2, ![100000, 256]⟩
abbrev S4000x85 : Shape := ⟨2, ![4000, 85]⟩
abbrev S4000x64 : Shape := ⟨2, ![4000, 64]⟩
abbrev S4000x256 : Shape := ⟨2, ![4000, 256]⟩
abbrev S100000x128 : Shape := ⟨2, ![100000, 128]⟩
abbrev S1000000x128 : Shape := ⟨2, ![1000000, 128]⟩
abbrev S1x128 : Shape := ⟨2, ![1, 128]⟩
abbrev S4000x128 : Shape := ⟨2, ![4000, 128]⟩

abbrev nBuf : Space → Nat
  | .hbm => 222
  | .vmem => 35
  | .smem => 0
  | _ => 0

abbrev hbmTy0_0 (i : Nat) : BufTy := match i % 128 with
  | 0 => ⟨S50000, .i32⟩
  | 1 => ⟨S50000x10, .f32⟩
  | 2 => ⟨S200000x64, .f32⟩
  | 3 => ⟨S2x1000000, .i32⟩
  | 4 => ⟨S1000000, .i32⟩
  | 5 => ⟨S1000000, .i32⟩
  | 6 => ⟨S50000x85, .f32⟩
  | 7 => ⟨S2x16, .f32⟩
  | 8 => ⟨S2x16, .f32⟩
  | 9 => ⟨S2x16, .f32⟩
  | 10 => ⟨S2x16, .f32⟩
  | 11 => ⟨S2x16, .f32⟩
  | 12 => ⟨S2x85x128, .f32⟩
  | 13 => ⟨S2x128, .f32⟩
  | 14 => ⟨S2x64x128, .f32⟩
  | 15 => ⟨S2x128, .f32⟩
  | 16 => ⟨S2x85x128, .f32⟩
  | 17 => ⟨S128, .f32⟩
  | 18 => ⟨S128, .f32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x85, .f32⟩
  | 28 => ⟨S50000x1, .f32⟩
  | 29 => ⟨S50000, .f32⟩
  | 30 => ⟨S50000, .i32⟩
  | 31 => ⟨S_, .i32⟩
  | 32 => ⟨S50000, .i32⟩
  | 33 => ⟨S50000, .i1⟩
  | 34 => ⟨S_, .i32⟩
  | 35 => ⟨S50000, .i32⟩
  | 36 => ⟨S50000, .i32⟩
  | 37 => ⟨S50000, .i32⟩
  | 38 => ⟨S50000x1, .i32⟩
  | 39 => ⟨S50000x16, .f32⟩
  | 40 => ⟨S50000x1, .f32⟩
  | 41 => ⟨S50000, .f32⟩
  | 42 => ⟨S50000, .i32⟩
  | 43 => ⟨S_, .i32⟩
  | 44 => ⟨S50000, .i32⟩
  | 45 => ⟨S50000, .i1⟩
  | 46 => ⟨S_, .i32⟩
  | 47 => ⟨S50000, .i32⟩
  | 48 => ⟨S50000, .i32⟩
  | 49 => ⟨S50000, .i32⟩
  | 50 => ⟨S50000x1, .i32⟩
  | 51 => ⟨S50000x16, .f32⟩
  | 52 => ⟨S50000x1, .f32⟩
  | 53 => ⟨S50000, .f32⟩
  | 54 => ⟨S50000, .i32⟩
  | 55 => ⟨S_, .i32⟩
  | 56 => ⟨S50000, .i32⟩
  | 57 => ⟨S50000, .i1⟩
  | 58 => ⟨S_, .i32⟩
  | 59 => ⟨S50000, .i32⟩
  | 60 => ⟨S50000, .i32⟩
  | 61 => ⟨S50000, .i32⟩
  | 62 => ⟨S50000x1, .i32⟩
  | 63 => ⟨S50000x16, .f32⟩
  | 64 => ⟨S50000x1, .f32⟩
  | 65 => ⟨S50000, .f32⟩
  | 66 => ⟨S50000, .i32⟩
  | 67 => ⟨S_, .i32⟩
  | 68 => ⟨S50000, .i32⟩
  | 69 => ⟨S50000, .i1⟩
  | 70 => ⟨S_, .i32⟩
  | 71 => ⟨S50000, .i32⟩
  | 72 => ⟨S50000, .i32⟩
  | 73 => ⟨S50000, .i32⟩
  | 74 => ⟨S50000x1, .i32⟩
  | 75 => ⟨S50000x16, .f32⟩
  | 76 => ⟨S50000x1, .f32⟩
  | 77 => ⟨S50000, .f32⟩
  | 78 => ⟨S50000, .i32⟩
  | 79 => ⟨S_, .i32⟩
  | 80 => ⟨S50000, .i32⟩
  | 81 => ⟨S50000, .i1⟩
  | 82 => ⟨S_, .i32⟩
  | 83 => ⟨S50000, .i32⟩
  | 84 => ⟨S50000, .i32⟩
  | 85 => ⟨S50000, .i32⟩
  | 86 => ⟨S50000x1, .i32⟩
  | 87 => ⟨S50000x16, .f32⟩
  | 88 => ⟨S50000x2, .f32⟩
  | 89 => ⟨S50000x3, .f32⟩
  | 90 => ⟨S50000x85, .f32⟩
  | 91 => ⟨S100000x85, .f32⟩
  | 92 => ⟨S1x1000000, .i32⟩
  | 93 => ⟨S1000000, .i32⟩
  | 94 => ⟨S1x1000000, .i32⟩
  | 95 => ⟨S1000000, .i32⟩
  | 96 => ⟨S_, .f32⟩
  | 97 => ⟨S1000000, .f32⟩
  | 98 => ⟨S_, .f32⟩
  | 99 => ⟨S100000, .f32⟩
  | 100 => ⟨S1000000x1, .i32⟩
  | 101 => ⟨S100000, .f32⟩
  | 102 => ⟨S_, .f32⟩
  | 103 => ⟨S100000, .f32⟩
  | 104 => ⟨S100000, .i1⟩
  | 105 => ⟨S_, .f32⟩
  | 106 => ⟨S100000, .f32⟩
  | 107 => ⟨S100000, .f32⟩
  | 108 => ⟨S100000, .f32⟩
  | 109 => ⟨S_, .f32⟩
  | 110 => ⟨S_, .f32⟩
  | 111 => ⟨S100000, .f32⟩
  | 112 => ⟨S100000, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S50000, .i32⟩

abbrev hbmTy0_1 (i : Nat) : BufTy := match i % 128 with
  | 0 => ⟨S1000000, .i32⟩
  | 1 => ⟨S1000000x1, .i32⟩
  | 2 => ⟨S1000000, .f32⟩
  | 3 => ⟨S1000000, .f32⟩
  | 4 => ⟨S_, .f32⟩
  | 5 => ⟨S100000, .f32⟩
  | 6 => ⟨S1000000x1, .i32⟩
  | 7 => ⟨S100000, .f32⟩
  | 8 => ⟨S_, .f32⟩
  | 9 => ⟨S100000, .f32⟩
  | 10 => ⟨S100000, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000x64, .f32⟩
  | 20 => ⟨S_, .f32⟩
  | 21 => ⟨S100000x64, .f32⟩
  | 22 => ⟨S1000000x1, .i32⟩
  | 23 => ⟨S100000x64, .f32⟩
  | 24 => ⟨S100000x1, .f32⟩
  | 25 => ⟨S100000x64, .f32⟩
  | 26 => ⟨S100000x64, .f32⟩
  | 27 => ⟨S85x2x128, .f32⟩
  | 28 => ⟨S85x256, .f32⟩
  | 29 => ⟨S85x2x128, .f32⟩
  | 30 => ⟨S85x256, .f32⟩
  | 31 => ⟨S64x2x128, .f32⟩
  | 32 => ⟨S64x256, .f32⟩
  | 33 => ⟨S1x256, .f32⟩
  | 34 => ⟨S100000x256, .f32⟩
  | 35 => ⟨S100000x256, .f32⟩
  | 36 => ⟨S100000x128, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x128, .f32⟩
  | 46 => ⟨S1000000x1, .f32⟩
  | 47 => ⟨S1000000x128, .f32⟩
  | 48 => ⟨S1000000x128, .f32⟩
  | 49 => ⟨S_, .f32⟩
  | 50 => ⟨S100000x128, .f32⟩
  | 51 => ⟨S1000000x1, .i32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S100000x128, .f32⟩
  | 59 => ⟨S100000x128, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x128, .f32⟩
  | 69 => ⟨S1000000x1, .f32⟩
  | 70 => ⟨S1000000x128, .f32⟩
  | 71 => ⟨S1000000x128, .f32⟩
  | 72 => ⟨S_, .f32⟩
  | 73 => ⟨S100000x128, .f32⟩
  | 74 => ⟨S1000000x1, .i32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S100000x128, .f32⟩
  | 82 => ⟨S100000x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S100000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S4000x85, .f32⟩
  | .local _ .vmem, ⟨1, _⟩ => ⟨S4000x85, .f32⟩
  | .local _ .vmem, ⟨2, _⟩ => ⟨S4000x64, .f32⟩
  | .local _ .vmem, ⟨3, _⟩ => ⟨S4000x64, .f32⟩
  | .local _ .vmem, ⟨4, _⟩ => ⟨S85x256, .f32⟩
  | .local _ .vmem, ⟨5, _⟩ => ⟨S64x256, .f32⟩
  | .local _ .vmem, ⟨6, _⟩ => ⟨S85x256, .f32⟩
  | .local _ .vmem, ⟨7, _⟩ => ⟨S1x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S1x128, .f32⟩
  | .local _ .vmem, ⟨23, _⟩ => ⟨S4000x128, .f32⟩
  | .local _ .vmem, ⟨24, _⟩ => ⟨S4000x128, .f32⟩
  | .local _ .vmem, ⟨25, _⟩ => ⟨S1x128, .f32⟩
  | .local _ .vmem, ⟨26, _⟩ => ⟨S1x128, .f32⟩
  | .local _ .vmem, ⟨27, _⟩ => ⟨S4000x128, .f32⟩
  | .local _ .vmem, ⟨28, _⟩ => ⟨S4000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S4000x128, .f32⟩
  | .local _ .vmem, ⟨34, _⟩ => ⟨S4000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_call0_v0 : Ref sig .tc := ⟨.hbm, 110, rfl⟩
abbrev main_call0_v1 : Ref sig .tc := ⟨.hbm, 111, rfl⟩
abbrev main_v74 : Ref sig .tc := ⟨.hbm, 112, rfl⟩
abbrev main_c_15 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_17 : Ref sig .tc := ⟨.hbm, 122, rfl⟩
abbrev main_v82 : Ref sig .tc := ⟨.hbm, 123, rfl⟩
abbrev main_v83 : Ref sig .tc := ⟨.hbm, 124, rfl⟩
abbrev main_c_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_19 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_c_21 : Ref sig .tc := ⟨.hbm, 139, rfl⟩
abbrev main_v95 : Ref sig .tc := ⟨.hbm, 140, rfl⟩
abbrev main_v96 : Ref sig .tc := ⟨.hbm, 141, rfl⟩
abbrev main_c_22 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115_0 : Ref sig .tc := ⟨.hbm, 162, rfl⟩
abbrev main_v115_1 : Ref sig .tc := ⟨.hbm, 163, rfl⟩
abbrev main_v116 : Ref sig .tc := ⟨.hbm, 164, rfl⟩
abbrev main_c_24 : Ref sig .tc := ⟨.hbm, 165, rfl⟩
abbrev main_v117 : Ref sig .tc := ⟨.hbm, 166, rfl⟩
abbrev main_v118 : Ref sig .tc := ⟨.hbm, 167, rfl⟩
abbrev main_c_25 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_26 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_c_27 : Ref sig .tc := ⟨.hbm, 188, rfl⟩
abbrev main_v137 : Ref sig .tc := ⟨.hbm, 189, rfl⟩
abbrev main_v138 : Ref sig .tc := ⟨.hbm, 190, rfl⟩
abbrev main_c_28 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_29 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156_0 : Ref sig .tc := ⟨.hbm, 210, rfl⟩
abbrev main_v156_1 : Ref sig .tc := ⟨.hbm, 211, rfl⟩
abbrev main_cst_30 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_cst_31 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S85x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S85x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S50000x10_S50000x1_0_0 : S50000x10.Slices ![0, 0] S50000x1
  shapeCasts_S50000x1_S50000 : S50000x1.ShapeCasts S50000
  slices_S50000x10_S50000x1_0_3 : S50000x10.Slices ![0, 3] S50000x1
  slices_S50000x10_S50000x1_0_7 : S50000x10.Slices ![0, 7] S50000x1
  slices_S50000x10_S50000x1_0_8 : S50000x10.Slices ![0, 8] S50000x1
  slices_S50000x10_S50000x1_0_9 : S50000x10.Slices ![0, 9] S50000x1
  slices_S50000x10_S50000x2_0_1 : S50000x10.Slices ![0, 1] S50000x2
  slices_S50000x10_S50000x3_0_4 : S50000x10.Slices ![0, 4] S50000x3
  concatenates_S50000x16_S50000x2_S50000x16_S50000x3_S50000x16_S50000x16_S50000x16_S50000x85_d1 : Shape.Concatenates [S50000x16, S50000x2, S50000x16, S50000x3, S50000x16, S50000x16, S50000x16] S50000x85 1
  concatenates_S50000x85_S50000x85_S100000x85_d0 : Shape.Concatenates [S50000x85, S50000x85] S100000x85 0
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S2x85x128_S85x2x128_1_0_2 : S2x85x128.Transposes [1, 0, 2] S85x2x128
  shapeCasts_S85x2x128_S85x256 : S85x2x128.ShapeCasts S85x256
  transposes_S2x64x128_S64x2x128_1_0_2 : S2x64x128.Transposes [1, 0, 2] S64x2x128
  shapeCasts_S64x2x128_S64x256 : S64x2x128.ShapeCasts S64x256
  shapeCasts_S2x128_S1x256 : S2x128.ShapeCasts S1x256
  inb_S4000x85_S4000x85_0_0 : ∀ a, (![0, 0] : Fin 2 → Nat) a + S4000x85.size a ≤ S4000x85.size a
  h_S4000x85 : 0 < S4000x85.numel
  shapeCasts_S4000x85_S4000x85 : S4000x85.ShapeCasts S4000x85
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S85x256_S85x256_0_0 : ∀ a, (![0, 0] : Fin 2 → Nat) a + S85x256.size a ≤ S85x256.size a
  h_S85x256 : 0 < S85x256.numel
  shapeCasts_S85x256_S85x256 : S85x256.ShapeCasts S85x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  slices_S100000x256_S100000x128_0_0 : S100000x256.Slices ![0, 0] S100000x128
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x256_S100000x128_0_128 : S100000x256.Slices ![0, 128] S100000x128
  slices_S2x128_S1x128_1_0 : S2x128.Slices ![1, 0] S1x128
  inb_S1x128_S1x128_0_0 : ∀ a, (![0, 0] : Fin 2 → Nat) a + S1x128.size a ≤ S1x128.size a
  h_S1x128 : 0 < S1x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S1x128_S1x128 : S1x128.ShapeCasts S1x128
  reduces_S4000x128_S128 : S4000x128.Reduces [0] S128
  shapeCasts_S128_S1x128 : S128.ShapeCasts S1x128
  bcast_S_S1x128 : S_.BroadcastsInDim S1x128 (![] : Fin 0 → Fin S1x128.rank)
  broadcasts_S1x128_S4000x128 : S1x128.Broadcasts S4000x128
  gather_S50000x85_S50000x1_S50000x85_1_0_n_n_0_1_185_wf : GatherDims.WF S50000x85 S50000x1 S50000x85 [1] [0] [] [0] [] 1 ![1, 85]
  gather_S2x16_S50000x1_S50000x16_1_0_n_n_0_1_116_wf : GatherDims.WF S2x16 S50000x1 S50000x16 [1] [0] [] [0] [] 1 ![1, 16]
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S4000x85_S85x256_S4000x256_1_0_0_1_n_n_wf : DotDims.WF S4000x85 S85x256 S4000x256 [1] [0] [0] [1] [] []
  dot_S4000x64_S64x256_S4000x256_1_0_0_1_n_n_wf : DotDims.WF S4000x64 S64x256 S4000x256 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x85.size a ≤ S100000x85.size a
  hwx0_0 : ∀ i : grid0.Coords, EltTy.bits .f32 = 32 ∨ (Rect.block (s := S100000x85) S4000x85.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S85x256.size a ≤ S85x256.size a
  hwx0_2 : ∀ i : grid0.Coords, EltTy.bits .f32 = 32 ∨ (Rect.block (s := S85x256) S85x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S85x256.size a ≤ S85x256.size a
  hwx0_4 : ∀ i : grid0.Coords, EltTy.bits .f32 = 32 ∨ (Rect.block (s := S85x256) S85x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .f32 = 32 ∨ (Rect.block (s := S100000x256) S4000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S100000x256.size a
  hwx0_7 : ∀ i : grid0.Coords, EltTy.bits .f32 = 32 ∨ (Rect.block (s := S100000x256) S4000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)

variable [Facts₀]

def gather_S50000x85_S50000x1_S50000x85_1_0_n_n_0_1_185 : GatherDims S50000x85 S50000x1 S50000x85 where
  offsetDims := [1]
  collapsedSliceDims := [0]
  operandBatchingDims := []
  startIndicesBatchingDims := []
  startIndexMap := [0]
  indexVectorDim := 1
  sliceSizes := ![1, 85]
  wf := gather_S50000x85_S50000x1_S50000x85_1_0_n_n_0_1_185_wf
def gather_S2x16_S50000x1_S50000x16_1_0_n_n_0_1_116 : GatherDims S2x16 S50000x1 S50000x16 where
  offsetDims := [1]
  collapsedSliceDims := [0]
  operandBatchingDims := []
  startIndicesBatchingDims := []
  startIndexMap := [0]
  indexVectorDim := 1
  sliceSizes := ![1, 16]
  wf := gather_S2x16_S50000x1_S50000x16_1_0_n_n_0_1_116_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4000x85_S85x256_S4000x256_1_0_0_1_n_n : DotDims S4000x85 S85x256 S4000x256 where
  lhsContracting := [1]
  rhsContracting := [0]
  lhsNonContracting := [0]
  rhsNonContracting := [1]
  lhsBatch := []
  rhsBatch := []
  wf := dot_S4000x85_S85x256_S4000x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf

abbrev win0_0 : Pipeline.Window sig grid0 :=
  Pipeline.Window.ofSpec (Memref.whole main_v60) S4000x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v107) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v109) S85x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v113) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v111) S85x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v114) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v115_0) S4000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v115_1) S4000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v134) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v135) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v154) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v155) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v156_0) S4000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v156_1) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v156_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v158) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v159) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v156_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v158) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v161) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v162) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v163) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v164) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000 : Shape := ⟨1, ![50000]⟩
abbrev S50000x10 : Shape := ⟨2, ![50000, 10]⟩
abbrev S200000x64 : Shape := ⟨2, ![200000, 64]⟩
abbrev S2x1000000 : Shape := ⟨2, ![2, 1000000]⟩
abbrev S1000000 : Shape := ⟨1, ![1000000]⟩
abbrev S50000x85 : Shape := ⟨2, ![50000, 85]⟩
abbrev S2x16 : Shape := ⟨2, ![2, 16]⟩
abbrev S2x85x128 : Shape := ⟨3, ![2, 85, 128]⟩
abbrev S2x128 : Shape := ⟨2, ![2, 128]⟩
abbrev S2x64x128 : Shape := ⟨3, ![2, 64, 128]⟩
abbrev S128 : Shape := ⟨1, ![128]⟩
abbrev S_ : Shape := ⟨0, ![]⟩
abbrev S50000x1 : Shape := ⟨2, ![50000, 1]⟩
abbrev S50000x16 : Shape := ⟨2, ![50000, 16]⟩
abbrev S50000x2 : Shape := ⟨2, ![50000, 2]⟩
abbrev S50000x3 : Shape := ⟨2, ![50000, 3]⟩
abbrev S100000x85 : Shape := ⟨2, ![100000, 85]⟩
abbrev S1x1000000 : Shape := ⟨2, ![1, 1000000]⟩
abbrev S100000 : Shape := ⟨1, ![100000]⟩
abbrev S1000000x1 : Shape := ⟨2, ![1000000, 1]⟩
abbrev S1000000x64 : Shape := ⟨2, ![1000000, 64]⟩
abbrev S100000x64 : Shape := ⟨2, ![100000, 64]⟩
abbrev S100000x1 : Shape := ⟨2, ![100000, 1]⟩
abbrev S100000x128 : Shape := ⟨2, ![100000, 128]⟩
abbrev S1x85x128 : Shape := ⟨3, ![1, 85, 128]⟩
abbrev S85x128 : Shape := ⟨2, ![85, 128]⟩
abbrev S1000000x128 : Shape := ⟨2, ![1000000, 128]⟩
abbrev S1x128 : Shape := ⟨2, ![1, 128]⟩
abbrev S1x64x128 : Shape := ⟨3, ![1, 64, 128]⟩
abbrev S64x128 : Shape := ⟨2, ![64, 128]⟩

abbrev nBuf : Space → Nat
  | .hbm => 279
  | .vmem => 0
  | .smem => 0
  | _ => 0

abbrev hbmTy0_0 (i : Nat) : BufTy := match i % 128 with
  | 0 => ⟨S50000, .i32⟩
  | 1 => ⟨S50000x10, .f32⟩
  | 2 => ⟨S200000x64, .f32⟩
  | 3 => ⟨S2x1000000, .i32⟩
  | 4 => ⟨S1000000, .i32⟩
  | 5 => ⟨S1000000, .i32⟩
  | 6 => ⟨S50000x85, .f32⟩
  | 7 => ⟨S2x16, .f32⟩
  | 8 => ⟨S2x16, .f32⟩
  | 9 => ⟨S2x16, .f32⟩
  | 10 => ⟨S2x16, .f32⟩
  | 11 => ⟨S2x16, .f32⟩
  | 12 => ⟨S2x85x128, .f32⟩
  | 13 => ⟨S2x128, .f32⟩
  | 14 => ⟨S2x64x128, .f32⟩
  | 15 => ⟨S2x128, .f32⟩
  | 16 => ⟨S2x85x128, .f32⟩
  | 17 => ⟨S128, .f32⟩
  | 18 => ⟨S128, .f32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x85, .f32⟩
  | 28 => ⟨S50000x1, .f32⟩
  | 29 => ⟨S50000, .f32⟩
  | 30 => ⟨S50000, .i32⟩
  | 31 => ⟨S_, .i32⟩
  | 32 => ⟨S50000, .i32⟩
  | 33 => ⟨S50000, .i1⟩
  | 34 => ⟨S_, .i32⟩
  | 35 => ⟨S50000, .i32⟩
  | 36 => ⟨S50000, .i32⟩
  | 37 => ⟨S50000, .i32⟩
  | 38 => ⟨S50000x1, .i32⟩
  | 39 => ⟨S50000x16, .f32⟩
  | 40 => ⟨S50000x1, .f32⟩
  | 41 => ⟨S50000, .f32⟩
  | 42 => ⟨S50000, .i32⟩
  | 43 => ⟨S_, .i32⟩
  | 44 => ⟨S50000, .i32⟩
  | 45 => ⟨S50000, .i1⟩
  | 46 => ⟨S_, .i32⟩
  | 47 => ⟨S50000, .i32⟩
  | 48 => ⟨S50000, .i32⟩
  | 49 => ⟨S50000, .i32⟩
  | 50 => ⟨S50000x1, .i32⟩
  | 51 => ⟨S50000x16, .f32⟩
  | 52 => ⟨S50000x1, .f32⟩
  | 53 => ⟨S50000, .f32⟩
  | 54 => ⟨S50000, .i32⟩
  | 55 => ⟨S_, .i32⟩
  | 56 => ⟨S50000, .i32⟩
  | 57 => ⟨S50000, .i1⟩
  | 58 => ⟨S_, .i32⟩
  | 59 => ⟨S50000, .i32⟩
  | 60 => ⟨S50000, .i32⟩
  | 61 => ⟨S50000, .i32⟩
  | 62 => ⟨S50000x1, .i32⟩
  | 63 => ⟨S50000x16, .f32⟩
  | 64 => ⟨S50000x1, .f32⟩
  | 65 => ⟨S50000, .f32⟩
  | 66 => ⟨S50000, .i32⟩
  | 67 => ⟨S_, .i32⟩
  | 68 => ⟨S50000, .i32⟩
  | 69 => ⟨S50000, .i1⟩
  | 70 => ⟨S_, .i32⟩
  | 71 => ⟨S50000, .i32⟩
  | 72 => ⟨S50000, .i32⟩
  | 73 => ⟨S50000, .i32⟩
  | 74 => ⟨S50000x1, .i32⟩
  | 75 => ⟨S50000x16, .f32⟩
  | 76 => ⟨S50000x1, .f32⟩
  | 77 => ⟨S50000, .f32⟩
  | 78 => ⟨S50000, .i32⟩
  | 79 => ⟨S_, .i32⟩
  | 80 => ⟨S50000, .i32⟩
  | 81 => ⟨S50000, .i1⟩
  | 82 => ⟨S_, .i32⟩
  | 83 => ⟨S50000, .i32⟩
  | 84 => ⟨S50000, .i32⟩
  | 85 => ⟨S50000, .i32⟩
  | 86 => ⟨S50000x1, .i32⟩
  | 87 => ⟨S50000x16, .f32⟩
  | 88 => ⟨S50000x2, .f32⟩
  | 89 => ⟨S50000x3, .f32⟩
  | 90 => ⟨S50000x85, .f32⟩
  | 91 => ⟨S100000x85, .f32⟩
  | 92 => ⟨S1x1000000, .i32⟩
  | 93 => ⟨S1000000, .i32⟩
  | 94 => ⟨S1x1000000, .i32⟩
  | 95 => ⟨S1000000, .i32⟩
  | 96 => ⟨S_, .f32⟩
  | 97 => ⟨S1000000, .f32⟩
  | 98 => ⟨S_, .f32⟩
  | 99 => ⟨S100000, .f32⟩
  | 100 => ⟨S1000000x1, .i32⟩
  | 101 => ⟨S100000, .f32⟩
  | 102 => ⟨S_, .f32⟩
  | 103 => ⟨S100000, .f32⟩
  | 104 => ⟨S100000, .i1⟩
  | 105 => ⟨S_, .f32⟩
  | 106 => ⟨S100000, .f32⟩
  | 107 => ⟨S100000, .f32⟩
  | 108 => ⟨S100000, .f32⟩
  | 109 => ⟨S_, .f32⟩
  | 110 => ⟨S_, .f32⟩
  | 111 => ⟨S100000, .f32⟩
  | 112 => ⟨S100000, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i32⟩
  | _ => ⟨S50000, .i32⟩

abbrev hbmTy0_1 (i : Nat) : BufTy := match i % 128 with
  | 0 => ⟨S1000000, .i32⟩
  | 1 => ⟨S1000000x1, .i32⟩
  | 2 => ⟨S1000000, .f32⟩
  | 3 => ⟨S1000000, .f32⟩
  | 4 => ⟨S_, .f32⟩
  | 5 => ⟨S100000, .f32⟩
  | 6 => ⟨S1000000x1, .i32⟩
  | 7 => ⟨S100000, .f32⟩
  | 8 => ⟨S_, .f32⟩
  | 9 => ⟨S100000, .f32⟩
  | 10 => ⟨S100000, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000x64, .f32⟩
  | 20 => ⟨S_, .f32⟩
  | 21 => ⟨S100000x64, .f32⟩
  | 22 => ⟨S1000000x1, .i32⟩
  | 23 => ⟨S100000x64, .f32⟩
  | 24 => ⟨S100000x1, .f32⟩
  | 25 => ⟨S100000x64, .f32⟩
  | 26 => ⟨S100000x64, .f32⟩
  | 27 => ⟨S_, .f32⟩
  | 28 => ⟨S100000x128, .f32⟩
  | 29 => ⟨S1x85x128, .f32⟩
  | 30 => ⟨S85x128, .f32⟩
  | 31 => ⟨S100000x128, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x128, .f32⟩
  | 41 => ⟨S1000000x1, .f32⟩
  | 42 => ⟨S1000000x128, .f32⟩
  | 43 => ⟨S1000000x128, .f32⟩
  | 44 => ⟨S_, .f32⟩
  | 45 => ⟨S100000x128, .f32⟩
  | 46 => ⟨S1000000x1, .i32⟩
  | 47 => ⟨S100000x128, .f32⟩
  | 48 => ⟨S1x128, .f32⟩
  | 49 => ⟨S128, .f32⟩
  | 50 => ⟨S1x128, .f32⟩
  | 51 => ⟨S100000x128, .f32⟩
  | 52 => ⟨S100000x128, .f32⟩
  | 53 => ⟨S1x64x128, .f32⟩
  | 54 => ⟨S64x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S1x85x128, .f32⟩
  | 62 => ⟨S85x128, .f32⟩
  | 63 => ⟨S100000x128, .f32⟩
  | 64 => ⟨S100000x128, .f32⟩
  | 65 => ⟨S100000x128, .f32⟩
  | 66 => ⟨S_, .f32⟩
  | 67 => ⟨S_, .f32⟩
  | 68 => ⟨S100000x128, .f32⟩
  | 69 => ⟨S100000x128, .i1⟩
  | 70 => ⟨S_, .f32⟩
  | 71 => ⟨S100000x128, .f32⟩
  | 72 => ⟨S100000x128, .f32⟩
  | 73 => ⟨S100000x128, .f32⟩
  | 74 => ⟨S100000x128, .f32⟩
  | 75 => ⟨S1x85x128, .f32⟩
  | 76 => ⟨S85x128, .f32⟩
  | 77 => ⟨S100000x128, .f32⟩
  | 78 => ⟨S_, .i32⟩
  | 79 => ⟨S1000000, .i32⟩
  | 80 => ⟨S1000000, .i1⟩
  | 81 => ⟨S_, .i32⟩
  | 82 => ⟨S1000000, .i32⟩
  | 83 => ⟨S1000000, .i32⟩
  | 84 => ⟨S1000000, .i32⟩
  | 85 => ⟨S1000000x1, .i32⟩
  | 86 => ⟨S1000000x128, .f32⟩
  | 87 => ⟨S1000000x1, .f32⟩
  | 88 => ⟨S1000000x128, .f32⟩
  | 89 => ⟨S1000000x128, .f32⟩
  | 90 => ⟨S_, .f32⟩
  | 91 => ⟨S100000x128, .f32⟩
  | 92 => ⟨S1000000x1, .i32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S1x64x128, .f32⟩
  | 100 => ⟨S64x128, .f32⟩
  | 101 => ⟨S100000x128, .f32⟩
  | 102 => ⟨S1x128, .f32⟩
  | 103 => ⟨S128, .f32⟩
  | 104 => ⟨S1x128, .f32⟩
  | 105 => ⟨S100000x128, .f32⟩
  | 106 => ⟨S100000x128, .f32⟩
  | 107 => ⟨S1x85x128, .f32⟩
  | 108 => ⟨S85x128, .f32⟩
  | 109 => ⟨S100000x128, .f32⟩
  | 110 => ⟨S100000x128, .f32⟩
  | 111 => ⟨S100000x128, .f32⟩
  | 112 => ⟨S_, .f32⟩
  | 113 => ⟨S_, .f32⟩
  | 114 => ⟨S100000x128, .f32⟩
  | 115 => ⟨S100000x128, .i1⟩
  | 116 => ⟨S_, .f32⟩
  | 117 => ⟨S100000x128, .f32⟩
  | 118 => ⟨S100000x128, .f32⟩
  | 119 => ⟨S100000x128, .f32⟩
  | 120 => ⟨S100000x128, .f32⟩
  | 121 => ⟨S_, .f32⟩
  | 122 => ⟨S128, .f32⟩
  | 123 => ⟨S_, .f32⟩
  | 124 => ⟨S128, .f32⟩
  | 125 => ⟨S128, .f32⟩
  | 126 => ⟨S1x128, .f32⟩
  | 127 => ⟨S100000x128, .f32⟩
  | _ => ⟨S50000, .i32⟩

abbrev hbmTy0_2 (i : Nat) : BufTy := match i % 128 with
  | 0 => ⟨S100000x128, .f32⟩
  | 1 => ⟨S100000x128, .f32⟩
  | 2 => ⟨S_, .f32⟩
  | 3 => ⟨S128, .f32⟩
  | 4 => ⟨S_, .f32⟩
  | 5 => ⟨S128, .f32⟩
  | 6 => ⟨S128, .f32⟩
  | 7 => ⟨S1x128, .f32⟩
  | 8 => ⟨S100000x128, .f32⟩
  | 9 => ⟨S100000x128, .f32⟩
  | 10 => ⟨S_, .f32⟩
  | 11 => ⟨S128, .f32⟩
  | 12 => ⟨S128, .f32⟩
  | 13 => ⟨S128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_1 : Ref sig .tc := ⟨.hbm, 31, rfl⟩
abbrev main_v10 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_call0_v0 : Ref sig .tc := ⟨.hbm, 110, rfl⟩
abbrev main_call0_v1 : Ref sig .tc := ⟨.hbm, 111, rfl⟩
abbrev main_v74 : Ref sig .tc := ⟨.hbm, 112, rfl⟩
abbrev main_c_15 : Ref sig .tc := ⟨.hbm, 113, rfl⟩
abbrev main_v75 : Ref sig .tc := ⟨.hbm, 114, rfl⟩
abbrev main_v76 : Ref sig .tc := ⟨.hbm, 115, rfl⟩
abbrev main_c_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_17 : Ref sig .tc := ⟨.hbm, 122, rfl⟩
abbrev main_v82 : Ref sig .tc := ⟨.hbm, 123, rfl⟩
abbrev main_v83 : Ref sig .tc := ⟨.hbm, 124, rfl⟩
abbrev main_c_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_19 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_c_21 : Ref sig .tc := ⟨.hbm, 139, rfl⟩
abbrev main_v95 : Ref sig .tc := ⟨.hbm, 140, rfl⟩
abbrev main_v96 : Ref sig .tc := ⟨.hbm, 141, rfl⟩
abbrev main_c_22 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_24 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_25 : Ref sig .tc := ⟨.hbm, 160, rfl⟩
abbrev main_v112 : Ref sig .tc := ⟨.hbm, 161, rfl⟩
abbrev main_v113 : Ref sig .tc := ⟨.hbm, 162, rfl⟩
abbrev main_c_26 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_27 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_28 : Ref sig .tc := ⟨.hbm, 194, rfl⟩
abbrev main_call1_cst : Ref sig .tc := ⟨.hbm, 195, rfl⟩
abbrev main_call1_v0 : Ref sig .tc := ⟨.hbm, 196, rfl⟩
abbrev main_call1_v1 : Ref sig .tc := ⟨.hbm, 197, rfl⟩
abbrev main_call1_v2 : Ref sig .tc := ⟨.hbm, 198, rfl⟩
abbrev main_call1_v3 : Ref sig .tc := ⟨.hbm, 199, rfl⟩
abbrev main_call1_v4 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_c_29 : Ref sig .tc := ⟨.hbm, 206, rfl⟩
abbrev main_v148 : Ref sig .tc := ⟨.hbm, 207, rfl⟩
abbrev main_v149 : Ref sig .tc := ⟨.hbm, 208, rfl⟩
abbrev main_c_30 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_31 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_cst_32 : Ref sig .tc := ⟨.hbm, 240, rfl⟩
abbrev main_call2_cst : Ref sig .tc := ⟨.hbm, 241, rfl⟩
abbrev main_call2_v0 : Ref sig .tc := ⟨.hbm, 242, rfl⟩
abbrev main_call2_v1 : Ref sig .tc := ⟨.hbm, 243, rfl⟩
abbrev main_call2_v2 : Ref sig .tc := ⟨.hbm, 244, rfl⟩
abbrev main_call2_v3 : Ref sig .tc := ⟨.hbm, 245, rfl⟩
abbrev main_call2_v4 : Ref sig .tc := ⟨.hbm, 246, rfl⟩
abbrev main_v179 : Ref sig .tc := ⟨.hbm, 247, rfl⟩
abbrev main_v180 : Ref sig .tc := ⟨.hbm, 248, rfl⟩
abbrev main_cst_33 : Ref sig .tc := ⟨.hbm, 249, rfl⟩
abbrev main_v181 : Ref sig .tc := ⟨.hbm, 250, rfl⟩
abbrev main_cst_34 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_cst_35 : Ref sig .tc := ⟨.hbm, 258, rfl⟩
abbrev main_v188 : Ref sig .tc := ⟨.hbm, 259, rfl⟩
abbrev main_cst_36 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_v193 : Ref sig .tc := ⟨.hbm, 265, rfl⟩
abbrev main_cst_37 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S50000x10_S50000x1_0_0 : S50000x10.Slices ![0, 0] S50000x1
  shapeCasts_S50000x1_S50000 : S50000x1.ShapeCasts S50000
  slices_S50000x10_S50000x1_0_3 : S50000x10.Slices ![0, 3] S50000x1
  slices_S50000x10_S50000x1_0_7 : S50000x10.Slices ![0, 7] S50000x1
  slices_S50000x10_S50000x1_0_8 : S50000x10.Slices ![0, 8] S50000x1
  slices_S50000x10_S50000x1_0_9 : S50000x10.Slices ![0, 9] S50000x1
  slices_S50000x10_S50000x2_0_1 : S50000x10.Slices ![0, 1] S50000x2
  slices_S50000x10_S50000x3_0_4 : S50000x10.Slices ![0, 4] S50000x3
  concatenates_S50000x16_S50000x2_S50000x16_S50000x3_S50000x16_S50000x16_S50000x16_S50000x85_d1 : Shape.Concatenates [S50000x16, S50000x2, S50000x16, S50000x3, S50000x16, S50000x16, S50000x16] S50000x85 1
  concatenates_S50000x85_S50000x85_S100000x85_d0 : Shape.Concatenates [S50000x85, S50000x85] S100000x85 0
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x128 : S_.BroadcastsInDim S100000x128 (![] : Fin 0 → Fin S100000x128.rank)
  slices_S2x85x128_S1x85x128_0_0_0 : S2x85x128.Slices ![0, 0, 0] S1x85x128
  shapeCasts_S1x85x128_S85x128 : S1x85x128.ShapeCasts S85x128
  bcast_S1000000x1_S1000000x128_0_1 : S1000000x1.BroadcastsInDim S1000000x128 (![0, 1] : Fin 2 → Fin S1000000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x64x128_S1x64x128_0_0_0 : S2x64x128.Slices ![0, 0, 0] S1x64x128
  shapeCasts_S1x64x128_S64x128 : S1x64x128.ShapeCasts S64x128
  slices_S2x85x128_S1x85x128_1_0_0 : S2x85x128.Slices ![1, 0, 0] S1x85x128
  slices_S2x128_S1x128_1_0 : S2x128.Slices ![1, 0] S1x128
  slices_S2x64x128_S1x64x128_1_0_0 : S2x64x128.Slices ![1, 0, 0] S1x64x128
  reducesTo_S100000x128_S128_d0 : S100000x128.ReducesTo [0] S128
  h_S_ : 0 < S_.numel
  bcast_S_S128 : S_.BroadcastsInDim S128 (![] : Fin 0 → Fin S128.rank)
  gather_S50000x85_S50000x1_S50000x85_1_0_n_n_0_1_185_wf : GatherDims.WF S50000x85 S50000x1 S50000x85 [1] [0] [] [0] [] 1 ![1, 85]
  gather_S2x16_S50000x1_S50000x16_1_0_n_n_0_1_116_wf : GatherDims.WF S2x16 S50000x1 S50000x16 [1] [0] [] [0] [] 1 ![1, 16]
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x85_S85x128_S100000x128_1_0_0_1_n_n_wf : DotDims.WF S100000x85 S85x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x64_S64x128_S100000x128_1_0_0_1_n_n_wf : DotDims.WF S100000x64 S64x128 S100000x128 [1] [0] [0] [1] [] []

variable [Facts₀]

def gather_S50000x85_S50000x1_S50000x85_1_0_n_n_0_1_185 : GatherDims S50000x85 S50000x1 S50000x85 where
  offsetDims := [1]
  collapsedSliceDims := [0]
  operandBatchingDims := []
  startIndicesBatchingDims := []
  startIndexMap := [0]
  indexVectorDim := 1
  sliceSizes := ![1, 85]
  wf := gather_S50000x85_S50000x1_S50000x85_1_0_n_n_0_1_185_wf
def gather_S2x16_S50000x1_S50000x16_1_0_n_n_0_1_116 : GatherDims S2x16 S50000x1 S50000x16 where
  offsetDims := [1]
  collapsedSliceDims := [0]
  operandBatchingDims := []
  startIndicesBatchingDims := []
  startIndexMap := [0]
  indexVectorDim := 1
  sliceSizes := ![1, 16]
  wf := gather_S2x16_S50000x1_S50000x16_1_0_n_n_0_1_116_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x85_S85x128_S100000x128_1_0_0_1_n_n : DotDims S100000x85 S85x128 S100000x128 where
  lhsContracting := [1]
  rhsContracting := [0]
  lhsNonContracting := [0]
  rhsNonContracting := [1]
  lhsBatch := []
  rhsBatch := []
  wf := dot_S100000x85_S85x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.RefLine.lean ====
/-
  The reference program's @main read as ONE straight line of host operations.

  @main is printed in five windows; each window is the line of its own operations, and a called function's
  operations stand at its call site, over that call's buffers:
    where c x a      = select c x (broadcast a)                       (the scalar a converted to its own type first);
    leaky_relu x a   = select (x ≥ broadcast 0) x (broadcast a · x)   (the select being a call of its own).
  A straight line terminates, faults nowhere, and leaves in every buffer the fold of its operations' results over the
  launch contents; a buffer no operation writes keeps its launch contents.
-/
import proofs.«159553_j62680752718518_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The singleton of a listed reference lies in the list's image. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Window 0's operations, in order (60). -/
abbrev ops0 : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 50000#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg6 main_v5 main_v6 ((fun x i => Host.gather gather_S50000x85_S50000x1_S50000x85_1_0_n_n_0_1_185 x i) : (⟨S50000x85, .f32⟩ : BufTy).Contents (Elt F) → (⟨S50000x1, .i32⟩ : BufTy).Contents (Elt F) → (⟨S50000x85, .f32⟩ : BufTy).Contents (Elt F)),
    StableHlo.unary main_arg1 main_v7 ((extractStridedSlice S50000x1 ![0, 0] · slices_S50000x10_S50000x1_0_0) : (⟨S50000x10, .f32⟩ : BufTy).Contents (Elt F) → (⟨S50000x1, .f32⟩ : BufTy).Contents (Elt F)),
    StableHlo.reshape main_v7 main_v8 rfl shapeCasts_S50000x1_S50000,
    StableHlo.unary main_v8 main_v9 (fptosi 32 : (⟨S50000, .f32⟩ : BufTy).Contents (Elt F) → (⟨S50000, .i32⟩ : BufTy).Contents (Elt F)),
    StableHlo.nullary main_c_1 (constantI S_ 32 0#32),
    StableHlo.unary main_c_1 main_v10 (broadcastInDim S50000 ![] bcast_S_S50000 : (⟨S_, .i32⟩ : BufTy).Contents (Elt F) → (⟨S50000, .i32⟩ : BufTy).Contents (Elt F)),
    StableHlo.binary main_v9 main_v10 main_v11 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 2#32),
    StableHlo.unary main_c_2 main_v12 (broadcastInDim S50000 ![] bcast_S_S50000 : (⟨S_, .i32⟩ : BufTy).Contents (Elt F) → (⟨S50000, .i32⟩ : BufTy).Contents (Elt F)),
    StableHlo.binary main_v9 main_v12 main_v13 (addi : (⟨S50000, .i32⟩ : BufTy).Contents (Elt F) → (⟨S50000, .i32⟩ : BufTy).Contents (Elt F) → (⟨S50000, .i32⟩ : BufTy).Contents (Elt F)),
    StableHlo.ternary main_v11 main_v13 main_v9 main_v14 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v14 main_v15 (broadcastInDim S50000x1 ![0] bcast_S50000_S50000x1_0 : (⟨S50000, .i32⟩ : BufTy).Contents (Elt F) → (⟨S50000x1, .i32⟩ : BufTy).Contents (Elt F)),
    StableHlo.binary main_arg7 main_v15 main_v16 ((fun x i => Host.gather gather_S2x16_S50000x1_S50000x16_1_0_n_n_0_1_116 x i) : (⟨S2x16, .f32⟩ : BufTy).Contents (Elt F) → (⟨S50000x1, .i32⟩ : BufTy).Contents (Elt F) → (⟨S50000x16, .f32⟩ : BufTy).Contents (Elt F)),
    StableHlo.unary main_arg1 main_v17 ((extractStridedSlice S50000x1 ![0, 3] · slices_S50000x10_S50000x1_0_3) : (⟨S50000x10, .f32⟩ : BufTy).Contents (Elt F) → (⟨S50000x1, .f32⟩ : BufTy).Contents (Elt F)),
    StableHlo.reshape main_v17 main_v18 rfl shapeCasts_S50000x1_S50000,
    StableHlo.unary main_v18 main_v19 (fptosi 32 : (⟨S50000, .f32⟩ : BufTy).Contents (Elt F) → (⟨S50000, .i32⟩ : BufTy).Contents (Elt F)),
    StableHlo.nullary main_c_3 (constantI S_ 32 0#32),
    StableHlo.unary main_c_3 main_v20 (broadcastInDim S50000 ![] bcast_S_S50000 : (⟨S_, .i32⟩ : BufTy).Contents (Elt F) → (⟨S50000, .i32⟩ : BufTy).Contents (Elt F)),
    StableHlo.binary main_v19 main_v20 main_v21 (cmpi .slt : (⟨S50000, .i32⟩ : BufTy).Contents (Elt F) → (⟨S50000, .i32⟩ : BufTy).Contents (Elt F) → (⟨S50000, .i1⟩ : BufTy).Contents (Elt F)),
    StableHlo.nullary main_c_4 (constantI S_ 32 2#32),
    StableHlo.unary main_c_4 main_v22 (broadcastInDim S50000 ![] bcast_S_S50000 : (⟨S_, .i32⟩ : BufTy).Contents (Elt F) → (⟨S50000, .i32⟩ : BufTy).Contents (Elt F)),
    StableHlo.binary main_v19 main_v22 main_v23 (addi : (⟨S50000, .i32⟩ : BufTy).Contents (Elt F) → (⟨S50000, .i32⟩ : BufTy).Contents (Elt F) → (⟨S50000, .i32⟩ : BufTy).Contents (Elt F)),
    StableHlo.ternary main_v21 main_v23 main_v19 main_v24 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v24 main_v25 (broadcastInDim S50000x1 ![0] bcast_S50000_S50000x1_0 : (⟨S50000, .i32⟩ : BufTy).Contents (Elt F) → (⟨S50000x1, .i32⟩ : BufTy).Contents (Elt F)),
    StableHlo.binary main_arg8 main_v25 main_v26 ((fun x i => Host.gather gather_S2x16_S50000x1_S50000x16_1_0_n_n_0_1_116 x i) : (⟨S2x16, .f32⟩ : BufTy).Contents (Elt F) → (⟨S50000x1, .i32⟩ : BufTy).Contents (Elt F) → (⟨S50000x16, .f32⟩ : BufTy).Contents (Elt F)),
    StableHlo.unary main_arg1 main_v27 ((extractStridedSlice S50000x1 ![0, 7] · slices_S50000x10_S50000x1_0_7) : (⟨S50000x10, .f32⟩ : BufTy).Contents (Elt F) → (⟨S50000x1, .f32⟩ : BufTy).Contents (Elt F)),
    StableHlo.reshape main_v27 main_v28 rfl shapeCasts_S50000x1_S50000,
    StableHlo.unary main_v28 main_v29 (fptosi 32 : (⟨S50000, .f32⟩ : BufTy).Contents (Elt F) → (⟨S50000, .i32⟩ : BufTy).Contents (Elt F)),
    StableHlo.nullary main_c_5 (constantI S_ 32 0#32),
    StableHlo.unary main_c_5 main_v30 (broadcastInDim S50000 ![] bcast_S_S50000 : (⟨S_, .i32⟩ : BufTy).Contents (Elt F) → (⟨S50000, .i32⟩ : BufTy).Contents (Elt F)),
    StableHlo.binary main_v29 main_v30 main_v31 (cmpi .slt : (⟨S50000, .i32⟩ : BufTy).Contents (Elt F) → (⟨S50000, .i32⟩ : BufTy).Contents (Elt F) → (⟨S50000, .i1⟩ : BufTy).Contents (Elt F)),
    StableHlo.nullary main_c_6 (constantI S_ 32 2#32),
    StableHlo.unary main_c_6 main_v32 (broadcastInDim S50000 ![] bcast_S_S50000 : (⟨S_, .i32⟩ : BufTy).Contents (Elt F) → (⟨S50000, .i32⟩ : BufTy).Contents (Elt F)),
    StableHlo.binary main_v29 main_v32 main_v33 (addi : (⟨S50000, .i32⟩ : BufTy).Contents (Elt F) → (⟨S50000, .i32⟩ : BufTy).Contents (Elt F) → (⟨S50000, .i32⟩ : BufTy).Contents (Elt F)),
    StableHlo.ternary main_v31 main_v33 main_v29 main_v34 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v34 main_v35 (broadcastInDim S50000x1 ![0] bcast_S50000_S50000x1_0 : (⟨S50000, .i32⟩ : BufTy).Contents (Elt F) → (⟨S50000x1, .i32⟩ : BufTy).Contents (Elt F)),
    StableHlo.binary main_arg9 main_v35 main_v36 ((fun x i => Host.gather gather_S2x16_S50000x1_S50000x16_1_0_n_n_0_1_116 x i) : (⟨S2x16, .f32⟩ : BufTy).Contents (Elt F) → (⟨S50000x1, .i32⟩ : BufTy).Contents (Elt F) → (⟨S50000x16, .f32⟩ : BufTy).Contents (Elt F)),
    StableHlo.unary main_arg1 main_v37 ((extractStridedSlice S50000x1 ![0, 8] · slices_S50000x10_S50000x1_0_8) : (⟨S50000x10, .f32⟩ : BufTy).Contents (Elt F) → (⟨S50000x1, .f32⟩ : BufTy).Contents (Elt F)),
    StableHlo.reshape main_v37 main_v38 rfl shapeCasts_S50000x1_S50000,
    StableHlo.unary main_v38 main_v39 (fptosi 32 : (⟨S50000, .f32⟩ : BufTy).Contents (Elt F) → (⟨S50000, .i32⟩ : BufTy).Contents (Elt F)),
    StableHlo.nullary main_c_7 (constantI S_ 32 0#32),
    StableHlo.unary main_c_7 main_v40 (broadcastInDim S50000 ![] bcast_S_S50000 : (⟨S_, .i32⟩ : BufTy).Contents (Elt F) → (⟨S50000, .i32⟩ : BufTy).Contents (Elt F)),
    StableHlo.binary main_v39 main_v40 main_v41 (cmpi .slt : (⟨S50000, .i32⟩ : BufTy).Contents (Elt F) → (⟨S50000, .i32⟩ : BufTy).Contents (Elt F) → (⟨S50000, .i1⟩ : BufTy).Contents (Elt F)),
    StableHlo.nullary main_c_8 (constantI S_ 32 2#32),
    StableHlo.unary main_c_8 main_v42 (broadcastInDim S50000 ![] bcast_S_S50000 : (⟨S_, .i32⟩ : BufTy).Contents (Elt F) → (⟨S50000, .i32⟩ : BufTy).Contents (Elt F)),
    StableHlo.binary main_v39 main_v42 main_v43 (addi : (⟨S50000, .i32⟩ : BufTy).Contents (Elt F) → (⟨S50000, .i32⟩ : BufTy).Contents (Elt F) → (⟨S50000, .i32⟩ : BufTy).Contents (Elt F)),
    StableHlo.ternary main_v41 main_v43 main_v39 main_v44 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v44 main_v45 (broadcastInDim S50000x1 ![0] bcast_S50000_S50000x1_0 : (⟨S50000, .i32⟩ : BufTy).Contents (Elt F) → (⟨S50000x1, .i32⟩ : BufTy).Contents (Elt F)),
    StableHlo.binary main_arg10 main_v45 main_v46 ((fun x i => Host.gather gather_S2x16_S50000x1_S50000x16_1_0_n_n_0_1_116 x i) : (⟨S2x16, .f32⟩ : BufTy).Contents (Elt F) → (⟨S50000x1, .i32⟩ : BufTy).Contents (Elt F) → (⟨S50000x16, .f32⟩ : BufTy).Contents (Elt F)),
    StableHlo.unary main_arg1 main_v47 ((extractStridedSlice S50000x1 ![0, 9] · slices_S50000x10_S50000x1_0_9) : (⟨S50000x10, .f32⟩ : BufTy).Contents (Elt F) → (⟨S50000x1, .f32⟩ : BufTy).Contents (Elt F)),
    StableHlo.reshape main_v47 main_v48 rfl shapeCasts_S50000x1_S50000,
    StableHlo.unary main_v48 main_v49 (fptosi 32 : (⟨S50000, .f32⟩ : BufTy).Contents (Elt F) → (⟨S50000, .i32⟩ : BufTy).Contents (Elt F)) ]

set_option maxRecDepth 8192 in
/-- Window 0 of @main is the line of its operations. -/
theorem part0_eq (c : Dev nD) : main_part0 (F := F) c = seq ops0 := rfl

set_option maxRecDepth 8192 in
/-- Each operation of window 0 touches TensorCore references only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub ..⟩

/-- The references window 0 writes: each operation's result. -/
abbrev written0 : List (Ref sig .tc) :=
  [main_c, main_v0, main_v1, main_c_0, main_v2, main_v3, main_v4, main_v5, main_v6, main_v7, main_v8, main_v9, main_c_1, main_v10, main_v11, main_c_2, main_v12, main_v13, main_v14, main_v15, main_v16, main_v17, main_v18, main_v19, main_c_3, main_v20, main_v21, main_c_4, main_v22, main_v23, main_v24, main_v25, main_v26, main_v27, main_v28, main_v29, main_c_5, main_v30, main_v31, main_c_6, main_v32, main_v33, main_v34, main_v35, main_v36, main_v37, main_v38, main_v39, main_c_7, main_v40, main_v41, main_c_8, main_v42, main_v43, main_v44, main_v45, main_v46, main_v47, main_v48, main_v49]

set_option maxRecDepth 8192 in
/-- Each operation of window 0 writes its own result, a listed reference, and nothing else. -/
theorem ops0_writes : (ops0 : List (HloOp τ sig (Elt F))).Forall fun op => op.writes ⊆ (written0.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

set_option maxRecDepth 8192 in
/-- Each operation of window 0 determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 1's operations, in order (62). -/
abbrev ops1 : List (HloOp τ sig (Elt F)) :=
  [ StableHlo.nullary main_c_9 (constantI S_ 32 0#32),
    StableHlo.unary main_c_9 main_v50 (broadcastInDim S50000 ![] bcast_S_S50000 : (⟨S_, .i32⟩ : BufTy).Contents (Elt F) → (⟨S50000, .i32⟩ : BufTy).Contents (Elt F)),
    StableHlo.binary main_v49 main_v50 main_v51 (cmpi .slt : (⟨S50000, .i32⟩ : BufTy).Contents (Elt F) → (⟨S50000, .i32⟩ : BufTy).Contents (Elt F) → (⟨S50000, .i1⟩ : BufTy).Contents (Elt F)),
    StableHlo.nullary main_c_10 (constantI S_ 32 2#32),
    StableHlo.unary main_c_10 main_v52 (broadcastInDim S50000 ![] bcast_S_S50000 : (⟨S_, .i32⟩ : BufTy).Contents (Elt F) → (⟨S50000, .i32⟩ : BufTy).Contents (Elt F)),
    StableHlo.binary main_v49 main_v52 main_v53 (addi : (⟨S50000, .i32⟩ : BufTy).Contents (Elt F) → (⟨S50000, .i32⟩ : BufTy).Contents (Elt F) → (⟨S50000, .i32⟩ : BufTy).Contents (Elt F)),
    StableHlo.ternary main_v51 main_v53 main_v49 main_v54 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v54 main_v55 (broadcastInDim S50000x1 ![0] bcast_S50000_S50000x1_0 : (⟨S50000, .i32⟩ : BufTy).Contents (Elt F) → (⟨S50000x1, .i32⟩ : BufTy).Contents (Elt F)),
    StableHlo.binary main_arg11 main_v55 main_v56 ((fun x i => Host.gather gather_S2x16_S50000x1_S50000x16_1_0_n_n_0_1_116 x i) : (⟨S2x16, .f32⟩ : BufTy).Contents (Elt F) → (⟨S50000x1, .i32⟩ : BufTy).Contents (Elt F) → (⟨S50000x16, .f32⟩ : BufTy).Contents (Elt F)),
    StableHlo.unary main_arg1 main_v57 ((extractStridedSlice S50000x2 ![0, 1] · slices_S50000x10_S50000x2_0_1) : (⟨S50000x10, .f32⟩ : BufTy).Contents (Elt F) → (⟨S50000x2, .f32⟩ : BufTy).Contents (Elt F)),
    StableHlo.unary main_arg1 main_v58 ((extractStridedSlice S50000x3 ![0, 4] · slices_S50000x10_S50000x3_0_4) : (⟨S50000x10, .f32⟩ : BufTy).Contents (Elt F) → (⟨S50000x3, .f32⟩ : BufTy).Contents (Elt F)),
    StableHlo.nary ![main_v16, main_v57, main_v26, main_v58, main_v36, main_v46, main_v56] main_v59 (fun u => concatenate S50000x85 1 [⟨S50000x16, u 0⟩, ⟨S50000x2, u 1⟩, ⟨S50000x16, u 2⟩, ⟨S50000x3, u 3⟩, ⟨S50000x16, u 4⟩, ⟨S50000x16, u 5⟩, ⟨S50000x16, u 6⟩] concatenates_S50000x16_S50000x2_S50000x16_S50000x3_S50000x16_S50000x16_S50000x16_S50000x85_d1),
    StableHlo.binary main_v59 main_v6 main_v60 ((fun a b => concatenate S100000x85 0 [⟨S50000x85, a⟩, ⟨S50000x85, b⟩] concatenates_S50000x85_S50000x85_S100000x85_d0) : (⟨S50000x85, .f32⟩ : BufTy).Contents (Elt F) → (⟨S50000x85, .f32⟩ : BufTy).Contents (Elt F) → (⟨S100000x85, .f32⟩ : BufTy).Contents (Elt F)),
    StableHlo.unary main_arg3 main_v61 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v61 main_v62 rfl shapeCasts_S1x1000000_S1000000,
    StableHlo.unary main_arg3 main_v63 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v63 main_v64 rfl shapeCasts_S1x1000000_S1000000,
    StableHlo.nullary main_cst (constant S_ .f32 0x3F800000#32),
    StableHlo.unary main_cst main_v65 (broadcastInDim S1000000 ![] bcast_S_S1000000 : (⟨S_, .f32⟩ : BufTy).Contents (Elt F) → (⟨S1000000, .f32⟩ : BufTy).Contents (Elt F)),
    StableHlo.nullary main_cst_11 (constant S_ .f32 0x00000000#32),
    StableHlo.unary main_cst_11 main_v66 (broadcastInDim S100000 ![] bcast_S_S100000 : (⟨S_, .f32⟩ : BufTy).Contents (Elt F) → (⟨S100000, .f32⟩ : BufTy).Contents (Elt F)),
    StableHlo.unary main_v64 main_v67 (broadcastInDim S1000000x1 ![0] bcast_S1000000_S1000000x1_0 : (⟨S1000000, .i32⟩ : BufTy).Contents (Elt F) → (⟨S1000000x1, .i32⟩ : BufTy).Contents (Elt F)),
    StableHlo.ternary main_v66 main_v67 main_v65 main_v68 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_12 (constant S_ .f32 0x00000000#32),
    StableHlo.unary main_cst_12 main_v69 (broadcastInDim S100000 ![] bcast_S_S100000 : (⟨S_, .f32⟩ : BufTy).Contents (Elt F) → (⟨S100000, .f32⟩ : BufTy).Contents (Elt F)),
    StableHlo.binary main_v68 main_v69 main_v70 (cmpf .ogt : (⟨S100000, .f32⟩ : BufTy).Contents (Elt F) → (⟨S100000, .f32⟩ : BufTy).Contents (Elt F) → (⟨S100000, .i1⟩ : BufTy).Contents (Elt F)),
    StableHlo.nullary main_cst_13 (constant S_ .f32 0x3F800000#32),
    StableHlo.unary main_cst_13 main_v71 (broadcastInDim S100000 ![] bcast_S_S100000 : (⟨S_, .f32⟩ : BufTy).Contents (Elt F) → (⟨S100000, .f32⟩ : BufTy).Contents (Elt F)),
    StableHlo.binary main_v68 main_v71 main_v72 (maximumf : (⟨S100000, .f32⟩ : BufTy).Contents (Elt F) → (⟨S100000, .f32⟩ : BufTy).Contents (Elt F) → (⟨S100000, .f32⟩ : BufTy).Contents (Elt F)),
    StableHlo.unary main_v72 main_v73 (Host.rsqrt : (⟨S100000, .f32⟩ : BufTy).Contents (Elt F) → (⟨S100000, .f32⟩ : BufTy).Contents (Elt F)),
    StableHlo.nullary main_cst_14 (constant S_ .f32 0x00000000#32),
    StableHlo.TRef.unary (.of main_cst_14 : StableHlo.TRef sig ⟨S_, .f32⟩) main_call0.v0 id,
    StableHlo.TRef.unary main_call0.v0 main_call0.v1 (broadcastInDim S100000 ![] bcast_S_S100000),
    StableHlo.TRef.ternary (.of main_v70 : StableHlo.TRef sig ⟨S100000, .i1⟩) (.of main_v73 : StableHlo.TRef sig ⟨S100000, .f32⟩) main_call0.v1 main_call0.v2 select,
    StableHlo.nullary main_c_15 (constantI S_ 32 0#32),
    StableHlo.unary main_c_15 main_v75 (broadcastInDim S1000000 ![] bcast_S_S1000000 : (⟨S_, .i32⟩ : BufTy).Contents (Elt F) → (⟨S1000000, .i32⟩ : BufTy).Contents (Elt F)),
    StableHlo.binary main_v62 main_v75 main_v76 (cmpi .slt : (⟨S1000000, .i32⟩ : BufTy).Contents (Elt F) → (⟨S1000000, .i32⟩ : BufTy).Contents (Elt F) → (⟨S1000000, .i1⟩ : BufTy).Contents (Elt F)),
    StableHlo.nullary main_c_16 (constantI S_ 32 100000#32),
    StableHlo.unary main_c_16 main_v77 (broadcastInDim S1000000 ![] bcast_S_S1000000 : (⟨S_, .i32⟩ : BufTy).Contents (Elt F) → (⟨S1000000, .i32⟩ : BufTy).Contents (Elt F)),
    StableHlo.binary main_v62 main_v77 main_v78 (addi : (⟨S1000000, .i32⟩ : BufTy).Contents (Elt F) → (⟨S1000000, .i32⟩ : BufTy).Contents (Elt F) → (⟨S1000000, .i32⟩ : BufTy).Contents (Elt F)),
    StableHlo.ternary main_v76 main_v78 main_v62 main_v79 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v79 main_v80 (broadcastInDim S1000000x1 ![0] bcast_S1000000_S1000000x1_0 : (⟨S1000000, .i32⟩ : BufTy).Contents (Elt F) → (⟨S1000000x1, .i32⟩ : BufTy).Contents (Elt F)),
    StableHlo.binary main_v74 main_v80 main_v81 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.nullary main_c_17 (constantI S_ 32 0#32),
    StableHlo.unary main_c_17 main_v82 (broadcastInDim S1000000 ![] bcast_S_S1000000 : (⟨S_, .i32⟩ : BufTy).Contents (Elt F) → (⟨S1000000, .i32⟩ : BufTy).Contents (Elt F)),
    StableHlo.binary main_v64 main_v82 main_v83 (cmpi .slt : (⟨S1000000, .i32⟩ : BufTy).Contents (Elt F) → (⟨S1000000, .i32⟩ : BufTy).Contents (Elt F) → (⟨S1000000, .i1⟩ : BufTy).Contents (Elt F)),
    StableHlo.nullary main_c_18 (constantI S_ 32 100000#32),
    StableHlo.unary main_c_18 main_v84 (broadcastInDim S1000000 ![] bcast_S_S1000000 : (⟨S_, .i32⟩ : BufTy).Contents (Elt F) → (⟨S1000000, .i32⟩ : BufTy).Contents (Elt F)),
    StableHlo.binary main_v64 main_v84 main_v85 (addi : (⟨S1000000, .i32⟩ : BufTy).Contents (Elt F) → (⟨S1000000, .i32⟩ : BufTy).Contents (Elt F) → (⟨S1000000, .i32⟩ : BufTy).Contents (Elt F)),
    StableHlo.ternary main_v83 main_v85 main_v64 main_v86 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v86 main_v87 (broadcastInDim S1000000x1 ![0] bcast_S1000000_S1000000x1_0 : (⟨S1000000, .i32⟩ : BufTy).Contents (Elt F) → (⟨S1000000x1, .i32⟩ : BufTy).Contents (Elt F)),
    StableHlo.binary main_v74 main_v87 main_v88 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    StableHlo.binary main_v81 main_v88 main_v89 (mulf : (⟨S1000000, .f32⟩ : BufTy).Contents (Elt F) → (⟨S1000000, .f32⟩ : BufTy).Contents (Elt F) → (⟨S1000000, .f32⟩ : BufTy).Contents (Elt F)),
    StableHlo.nullary main_cst_19 (constant S_ .f32 0x00000000#32),
    StableHlo.unary main_cst_19 main_v90 (broadcastInDim S100000 ![] bcast_S_S100000 : (⟨S_, .f32⟩ : BufTy).Contents (Elt F) → (⟨S100000, .f32⟩ : BufTy).Contents (Elt F)),
    StableHlo.unary main_arg5 main_v91 (broadcastInDim S1000000x1 ![0] bcast_S1000000_S1000000x1_0 : (⟨S1000000, .i32⟩ : BufTy).Contents (Elt F) → (⟨S1000000x1, .i32⟩ : BufTy).Contents (Elt F)),
    StableHlo.ternary main_v90 main_v91 main_v65 main_v92 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_20 (constant S_ .f32 0x3F800000#32),
    StableHlo.unary main_cst_20 main_v93 (broadcastInDim S100000 ![] bcast_S_S100000 : (⟨S_, .f32⟩ : BufTy).Contents (Elt F) → (⟨S100000, .f32⟩ : BufTy).Contents (Elt F)),
    StableHlo.binary main_v92 main_v93 main_v94 (maximumf : (⟨S100000, .f32⟩ : BufTy).Contents (Elt F) → (⟨S100000, .f32⟩ : BufTy).Contents (Elt F) → (⟨S100000, .f32⟩ : BufTy).Contents (Elt F)),
    StableHlo.nullary main_c_21 (constantI S_ 32 0#32),
    StableHlo.unary main_c_21 main_v95 (broadcastInDim S1000000 ![] bcast_S_S1000000 : (⟨S_, .i32⟩ : BufTy).Contents (Elt F) → (⟨S1000000, .i32⟩ : BufTy).Contents (Elt F)) ]

set_option maxRecDepth 8192 in
/-- Window 1 of @main is the line of its operations. -/
theorem part1_eq (c : Dev nD) : main_part1 (F := F) c = seq ops1 := rfl

set_option maxRecDepth 8192 in
/-- Each operation of window 1 touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., nary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub ..⟩

/-- The references window 1 writes: each operation's result. -/
abbrev written1 : List (Ref sig .tc) :=
  [main_c_9, main_v50, main_v51, main_c_10, main_v52, main_v53, main_v54, main_v55, main_v56, main_v57, main_v58, main_v59, main_v60, main_v61, main_v62, main_v63, main_v64, main_cst, main_v65, main_cst_11, main_v66, main_v67, main_v68, main_cst_12, main_v69, main_v70, main_cst_13, main_v71, main_v72, main_v73, main_cst_14, main_call0_v0, main_call0_v1, main_v74, main_c_15, main_v75, main_v76, main_c_16, main_v77, main_v78, main_v79, main_v80, main_v81, main_c_17, main_v82, main_v83, main_c_18, main_v84, main_v85, main_v86, main_v87, main_v88, main_v89, main_cst_19, main_v90, main_v91, main_v92, main_cst_20, main_v93, main_v94, main_c_21, main_v95]

set_option maxRecDepth 8192 in
/-- Each operation of window 1 writes its own result, a listed reference, and nothing else. -/
theorem ops1_writes : (ops1 : List (HloOp τ sig (Elt F))).Forall fun op => op.writes ⊆ (written1.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

set_option maxRecDepth 8192 in
/-- Each operation of window 1 determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 2's operations, in order (66). -/
abbrev ops2 : List (HloOp τ sig (Elt F)) :=
  [ StableHlo.binary main_arg4 main_v95 main_v96 (cmpi .slt : (⟨S1000000, .i32⟩ : BufTy).Contents (Elt F) → (⟨S1000000, .i32⟩ : BufTy).Contents (Elt F) → (⟨S1000000, .i1⟩ : BufTy).Contents (Elt F)),
    StableHlo.nullary main_c_22 (constantI S_ 32 200000#32),
    StableHlo.unary main_c_22 main_v97 (broadcastInDim S1000000 ![] bcast_S_S1000000 : (⟨S_, .i32⟩ : BufTy).Contents (Elt F) → (⟨S1000000, .i32⟩ : BufTy).Contents (Elt F)),
    StableHlo.binary main_arg4 main_v97 main_v98 (addi : (⟨S1000000, .i32⟩ : BufTy).Contents (Elt F) → (⟨S1000000, .i32⟩ : BufTy).Contents (Elt F) → (⟨S1000000, .i32⟩ : BufTy).Contents (Elt F)),
    StableHlo.ternary main_v96 main_v98 main_arg4 main_v99 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v99 main_v100 (broadcastInDim S1000000x1 ![0] bcast_S1000000_S1000000x1_0 : (⟨S1000000, .i32⟩ : BufTy).Contents (Elt F) → (⟨S1000000x1, .i32⟩ : BufTy).Contents (Elt F)),
    StableHlo.binary main_arg2 main_v100 main_v101 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    StableHlo.nullary main_cst_23 (constant S_ .f32 0x00000000#32),
    StableHlo.unary main_cst_23 main_v102 (broadcastInDim S100000x64 ![] bcast_S_S100000x64 : (⟨S_, .f32⟩ : BufTy).Contents (Elt F) → (⟨S100000x64, .f32⟩ : BufTy).Contents (Elt F)),
    StableHlo.unary main_arg5 main_v103 (broadcastInDim S1000000x1 ![0] bcast_S1000000_S1000000x1_0 : (⟨S1000000, .i32⟩ : BufTy).Contents (Elt F) → (⟨S1000000x1, .i32⟩ : BufTy).Contents (Elt F)),
    StableHlo.ternary main_v102 main_v103 main_v101 main_v104 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v94 main_v105 (broadcastInDim S100000x1 ![0] bcast_S100000_S100000x1_0 : (⟨S100000, .f32⟩ : BufTy).Contents (Elt F) → (⟨S100000x1, .f32⟩ : BufTy).Contents (Elt F)),
    StableHlo.unary main_v105 main_v106 (broadcastInDim S100000x64 ![0, 1] bcast_S100000x1_S100000x64_0_1 : (⟨S100000x1, .f32⟩ : BufTy).Contents (Elt F) → (⟨S100000x64, .f32⟩ : BufTy).Contents (Elt F)),
    StableHlo.binary main_v104 main_v106 main_v107 (Host.divf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x00000000#32),
    StableHlo.unary main_cst_24 main_v108 (broadcastInDim S100000x128 ![] bcast_S_S100000x128 : (⟨S_, .f32⟩ : BufTy).Contents (Elt F) → (⟨S100000x128, .f32⟩ : BufTy).Contents (Elt F)),
    StableHlo.unary main_arg12 main_v109 ((extractStridedSlice S1x85x128 ![0, 0, 0] · slices_S2x85x128_S1x85x128_0_0_0) : (⟨S2x85x128, .f32⟩ : BufTy).Contents (Elt F) → (⟨S1x85x128, .f32⟩ : BufTy).Contents (Elt F)),
    StableHlo.reshape main_v109 main_v110 rfl shapeCasts_S1x85x128_S85x128,
    StableHlo.binary main_v60 main_v110 main_v111 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.nullary main_c_25 (constantI S_ 32 0#32),
    StableHlo.unary main_c_25 main_v112 (broadcastInDim S1000000 ![] bcast_S_S1000000 : (⟨S_, .i32⟩ : BufTy).Contents (Elt F) → (⟨S1000000, .i32⟩ : BufTy).Contents (Elt F)),
    StableHlo.binary main_v62 main_v112 main_v113 (cmpi .slt : (⟨S1000000, .i32⟩ : BufTy).Contents (Elt F) → (⟨S1000000, .i32⟩ : BufTy).Contents (Elt F) → (⟨S1000000, .i1⟩ : BufTy).Contents (Elt F)),
    StableHlo.nullary main_c_26 (constantI S_ 32 100000#32),
    StableHlo.unary main_c_26 main_v114 (broadcastInDim S1000000 ![] bcast_S_S1000000 : (⟨S_, .i32⟩ : BufTy).Contents (Elt F) → (⟨S1000000, .i32⟩ : BufTy).Contents (Elt F)),
    StableHlo.binary main_v62 main_v114 main_v115 (addi : (⟨S1000000, .i32⟩ : BufTy).Contents (Elt F) → (⟨S1000000, .i32⟩ : BufTy).Contents (Elt F) → (⟨S1000000, .i32⟩ : BufTy).Contents (Elt F)),
    StableHlo.ternary main_v113 main_v115 main_v62 main_v116 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v116 main_v117 (broadcastInDim S1000000x1 ![0] bcast_S1000000_S1000000x1_0 : (⟨S1000000, .i32⟩ : BufTy).Contents (Elt F) → (⟨S1000000x1, .i32⟩ : BufTy).Contents (Elt F)),
    StableHlo.binary main_v111 main_v117 main_v118 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_v89 main_v119 (broadcastInDim S1000000x1 ![0] bcast_S1000000_S1000000x1_0 : (⟨S1000000, .f32⟩ : BufTy).Contents (Elt F) → (⟨S1000000x1, .f32⟩ : BufTy).Contents (Elt F)),
    StableHlo.unary main_v119 main_v120 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v118 main_v120 main_v121 (mulf : (⟨S1000000x128, .f32⟩ : BufTy).Contents (Elt F) → (⟨S1000000x128, .f32⟩ : BufTy).Contents (Elt F) → (⟨S1000000x128, .f32⟩ : BufTy).Contents (Elt F)),
    StableHlo.nullary main_cst_27 (constant S_ .f32 0x00000000#32),
    StableHlo.unary main_cst_27 main_v122 (broadcastInDim S100000x128 ![] bcast_S_S100000x128 : (⟨S_, .f32⟩ : BufTy).Contents (Elt F) → (⟨S100000x128, .f32⟩ : BufTy).Contents (Elt F)),
    StableHlo.unary main_v64 main_v123 (broadcastInDim S1000000x1 ![0] bcast_S1000000_S1000000x1_0 : (⟨S1000000, .i32⟩ : BufTy).Contents (Elt F) → (⟨S1000000x1, .i32⟩ : BufTy).Contents (Elt F)),
    StableHlo.ternary main_v122 main_v123 main_v121 main_v124 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.unary main_arg13 main_v125 ((extractStridedSlice S1x128 ![0, 0] · slices_S2x128_S1x128_0_0) : (⟨S2x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v128 main_v129 (addf : (⟨S100000x128, .f32⟩ : BufTy).Contents (Elt F) → (⟨S100000x128, .f32⟩ : BufTy).Contents (Elt F) → (⟨S100000x128, .f32⟩ : BufTy).Contents (Elt F)),
    StableHlo.unary main_arg14 main_v130 ((extractStridedSlice S1x64x128 ![0, 0, 0] · slices_S2x64x128_S1x64x128_0_0_0) : (⟨S2x64x128, .f32⟩ : BufTy).Contents (Elt F) → (⟨S1x64x128, .f32⟩ : BufTy).Contents (Elt F)),
    StableHlo.reshape main_v130 main_v131 rfl shapeCasts_S1x64x128_S64x128,
    StableHlo.binary main_v107 main_v131 main_v132 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg15 main_v133 ((extractStridedSlice S1x128 ![0, 0] · slices_S2x128_S1x128_0_0) : (⟨S2x128, .f32⟩ : BufTy).Contents (Elt F) → (⟨S1x128, .f32⟩ : BufTy).Contents (Elt F)),
    StableHlo.reshape main_v133 main_v134 rfl shapeCasts_S1x128_S128,
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v136 main_v137 (addf : (⟨S100000x128, .f32⟩ : BufTy).Contents (Elt F) → (⟨S100000x128, .f32⟩ : BufTy).Contents (Elt F) → (⟨S100000x128, .f32⟩ : BufTy).Contents (Elt F)),
    StableHlo.unary main_arg16 main_v138 ((extractStridedSlice S1x85x128 ![0, 0, 0] · slices_S2x85x128_S1x85x128_0_0_0) : (⟨S2x85x128, .f32⟩ : BufTy).Contents (Elt F) → (⟨S1x85x128, .f32⟩ : BufTy).Contents (Elt F)),
    StableHlo.reshape main_v138 main_v139 rfl shapeCasts_S1x85x128_S85x128,
    StableHlo.binary main_v60 main_v139 main_v140 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.binary main_v137 main_v140 main_v141 (addf : (⟨S100000x128, .f32⟩ : BufTy).Contents (Elt F) → (⟨S100000x128, .f32⟩ : BufTy).Contents (Elt F) → (⟨S100000x128, .f32⟩ : BufTy).Contents (Elt F)),
    StableHlo.binary main_v129 main_v141 main_v142 (addf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3E99999A#32),
    StableHlo.TRef.nullary main_call1.cst (constant S_ .f32 0x00000000#32),
    StableHlo.TRef.unary main_call1.cst main_call1.v0 (broadcastInDim S100000x128 ![] bcast_S_S100000x128),
    StableHlo.TRef.binary (.of main_v142 : StableHlo.TRef sig ⟨S100000x128, .f32⟩) main_call1.v0 main_call1.v1 (cmpf .oge),
    StableHlo.TRef.unary (.of main_cst_28 : StableHlo.TRef sig ⟨S_, .f32⟩) main_call1.v2 id,
    StableHlo.TRef.unary main_call1.v2 main_call1.v3 (broadcastInDim S100000x128 ![] bcast_S_S100000x128),
    StableHlo.TRef.binary main_call1.v3 (.of main_v142 : StableHlo.TRef sig ⟨S100000x128, .f32⟩) main_call1.v4 mulf,
    StableHlo.TRef.ternary main_call1.v1 (.of main_v142 : StableHlo.TRef sig ⟨S100000x128, .f32⟩) main_call1.v4 main_call1.call0.v0 select,
    StableHlo.binary main_v108 main_v143 main_v144 (addf : (⟨S100000x128, .f32⟩ : BufTy).Contents (Elt F) → (⟨S100000x128, .f32⟩ : BufTy).Contents (Elt F) → (⟨S100000x128, .f32⟩ : BufTy).Contents (Elt F)),
    StableHlo.unary main_arg12 main_v145 ((extractStridedSlice S1x85x128 ![1, 0, 0] · slices_S2x85x128_S1x85x128_1_0_0) : (⟨S2x85x128, .f32⟩ : BufTy).Contents (Elt F) → (⟨S1x85x128, .f32⟩ : BufTy).Contents (Elt F)),
    StableHlo.reshape main_v145 main_v146 rfl shapeCasts_S1x85x128_S85x128,
    StableHlo.binary main_v60 main_v146 main_v147 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.nullary main_c_29 (constantI S_ 32 0#32) ]

set_option maxRecDepth 8192 in
/-- Window 2 of @main is the line of its operations. -/
theorem part2_eq (c : Dev nD) : main_part2 (F := F) c = seq ops2 := rfl

set_option maxRecDepth 8192 in
/-- Each operation of window 2 touches TensorCore references only. -/
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., reshape_bufs_sub .., binary_bufs_sub .., nullary_bufs_sub ..⟩

/-- The references window 2 writes: each operation's result. -/
abbrev written2 : List (Ref sig .tc) :=
  [main_v96, main_c_22, main_v97, main_v98, main_v99, main_v100, main_v101, main_cst_23, main_v102, main_v103, main_v104, main_v105, main_v106, main_v107, main_cst_24, main_v108, main_v109, main_v110, main_v111, main_c_25, main_v112, main_v113, main_c_26, main_v114, main_v115, main_v116, main_v117, main_v118, main_v119, main_v120, main_v121, main_cst_27, main_v122, main_v123, main_v124, main_v125, main_v126, main_v127, main_v128, main_v129, main_v130, main_v131, main_v132, main_v133, main_v134, main_v135, main_v136, main_v137, main_v138, main_v139, main_v140, main_v141, main_v142, main_cst_28, main_call1_cst, main_call1_v0, main_call1_v1, main_call1_v2, main_call1_v3, main_call1_v4, main_v143, main_v144, main_v145, main_v146, main_v147, main_c_29]

set_option maxRecDepth 8192 in
/-- Each operation of window 2 writes its own result, a listed reference, and nothing else. -/
theorem ops2_writes : (ops2 : List (HloOp τ sig (Elt F))).Forall fun op => op.writes ⊆ (written2.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

set_option maxRecDepth 8192 in
/-- Each operation of window 2 determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 3's operations, in order (66). -/
abbrev ops3 : List (HloOp τ sig (Elt F)) :=
  [ StableHlo.unary main_c_29 main_v148 (broadcastInDim S1000000 ![] bcast_S_S1000000 : (⟨S_, .i32⟩ : BufTy).Contents (Elt F) → (⟨S1000000, .i32⟩ : BufTy).Contents (Elt F)),
    StableHlo.binary main_v62 main_v148 main_v149 (cmpi .slt : (⟨S1000000, .i32⟩ : BufTy).Contents (Elt F) → (⟨S1000000, .i32⟩ : BufTy).Contents (Elt F) → (⟨S1000000, .i1⟩ : BufTy).Contents (Elt F)),
    StableHlo.nullary main_c_30 (constantI S_ 32 100000#32),
    StableHlo.unary main_c_30 main_v150 (broadcastInDim S1000000 ![] bcast_S_S1000000 : (⟨S_, .i32⟩ : BufTy).Contents (Elt F) → (⟨S1000000, .i32⟩ : BufTy).Contents (Elt F)),
    StableHlo.binary main_v62 main_v150 main_v151 (addi : (⟨S1000000, .i32⟩ : BufTy).Contents (Elt F) → (⟨S1000000, .i32⟩ : BufTy).Contents (Elt F) → (⟨S1000000, .i32⟩ : BufTy).Contents (Elt F)),
    StableHlo.ternary main_v149 main_v151 main_v62 main_v152 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v152 main_v153 (broadcastInDim S1000000x1 ![0] bcast_S1000000_S1000000x1_0 : (⟨S1000000, .i32⟩ : BufTy).Contents (Elt F) → (⟨S1000000x1, .i32⟩ : BufTy).Contents (Elt F)),
    StableHlo.binary main_v147 main_v153 main_v154 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_v89 main_v155 (broadcastInDim S1000000x1 ![0] bcast_S1000000_S1000000x1_0 : (⟨S1000000, .f32⟩ : BufTy).Contents (Elt F) → (⟨S1000000x1, .f32⟩ : BufTy).Contents (Elt F)),
    StableHlo.unary main_v155 main_v156 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v154 main_v156 main_v157 (mulf : (⟨S1000000x128, .f32⟩ : BufTy).Contents (Elt F) → (⟨S1000000x128, .f32⟩ : BufTy).Contents (Elt F) → (⟨S1000000x128, .f32⟩ : BufTy).Contents (Elt F)),
    StableHlo.nullary main_cst_31 (constant S_ .f32 0x00000000#32),
    StableHlo.unary main_cst_31 main_v158 (broadcastInDim S100000x128 ![] bcast_S_S100000x128 : (⟨S_, .f32⟩ : BufTy).Contents (Elt F) → (⟨S100000x128, .f32⟩ : BufTy).Contents (Elt F)),
    StableHlo.unary main_v64 main_v159 (broadcastInDim S1000000x1 ![0] bcast_S1000000_S1000000x1_0 : (⟨S1000000, .i32⟩ : BufTy).Contents (Elt F) → (⟨S1000000x1, .i32⟩ : BufTy).Contents (Elt F)),
    StableHlo.ternary main_v158 main_v159 main_v157 main_v160 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.unary main_arg13 main_v161 ((extractStridedSlice S1x128 ![1, 0] · slices_S2x128_S1x128_1_0) : (⟨S2x128, .f32⟩ : BufTy).Contents (Elt F) → (⟨S1x128, .f32⟩ : BufTy).Contents (Elt F)),
    StableHlo.reshape main_v161 main_v162 rfl shapeCasts_S1x128_S128,
    StableHlo.unary main_v162 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v160 main_v164 main_v165 (addf : (⟨S100000x128, .f32⟩ : BufTy).Contents (Elt F) → (⟨S100000x128, .f32⟩ : BufTy).Contents (Elt F) → (⟨S100000x128, .f32⟩ : BufTy).Contents (Elt F)),
    StableHlo.unary main_arg14 main_v166 ((extractStridedSlice S1x64x128 ![1, 0, 0] · slices_S2x64x128_S1x64x128_1_0_0) : (⟨S2x64x128, .f32⟩ : BufTy).Contents (Elt F) → (⟨S1x64x128, .f32⟩ : BufTy).Contents (Elt F)),
    StableHlo.reshape main_v166 main_v167 rfl shapeCasts_S1x64x128_S64x128,
    StableHlo.binary main_v107 main_v167 main_v168 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg15 main_v169 ((extractStridedSlice S1x128 ![1, 0] · slices_S2x128_S1x128_1_0) : (⟨S2x128, .f32⟩ : BufTy).Contents (Elt F) → (⟨S1x128, .f32⟩ : BufTy).Contents (Elt F)),
    StableHlo.reshape main_v169 main_v170 rfl shapeCasts_S1x128_S128,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v172 main_v173 (addf : (⟨S100000x128, .f32⟩ : BufTy).Contents (Elt F) → (⟨S100000x128, .f32⟩ : BufTy).Contents (Elt F) → (⟨S100000x128, .f32⟩ : BufTy).Contents (Elt F)),
    StableHlo.unary main_arg16 main_v174 ((extractStridedSlice S1x85x128 ![1, 0, 0] · slices_S2x85x128_S1x85x128_1_0_0) : (⟨S2x85x128, .f32⟩ : BufTy).Contents (Elt F) → (⟨S1x85x128, .f32⟩ : BufTy).Contents (Elt F)),
    StableHlo.reshape main_v174 main_v175 rfl shapeCasts_S1x85x128_S85x128,
    StableHlo.binary main_v60 main_v175 main_v176 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.binary main_v173 main_v176 main_v177 (addf : (⟨S100000x128, .f32⟩ : BufTy).Contents (Elt F) → (⟨S100000x128, .f32⟩ : BufTy).Contents (Elt F) → (⟨S100000x128, .f32⟩ : BufTy).Contents (Elt F)),
    StableHlo.binary main_v165 main_v177 main_v178 (addf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3E99999A#32),
    StableHlo.TRef.nullary main_call2.cst (constant S_ .f32 0x00000000#32),
    StableHlo.TRef.unary main_call2.cst main_call2.v0 (broadcastInDim S100000x128 ![] bcast_S_S100000x128),
    StableHlo.TRef.binary (.of main_v178 : StableHlo.TRef sig ⟨S100000x128, .f32⟩) main_call2.v0 main_call2.v1 (cmpf .oge),
    StableHlo.TRef.unary (.of main_cst_32 : StableHlo.TRef sig ⟨S_, .f32⟩) main_call2.v2 id,
    StableHlo.TRef.unary main_call2.v2 main_call2.v3 (broadcastInDim S100000x128 ![] bcast_S_S100000x128),
    StableHlo.TRef.binary main_call2.v3 (.of main_v178 : StableHlo.TRef sig ⟨S100000x128, .f32⟩) main_call2.v4 mulf,
    StableHlo.TRef.ternary main_call2.v1 (.of main_v178 : StableHlo.TRef sig ⟨S100000x128, .f32⟩) main_call2.v4 main_call2.call0.v0 select,
    StableHlo.binary main_v144 main_v179 main_v180 (addf : (⟨S100000x128, .f32⟩ : BufTy).Contents (Elt F) → (⟨S100000x128, .f32⟩ : BufTy).Contents (Elt F) → (⟨S100000x128, .f32⟩ : BufTy).Contents (Elt F)),
    StableHlo.nullary main_cst_33 (constant S_ .f32 0x00000000#32),
    StableHlo.binary main_v180 main_cst_33 main_v181 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_34 (constant S_ .f32 0x47C35000#32),
    StableHlo.unary main_cst_34 main_v182 (broadcastInDim S128 ![] bcast_S_S128 : (⟨S_, .f32⟩ : BufTy).Contents (Elt F) → (⟨S128, .f32⟩ : BufTy).Contents (Elt F)),
    StableHlo.binary main_v181 main_v182 main_v183 (Host.divf : (⟨S128, .f32⟩ : BufTy).Contents (Elt F) → (⟨S128, .f32⟩ : BufTy).Contents (Elt F) → (⟨S128, .f32⟩ : BufTy).Contents (Elt F)),
    StableHlo.unary main_v183 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v185 main_v186 (subf : (⟨S100000x128, .f32⟩ : BufTy).Contents (Elt F) → (⟨S100000x128, .f32⟩ : BufTy).Contents (Elt F) → (⟨S100000x128, .f32⟩ : BufTy).Contents (Elt F)),
    StableHlo.binary main_v186 main_v186 main_v187 (mulf : (⟨S100000x128, .f32⟩ : BufTy).Contents (Elt F) → (⟨S100000x128, .f32⟩ : BufTy).Contents (Elt F) → (⟨S100000x128, .f32⟩ : BufTy).Contents (Elt F)),
    StableHlo.nullary main_cst_35 (constant S_ .f32 0x00000000#32),
    StableHlo.binary main_v187 main_cst_35 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_36 (constant S_ .f32 0x47C35000#32),
    StableHlo.unary main_cst_36 main_v189 (broadcastInDim S128 ![] bcast_S_S128 : (⟨S_, .f32⟩ : BufTy).Contents (Elt F) → (⟨S128, .f32⟩ : BufTy).Contents (Elt F)),
    StableHlo.binary main_v188 main_v189 main_v190 (Host.divf : (⟨S128, .f32⟩ : BufTy).Contents (Elt F) → (⟨S128, .f32⟩ : BufTy).Contents (Elt F) → (⟨S128, .f32⟩ : BufTy).Contents (Elt F)),
    StableHlo.unary main_v183 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v192 main_v193 (subf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3727C5AC#32),
    StableHlo.unary main_cst_37 main_v194 (broadcastInDim S128 ![] bcast_S_S128 : (⟨S_, .f32⟩ : BufTy).Contents (Elt F) → (⟨S128, .f32⟩ : BufTy).Contents (Elt F)),
    StableHlo.binary main_v190 main_v194 main_v195 (addf : (⟨S128, .f32⟩ : BufTy).Contents (Elt F) → (⟨S128, .f32⟩ : BufTy).Contents (Elt F) → (⟨S128, .f32⟩ : BufTy).Contents (Elt F)),
    StableHlo.unary main_v195 main_v196 (Host.rsqrt : (⟨S128, .f32⟩ : BufTy).Contents (Elt F) → (⟨S128, .f32⟩ : BufTy).Contents (Elt F)),
    StableHlo.unary main_v196 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v198 main_v199 (mulf : (⟨S100000x128, .f32⟩ : BufTy).Contents (Elt F) → (⟨S100000x128, .f32⟩ : BufTy).Contents (Elt F) → (⟨S100000x128, .f32⟩ : BufTy).Contents (Elt F)) ]

set_option maxRecDepth 8192 in
/-- Window 3 of @main is the line of its operations. -/
theorem part3_eq (c : Dev nD) : main_part3 (F := F) c = seq ops3 := rfl

set_option maxRecDepth 8192 in
/-- Each operation of window 3 touches TensorCore references only. -/
theorem ops3_sub : (ops3 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub ..⟩

/-- The references window 3 writes: each operation's result. -/
abbrev written3 : List (Ref sig .tc) :=
  [main_v148, main_v149, main_c_30, main_v150, main_v151, main_v152, main_v153, main_v154, main_v155, main_v156, main_v157, main_cst_31, main_v158, main_v159, main_v160, main_v161, main_v162, main_v163, main_v164, main_v165, main_v166, main_v167, main_v168, main_v169, main_v170, main_v171, main_v172, main_v173, main_v174, main_v175, main_v176, main_v177, main_v178, main_cst_32, main_call2_cst, main_call2_v0, main_call2_v1, main_call2_v2, main_call2_v3, main_call2_v4, main_v179, main_v180, main_cst_33, main_v181, main_cst_34, main_v182, main_v183, main_v184, main_v185, main_v186, main_v187, main_cst_35, main_v188, main_cst_36, main_v189, main_v190, main_v191, main_v192, main_v193, main_cst_37, main_v194, main_v195, main_v196, main_v197, main_v198, main_v199]

set_option maxRecDepth 8192 in
/-- Each operation of window 3 writes its own result, a listed reference, and nothing else. -/
theorem ops3_writes : (ops3 : List (HloOp τ sig (Elt F))).Forall fun op => op.writes ⊆ (written3.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

set_option maxRecDepth 8192 in
/-- Each operation of window 3 determines its result. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Window 4's operations, in order (6). -/
abbrev ops4 : List (HloOp τ sig (Elt F)) :=
  [ StableHlo.unary main_arg17 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v199 main_v201 main_v202 (mulf : (⟨S100000x128, .f32⟩ : BufTy).Contents (Elt F) → (⟨S100000x128, .f32⟩ : BufTy).Contents (Elt F) → (⟨S100000x128, .f32⟩ : BufTy).Contents (Elt F)),
    StableHlo.unary main_arg18 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S100000x128 ![0, 1] bcast_S1x128_S100000x128_0_1 : (⟨S1x128, .f32⟩ : BufTy).Contents (Elt F) → (⟨S100000x128, .f32⟩ : BufTy).Contents (Elt F)),
    StableHlo.binary main_v202 main_v204 main_v205 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- Window 4 of @main is the line of its operations. -/
theorem part4_eq (c : Dev nD) : main_part4 (F := F) c = seq ops4 := rfl

set_option maxRecDepth 8192 in
/-- Each operation of window 4 touches TensorCore references only. -/
theorem ops4_sub : (ops4 : List (HloOp τ sig (Elt F))).Forall fun op => op.bufs ⊆ tcRefs τ sig :=
  ⟨unary_bufs_sub .., unary_bufs_sub .., binary_bufs_sub .., unary_bufs_sub .., unary_bufs_sub .., binary_bufs_sub ..⟩

/-- The references window 4 writes: each operation's result. -/
abbrev written4 : List (Ref sig .tc) :=
  [main_v200, main_v201, main_v202, main_v203, main_v204, main_v205]

set_option maxRecDepth 8192 in
/-- Each operation of window 4 writes its own result, a listed reference, and nothing else. -/
theorem ops4_writes : (ops4 : List (HloOp τ sig (Elt F))).Forall fun op => op.writes ⊆ (written4.map (Proc.devRef (τ := τ) .tc)).toFinset :=
  ⟨single_sub_of_mem (by decide), single_sub_of_mem (by decide), single_sub_of_mem (by decide), single_sub_of_mem (by decide), single_sub_of_mem (by decide), single_sub_of_mem (by decide)⟩

set_option maxRecDepth 8192 in
/-- Each operation of window 4 determines its result. -/
theorem ops4_fresh : (ops4 : List (HloOp τ sig (Elt F))).Forall fun op => op.fresh = ∅ :=
  ⟨rfl, rfl, rfl, rfl, rfl, rfl⟩

end Cert.ReferenceIdeal.Line

end
-- ==== Proof.RefRun.lean ====
/-
  The reference's run. Its @main is the line of the five windows' operations joined end to end, so every weakly fair
  execution terminates without a fault and leaves each buffer at the fold of the operations' results over the launch
  contents; an argument array is written by no operation and so ends as it was launched.
-/
import proofs.«159553_j62680752718518_1_alg».proof.Proof.RefLine

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The whole line: the five windows' operations, in order. -/
abbrev ops : List (HloOp τ sig (Elt F)) := ops0 ++ (ops1 ++ (ops2 ++ (ops3 ++ ops4)))

/-- @main is the whole line. -/
theorem main_eq (c : Dev nD) : main (F := F) c = seq ops := by
  rw [seq_append, seq_append, seq_append, seq_append, ← part0_eq c, ← part1_eq c, ← part2_eq c, ← part3_eq c, ← part4_eq c]
  rfl

/-- A property of every operation of each window holds of every operation of the line. -/
theorem forall_ops {p : HloOp τ sig (Elt F) → Prop} (h0 : (ops0 (F := F)).Forall p) (h1 : (ops1 (F := F)).Forall p)
    (h2 : (ops2 (F := F)).Forall p) (h3 : (ops3 (F := F)).Forall p) (h4 : (ops4 (F := F)).Forall p) : ∀ op ∈ (ops (F := F)), p op := by
  intro op hop
  simp only [ops, List.mem_append] at hop
  rcases hop with h | h | h | h | h
  · exact List.forall_iff_forall_mem.1 h0 op h
  · exact List.forall_iff_forall_mem.1 h1 op h
  · exact List.forall_iff_forall_mem.1 h2 op h
  · exact List.forall_iff_forall_mem.1 h3 op h
  · exact List.forall_iff_forall_mem.1 h4 op h

theorem ops_sub : (ops : List (HloOp τ sig (Elt F))).Forall fun op => op.bufs ⊆ tcRefs τ sig :=
  List.forall_iff_forall_mem.2 (forall_ops ops0_sub ops1_sub ops2_sub ops3_sub ops4_sub)

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

theorem ops_fresh : ∀ op ∈ (ops : List (HloOp τ sig (Elt F))), op.fresh = ∅ :=
  forall_ops ops0_fresh ops1_fresh ops2_fresh ops3_fresh ops4_fresh

/-- The fold over two lines joined is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A reference no window writes keeps its contents through the whole line. -/
theorem kept (V : Valuation τ sig (Elt F)) {r : Ref sig .tc}
    (h0 : r ∉ written0) (h1 : r ∉ written1) (h2 : r ∉ written2) (h3 : r ∉ written3) (h4 : r ∉ written4) :
    after (ops (F := F)) V (Proc.devRef .tc r) = V (Proc.devRef .tc r) := by
  rw [ops, after_append, after_append, after_append, after_append,
    after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

/-- On every device, from any memory with zero counters: every weakly fair execution of @main terminates, nothing
    faulting, with each buffer at the fold of the line's results over the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

set_option maxRecDepth 8192 in
/-- The run leaves every argument array as it was launched: none is the result of an operation. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_arg0).trans (kept _ (by decide) (by decide) (by decide) (by decide) (by decide)),
    (h c main_arg1).trans (kept _ (by decide) (by decide) (by decide) (by decide) (by decide)),
    (h c main_arg2).trans (kept _ (by decide) (by decide) (by decide) (by decide) (by decide)),
    (h c main_arg3).trans (kept _ (by decide) (by decide) (by decide) (by decide) (by decide)),
    (h c main_arg4).trans (kept _ (by decide) (by decide) (by decide) (by decide) (by decide)),
    (h c main_arg5).trans (kept _ (by decide) (by decide) (by decide) (by decide) (by decide)),
    (h c main_arg6).trans (kept _ (by decide) (by decide) (by decide) (by decide) (by decide)),
    (h c main_arg7).trans (kept _ (by decide) (by decide) (by decide) (by decide) (by decide)),
    (h c main_arg8).trans (kept _ (by decide) (by decide) (by decide) (by decide) (by decide)),
    (h c main_arg9).trans (kept _ (by decide) (by decide) (by decide) (by decide) (by decide)),
    (h c main_arg10).trans (kept _ (by decide) (by decide) (by decide) (by decide) (by decide)),
    (h c main_arg11).trans (kept _ (by decide) (by decide) (by decide) (by decide) (by decide)),
    (h c main_arg12).trans (kept _ (by decide) (by decide) (by decide) (by decide) (by decide)),
    (h c main_arg13).trans (kept _ (by decide) (by decide) (by decide) (by decide) (by decide)),
    (h c main_arg14).trans (kept _ (by decide) (by decide) (by decide) (by decide) (by decide)),
    (h c main_arg15).trans (kept _ (by decide) (by decide) (by decide) (by decide) (by decide)),
    (h c main_arg16).trans (kept _ (by decide) (by decide) (by decide) (by decide) (by decide)),
    (h c main_arg17).trans (kept _ (by decide) (by decide) (by decide) (by decide) (by decide)),
    (h c main_arg18).trans (kept _ (by decide) (by decide) (by decide) (by decide) (by decide))⟩)
    (run m ρ)

end Cert.ReferenceIdeal.Line

end
-- ==== Proof.K0.lean ====
/-
  Region 0 of the kernel program's @main (the three matrix products: 8 windows, 6 read and 2 written), at the buffer contents `V` the region is entered with.
  Per grid point: each window's block read off its array; what the body leaves in every window's staging buffer
  (an input's block unchanged, an output's the body's stores over the input blocks); the body's triple; the
  pipeline's proof data and its obligation at every point.
-/
import proofs.«159553_j62680752718518_1_alg».proof.Proof.Gen.KernelIdeal.Launch
import proofs.«159553_j62680752718518_1_alg».proof.Proof.Gen.KernelIdeal.Skeleton
import proofs.«159553_j62680752718518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4000x85 := Rect.unit (s := S4000x85) ![0, 0] S4000x85.size inb_S4000x85_S4000x85_0_0
abbrev r0_1 : Rect S4000x64 := Rect.unit (s := S4000x64) ![0, 0] S4000x64.size inb_S4000x64_S4000x64_0_0
abbrev r0_2 : Rect S85x256 := Rect.unit (s := S85x256) ![0, 0] S85x256.size inb_S85x256_S85x256_0_0
abbrev r0_3 : Rect S64x256 := Rect.unit (s := S64x256) ![0, 0] S64x256.size inb_S64x256_S64x256_0_0
abbrev r0_4 : Rect S1x256 := Rect.unit (s := S1x256) ![0, 0] S1x256.size inb_S1x256_S1x256_0_0
abbrev r0_5 : Rect S4000x256 := Rect.unit (s := S4000x256) ![0, 0] S4000x256.size inb_S4000x256_S4000x256_0_0

/-! ## What the body leaves in each output window's buffer -/

/-- Window 6's staging buffer after the body, from the input windows' blocks: its one store of the whole block. -/
def out0_6 (x0 : Vec F S4000x85 .f32) (x2 : Vec F S85x256 .f32) : Vec F S4000x256 .f32 :=
  View.canon [⟨r0_5, k0_pay2 (View.ld x0 r0_0) (View.ld x2 r0_2)⟩]

/-- The one store tiles the buffer, so it covers it. -/
theorem cover0_6 (p0 : Vec F S4000x256 .f32) (y : S4000x256.Idx) :
    ∃ pc ∈ ([⟨r0_5, p0⟩] : List (View.Piece (Elt F) S4000x256 .f32)), y ∈ pc.1.set :=
  View.cover_of_tiled [⟨r0_5, p0⟩] S4000x256.size (by rfl) y

/-- Window 7's staging buffer after the body, from the input windows' blocks: its one store of the whole block. -/
def out0_7 (x0 : Vec F S4000x85 .f32) (x1 : Vec F S4000x64 .f32) (x3 : Vec F S64x256 .f32) (x4 : Vec F S85x256 .f32) (x5 : Vec F S1x256 .f32) : Vec F S4000x256 .f32 :=
  View.canon [⟨r0_5, k0_pay3 (View.ld x0 r0_0) (View.ld x1 r0_1) (View.ld x3 r0_3) (View.ld x4 r0_2) (View.ld x5 r0_4)⟩]

/-- The one store tiles the buffer, so it covers it. -/
theorem cover0_7 (p0 : Vec F S4000x256 .f32) (y : S4000x256.Idx) :
    ∃ pc ∈ ([⟨r0_5, p0⟩] : List (View.Piece (Elt F) S4000x256 .f32)), y ∈ pc.1.set :=
  View.cover_of_tiled [⟨r0_5, p0⟩] S4000x256.size (by rfl) y

/-! ## The body's triple -/

set_option maxHeartbeats 1000000 in
/-- The kernel body on whole staging memrefs, the inputs' at read contents and the outputs' at anything, runs to
    the continuation holding the inputs' as they were and each output's at `out0_W` of the inputs'. -/
theorem sound_kernel0 (c : Dev nD) (E : Set ℕ) (i : grid0.Coords) (arg0 : Memref sig .tc .vmem S4000x85 .f32) (harg0 : arg0.IsWhole) (arg1 : Memref sig .tc .vmem S4000x64 .f32) (harg1 : arg1.IsWhole) (arg2 : Memref sig .tc .vmem S85x256 .f32) (harg2 : arg2.IsWhole) (arg3 : Memref sig .tc .vmem S64x256 .f32) (harg3 : arg3.IsWhole) (arg4 : Memref sig .tc .vmem S85x256 .f32) (harg4 : arg4.IsWhole) (arg5 : Memref sig .tc .vmem S1x256 .f32) (harg5 : arg5.IsWhole) (arg6 : Memref sig .tc .vmem S4000x256 .f32) (harg6 : arg6.IsWhole) (arg7 : Memref sig .tc .vmem S4000x256 .f32) (harg7 : arg7.IsWhole)
    (x0 : Vec F S4000x85 .f32) (x1 : Vec F S4000x64 .f32) (x2 : Vec F S85x256 .f32) (x3 : Vec F S64x256 .f32) (x4 : Vec F S85x256 .f32) (x5 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x2) ∗ owns (c : Thread nD τ) arg7 fullShare (out0_7 x0 x1 x3 x4 x5)) -∗ K ⟨⟩))
      ⊢ wp frame (wpE (defs₀ (F := F)) Variants.none c none) E (cc0__mm_kernel i arg0 harg0 arg1 harg1 arg2 harg2 arg3 harg3 arg4 harg4 arg5 harg5 arg6 harg6 arg7 harg7) K := by
  simp only [cc0__mm_kernel_eq_skeleton]; unfold cc0__mm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and each output's at `out0_W` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t)
    | ⟨7, _⟩ => out0_7 (iblk0 V c 0 t) (iblk0 V c 1 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 1 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.K1.lean ====
/-
  Region 1 of the kernel program's @main (the leaky-relu sum and its running column sum: 6 windows, 4 read and 2 written), at the buffer contents `V` the region is entered with.
  Per grid point: each window's block read off its array; what the body leaves in every window's staging buffer
  (an input's block unchanged, an output's the body's stores over the input blocks); the body's triple; the
  pipeline's proof data and its obligation at every point.
-/
import proofs.«159553_j62680752718518_1_alg».proof.Proof.Gen.KernelIdeal.Launch
import proofs.«159553_j62680752718518_1_alg».proof.Proof.Gen.KernelIdeal.Skeleton
import proofs.«159553_j62680752718518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_b : Rect S4000x128 := Rect.unit (s := S4000x128) ![0, 0] S4000x128.size inb_S4000x128_S4000x128_0_0
abbrev r1_s : Rect S1x128 := Rect.unit (s := S1x128) ![0, 0] S1x128.size inb_S1x128_S1x128_0_0

/-- The branch condition of the body: the first grid coordinate is zero. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val = 0 :=
  (by decide +kernel : ∀ t : Fin grid1.N, cond1 (grid1.coords t) ↔ t.val = 0)

/-- The zero row. -/
def zero1 : Vec F S1x128 .f32 := View.canon [⟨r1_s, k1_pay1 (F := F)⟩]

/-- The tile the body leaves: the sum of the two leaky rectifications, from the four input tiles. -/
def out1_4 (x0 x1 x2 x3 : Vec F S4000x128 .f32) : Vec F S4000x128 .f32 :=
  View.canon [⟨r1_b, k1_pay2 (View.ld x0 r1_b) (View.ld x1 r1_b) (View.ld x2 r1_b) (View.ld x3 r1_b)⟩]

/-- One point's running sum: the row of column sums of that tile, added to the sum so far. -/
def step1 (x0 x1 x2 x3 : Vec F S4000x128 .f32) (a : Vec F S1x128 .f32) : Vec F S1x128 .f32 :=
  View.canon [⟨r1_s, k1_pay3 (View.ld x0 r1_b) (View.ld x1 r1_b) (View.ld x2 r1_b) (View.ld x3 r1_b) (View.ld a r1_s)⟩]

theorem cover1_b (p0 : Vec F S4000x128 .f32) (y : S4000x128.Idx) :
    ∃ pc ∈ ([⟨r1_b, p0⟩] : List (View.Piece (Elt F) S4000x128 .f32)), y ∈ pc.1.set :=
  View.cover_of_tiled [⟨r1_b, p0⟩] S4000x128.size (by rfl) y

theorem cover1_s (p0 : Vec F S1x128 .f32) (y : S1x128.Idx) :
    ∃ pc ∈ ([⟨r1_s, p0⟩] : List (View.Piece (Elt F) S1x128 .f32)), y ∈ pc.1.set :=
  View.cover_of_tiled [⟨r1_s, p0⟩] S1x128.size (by rfl) y

/-- Every index lies in the whole-row rectangle. -/
theorem mem_r1_s (p0 : Vec F S1x128 .f32) (y : S1x128.Idx) : y ∈ (r1_s).set := by
  obtain ⟨pc, hm, hy⟩ := cover1_s p0 y
  rw [List.mem_singleton] at hm; subst hm; exact hy

theorem cover1_s' (p0 : Vec F S1x128 .f32) (L : List (View.Piece (Elt F) S1x128 .f32)) (y : S1x128.Idx) :
    ∃ pc ∈ (⟨r1_s, p0⟩ :: L), y ∈ pc.1.set :=
  ⟨_, List.mem_cons_self .., mem_r1_s p0 y⟩

/-- A store of the whole row hides the stores before it. -/
theorem canon1_s (p0 : Vec F S1x128 .f32) (L : List (View.Piece (Elt F) S1x128 .f32)) :
    View.canon (⟨r1_s, p0⟩ :: L) = View.canon [⟨r1_s, p0⟩] := by
  funext y
  obtain ⟨x, rfl⟩ : ∃ x, (r1_s).emb x = y := (r1_s).exists_idx_of_mem (mem_r1_s p0 y)
  rw [View.canon_cons_emb, View.canon_cons_emb]

set_option maxHeartbeats 2000000 in
/-- The body at a later point: the tile is stored, and the running sum it finds is added to. -/
theorem sound_kernel1_B (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S1x128 .f32) (harg6 : arg6.IsWhole) (hc : ¬cond1 i)
    (x0 x1 x2 x3 : Vec F S4000x128 .f32) (a : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (step1 x0 x1 x2 x3 a)) -∗ K ⟨⟩))
      ⊢ wp frame (wpE (defs₀ (F := F)) Variants.none c none) E (cc1__lr_kernel i arg1 harg1 arg2 harg2 arg3 harg3 arg4 harg4 arg5 harg5 arg6 harg6) K := by
  simp only [cc1__lr_kernel_eq_skeleton]; unfold cc1__lr_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold out1_4
    exact View.read_writes_eq_canon _ _ _ (cover1_b _)
  iexists _; isplitr
  swap; · iexact H5
  ipureintro
  unfold step1
  exact View.read_writes_eq_canon _ _ _ (cover1_s _)

set_option maxHeartbeats 2000000 in
/-- The body at the first point: the row is zeroed, the tile stored, the row added to. -/
theorem sound_kernel1_A (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S1x128 .f32) (harg6 : arg6.IsWhole) (hc : cond1 i)
    (x0 x1 x2 x3 : Vec F S4000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (step1 x0 x1 x2 x3 zero1)) -∗ K ⟨⟩))
      ⊢ wp frame (wpE (defs₀ (F := F)) Variants.none c none) E (cc1__lr_kernel i arg1 harg1 arg2 harg2 arg3 harg3 arg4 harg4 arg5 harg5 arg6 harg6) K := by
  simp only [cc1__lr_kernel_eq_skeleton]; unfold cc1__lr_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold out1_4
    exact View.read_writes_eq_canon _ _ _ (cover1_b _)
  iexists _; isplitr
  swap; · iexact H5
  ipureintro
  unfold step1 zero1
  sl_unfold_words
  rw [View.readCov_eq_canon_ld _ _ _ (cover1_s _), View.read_writes_eq_canon _ _ _ (cover1_s' _ _), canon1_s]
  rfl

/-! ## What the accumulator holds after each point -/

/-- The running sum after point `n`: the first point adds its tile's row to the zero row, each later point to what the point before left. -/
def acc1 (c : Dev nD) : (n : ℕ) → n < cfg1.N → Vec F S1x128 .f32
  | 0, h => step1 (iblk1 V c 0 ⟨0, h⟩) (iblk1 V c 1 ⟨0, h⟩) (iblk1 V c 2 ⟨0, h⟩) (iblk1 V c 3 ⟨0, h⟩) zero1
  | n + 1, h => step1 (iblk1 V c 0 ⟨n + 1, h⟩) (iblk1 V c 1 ⟨n + 1, h⟩) (iblk1 V c 2 ⟨n + 1, h⟩) (iblk1 V c 3 ⟨n + 1, h⟩) (acc1 c n (Nat.lt_of_succ_lt h))

theorem acc1_zero (c : Dev nD) (h : 0 < cfg1.N) :
    acc1 V c 0 h = step1 (iblk1 V c 0 ⟨0, h⟩) (iblk1 V c 1 ⟨0, h⟩) (iblk1 V c 2 ⟨0, h⟩) (iblk1 V c 3 ⟨0, h⟩) zero1 := rfl

theorem acc1_succ (c : Dev nD) (n : ℕ) (h : n + 1 < cfg1.N) :
    acc1 V c (n + 1) h = step1 (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)) := rfl

theorem acc1_first (c : Dev nD) (t : Fin cfg1.N) (h0 : t.val = 0) :
    acc1 V c t.val t.isLt = step1 (iblk1 V c 0 t) (iblk1 V c 1 t) (iblk1 V c 2 t) (iblk1 V c 3 t) zero1 := by
  obtain ⟨n, hn⟩ := t
  cases n with
  | zero => exact rfl
  | succ n => exact absurd h0 (Nat.succ_ne_zero n)

theorem acc1_later (c : Dev nD) (t : Fin cfg1.N) (h0 : t.val ≠ 0) :
    acc1 V c t.val t.isLt = step1 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the region on core `c`: the arrays as the region finds them; after the body at point `t` each
    input's buffer at its block, the tile window's at the tile computed from the four input blocks and the
    accumulator's at the running sum; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the accumulator's staging buffer holds what the body left at the point before: it is written
    back at the last point only, the window live and uncut. -/
theorem before1_5_later (c : Dev nD) (t : Fin cfg1.N) (h0 : t.val ≠ 0) (d) :
    (dat1 V c).before 5 t d = acc1 V c (t.val - 1) (Nat.lt_of_le_of_lt (Nat.sub_le _ _) t.isLt) := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point: the inputs' memrefs hold their blocks, the tile window's anything; at the first point the
    branch is taken and the accumulator's buffer may hold anything, at a later one it is not and the buffer holds the sum so far. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ ((hcond1 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ (fun h => h0 ((hcond1 t).mp h)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.K2.lean ====
/-
  Region 2 of the kernel program's @main (the running centred sum of squares: 3 windows, 2 read and 1 written), at the buffer contents `V` the region is entered with.
  Per grid point: each window's block read off its array; what the body leaves in every window's staging buffer
  (an input's block unchanged, an output's the body's stores over the input blocks); the body's triple; the
  pipeline's proof data and its obligation at every point.
-/
import proofs.«159553_j62680752718518_1_alg».proof.Proof.Gen.KernelIdeal.Launch
import proofs.«159553_j62680752718518_1_alg».proof.Proof.Gen.KernelIdeal.Skeleton
import proofs.«159553_j62680752718518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_b : Rect S4000x128 := Rect.unit (s := S4000x128) ![0, 0] S4000x128.size inb_S4000x128_S4000x128_0_0
abbrev r2_s : Rect S1x128 := Rect.unit (s := S1x128) ![0, 0] S1x128.size inb_S1x128_S1x128_0_0

/-- The branch condition of the body: the first grid coordinate is zero. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val = 0 :=
  (by decide +kernel : ∀ t : Fin grid2.N, cond2 (grid2.coords t) ↔ t.val = 0)

/-- The zero row. -/
def zero2 : Vec F S1x128 .f32 := View.canon [⟨r2_s, k2_pay1 (F := F)⟩]

/-- One point's running sum: the row of column sums of the centred squares of the tile, added to the sum so far. -/
def step2 (x0 : Vec F S4000x128 .f32) (x1 : Vec F S1x128 .f32) (a : Vec F S1x128 .f32) : Vec F S1x128 .f32 :=
  View.canon [⟨r2_s, k2_pay2 (View.ld x0 r2_b) (View.ld x1 r2_s) (View.ld a r2_s)⟩]

theorem cover2_s (p0 : Vec F S1x128 .f32) (y : S1x128.Idx) :
    ∃ pc ∈ ([⟨r2_s, p0⟩] : List (View.Piece (Elt F) S1x128 .f32)), y ∈ pc.1.set :=
  View.cover_of_tiled [⟨r2_s, p0⟩] S1x128.size (by rfl) y

set_option maxHeartbeats 1000000 in
/-- The body at a later point: the running sum it finds is added to. -/
theorem sound_kernel2_B (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (hc : ¬cond2 i)
    (x0 : Vec F S4000x128 .f32) (x1 : Vec F S1x128 .f32) (a : Vec F S1x128 .f32) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1 ∗ owns (c : Thread nD τ) arg3 fullShare (step2 x0 x1 a)) -∗ K ⟨⟩))
      ⊢ wp frame (wpE (defs₀ (F := F)) Variants.none c none) E (cc2__var_kernel i arg1 harg1 arg2 harg2 arg3 harg3) K := by
  simp only [cc2__var_kernel_eq_skeleton]; unfold cc2__var_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  unfold step2
  exact View.read_writes_eq_canon _ _ _ (cover2_s _)

/-- Every index lies in the whole-row rectangle. -/
theorem mem_r2_s (p0 : Vec F S1x128 .f32) (y : S1x128.Idx) : y ∈ (r2_s).set := by
  obtain ⟨pc, hm, hy⟩ := cover2_s p0 y
  rw [List.mem_singleton] at hm; subst hm; exact hy

theorem cover2_s' (p0 : Vec F S1x128 .f32) (L : List (View.Piece (Elt F) S1x128 .f32)) (y : S1x128.Idx) :
    ∃ pc ∈ (⟨r2_s, p0⟩ :: L), y ∈ pc.1.set :=
  ⟨_, List.mem_cons_self .., mem_r2_s p0 y⟩

/-- A store of the whole row hides the stores before it. -/
theorem canon2_s (p0 : Vec F S1x128 .f32) (L : List (View.Piece (Elt F) S1x128 .f32)) :
    View.canon (⟨r2_s, p0⟩ :: L) = View.canon [⟨r2_s, p0⟩] := by
  funext y
  obtain ⟨x, rfl⟩ : ∃ x, (r2_s).emb x = y := (r2_s).exists_idx_of_mem (mem_r2_s p0 y)
  rw [View.canon_cons_emb, View.canon_cons_emb]

set_option maxHeartbeats 1000000 in
/-- The body at the first point: the row is zeroed, then added to. -/
theorem sound_kernel2_A (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (hc : cond2 i)
    (x0 : Vec F S4000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (step2 x0 x1 zero2)) -∗ K ⟨⟩))
      ⊢ wp frame (wpE (defs₀ (F := F)) Variants.none c none) E (cc2__var_kernel i arg1 harg1 arg2 harg2 arg3 harg3) K := by
  simp only [cc2__var_kernel_eq_skeleton]; unfold cc2__var_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  unfold step2 zero2
  sl_unfold_words
  rw [View.readCov_eq_canon_ld _ _ _ (cover2_s _), View.read_writes_eq_canon _ _ _ (cover2_s' _ _), canon2_s]
  rfl

/-! ## What the accumulator holds after each point -/

/-- The running sum after point `n`: the first point adds its tile's row to the zero row, each later point to what the point before left. -/
def acc2 (c : Dev nD) : (n : ℕ) → n < cfg2.N → Vec F S1x128 .f32
  | 0, h => step2 (iblk2 V c 0 ⟨0, h⟩) (iblk2 V c 1 ⟨0, h⟩) zero2
  | n + 1, h => step2 (iblk2 V c 0 ⟨n + 1, h⟩) (iblk2 V c 1 ⟨n + 1, h⟩) (acc2 c n (Nat.lt_of_succ_lt h))

theorem acc2_zero (c : Dev nD) (h : 0 < cfg2.N) :
    acc2 V c 0 h = step2 (iblk2 V c 0 ⟨0, h⟩) (iblk2 V c 1 ⟨0, h⟩) zero2 := rfl

theorem acc2_succ (c : Dev nD) (n : ℕ) (h : n + 1 < cfg2.N) :
    acc2 V c (n + 1) h = step2 (iblk2 V c 0 ⟨n + 1, h⟩) (iblk2 V c 1 ⟨n + 1, h⟩) (acc2 V c n (Nat.lt_of_succ_lt h)) := rfl

theorem acc2_first (c : Dev nD) (t : Fin cfg2.N) (h0 : t.val = 0) :
    acc2 V c t.val t.isLt = step2 (iblk2 V c 0 t) (iblk2 V c 1 t) zero2 := by
  obtain ⟨n, hn⟩ := t
  cases n with
  | zero => exact rfl
  | succ n => exact absurd h0 (Nat.succ_ne_zero n)

theorem acc2_later (c : Dev nD) (t : Fin cfg2.N) (h0 : t.val ≠ 0) :
    acc2 V c t.val t.isLt = step2 (iblk2 V c 0 t) (iblk2 V c 1 t) (acc2 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the region on core `c`: the arrays as the region finds them; after the body at point `t` each
    input's buffer at its block and the accumulator's at the running sum; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- At a later point the accumulator's staging buffer holds what the body left at the point before: it is written
    back at the last point only, the window live and uncut. -/
theorem before2_2_later (c : Dev nD) (t : Fin cfg2.N) (h0 : t.val ≠ 0) (d) :
    (dat2 V c).before 2 t d = acc2 V c (t.val - 1) (Nat.lt_of_le_of_lt (Nat.sub_le _ _) t.isLt) := by
  have hN : t.val < 25 := lt_of_lt_of_eq t.isLt (show cfg2.N = 25 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 800000 in
/-- The body at any point: the inputs' memrefs hold their blocks; at the first point the branch is taken and the
    accumulator's buffer may hold anything, at a later one it is not and the buffer holds the sum so far. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val = 0
  · rw [acc2_first V c t h0]
    iintro ⟨HΦ, Ho, ⟨%d0, H0⟩, ⟨%d1, H1⟩, ⟨%d2, H2⟩⟩
    iapply (sound_kernel2_A c Set.univ (grid2.coords t) _ _ _ _ _ _ ((hcond2 t).mpr h0) (iblk2 V c 0 t) (iblk2 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc2_later V c t h0]
    simp only [before2_2_later V c t h0]
    iintro ⟨HΦ, Ho, ⟨%d0, H0⟩, ⟨%d1, H1⟩, ⟨%d2, H2⟩⟩
    iapply (sound_kernel2_B c Set.univ (grid2.coords t) _ _ _ _ _ _ (fun h => h0 ((hcond2 t).mp h)) (iblk2 V c 0 t) (iblk2 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.K3.lean ====
/-
  Region 3 of the kernel program's @main (the normalisation: 6 windows, 5 read and 1 written), at the buffer contents `V` the region is entered with.
  Per grid point: each window's block read off its array; what the body leaves in every window's staging buffer
  (an input's block unchanged, an output's the body's stores over the input blocks); the body's triple; the
  pipeline's proof data and its obligation at every point.
-/
import proofs.«159553_j62680752718518_1_alg».proof.Proof.Gen.KernelIdeal.Launch
import proofs.«159553_j62680752718518_1_alg».proof.Proof.Gen.KernelIdeal.Skeleton
import proofs.«159553_j62680752718518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4000x128 := Rect.unit (s := S4000x128) ![0, 0] S4000x128.size inb_S4000x128_S4000x128_0_0
abbrev r3_1 : Rect S1x128 := Rect.unit (s := S1x128) ![0, 0] S1x128.size inb_S1x128_S1x128_0_0

/-! ## What the body leaves in each output window's buffer -/

/-- Window 5's staging buffer after the body, from the input windows' blocks: its one store of the whole block. -/
def out3_5 (x0 : Vec F S4000x128 .f32) (x1 : Vec F S1x128 .f32) (x2 : Vec F S1x128 .f32) (x3 : Vec F S1x128 .f32) (x4 : Vec F S1x128 .f32) : Vec F S4000x128 .f32 :=
  View.canon [⟨r3_0, k3_pay1 (View.ld x0 r3_0) (View.ld x2 r3_1) (View.ld x1 r3_1) (View.ld x3 r3_1) (View.ld x4 r3_1)⟩]

/-- The one store tiles the buffer, so it covers it. -/
theorem cover3_5 (p0 : Vec F S4000x128 .f32) (y : S4000x128.Idx) :
    ∃ pc ∈ ([⟨r3_0, p0⟩] : List (View.Piece (Elt F) S4000x128 .f32)), y ∈ pc.1.set :=
  View.cover_of_tiled [⟨r3_0, p0⟩] S4000x128.size (by rfl) y

/-! ## The body's triple -/

/-- The kernel body on whole staging memrefs, the inputs' at read contents and the outputs' at anything, runs to
    the continuation holding the inputs' as they were and each output's at `out3_W` of the inputs'. -/
theorem sound_kernel3 (c : Dev nD) (E : Set ℕ) (i : grid3.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_kernel i arg0 harg0 arg1 harg1 arg2 harg2 arg3 harg3 arg4 harg4 arg5 harg5) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the pipeline on core `c`: the arrays as the region finds them; after the body at point `t`
    each input's buffer at its block and each output's at `out3_W` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KFold.lean ====
/-
  The buffer contents at every boundary of the kernel program's @main: a fold from the launch memory through the
  host stretches (each the fold of its operations' results) and the four regions (each region's arrays at what its
  write-backs leave, every other buffer as the region found it).
-/
import proofs.«159553_j62680752718518_1_alg».proof.Proof.K0
import proofs.«159553_j62680752718518_1_alg».proof.Proof.K1
import proofs.«159553_j62680752718518_1_alg».proof.Proof.K2
import proofs.«159553_j62680752718518_1_alg».proof.Proof.K3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first 91 operations. -/
abbrev W1a : Dev nD → Valuation τ sig (Elt F) := fun c => StableHlo.after hostOps0 (W0 m ρ c)
/-- After the three operations of the called function that follow them. -/
abbrev W1b : Dev nD → Valuation τ sig (Elt F) := fun c => StableHlo.after hostOps0_1 (W1a m ρ c)
/-- After the whole first host stretch (region 0's entry): its three lists folded one after another. -/
abbrev W1 : Dev nD → Valuation τ sig (Elt F) := fun c =>
  StableHlo.after hostOps0_2 (StableHlo.after hostOps0_1 (StableHlo.after hostOps0 (W0 m ρ c)))
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (an input as entered, an output with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, an output with every
    write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (an input as entered, an output with every
    write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (an input as entered, an output with every
    write-back folded in), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.KernelIdeal.Frame

end
-- ==== Proof.KSegs.lean ====
/-
  The kernel program's @main as segments: a host segment per list of host operations, each from its boundary's
  contents, and a region per pallas_call, over the thread state "every unscoped buffer at the boundary's contents, the
  generator register at some state, nothing owed".
-/
import proofs.«159553_j62680752718518_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A list of host operations as a segment over the unscoped references from the contents `W`, `R` riding along: it
    ends with those references at the fold of the operations' results over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of `hostOps0_1` allocates a buffer. -/
theorem hostOps0_1_fresh : (hostOps0_1 : List (HloOp τ sig (Elt F))).Forall fun op => op.fresh = ∅ :=
  ⟨rfl, rfl, rfl⟩
/-- No operation of `hostOps0_2` allocates a buffer. -/
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of `hostOps2` allocates a buffer. -/
theorem hostOps2_fresh : (hostOps2 : List (HloOp τ sig (Elt F))).Forall fun op => op.fresh = ∅ :=
  ⟨rfl, rfl, rfl⟩
/-- No operation of `hostOps3` allocates a buffer. -/
theorem hostOps3_fresh : (hostOps3 : List (HloOp τ sig (Elt F))).Forall fun op => op.fresh = ∅ :=
  ⟨rfl, rfl, rfl, rfl, rfl⟩
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W3`, left at `W4`. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at `W5`, left at `W6`. Its arrays are
    split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 3 over the thread state: entered from every unscoped buffer at `W7`, left at `W8`. Its arrays are
    split out of the unscoped buffers and put back at the exit contents; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Frame

end
-- ==== Proof.KKept.lean ====
/-
  What no host operation writes and no region's window stands on keeps its launch contents to the end of the kernel
  program's @main: each host stretch's operations write their own results only, a region changes its own arrays only,
  and the argument arrays are among neither.
-/
import proofs.«159553_j62680752718518_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The singleton of a listed reference lies in the list's image. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references `hostOps0` writes: each operation's result. -/
abbrev written0 : List (Ref sig .tc) :=
  [main_c, main_v0, main_v1, main_c_0, main_v2, main_v3, main_v4, main_v5, main_v6, main_v7, main_v8, main_v9, main_c_1, main_v10, main_v11, main_c_2, main_v12, main_v13, main_v14, main_v15, main_v16, main_v17, main_v18, main_v19, main_c_3, main_v20, main_v21, main_c_4, main_v22, main_v23, main_v24, main_v25, main_v26, main_v27, main_v28, main_v29, main_c_5, main_v30, main_v31, main_c_6, main_v32, main_v33, main_v34, main_v35, main_v36, main_v37, main_v38, main_v39, main_c_7, main_v40, main_v41, main_c_8, main_v42, main_v43, main_v44, main_v45, main_v46, main_v47, main_v48, main_v49, main_c_9, main_v50, main_v51, main_c_10, main_v52, main_v53, main_v54, main_v55, main_v56, main_v57, main_v58, main_v59, main_v60, main_v61, main_v62, main_v63, main_v64, main_cst, main_v65, main_cst_11, main_v66, main_v67, main_v68, main_cst_12, main_v69, main_v70, main_cst_13, main_v71, main_v72, main_v73, main_cst_14]
/-- Each operation of `hostOps0` writes its own result, a listed reference, and nothing else. -/
theorem hostOps0_writes : (hostOps0 : List (HloOp τ sig (Elt F))).Forall fun op => op.writes ⊆ (written0.map (Proc.devRef (τ := τ) .tc)).toFinset :=
  ⟨single_sub_of_mem (y := main_c) (by decide), single_sub_of_mem (y := main_v0) (by decide), single_sub_of_mem (y := main_v1) (by decide), single_sub_of_mem (y := main_c_0) (by decide), single_sub_of_mem (y := main_v2) (by decide), single_sub_of_mem (y := main_v3) (by decide), single_sub_of_mem (y := main_v4) (by decide), single_sub_of_mem (y := main_v5) (by decide), single_sub_of_mem (y := main_v6) (by decide), single_sub_of_mem (y := main_v7) (by decide), single_sub_of_mem (y := main_v8) (by decide), single_sub_of_mem (y := main_v9) (by decide), single_sub_of_mem (y := main_c_1) (by decide), single_sub_of_mem (y := main_v10) (by decide), single_sub_of_mem (y := main_v11) (by decide), single_sub_of_mem (y := main_c_2) (by decide), single_sub_of_mem (y := main_v12) (by decide), single_sub_of_mem (y := main_v13) (by decide), single_sub_of_mem (y := main_v14) (by decide), single_sub_of_mem (y := main_v15) (by decide), single_sub_of_mem (y := main_v16) (by decide), single_sub_of_mem (y := main_v17) (by decide), single_sub_of_mem (y := main_v18) (by decide), single_sub_of_mem (y := main_v19) (by decide), single_sub_of_mem (y := main_c_3) (by decide), single_sub_of_mem (y := main_v20) (by decide), single_sub_of_mem (y := main_v21) (by decide), single_sub_of_mem (y := main_c_4) (by decide), single_sub_of_mem (y := main_v22) (by decide), single_sub_of_mem (y := main_v23) (by decide), single_sub_of_mem (y := main_v24) (by decide), single_sub_of_mem (y := main_v25) (by decide), single_sub_of_mem (y := main_v26) (by decide), single_sub_of_mem (y := main_v27) (by decide), single_sub_of_mem (y := main_v28) (by decide), single_sub_of_mem (y := main_v29) (by decide), single_sub_of_mem (y := main_c_5) (by decide), single_sub_of_mem (y := main_v30) (by decide), single_sub_of_mem (y := main_v31) (by decide), single_sub_of_mem (y := main_c_6) (by decide), single_sub_of_mem (y := main_v32) (by decide), single_sub_of_mem (y := main_v33) (by decide), single_sub_of_mem (y := main_v34) (by decide), single_sub_of_mem (y := main_v35) (by decide), single_sub_of_mem (y := main_v36) (by decide), single_sub_of_mem (y := main_v37) (by decide), single_sub_of_mem (y := main_v38) (by decide), single_sub_of_mem (y := main_v39) (by decide), single_sub_of_mem (y := main_c_7) (by decide), single_sub_of_mem (y := main_v40) (by decide), single_sub_of_mem (y := main_v41) (by decide), single_sub_of_mem (y := main_c_8) (by decide), single_sub_of_mem (y := main_v42) (by decide), single_sub_of_mem (y := main_v43) (by decide), single_sub_of_mem (y := main_v44) (by decide), single_sub_of_mem (y := main_v45) (by decide), single_sub_of_mem (y := main_v46) (by decide), single_sub_of_mem (y := main_v47) (by decide), single_sub_of_mem (y := main_v48) (by decide), single_sub_of_mem (y := main_v49) (by decide), single_sub_of_mem (y := main_c_9) (by decide), single_sub_of_mem (y := main_v50) (by decide), single_sub_of_mem (y := main_v51) (by decide), single_sub_of_mem (y := main_c_10) (by decide), single_sub_of_mem (y := main_v52) (by decide), single_sub_of_mem (y := main_v53) (by decide), single_sub_of_mem (y := main_v54) (by decide), single_sub_of_mem (y := main_v55) (by decide), single_sub_of_mem (y := main_v56) (by decide), single_sub_of_mem (y := main_v57) (by decide), single_sub_of_mem (y := main_v58) (by decide), single_sub_of_mem (y := main_v59) (by decide), single_sub_of_mem (y := main_v60) (by decide), single_sub_of_mem (y := main_v61) (by decide), single_sub_of_mem (y := main_v62) (by decide), single_sub_of_mem (y := main_v63) (by decide), single_sub_of_mem (y := main_v64) (by decide), single_sub_of_mem (y := main_cst) (by decide), single_sub_of_mem (y := main_v65) (by decide), single_sub_of_mem (y := main_cst_11) (by decide), single_sub_of_mem (y := main_v66) (by decide), single_sub_of_mem (y := main_v67) (by decide), single_sub_of_mem (y := main_v68) (by decide), single_sub_of_mem (y := main_cst_12) (by decide), single_sub_of_mem (y := main_v69) (by decide), single_sub_of_mem (y := main_v70) (by decide), single_sub_of_mem (y := main_cst_13) (by decide), single_sub_of_mem (y := main_v71) (by decide), single_sub_of_mem (y := main_v72) (by decide), single_sub_of_mem (y := main_v73) (by decide), single_sub_of_mem (y := main_cst_14) (by decide)⟩

/-- The references `hostOps0_1` writes: each operation's result. -/
abbrev written0_1 : List (Ref sig .tc) :=
  [main_call0_v0, main_call0_v1, main_v74]
/-- Each operation of `hostOps0_1` writes its own result, a listed reference, and nothing else. -/
theorem hostOps0_1_writes : (hostOps0_1 : List (HloOp τ sig (Elt F))).Forall fun op => op.writes ⊆ (written0_1.map (Proc.devRef (τ := τ) .tc)).toFinset :=
  ⟨single_sub_of_mem (y := main_call0_v0) (by decide), single_sub_of_mem (y := main_call0_v1) (by decide), single_sub_of_mem (y := main_v74) (by decide)⟩

/-- The references `hostOps0_2` writes: each operation's result. -/
abbrev written0_2 : List (Ref sig .tc) :=
  [main_c_15, main_v75, main_v76, main_c_16, main_v77, main_v78, main_v79, main_v80, main_v81, main_c_17, main_v82, main_v83, main_c_18, main_v84, main_v85, main_v86, main_v87, main_v88, main_v89, main_cst_19, main_v90, main_v91, main_v92, main_cst_20, main_v93, main_v94, main_c_21, main_v95, main_v96, main_c_22, main_v97, main_v98, main_v99, main_v100, main_v101, main_cst_23, main_v102, main_v103, main_v104, main_v105, main_v106, main_v107, main_v108, main_v109, main_v110, main_v111, main_v112, main_v113, main_v114]
/-- Each operation of `hostOps0_2` writes its own result, a listed reference, and nothing else. -/
theorem hostOps0_2_writes : (hostOps0_2 : List (HloOp τ sig (Elt F))).Forall fun op => op.writes ⊆ (written0_2.map (Proc.devRef (τ := τ) .tc)).toFinset :=
  ⟨single_sub_of_mem (y := main_c_15) (by decide), single_sub_of_mem (y := main_v75) (by decide), single_sub_of_mem (y := main_v76) (by decide), single_sub_of_mem (y := main_c_16) (by decide), single_sub_of_mem (y := main_v77) (by decide), single_sub_of_mem (y := main_v78) (by decide), single_sub_of_mem (y := main_v79) (by decide), single_sub_of_mem (y := main_v80) (by decide), single_sub_of_mem (y := main_v81) (by decide), single_sub_of_mem (y := main_c_17) (by decide), single_sub_of_mem (y := main_v82) (by decide), single_sub_of_mem (y := main_v83) (by decide), single_sub_of_mem (y := main_c_18) (by decide), single_sub_of_mem (y := main_v84) (by decide), single_sub_of_mem (y := main_v85) (by decide), single_sub_of_mem (y := main_v86) (by decide), single_sub_of_mem (y := main_v87) (by decide), single_sub_of_mem (y := main_v88) (by decide), single_sub_of_mem (y := main_v89) (by decide), single_sub_of_mem (y := main_cst_19) (by decide), single_sub_of_mem (y := main_v90) (by decide), single_sub_of_mem (y := main_v91) (by decide), single_sub_of_mem (y := main_v92) (by decide), single_sub_of_mem (y := main_cst_20) (by decide), single_sub_of_mem (y := main_v93) (by decide), single_sub_of_mem (y := main_v94) (by decide), single_sub_of_mem (y := main_c_21) (by decide), single_sub_of_mem (y := main_v95) (by decide), single_sub_of_mem (y := main_v96) (by decide), single_sub_of_mem (y := main_c_22) (by decide), single_sub_of_mem (y := main_v97) (by decide), single_sub_of_mem (y := main_v98) (by decide), single_sub_of_mem (y := main_v99) (by decide), single_sub_of_mem (y := main_v100) (by decide), single_sub_of_mem (y := main_v101) (by decide), single_sub_of_mem (y := main_cst_23) (by decide), single_sub_of_mem (y := main_v102) (by decide), single_sub_of_mem (y := main_v103) (by decide), single_sub_of_mem (y := main_v104) (by decide), single_sub_of_mem (y := main_v105) (by decide), single_sub_of_mem (y := main_v106) (by decide), single_sub_of_mem (y := main_v107) (by decide), single_sub_of_mem (y := main_v108) (by decide), single_sub_of_mem (y := main_v109) (by decide), single_sub_of_mem (y := main_v110) (by decide), single_sub_of_mem (y := main_v111) (by decide), single_sub_of_mem (y := main_v112) (by decide), single_sub_of_mem (y := main_v113) (by decide), single_sub_of_mem (y := main_v114) (by decide)⟩

/-- The references `hostOps1` writes: each operation's result. -/
abbrev written1 : List (Ref sig .tc) :=
  [main_v116, main_c_24, main_v117, main_v118, main_c_25, main_v119, main_v120, main_v121, main_v122, main_v123, main_v124, main_v125, main_v126, main_cst_26, main_v127, main_v128, main_v129, main_v130, main_v131, main_v132, main_v133, main_v134, main_v135, main_v136, main_c_27, main_v137, main_v138, main_c_28, main_v139, main_v140, main_v141, main_v142, main_v143, main_v144, main_v145, main_v146, main_cst_29, main_v147, main_v148, main_v149, main_v150, main_v151, main_v152, main_v153, main_v154, main_v155]
/-- Each operation of `hostOps1` writes its own result, a listed reference, and nothing else. -/
theorem hostOps1_writes : (hostOps1 : List (HloOp τ sig (Elt F))).Forall fun op => op.writes ⊆ (written1.map (Proc.devRef (τ := τ) .tc)).toFinset :=
  ⟨single_sub_of_mem (y := main_v116) (by decide), single_sub_of_mem (y := main_c_24) (by decide), single_sub_of_mem (y := main_v117) (by decide), single_sub_of_mem (y := main_v118) (by decide), single_sub_of_mem (y := main_c_25) (by decide), single_sub_of_mem (y := main_v119) (by decide), single_sub_of_mem (y := main_v120) (by decide), single_sub_of_mem (y := main_v121) (by decide), single_sub_of_mem (y := main_v122) (by decide), single_sub_of_mem (y := main_v123) (by decide), single_sub_of_mem (y := main_v124) (by decide), single_sub_of_mem (y := main_v125) (by decide), single_sub_of_mem (y := main_v126) (by decide), single_sub_of_mem (y := main_cst_26) (by decide), single_sub_of_mem (y := main_v127) (by decide), single_sub_of_mem (y := main_v128) (by decide), single_sub_of_mem (y := main_v129) (by decide), single_sub_of_mem (y := main_v130) (by decide), single_sub_of_mem (y := main_v131) (by decide), single_sub_of_mem (y := main_v132) (by decide), single_sub_of_mem (y := main_v133) (by decide), single_sub_of_mem (y := main_v134) (by decide), single_sub_of_mem (y := main_v135) (by decide), single_sub_of_mem (y := main_v136) (by decide), single_sub_of_mem (y := main_c_27) (by decide), single_sub_of_mem (y := main_v137) (by decide), single_sub_of_mem (y := main_v138) (by decide), single_sub_of_mem (y := main_c_28) (by decide), single_sub_of_mem (y := main_v139) (by decide), single_sub_of_mem (y := main_v140) (by decide), single_sub_of_mem (y := main_v141) (by decide), single_sub_of_mem (y := main_v142) (by decide), single_sub_of_mem (y := main_v143) (by decide), single_sub_of_mem (y := main_v144) (by decide), single_sub_of_mem (y := main_v145) (by decide), single_sub_of_mem (y := main_v146) (by decide), single_sub_of_mem (y := main_cst_29) (by decide), single_sub_of_mem (y := main_v147) (by decide), single_sub_of_mem (y := main_v148) (by decide), single_sub_of_mem (y := main_v149) (by decide), single_sub_of_mem (y := main_v150) (by decide), single_sub_of_mem (y := main_v151) (by decide), single_sub_of_mem (y := main_v152) (by decide), single_sub_of_mem (y := main_v153) (by decide), single_sub_of_mem (y := main_v154) (by decide), single_sub_of_mem (y := main_v155) (by decide)⟩

/-- The references `hostOps2` writes: each operation's result. -/
abbrev written2 : List (Ref sig .tc) :=
  [main_cst_30, main_v157, main_v158]
/-- Each operation of `hostOps2` writes its own result, a listed reference, and nothing else. -/
theorem hostOps2_writes : (hostOps2 : List (HloOp τ sig (Elt F))).Forall fun op => op.writes ⊆ (written2.map (Proc.devRef (τ := τ) .tc)).toFinset :=
  ⟨single_sub_of_mem (y := main_cst_30) (by decide), single_sub_of_mem (y := main_v157) (by decide), single_sub_of_mem (y := main_v158) (by decide)⟩

/-- The references `hostOps3` writes: each operation's result. -/
abbrev written3 : List (Ref sig .tc) :=
  [main_cst_31, main_v160, main_v161, main_v162, main_v163]
/-- Each operation of `hostOps3` writes its own result, a listed reference, and nothing else. -/
theorem hostOps3_writes : (hostOps3 : List (HloOp τ sig (Elt F))).Forall fun op => op.writes ⊆ (written3.map (Proc.devRef (τ := τ) .tc)).toFinset :=
  ⟨single_sub_of_mem (y := main_cst_31) (by decide), single_sub_of_mem (y := main_v160) (by decide), single_sub_of_mem (y := main_v161) (by decide), single_sub_of_mem (y := main_v162) (by decide), single_sub_of_mem (y := main_v163) (by decide)⟩

/-- The arrays region 0's windows stand on. -/
abbrev arrs0 : List (Ref sig .tc) := [main_v60, main_v107, main_v109, main_v113, main_v111, main_v114, main_v115_0, main_v115_1]
theorem arr_mem0 : ∀ w : Fin cfg0.W, Pipeline.arrRef spec0 w ∈ arrs0 := by decide
theorem arr_ne0 {r : Ref sig .tc} (h : r ∉ arrs0) : ∀ w : Fin cfg0.W, Pipeline.arrRef spec0 w ≠ r :=
  fun w e => h (e ▸ arr_mem0 w)

/-- The arrays region 1's windows stand on. -/
abbrev arrs1 : List (Ref sig .tc) := [main_v134, main_v135, main_v154, main_v155, main_v156_0, main_v156_1]
theorem arr_mem1 : ∀ w : Fin cfg1.W, Pipeline.arrRef spec1 w ∈ arrs1 := by decide
theorem arr_ne1 {r : Ref sig .tc} (h : r ∉ arrs1) : ∀ w : Fin cfg1.W, Pipeline.arrRef spec1 w ≠ r :=
  fun w e => h (e ▸ arr_mem1 w)

/-- The arrays region 2's windows stand on. -/
abbrev arrs2 : List (Ref sig .tc) := [main_v156_0, main_v158, main_v159]
theorem arr_mem2 : ∀ w : Fin cfg2.W, Pipeline.arrRef spec2 w ∈ arrs2 := by decide
theorem arr_ne2 {r : Ref sig .tc} (h : r ∉ arrs2) : ∀ w : Fin cfg2.W, Pipeline.arrRef spec2 w ≠ r :=
  fun w e => h (e ▸ arr_mem2 w)

/-- The arrays region 3's windows stand on. -/
abbrev arrs3 : List (Ref sig .tc) := [main_v156_0, main_v158, main_v161, main_v162, main_v163, main_v164]
theorem arr_mem3 : ∀ w : Fin cfg3.W, Pipeline.arrRef spec3 w ∈ arrs3 := by decide
theorem arr_ne3 {r : Ref sig .tc} (h : r ∉ arrs3) : ∀ w : Fin cfg3.W, Pipeline.arrRef spec3 w ≠ r :=
  fun w e => h (e ▸ arr_mem3 w)

/-- A reference no host operation writes and no window stands on holds at the end what it held at launch. -/
theorem kept (c : Dev nD) {r : Ref sig .tc} (h0 : r ∉ written0) (h01 : r ∉ written0_1) (h02 : r ∉ written0_2)
    (h1 : r ∉ written1) (h2 : r ∉ written2) (h3 : r ∉ written3)
    (a0 : r ∉ arrs0) (a1 : r ∉ arrs1) (a2 : r ∉ arrs2) (a3 : r ∉ arrs3) :
    W8 m ρ c (Proc.devRef .tc r) = m ((c : Thread nD τ).loc r) :=
  calc W8 m ρ c (Proc.devRef .tc r)
    _ = W7 m ρ c (Proc.devRef .tc r) := W8_of_ne m ρ c r (arr_ne3 a3)
    _ = W6 m ρ c (Proc.devRef .tc r) := StableHlo.after_of_writes_sub hostOps3 _ hostOps3_writes h3
    _ = W5 m ρ c (Proc.devRef .tc r) := W6_of_ne m ρ c r (arr_ne2 a2)
    _ = W4 m ρ c (Proc.devRef .tc r) := StableHlo.after_of_writes_sub hostOps2 _ hostOps2_writes h2
    _ = W3 m ρ c (Proc.devRef .tc r) := W4_of_ne m ρ c r (arr_ne1 a1)
    _ = W2 m ρ c (Proc.devRef .tc r) := StableHlo.after_of_writes_sub hostOps1 _ hostOps1_writes h1
    _ = W1 m ρ c (Proc.devRef .tc r) := W2_of_ne m ρ c r (arr_ne0 a0)
    _ = W1b m ρ c (Proc.devRef .tc r) := StableHlo.after_of_writes_sub hostOps0_2 _ hostOps0_2_writes h02
    _ = W1a m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

/-! ### The arguments end as launched -/

theorem W8_main_arg0 (c : Dev nD) : W8 m ρ c (Proc.devRef .tc main_arg0) = m ((c : Thread nD τ).loc main_arg0) :=
  kept m ρ c (by decide) (by decide) (by decide) (by decide) (by decide) (by decide) (by decide) (by decide) (by decide) (by decide)
theorem W8_main_arg1 (c : Dev nD) : W8 m ρ c (Proc.devRef .tc main_arg1) = m ((c : Thread nD τ).loc main_arg1) :=
  kept m ρ c (by decide) (by decide) (by decide) (by decide) (by decide) (by decide) (by decide) (by decide) (by decide) (by decide)
theorem W8_main_arg2 (c : Dev nD) : W8 m ρ c (Proc.devRef .tc main_arg2) = m ((c : Thread nD τ).loc main_arg2) :=
  kept m ρ c (by decide) (by decide) (by decide) (by decide) (by decide) (by decide) (by decide) (by decide) (by decide) (by decide)
theorem W8_main_arg3 (c : Dev nD) : W8 m ρ c (Proc.devRef .tc main_arg3) = m ((c : Thread nD τ).loc main_arg3) :=
  kept m ρ c (by decide) (by decide) (by decide) (by decide) (by decide) (by decide) (by decide) (by decide) (by decide) (by decide)
theorem W8_main_arg4 (c : Dev nD) : W8 m ρ c (Proc.devRef .tc main_arg4) = m ((c : Thread nD τ).loc main_arg4) :=
  kept m ρ c (by decide) (by decide) (by decide) (by decide) (by decide) (by decide) (by decide) (by decide) (by decide) (by decide)
theorem W8_main_arg5 (c : Dev nD) : W8 m ρ c (Proc.devRef .tc main_arg5) = m ((c : Thread nD τ).loc main_arg5) :=
  kept m ρ c (by decide) (by decide) (by decide) (by decide) (by decide) (by decide) (by decide) (by decide) (by decide) (by decide)
theorem W8_main_arg6 (c : Dev nD) : W8 m ρ c (Proc.devRef .tc main_arg6) = m ((c : Thread nD τ).loc main_arg6) :=
  kept m ρ c (by decide) (by decide) (by decide) (by decide) (by decide) (by decide) (by decide) (by decide) (by decide) (by decide)
theorem W8_main_arg7 (c : Dev nD) : W8 m ρ c (Proc.devRef .tc main_arg7) = m ((c : Thread nD τ).loc main_arg7) :=
  kept m ρ c (by decide) (by decide) (by decide) (by decide) (by decide) (by decide) (by decide) (by decide) (by decide) (by decide)
theorem W8_main_arg8 (c : Dev nD) : W8 m ρ c (Proc.devRef .tc main_arg8) = m ((c : Thread nD τ).loc main_arg8) :=
  kept m ρ c (by decide) (by decide) (by decide) (by decide) (by decide) (by decide) (by decide) (by decide) (by decide) (by decide)
theorem W8_main_arg9 (c : Dev nD) : W8 m ρ c (Proc.devRef .tc main_arg9) = m ((c : Thread nD τ).loc main_arg9) :=
  kept m ρ c (by decide) (by decide) (by decide) (by decide) (by decide) (by decide) (by decide) (by decide) (by decide) (by decide)
theorem W8_main_arg10 (c : Dev nD) : W8 m ρ c (Proc.devRef .tc main_arg10) = m ((c : Thread nD τ).loc main_arg10) :=
  kept m ρ c (by decide) (by decide) (by decide) (by decide) (by decide) (by decide) (by decide) (by decide) (by decide) (by decide)
theorem W8_main_arg11 (c : Dev nD) : W8 m ρ c (Proc.devRef .tc main_arg11) = m ((c : Thread nD τ).loc main_arg11) :=
  kept m ρ c (by decide) (by decide) (by decide) (by decide) (by decide) (by decide) (by decide) (by decide) (by decide) (by decide)
theorem W8_main_arg12 (c : Dev nD) : W8 m ρ c (Proc.devRef .tc main_arg12) = m ((c : Thread nD τ).loc main_arg12) :=
  kept m ρ c (by decide) (by decide) (by decide) (by decide) (by decide) (by decide) (by decide) (by decide) (by decide) (by decide)
theorem W8_main_arg13 (c : Dev nD) : W8 m ρ c (Proc.devRef .tc main_arg13) = m ((c : Thread nD τ).loc main_arg13) :=
  kept m ρ c (by decide) (by decide) (by decide) (by decide) (by decide) (by decide) (by decide) (by decide) (by decide) (by decide)
theorem W8_main_arg14 (c : Dev nD) : W8 m ρ c (Proc.devRef .tc main_arg14) = m ((c : Thread nD τ).loc main_arg14) :=
  kept m ρ c (by decide) (by decide) (by decide) (by decide) (by decide) (by decide) (by decide) (by decide) (by decide) (by decide)
theorem W8_main_arg15 (c : Dev nD) : W8 m ρ c (Proc.devRef .tc main_arg15) = m ((c : Thread nD τ).loc main_arg15) :=
  kept m ρ c (by decide) (by decide) (by decide) (by decide) (by decide) (by decide) (by decide) (by decide) (by decide) (by decide)
theorem W8_main_arg16 (c : Dev nD) : W8 m ρ c (Proc.devRef .tc main_arg16) = m ((c : Thread nD τ).loc main_arg16) :=
  kept m ρ c (by decide) (by decide) (by decide) (by decide) (by decide) (by decide) (by decide) (by decide) (by decide) (by decide)
theorem W8_main_arg17 (c : Dev nD) : W8 m ρ c (Proc.devRef .tc main_arg17) = m ((c : Thread nD τ).loc main_arg17) :=
  kept m ρ c (by decide) (by decide) (by decide) (by decide) (by decide) (by decide) (by decide) (by decide) (by decide) (by decide)
theorem W8_main_arg18 (c : Dev nD) : W8 m ρ c (Proc.devRef .tc main_arg18) = m ((c : Thread nD τ).loc main_arg18) :=
  kept m ρ c (by decide) (by decide) (by decide) (by decide) (by decide) (by decide) (by decide) (by decide) (by decide) (by decide)

end Cert.KernelIdeal.Frame

end
-- ==== Proof.KRun.lean ====
/-
  The run of the kernel program's @main: the segments in @main's order, @main as their run, the launch over them —
  every weakly fair execution terminates without a fault with every unscoped buffer at the last boundary's contents —
  and from it the argument arrays as launched and the result array at the last region's exit contents.
-/
import proofs.«159553_j62680752718518_1_alg».proof.Proof.KSegs
import proofs.«159553_j62680752718518_1_alg».proof.Proof.KKept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 10 segments in order: a host segment per list of host operations from its boundary's contents, a region
    per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1a m ρ)),
    .host (hseg hostOps0_2 hostOps0_2_sub hostOps0_2_fresh (W1b m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- A final memory with every unscoped buffer at the last boundary's contents has the argument arrays as launched. -/
theorem args_kept {mem : (ℓ : Loc nD τ sig) → Buf (Elt F) ℓ}
    (h : ∀ c : Dev nD, ∀ b ∈ Pipeline.ucRefs τ sig, mem (((c : Thread nD τ)).1, b) = W8 m ρ c b) (c : Dev nD) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)
    ∧ mem ((c.tc : Thread nD τ).loc main_arg18) = m ((c.tc : Thread nD τ).loc main_arg18) :=
  ⟨(h c _ (mem_uc main_arg0 (by decide))).trans (W8_main_arg0 m ρ c),
   (h c _ (mem_uc main_arg1 (by decide))).trans (W8_main_arg1 m ρ c),
   (h c _ (mem_uc main_arg2 (by decide))).trans (W8_main_arg2 m ρ c),
   (h c _ (mem_uc main_arg3 (by decide))).trans (W8_main_arg3 m ρ c),
   (h c _ (mem_uc main_arg4 (by decide))).trans (W8_main_arg4 m ρ c),
   (h c _ (mem_uc main_arg5 (by decide))).trans (W8_main_arg5 m ρ c),
   (h c _ (mem_uc main_arg6 (by decide))).trans (W8_main_arg6 m ρ c),
   (h c _ (mem_uc main_arg7 (by decide))).trans (W8_main_arg7 m ρ c),
   (h c _ (mem_uc main_arg8 (by decide))).trans (W8_main_arg8 m ρ c),
   (h c _ (mem_uc main_arg9 (by decide))).trans (W8_main_arg9 m ρ c),
   (h c _ (mem_uc main_arg10 (by decide))).trans (W8_main_arg10 m ρ c),
   (h c _ (mem_uc main_arg11 (by decide))).trans (W8_main_arg11 m ρ c),
   (h c _ (mem_uc main_arg12 (by decide))).trans (W8_main_arg12 m ρ c),
   (h c _ (mem_uc main_arg13 (by decide))).trans (W8_main_arg13 m ρ c),
   (h c _ (mem_uc main_arg14 (by decide))).trans (W8_main_arg14 m ρ c),
   (h c _ (mem_uc main_arg15 (by decide))).trans (W8_main_arg15 m ρ c),
   (h c _ (mem_uc main_arg16 (by decide))).trans (W8_main_arg16 m ρ c),
   (h c _ (mem_uc main_arg17 (by decide))).trans (W8_main_arg17 m ρ c),
   (h c _ (mem_uc main_arg18 (by decide))).trans (W8_main_arg18 m ρ c)⟩

/-- THE FRAME, at any `F`: at the compiled mesh, from any memory with zero counters, every weakly fair execution of
    @main on the TensorCores terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m ρ h c) (run_main m ρ)

/-- The same run, with the result array at the last region's exit contents beside the arguments as launched. -/
theorem run_value : θ_run defs (onTc (τ := τ) (main (F := F))) ⟨m, fun _ => 0, ρ⟩ (fun r => ∀ c : Dev nD,
      r.2.mem ((c.tc : Thread nD τ).loc main_v164) = W8 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v164 (by decide)), args_kept m ρ h c⟩) (run_main m ρ)

/-- info: 'Cert.KernelIdeal.Frame.frame' depends on axioms: [propext, Classical.choice, Quot.sound] -/
#guard_msgs in #print axioms frame

end Cert.KernelIdeal.Frame

end
-- ==== Proof.KB0.lean ====
/-
  Region 0 of the kernel program's @main (the three matrix products: 8 windows, 6 read and 2 written), at the buffer contents `V` the region is entered with.
  Per grid point: each window's block read off its array; what the body leaves in every window's staging buffer
  (an input's block unchanged, an output's the body's stores over the input blocks); the body's triple; the
  pipeline's proof data and its obligation at every point.
-/
import proofs.«159553_j62680752718518_1_alg».proof.Proof.Gen.Kernel.Launch
import proofs.«159553_j62680752718518_1_alg».proof.Proof.Gen.Kernel.Skeleton
import proofs.«159553_j62680752718518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4000x85 := Rect.unit (s := S4000x85) ![0, 0] S4000x85.size inb_S4000x85_S4000x85_0_0
abbrev r0_1 : Rect S4000x64 := Rect.unit (s := S4000x64) ![0, 0] S4000x64.size inb_S4000x64_S4000x64_0_0
abbrev r0_2 : Rect S85x256 := Rect.unit (s := S85x256) ![0, 0] S85x256.size inb_S85x256_S85x256_0_0
abbrev r0_3 : Rect S64x256 := Rect.unit (s := S64x256) ![0, 0] S64x256.size inb_S64x256_S64x256_0_0
abbrev r0_4 : Rect S1x256 := Rect.unit (s := S1x256) ![0, 0] S1x256.size inb_S1x256_S1x256_0_0
abbrev r0_5 : Rect S4000x256 := Rect.unit (s := S4000x256) ![0, 0] S4000x256.size inb_S4000x256_S4000x256_0_0

/-! ## What the body leaves in each output window's buffer -/

/-- Window 6's staging buffer after the body, from the input windows' blocks: its one store of the whole block. -/
def out0_6 (x0 : Vec F S4000x85 .f32) (x2 : Vec F S85x256 .f32) : Vec F S4000x256 .f32 :=
  View.canon [⟨r0_5, k0_pay2 (View.ld x0 r0_0) (View.ld x2 r0_2)⟩]

/-- The one store tiles the buffer, so it covers it. -/
theorem cover0_6 (p0 : Vec F S4000x256 .f32) (y : S4000x256.Idx) :
    ∃ pc ∈ ([⟨r0_5, p0⟩] : List (View.Piece (Elt F) S4000x256 .f32)), y ∈ pc.1.set :=
  View.cover_of_tiled [⟨r0_5, p0⟩] S4000x256.size (by rfl) y

/-- Window 7's staging buffer after the body, from the input windows' blocks: its one store of the whole block. -/
def out0_7 (x0 : Vec F S4000x85 .f32) (x1 : Vec F S4000x64 .f32) (x3 : Vec F S64x256 .f32) (x4 : Vec F S85x256 .f32) (x5 : Vec F S1x256 .f32) : Vec F S4000x256 .f32 :=
  View.canon [⟨r0_5, k0_pay3 (View.ld x0 r0_0) (View.ld x1 r0_1) (View.ld x3 r0_3) (View.ld x4 r0_2) (View.ld x5 r0_4)⟩]

/-- The one store tiles the buffer, so it covers it. -/
theorem cover0_7 (p0 : Vec F S4000x256 .f32) (y : S4000x256.Idx) :
    ∃ pc ∈ ([⟨r0_5, p0⟩] : List (View.Piece (Elt F) S4000x256 .f32)), y ∈ pc.1.set :=
  View.cover_of_tiled [⟨r0_5, p0⟩] S4000x256.size (by rfl) y

/-! ## The body's triple -/

set_option maxHeartbeats 1000000 in
/-- The kernel body on whole staging memrefs, the inputs' at read contents and the outputs' at anything, runs to
    the continuation holding the inputs' as they were and each output's at `out0_W` of the inputs'. -/
theorem sound_kernel0 (c : Dev nD) (E : Set ℕ) (i : grid0.Coords) (arg0 : Memref sig .tc .vmem S4000x85 .f32) (harg0 : arg0.IsWhole) (arg1 : Memref sig .tc .vmem S4000x64 .f32) (harg1 : arg1.IsWhole) (arg2 : Memref sig .tc .vmem S85x256 .f32) (harg2 : arg2.IsWhole) (arg3 : Memref sig .tc .vmem S64x256 .f32) (harg3 : arg3.IsWhole) (arg4 : Memref sig .tc .vmem S85x256 .f32) (harg4 : arg4.IsWhole) (arg5 : Memref sig .tc .vmem S1x256 .f32) (harg5 : arg5.IsWhole) (arg6 : Memref sig .tc .vmem S4000x256 .f32) (harg6 : arg6.IsWhole) (arg7 : Memref sig .tc .vmem S4000x256 .f32) (harg7 : arg7.IsWhole)
    (x0 : Vec F S4000x85 .f32) (x1 : Vec F S4000x64 .f32) (x2 : Vec F S85x256 .f32) (x3 : Vec F S64x256 .f32) (x4 : Vec F S85x256 .f32) (x5 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out0_6 x0 x2) ∗ owns (c : Thread nD τ) arg7 fullShare (out0_7 x0 x1 x3 x4 x5)) -∗ K ⟨⟩))
      ⊢ wp frame (wpE (defs₀ (F := F)) Variants.none c none) E (cc0__mm_kernel i arg0 harg0 arg1 harg1 arg2 harg2 arg3 harg3 arg4 harg4 arg5 harg5 arg6 harg6 arg7 harg7) K := by
  simp only [cc0__mm_kernel_eq_skeleton]; unfold cc0__mm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of the pipeline on core `c`: the arrays as the region finds them; after the body at point `t`
    each input's buffer at its block and each output's at `out0_W` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t)
    | ⟨7, _⟩ => out0_7 (iblk0 V c 0 t) (iblk0 V c 1 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 1 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KB1.lean ====
/-
  Region 1 of the kernel program's @main (the leaky-relu sum and its running column sum: 6 windows, 4 read and 2 written), at the buffer contents `V` the region is entered with.
  Per grid point: each window's block read off its array; what the body leaves in every window's staging buffer
  (an input's block unchanged, an output's the body's stores over the input blocks); the body's triple; the
  pipeline's proof data and its obligation at every point.
-/
import proofs.«159553_j62680752718518_1_alg».proof.Proof.Gen.Kernel.Launch
import proofs.«159553_j62680752718518_1_alg».proof.Proof.Gen.Kernel.Skeleton
import proofs.«159553_j62680752718518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_b : Rect S4000x128 := Rect.unit (s := S4000x128) ![0, 0] S4000x128.size inb_S4000x128_S4000x128_0_0
abbrev r1_s : Rect S1x128 := Rect.unit (s := S1x128) ![0, 0] S1x128.size inb_S1x128_S1x128_0_0

/-- The branch condition of the body: the first grid coordinate is zero. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val = 0 :=
  (by decide +kernel : ∀ t : Fin grid1.N, cond1 (grid1.coords t) ↔ t.val = 0)

/-- The zero row. -/
def zero1 : Vec F S1x128 .f32 := View.canon [⟨r1_s, k1_pay1 (F := F)⟩]

/-- The tile the body leaves: the sum of the two leaky rectifications, from the four input tiles. -/
def out1_4 (x0 x1 x2 x3 : Vec F S4000x128 .f32) : Vec F S4000x128 .f32 :=
  View.canon [⟨r1_b, k1_pay2 (View.ld x0 r1_b) (View.ld x1 r1_b) (View.ld x2 r1_b) (View.ld x3 r1_b)⟩]

/-- One point's running sum: the row of column sums of that tile, added to the sum so far. -/
def step1 (x0 x1 x2 x3 : Vec F S4000x128 .f32) (a : Vec F S1x128 .f32) : Vec F S1x128 .f32 :=
  View.canon [⟨r1_s, k1_pay3 (View.ld x0 r1_b) (View.ld x1 r1_b) (View.ld x2 r1_b) (View.ld x3 r1_b) (View.ld a r1_s)⟩]

theorem cover1_b (p0 : Vec F S4000x128 .f32) (y : S4000x128.Idx) :
    ∃ pc ∈ ([⟨r1_b, p0⟩] : List (View.Piece (Elt F) S4000x128 .f32)), y ∈ pc.1.set :=
  View.cover_of_tiled [⟨r1_b, p0⟩] S4000x128.size (by rfl) y

theorem cover1_s (p0 : Vec F S1x128 .f32) (y : S1x128.Idx) :
    ∃ pc ∈ ([⟨r1_s, p0⟩] : List (View.Piece (Elt F) S1x128 .f32)), y ∈ pc.1.set :=
  View.cover_of_tiled [⟨r1_s, p0⟩] S1x128.size (by rfl) y

/-- Every index lies in the whole-row rectangle. -/
theorem mem_r1_s (p0 : Vec F S1x128 .f32) (y : S1x128.Idx) : y ∈ (r1_s).set := by
  obtain ⟨pc, hm, hy⟩ := cover1_s p0 y
  rw [List.mem_singleton] at hm; subst hm; exact hy

theorem cover1_s' (p0 : Vec F S1x128 .f32) (L : List (View.Piece (Elt F) S1x128 .f32)) (y : S1x128.Idx) :
    ∃ pc ∈ (⟨r1_s, p0⟩ :: L), y ∈ pc.1.set :=
  ⟨_, List.mem_cons_self .., mem_r1_s p0 y⟩

/-- A store of the whole row hides the stores before it. -/
theorem canon1_s (p0 : Vec F S1x128 .f32) (L : List (View.Piece (Elt F) S1x128 .f32)) :
    View.canon (⟨r1_s, p0⟩ :: L) = View.canon [⟨r1_s, p0⟩] := by
  funext y
  obtain ⟨x, rfl⟩ : ∃ x, (r1_s).emb x = y := (r1_s).exists_idx_of_mem (mem_r1_s p0 y)
  rw [View.canon_cons_emb, View.canon_cons_emb]

set_option maxHeartbeats 2000000 in
/-- The body at a later point: the tile is stored, and the running sum it finds is added to. -/
theorem sound_kernel1_B (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S1x128 .f32) (harg6 : arg6.IsWhole) (hc : ¬cond1 i)
    (x0 x1 x2 x3 : Vec F S4000x128 .f32) (a : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare a
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (step1 x0 x1 x2 x3 a)) -∗ K ⟨⟩))
      ⊢ wp frame (wpE (defs₀ (F := F)) Variants.none c none) E (cc1__lr_kernel i arg1 harg1 arg2 harg2 arg3 harg3 arg4 harg4 arg5 harg5 arg6 harg6) K := by
  simp only [cc1__lr_kernel_eq_skeleton]; unfold cc1__lr_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0; subst hf1; subst hf2; subst hf3; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold out1_4
    exact View.read_writes_eq_canon _ _ _ (cover1_b _)
  iexists _; isplitr
  swap; · iexact H5
  ipureintro
  unfold step1
  exact View.read_writes_eq_canon _ _ _ (cover1_s _)

set_option maxHeartbeats 2000000 in
/-- The body at the first point: the row is zeroed, the tile stored, the row added to. -/
theorem sound_kernel1_A (c : Dev nD) (E : Set ℕ) (i : grid1.Coords)
    (arg1 : Memref sig .tc .vmem S4000x128 .f32) (harg1 : arg1.IsWhole) (arg2 : Memref sig .tc .vmem S4000x128 .f32) (harg2 : arg2.IsWhole)
    (arg3 : Memref sig .tc .vmem S4000x128 .f32) (harg3 : arg3.IsWhole) (arg4 : Memref sig .tc .vmem S4000x128 .f32) (harg4 : arg4.IsWhole)
    (arg5 : Memref sig .tc .vmem S4000x128 .f32) (harg5 : arg5.IsWhole) (arg6 : Memref sig .tc .vmem S1x128 .f32) (harg6 : arg6.IsWhole) (hc : cond1 i)
    (x0 x1 x2 x3 : Vec F S4000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 x0 x1 x2 x3) ∗ owns (c : Thread nD τ) arg6 fullShare (step1 x0 x1 x2 x3 zero1)) -∗ K ⟨⟩))
      ⊢ wp frame (wpE (defs₀ (F := F)) Variants.none c none) E (cc1__lr_kernel i arg1 harg1 arg2 harg2 arg3 harg3 arg4 harg4 arg5 harg5 arg6 harg6) K := by
  simp only [cc1__lr_kernel_eq_skeleton]; unfold cc1__lr_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold out1_4
    exact View.read_writes_eq_canon _ _ _ (cover1_b _)
  iexists _; isplitr
  swap; · iexact H5
  ipureintro
  unfold step1 zero1
  sl_unfold_words
  rw [View.readCov_eq_canon_ld _ _ _ (cover1_s _), View.read_writes_eq_canon _ _ _ (cover1_s' _ _), canon1_s]
  rfl

/-! ## What the accumulator holds after each point -/

/-- The running sum after point `n`: the first point adds its tile's row to the zero row, each later point to what the point before left. -/
def acc1 (c : Dev nD) : (n : ℕ) → n < cfg1.N → Vec F S1x128 .f32
  | 0, h => step1 (iblk1 V c 0 ⟨0, h⟩) (iblk1 V c 1 ⟨0, h⟩) (iblk1 V c 2 ⟨0, h⟩) (iblk1 V c 3 ⟨0, h⟩) zero1
  | n + 1, h => step1 (iblk1 V c 0 ⟨n + 1, h⟩) (iblk1 V c 1 ⟨n + 1, h⟩) (iblk1 V c 2 ⟨n + 1, h⟩) (iblk1 V c 3 ⟨n + 1, h⟩) (acc1 c n (Nat.lt_of_succ_lt h))

theorem acc1_zero (c : Dev nD) (h : 0 < cfg1.N) :
    acc1 V c 0 h = step1 (iblk1 V c 0 ⟨0, h⟩) (iblk1 V c 1 ⟨0, h⟩) (iblk1 V c 2 ⟨0, h⟩) (iblk1 V c 3 ⟨0, h⟩) zero1 := rfl

theorem acc1_succ (c : Dev nD) (n : ℕ) (h : n + 1 < cfg1.N) :
    acc1 V c (n + 1) h = step1 (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)) := rfl

theorem acc1_first (c : Dev nD) (t : Fin cfg1.N) (h0 : t.val = 0) :
    acc1 V c t.val t.isLt = step1 (iblk1 V c 0 t) (iblk1 V c 1 t) (iblk1 V c 2 t) (iblk1 V c 3 t) zero1 := by
  obtain ⟨n, hn⟩ := t
  cases n with
  | zero => exact rfl
  | succ n => exact absurd h0 (Nat.succ_ne_zero n)

theorem acc1_later (c : Dev nD) (t : Fin cfg1.N) (h0 : t.val ≠ 0) :
    acc1 V c t.val t.isLt = step1 (iblk1 V c 0 t) (iblk1 V c 1 t) (iblk1 V c 2 t) (iblk1 V c 3 t) (acc1 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the region on core `c`: the arrays as the region finds them; after the body at point `t` each
    input's buffer at its block, the tile window's at the tile computed from the four input blocks and the
    accumulator's at the running sum; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the accumulator's staging buffer holds what the body left at the point before: it is written
    back at the last point only, the window live and uncut. -/
theorem before1_5_later (c : Dev nD) (t : Fin cfg1.N) (h0 : t.val ≠ 0) (d) :
    (dat1 V c).before 5 t d = acc1 V c (t.val - 1) (Nat.lt_of_le_of_lt (Nat.sub_le _ _) t.isLt) := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    (fun _ => rfl) (fun _ _ => rfl)]
  dsimp only [dat1]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point: the inputs' memrefs hold their blocks, the tile window's anything; at the first point the
    branch is taken and the accumulator's buffer may hold anything, at a later one it is not and the buffer holds the sum so far. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc1_first V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ ((hcond1 t).mpr h0) (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_later V c t h0]
    simp only [before1_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ (fun h => h0 ((hcond1 t).mp h)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KB2.lean ====
/-
  Region 2 of the kernel program's @main (the running centred sum of squares: 3 windows, 2 read and 1 written), at the buffer contents `V` the region is entered with.
  Per grid point: each window's block read off its array; what the body leaves in every window's staging buffer
  (an input's block unchanged, an output's the body's stores over the input blocks); the body's triple; the
  pipeline's proof data and its obligation at every point.
-/
import proofs.«159553_j62680752718518_1_alg».proof.Proof.Gen.Kernel.Launch
import proofs.«159553_j62680752718518_1_alg».proof.Proof.Gen.Kernel.Skeleton
import proofs.«159553_j62680752718518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_b : Rect S4000x128 := Rect.unit (s := S4000x128) ![0, 0] S4000x128.size inb_S4000x128_S4000x128_0_0
abbrev r2_s : Rect S1x128 := Rect.unit (s := S1x128) ![0, 0] S1x128.size inb_S1x128_S1x128_0_0

/-- The branch condition of the body: the first grid coordinate is zero. -/
abbrev cond2 (i : grid2.Coords) : Prop := (Scalar.cmpi .ne (Scalar.extui (Scalar.cmpi .eq (BitVec.ofNat 32 (i 0).val) 0#32)) 0#32) = 1#1
/-- It holds at the first point only. -/
theorem hcond2 : ∀ t : Fin cfg2.N, cond2 (grid2.coords t) ↔ t.val = 0 :=
  (by decide +kernel : ∀ t : Fin grid2.N, cond2 (grid2.coords t) ↔ t.val = 0)

/-- The zero row. -/
def zero2 : Vec F S1x128 .f32 := View.canon [⟨r2_s, k2_pay1 (F := F)⟩]

/-- One point's running sum: the row of column sums of the centred squares of the tile, added to the sum so far. -/
def step2 (x0 : Vec F S4000x128 .f32) (x1 : Vec F S1x128 .f32) (a : Vec F S1x128 .f32) : Vec F S1x128 .f32 :=
  View.canon [⟨r2_s, k2_pay2 (View.ld x0 r2_b) (View.ld x1 r2_s) (View.ld a r2_s)⟩]

theorem cover2_s (p0 : Vec F S1x128 .f32) (y : S1x128.Idx) :
    ∃ pc ∈ ([⟨r2_s, p0⟩] : List (View.Piece (Elt F) S1x128 .f32)), y ∈ pc.1.set :=
  View.cover_of_tiled [⟨r2_s, p0⟩] S1x128.size (by rfl) y

set_option maxHeartbeats 1000000 in
/-- The body at a later point: the running sum it finds is added to. -/
theorem sound_kernel2_B (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (hc : ¬cond2 i)
    (x0 : Vec F S4000x128 .f32) (x1 : Vec F S1x128 .f32) (a : Vec F S1x128 .f32) (K : PUnit → sProp 𝕄) :
    iprop(owns (c : Thread nD τ) arg1 fullShare x0 ∗ owns (c : Thread nD τ) arg2 fullShare x1 ∗ owns (c : Thread nD τ) arg3 fullShare a
        ∗ (iprop(owns (c : Thread nD τ) arg1 fullShare x0 ∗ owns (c : Thread nD τ) arg2 fullShare x1 ∗ owns (c : Thread nD τ) arg3 fullShare (step2 x0 x1 a)) -∗ K ⟨⟩))
      ⊢ wp frame (wpE (defs₀ (F := F)) Variants.none c none) E (cc2__var_kernel i arg1 harg1 arg2 harg2 arg3 harg3) K := by
  simp only [cc2__var_kernel_eq_skeleton]; unfold cc2__var_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  unfold step2
  exact View.read_writes_eq_canon _ _ _ (cover2_s _)

/-- Every index lies in the whole-row rectangle. -/
theorem mem_r2_s (p0 : Vec F S1x128 .f32) (y : S1x128.Idx) : y ∈ (r2_s).set := by
  obtain ⟨pc, hm, hy⟩ := cover2_s p0 y
  rw [List.mem_singleton] at hm; subst hm; exact hy

theorem cover2_s' (p0 : Vec F S1x128 .f32) (L : List (View.Piece (Elt F) S1x128 .f32)) (y : S1x128.Idx) :
    ∃ pc ∈ (⟨r2_s, p0⟩ :: L), y ∈ pc.1.set :=
  ⟨_, List.mem_cons_self .., mem_r2_s p0 y⟩

/-- A store of the whole row hides the stores before it. -/
theorem canon2_s (p0 : Vec F S1x128 .f32) (L : List (View.Piece (Elt F) S1x128 .f32)) :
    View.canon (⟨r2_s, p0⟩ :: L) = View.canon [⟨r2_s, p0⟩] := by
  funext y
  obtain ⟨x, rfl⟩ : ∃ x, (r2_s).emb x = y := (r2_s).exists_idx_of_mem (mem_r2_s p0 y)
  rw [View.canon_cons_emb, View.canon_cons_emb]

set_option maxHeartbeats 1000000 in
/-- The body at the first point: the row is zeroed, then added to. -/
theorem sound_kernel2_A (c : Dev nD) (E : Set ℕ) (i : grid2.Coords)
    (arg1 : Memref sig .tc .vmem S4000x128 .f32) (harg1 : arg1.IsWhole) (arg2 : Memref sig .tc .vmem S1x128 .f32) (harg2 : arg2.IsWhole)
    (arg3 : Memref sig .tc .vmem S1x128 .f32) (harg3 : arg3.IsWhole) (hc : cond2 i)
    (x0 : Vec F S4000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (step2 x0 x1 zero2)) -∗ K ⟨⟩))
      ⊢ wp frame (wpE (defs₀ (F := F)) Variants.none c none) E (cc2__var_kernel i arg1 harg1 arg2 harg2 arg3 harg3) K := by
  simp only [cc2__var_kernel_eq_skeleton]; unfold cc2__var_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  unfold step2 zero2
  sl_unfold_words
  rw [View.readCov_eq_canon_ld _ _ _ (cover2_s _), View.read_writes_eq_canon _ _ _ (cover2_s' _ _), canon2_s]
  rfl

/-! ## What the accumulator holds after each point -/

/-- The running sum after point `n`: the first point adds its tile's row to the zero row, each later point to what the point before left. -/
def acc2 (c : Dev nD) : (n : ℕ) → n < cfg2.N → Vec F S1x128 .f32
  | 0, h => step2 (iblk2 V c 0 ⟨0, h⟩) (iblk2 V c 1 ⟨0, h⟩) zero2
  | n + 1, h => step2 (iblk2 V c 0 ⟨n + 1, h⟩) (iblk2 V c 1 ⟨n + 1, h⟩) (acc2 c n (Nat.lt_of_succ_lt h))

theorem acc2_zero (c : Dev nD) (h : 0 < cfg2.N) :
    acc2 V c 0 h = step2 (iblk2 V c 0 ⟨0, h⟩) (iblk2 V c 1 ⟨0, h⟩) zero2 := rfl

theorem acc2_succ (c : Dev nD) (n : ℕ) (h : n + 1 < cfg2.N) :
    acc2 V c (n + 1) h = step2 (iblk2 V c 0 ⟨n + 1, h⟩) (iblk2 V c 1 ⟨n + 1, h⟩) (acc2 V c n (Nat.lt_of_succ_lt h)) := rfl

theorem acc2_first (c : Dev nD) (t : Fin cfg2.N) (h0 : t.val = 0) :
    acc2 V c t.val t.isLt = step2 (iblk2 V c 0 t) (iblk2 V c 1 t) zero2 := by
  obtain ⟨n, hn⟩ := t
  cases n with
  | zero => exact rfl
  | succ n => exact absurd h0 (Nat.succ_ne_zero n)

theorem acc2_later (c : Dev nD) (t : Fin cfg2.N) (h0 : t.val ≠ 0) :
    acc2 V c t.val t.isLt = step2 (iblk2 V c 0 t) (iblk2 V c 1 t) (acc2 V c (t.val - 1) (Nat.lt_of_le_of_lt (Nat.sub_le _ _) t.isLt)) := by
  obtain ⟨n, hn⟩ := t
  cases n with
  | zero => exact absurd rfl h0
  | succ n => exact rfl

/-! ## The pipeline's proof data -/

/-- The proof data of the region on core `c`: the arrays as the region finds them; after the body at point `t` each
    input's buffer at its block and the accumulator's at the running sum; the scoped rest and the generator register
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- At a later point the accumulator's staging buffer holds what the body left at the point before: it is written
    back at the last point only, the window live and uncut. -/
theorem before2_2_later (c : Dev nD) (t : Fin cfg2.N) (h0 : t.val ≠ 0) (d) :
    (dat2 V c).before 2 t d = acc2 V c (t.val - 1) (Nat.lt_of_le_of_lt (Nat.sub_le _ _) t.isLt) := by
  have hN : t.val < 25 := lt_of_lt_of_eq t.isLt (show cfg2.N = 25 from N_2)
  rw [Dat.before_out_kept _ 2 rfl t h0 (Bool.eq_false_iff.mpr fun h => by have := (flush2_2 _).mp h; dsimp only at this; omega)
    (fun _ => rfl) (fun _ _ => rfl)]
  dsimp only [dat2]

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

set_option maxHeartbeats 800000 in
/-- The body at any point: the inputs' memrefs hold their blocks; at the first point the branch is taken and the
    accumulator's buffer may hold anything, at a later one it is not and the buffer holds the sum so far. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  by_cases h0 : t.val = 0
  · rw [acc2_first V c t h0]
    iintro ⟨HΦ, Ho, ⟨%d0, H0⟩, ⟨%d1, H1⟩, ⟨%d2, H2⟩⟩
    iapply (sound_kernel2_A c Set.univ (grid2.coords t) _ _ _ _ _ _ ((hcond2 t).mpr h0) (iblk2 V c 0 t) (iblk2 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc2_later V c t h0]
    simp only [before2_2_later V c t h0]
    iintro ⟨HΦ, Ho, ⟨%d0, H0⟩, ⟨%d1, H1⟩, ⟨%d2, H2⟩⟩
    iapply (sound_kernel2_B c Set.univ (grid2.coords t) _ _ _ _ _ _ (fun h => h0 ((hcond2 t).mp h)) (iblk2 V c 0 t) (iblk2 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KB3.lean ====
/-
  Region 3 of the kernel program's @main (the normalisation: 6 windows, 5 read and 1 written), at the buffer contents `V` the region is entered with.
  Per grid point: each window's block read off its array; what the body leaves in every window's staging buffer
  (an input's block unchanged, an output's the body's stores over the input blocks); the body's triple; the
  pipeline's proof data and its obligation at every point.
-/
import proofs.«159553_j62680752718518_1_alg».proof.Proof.Gen.Kernel.Launch
import proofs.«159553_j62680752718518_1_alg».proof.Proof.Gen.Kernel.Skeleton
import proofs.«159553_j62680752718518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4000x128 := Rect.unit (s := S4000x128) ![0, 0] S4000x128.size inb_S4000x128_S4000x128_0_0
abbrev r3_1 : Rect S1x128 := Rect.unit (s := S1x128) ![0, 0] S1x128.size inb_S1x128_S1x128_0_0

/-! ## What the body leaves in each output window's buffer -/

/-- Window 5's staging buffer after the body, from the input windows' blocks: its one store of the whole block. -/
def out3_5 (x0 : Vec F S4000x128 .f32) (x1 : Vec F S1x128 .f32) (x2 : Vec F S1x128 .f32) (x3 : Vec F S1x128 .f32) (x4 : Vec F S1x128 .f32) : Vec F S4000x128 .f32 :=
  View.canon [⟨r3_0, k3_pay1 (View.ld x0 r3_0) (View.ld x2 r3_1) (View.ld x1 r3_1) (View.ld x3 r3_1) (View.ld x4 r3_1)⟩]

/-- The one store tiles the buffer, so it covers it. -/
theorem cover3_5 (p0 : Vec F S4000x128 .f32) (y : S4000x128.Idx) :
    ∃ pc ∈ ([⟨r3_0, p0⟩] : List (View.Piece (Elt F) S4000x128 .f32)), y ∈ pc.1.set :=
  View.cover_of_tiled [⟨r3_0, p0⟩] S4000x128.size (by rfl) y

/-! ## The body's triple -/

/-- The kernel body on whole staging memrefs, the inputs' at read contents and the outputs' at anything, runs to
    the continuation holding the inputs' as they were and each output's at `out3_W` of the inputs'. -/
theorem sound_kernel3 (c : Dev nD) (E : Set ℕ) (i : grid3.Coords) (arg0 : Memref sig .tc .vmem S4000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4000x128 .f32) (harg5 : arg5.IsWhole)
    (x0 : Vec F S4000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__bn_kernel i arg0 harg0 arg1 harg1 arg2 harg2 arg3 harg3 arg4 harg4 arg5 harg5) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the pipeline on core `c`: the arrays as the region finds them; after the body at point `t`
    each input's buffer at its block and each output's at `out3_W` of the input blocks; the scoped rest and the
    generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KBFold.lean ====
/-
  The buffer contents at every boundary of the kernel program's @main: a fold from the launch memory through the
  host stretches (each the fold of its operations' results) and the four regions (each region's arrays at what its
  write-backs leave, every other buffer as the region found it).
-/
import proofs.«159553_j62680752718518_1_alg».proof.Proof.KB0
import proofs.«159553_j62680752718518_1_alg».proof.Proof.KB1
import proofs.«159553_j62680752718518_1_alg».proof.Proof.KB2
import proofs.«159553_j62680752718518_1_alg».proof.Proof.KB3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first 91 operations. -/
abbrev W1a : Dev nD → Valuation τ sig (Elt F) := fun c => StableHlo.after hostOps0 (W0 m ρ c)
/-- After the three operations of the called function that follow them. -/
abbrev W1b : Dev nD → Valuation τ sig (Elt F) := fun c => StableHlo.after hostOps0_1 (W1a m ρ c)
/-- After the whole first host stretch (region 0's entry): its three lists folded one after another. -/
abbrev W1 : Dev nD → Valuation τ sig (Elt F) := fun c =>
  StableHlo.after hostOps0_2 (StableHlo.after hostOps0_1 (StableHlo.after hostOps0 (W0 m ρ c)))
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (an input as entered, an output with every
    write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, an output with every
    write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (an input as entered, an output with every
    write-back folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (an input as entered, an output with every
    write-back folded in), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.Kernel.Frame

end
-- ==== Proof.KBSegs.lean ====
/-
  The kernel program's @main as segments: a host segment per list of host operations, each from its boundary's
  contents, and a region per pallas_call, over the thread state "every unscoped buffer at the boundary's contents, the
  generator register at some state, nothing owed".
-/
import proofs.«159553_j62680752718518_1_alg».proof.Proof.KBFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A list of host operations as a segment over the unscoped references from the contents `W`, `R` riding along: it
    ends with those references at the fold of the operations' results over `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of `hostOps0_1` allocates a buffer. -/
theorem hostOps0_1_fresh : (hostOps0_1 : List (HloOp τ sig (Elt F))).Forall fun op => op.fresh = ∅ :=
  ⟨rfl, rfl, rfl⟩
/-- No operation of `hostOps0_2` allocates a buffer. -/
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of `hostOps1` allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- No operation of `hostOps2` allocates a buffer. -/
theorem hostOps2_fresh : (hostOps2 : List (HloOp τ sig (Elt F))).Forall fun op => op.fresh = ∅ :=
  ⟨rfl, rfl, rfl⟩
/-- No operation of `hostOps3` allocates a buffer. -/
theorem hostOps3_fresh : (hostOps3 : List (HloOp τ sig (Elt F))).Forall fun op => op.fresh = ∅ :=
  ⟨rfl, rfl, rfl, rfl, rfl⟩
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may
-- unfold plain definitions in a metavariable's type
set_option backward.isDefEq.respectTransparency.types false in
/-- REGION 0 over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 1 over the thread state: entered from every unscoped buffer at `W3`, left at `W4`. Its arrays are
    split out of the unscoped buffers and put back at the exit contents; the generator register goes into the
    region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 2 over the thread state: entered from every unscoped buffer at `W5`, left at `W6`. Its arrays are
    split out of the unscoped buffers and put back at the exit contents; the generator register goes into the
    region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- REGION 3 over the thread state: entered from every unscoped buffer at `W7`, left at `W8`. Its arrays are
    split out of the unscoped buffers and put back at the exit contents; the generator register goes into the
    region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Frame

end
-- ==== Proof.KBKept.lean ====
/-
  What no host operation writes and no region's window stands on keeps its launch contents to the end of the kernel
  program's @main: each host stretch's operations write their own results only, a region changes its own arrays only,
  and the argument arrays are among neither.
-/
import proofs.«159553_j62680752718518_1_alg».proof.Proof.KBFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The singleton of a listed reference lies in the list's image. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references `hostOps0` writes: each operation's result. -/
abbrev written0 : List (Ref sig .tc) :=
  [main_c, main_v0, main_v1, main_c_0, main_v2, main_v3, main_v4, main_v5, main_v6, main_v7, main_v8, main_v9, main_c_1, main_v10, main_v11, main_c_2, main_v12, main_v13, main_v14, main_v15, main_v16, main_v17, main_v18, main_v19, main_c_3, main_v20, main_v21, main_c_4, main_v22, main_v23, main_v24, main_v25, main_v26, main_v27, main_v28, main_v29, main_c_5, main_v30, main_v31, main_c_6, main_v32, main_v33, main_v34, main_v35, main_v36, main_v37, main_v38, main_v39, main_c_7, main_v40, main_v41, main_c_8, main_v42, main_v43, main_v44, main_v45, main_v46, main_v47, main_v48, main_v49, main_c_9, main_v50, main_v51, main_c_10, main_v52, main_v53, main_v54, main_v55, main_v56, main_v57, main_v58, main_v59, main_v60, main_v61, main_v62, main_v63, main_v64, main_cst, main_v65, main_cst_11, main_v66, main_v67, main_v68, main_cst_12, main_v69, main_v70, main_cst_13, main_v71, main_v72, main_v73, main_cst_14]
/-- Each operation of `hostOps0` writes its own result, a listed reference, and nothing else. -/
theorem hostOps0_writes : (hostOps0 : List (HloOp τ sig (Elt F))).Forall fun op => op.writes ⊆ (written0.map (Proc.devRef (τ := τ) .tc)).toFinset :=
  ⟨single_sub_of_mem (y := main_c) (by decide), single_sub_of_mem (y := main_v0) (by decide), single_sub_of_mem (y := main_v1) (by decide), single_sub_of_mem (y := main_c_0) (by decide), single_sub_of_mem (y := main_v2) (by decide), single_sub_of_mem (y := main_v3) (by decide), single_sub_of_mem (y := main_v4) (by decide), single_sub_of_mem (y := main_v5) (by decide), single_sub_of_mem (y := main_v6) (by decide), single_sub_of_mem (y := main_v7) (by decide), single_sub_of_mem (y := main_v8) (by decide), single_sub_of_mem (y := main_v9) (by decide), single_sub_of_mem (y := main_c_1) (by decide), single_sub_of_mem (y := main_v10) (by decide), single_sub_of_mem (y := main_v11) (by decide), single_sub_of_mem (y := main_c_2) (by decide), single_sub_of_mem (y := main_v12) (by decide), single_sub_of_mem (y := main_v13) (by decide), single_sub_of_mem (y := main_v14) (by decide), single_sub_of_mem (y := main_v15) (by decide), single_sub_of_mem (y := main_v16) (by decide), single_sub_of_mem (y := main_v17) (by decide), single_sub_of_mem (y := main_v18) (by decide), single_sub_of_mem (y := main_v19) (by decide), single_sub_of_mem (y := main_c_3) (by decide), single_sub_of_mem (y := main_v20) (by decide), single_sub_of_mem (y := main_v21) (by decide), single_sub_of_mem (y := main_c_4) (by decide), single_sub_of_mem (y := main_v22) (by decide), single_sub_of_mem (y := main_v23) (by decide), single_sub_of_mem (y := main_v24) (by decide), single_sub_of_mem (y := main_v25) (by decide), single_sub_of_mem (y := main_v26) (by decide), single_sub_of_mem (y := main_v27) (by decide), single_sub_of_mem (y := main_v28) (by decide), single_sub_of_mem (y := main_v29) (by decide), single_sub_of_mem (y := main_c_5) (by decide), single_sub_of_mem (y := main_v30) (by decide), single_sub_of_mem (y := main_v31) (by decide), single_sub_of_mem (y := main_c_6) (by decide), single_sub_of_mem (y := main_v32) (by decide), single_sub_of_mem (y := main_v33) (by decide), single_sub_of_mem (y := main_v34) (by decide), single_sub_of_mem (y := main_v35) (by decide), single_sub_of_mem (y := main_v36) (by decide), single_sub_of_mem (y := main_v37) (by decide), single_sub_of_mem (y := main_v38) (by decide), single_sub_of_mem (y := main_v39) (by decide), single_sub_of_mem (y := main_c_7) (by decide), single_sub_of_mem (y := main_v40) (by decide), single_sub_of_mem (y := main_v41) (by decide), single_sub_of_mem (y := main_c_8) (by decide), single_sub_of_mem (y := main_v42) (by decide), single_sub_of_mem (y := main_v43) (by decide), single_sub_of_mem (y := main_v44) (by decide), single_sub_of_mem (y := main_v45) (by decide), single_sub_of_mem (y := main_v46) (by decide), single_sub_of_mem (y := main_v47) (by decide), single_sub_of_mem (y := main_v48) (by decide), single_sub_of_mem (y := main_v49) (by decide), single_sub_of_mem (y := main_c_9) (by decide), single_sub_of_mem (y := main_v50) (by decide), single_sub_of_mem (y := main_v51) (by decide), single_sub_of_mem (y := main_c_10) (by decide), single_sub_of_mem (y := main_v52) (by decide), single_sub_of_mem (y := main_v53) (by decide), single_sub_of_mem (y := main_v54) (by decide), single_sub_of_mem (y := main_v55) (by decide), single_sub_of_mem (y := main_v56) (by decide), single_sub_of_mem (y := main_v57) (by decide), single_sub_of_mem (y := main_v58) (by decide), single_sub_of_mem (y := main_v59) (by decide), single_sub_of_mem (y := main_v60) (by decide), single_sub_of_mem (y := main_v61) (by decide), single_sub_of_mem (y := main_v62) (by decide), single_sub_of_mem (y := main_v63) (by decide), single_sub_of_mem (y := main_v64) (by decide), single_sub_of_mem (y := main_cst) (by decide), single_sub_of_mem (y := main_v65) (by decide), single_sub_of_mem (y := main_cst_11) (by decide), single_sub_of_mem (y := main_v66) (by decide), single_sub_of_mem (y := main_v67) (by decide), single_sub_of_mem (y := main_v68) (by decide), single_sub_of_mem (y := main_cst_12) (by decide), single_sub_of_mem (y := main_v69) (by decide), single_sub_of_mem (y := main_v70) (by decide), single_sub_of_mem (y := main_cst_13) (by decide), single_sub_of_mem (y := main_v71) (by decide), single_sub_of_mem (y := main_v72) (by decide), single_sub_of_mem (y := main_v73) (by decide), single_sub_of_mem (y := main_cst_14) (by decide)⟩

/-- The references `hostOps0_1` writes: each operation's result. -/
abbrev written0_1 : List (Ref sig .tc) :=
  [main_call0_v0, main_call0_v1, main_v74]
/-- Each operation of `hostOps0_1` writes its own result, a listed reference, and nothing else. -/
theorem hostOps0_1_writes : (hostOps0_1 : List (HloOp τ sig (Elt F))).Forall fun op => op.writes ⊆ (written0_1.map (Proc.devRef (τ := τ) .tc)).toFinset :=
  ⟨single_sub_of_mem (y := main_call0_v0) (by decide), single_sub_of_mem (y := main_call0_v1) (by decide), single_sub_of_mem (y := main_v74) (by decide)⟩

/-- The references `hostOps0_2` writes: each operation's result. -/
abbrev written0_2 : List (Ref sig .tc) :=
  [main_c_15, main_v75, main_v76, main_c_16, main_v77, main_v78, main_v79, main_v80, main_v81, main_c_17, main_v82, main_v83, main_c_18, main_v84, main_v85, main_v86, main_v87, main_v88, main_v89, main_cst_19, main_v90, main_v91, main_v92, main_cst_20, main_v93, main_v94, main_c_21, main_v95, main_v96, main_c_22, main_v97, main_v98, main_v99, main_v100, main_v101, main_cst_23, main_v102, main_v103, main_v104, main_v105, main_v106, main_v107, main_v108, main_v109, main_v110, main_v111, main_v112, main_v113, main_v114]
/-- Each operation of `hostOps0_2` writes its own result, a listed reference, and nothing else. -/
theorem hostOps0_2_writes : (hostOps0_2 : List (HloOp τ sig (Elt F))).Forall fun op => op.writes ⊆ (written0_2.map (Proc.devRef (τ := τ) .tc)).toFinset :=
  ⟨single_sub_of_mem (y := main_c_15) (by decide), single_sub_of_mem (y := main_v75) (by decide), single_sub_of_mem (y := main_v76) (by decide), single_sub_of_mem (y := main_c_16) (by decide), single_sub_of_mem (y := main_v77) (by decide), single_sub_of_mem (y := main_v78) (by decide), single_sub_of_mem (y := main_v79) (by decide), single_sub_of_mem (y := main_v80) (by decide), single_sub_of_mem (y := main_v81) (by decide), single_sub_of_mem (y := main_c_17) (by decide), single_sub_of_mem (y := main_v82) (by decide), single_sub_of_mem (y := main_v83) (by decide), single_sub_of_mem (y := main_c_18) (by decide), single_sub_of_mem (y := main_v84) (by decide), single_sub_of_mem (y := main_v85) (by decide), single_sub_of_mem (y := main_v86) (by decide), single_sub_of_mem (y := main_v87) (by decide), single_sub_of_mem (y := main_v88) (by decide), single_sub_of_mem (y := main_v89) (by decide), single_sub_of_mem (y := main_cst_19) (by decide), single_sub_of_mem (y := main_v90) (by decide), single_sub_of_mem (y := main_v91) (by decide), single_sub_of_mem (y := main_v92) (by decide), single_sub_of_mem (y := main_cst_20) (by decide), single_sub_of_mem (y := main_v93) (by decide), single_sub_of_mem (y := main_v94) (by decide), single_sub_of_mem (y := main_c_21) (by decide), single_sub_of_mem (y := main_v95) (by decide), single_sub_of_mem (y := main_v96) (by decide), single_sub_of_mem (y := main_c_22) (by decide), single_sub_of_mem (y := main_v97) (by decide), single_sub_of_mem (y := main_v98) (by decide), single_sub_of_mem (y := main_v99) (by decide), single_sub_of_mem (y := main_v100) (by decide), single_sub_of_mem (y := main_v101) (by decide), single_sub_of_mem (y := main_cst_23) (by decide), single_sub_of_mem (y := main_v102) (by decide), single_sub_of_mem (y := main_v103) (by decide), single_sub_of_mem (y := main_v104) (by decide), single_sub_of_mem (y := main_v105) (by decide), single_sub_of_mem (y := main_v106) (by decide), single_sub_of_mem (y := main_v107) (by decide), single_sub_of_mem (y := main_v108) (by decide), single_sub_of_mem (y := main_v109) (by decide), single_sub_of_mem (y := main_v110) (by decide), single_sub_of_mem (y := main_v111) (by decide), single_sub_of_mem (y := main_v112) (by decide), single_sub_of_mem (y := main_v113) (by decide), single_sub_of_mem (y := main_v114) (by decide)⟩

/-- The references `hostOps1` writes: each operation's result. -/
abbrev written1 : List (Ref sig .tc) :=
  [main_v116, main_c_24, main_v117, main_v118, main_c_25, main_v119, main_v120, main_v121, main_v122, main_v123, main_v124, main_v125, main_v126, main_cst_26, main_v127, main_v128, main_v129, main_v130, main_v131, main_v132, main_v133, main_v134, main_v135, main_v136, main_c_27, main_v137, main_v138, main_c_28, main_v139, main_v140, main_v141, main_v142, main_v143, main_v144, main_v145, main_v146, main_cst_29, main_v147, main_v148, main_v149, main_v150, main_v151, main_v152, main_v153, main_v154, main_v155]
/-- Each operation of `hostOps1` writes its own result, a listed reference, and nothing else. -/
theorem hostOps1_writes : (hostOps1 : List (HloOp τ sig (Elt F))).Forall fun op => op.writes ⊆ (written1.map (Proc.devRef (τ := τ) .tc)).toFinset :=
  ⟨single_sub_of_mem (y := main_v116) (by decide), single_sub_of_mem (y := main_c_24) (by decide), single_sub_of_mem (y := main_v117) (by decide), single_sub_of_mem (y := main_v118) (by decide), single_sub_of_mem (y := main_c_25) (by decide), single_sub_of_mem (y := main_v119) (by decide), single_sub_of_mem (y := main_v120) (by decide), single_sub_of_mem (y := main_v121) (by decide), single_sub_of_mem (y := main_v122) (by decide), single_sub_of_mem (y := main_v123) (by decide), single_sub_of_mem (y := main_v124) (by decide), single_sub_of_mem (y := main_v125) (by decide), single_sub_of_mem (y := main_v126) (by decide), single_sub_of_mem (y := main_cst_26) (by decide), single_sub_of_mem (y := main_v127) (by decide), single_sub_of_mem (y := main_v128) (by decide), single_sub_of_mem (y := main_v129) (by decide), single_sub_of_mem (y := main_v130) (by decide), single_sub_of_mem (y := main_v131) (by decide), single_sub_of_mem (y := main_v132) (by decide), single_sub_of_mem (y := main_v133) (by decide), single_sub_of_mem (y := main_v134) (by decide), single_sub_of_mem (y := main_v135) (by decide), single_sub_of_mem (y := main_v136) (by decide), single_sub_of_mem (y := main_c_27) (by decide), single_sub_of_mem (y := main_v137) (by decide), single_sub_of_mem (y := main_v138) (by decide), single_sub_of_mem (y := main_c_28) (by decide), single_sub_of_mem (y := main_v139) (by decide), single_sub_of_mem (y := main_v140) (by decide), single_sub_of_mem (y := main_v141) (by decide), single_sub_of_mem (y := main_v142) (by decide), single_sub_of_mem (y := main_v143) (by decide), single_sub_of_mem (y := main_v144) (by decide), single_sub_of_mem (y := main_v145) (by decide), single_sub_of_mem (y := main_v146) (by decide), single_sub_of_mem (y := main_cst_29) (by decide), single_sub_of_mem (y := main_v147) (by decide), single_sub_of_mem (y := main_v148) (by decide), single_sub_of_mem (y := main_v149) (by decide), single_sub_of_mem (y := main_v150) (by decide), single_sub_of_mem (y := main_v151) (by decide), single_sub_of_mem (y := main_v152) (by decide), single_sub_of_mem (y := main_v153) (by decide), single_sub_of_mem (y := main_v154) (by decide), single_sub_of_mem (y := main_v155) (by decide)⟩

/-- The references `hostOps2` writes: each operation's result. -/
abbrev written2 : List (Ref sig .tc) :=
  [main_cst_30, main_v157, main_v158]
/-- Each operation of `hostOps2` writes its own result, a listed reference, and nothing else. -/
theorem hostOps2_writes : (hostOps2 : List (HloOp τ sig (Elt F))).Forall fun op => op.writes ⊆ (written2.map (Proc.devRef (τ := τ) .tc)).toFinset :=
  ⟨single_sub_of_mem (y := main_cst_30) (by decide), single_sub_of_mem (y := main_v157) (by decide), single_sub_of_mem (y := main_v158) (by decide)⟩

/-- The references `hostOps3` writes: each operation's result. -/
abbrev written3 : List (Ref sig .tc) :=
  [main_cst_31, main_v160, main_v161, main_v162, main_v163]
/-- Each operation of `hostOps3` writes its own result, a listed reference, and nothing else. -/
theorem hostOps3_writes : (hostOps3 : List (HloOp τ sig (Elt F))).Forall fun op => op.writes ⊆ (written3.map (Proc.devRef (τ := τ) .tc)).toFinset :=
  ⟨single_sub_of_mem (y := main_cst_31) (by decide), single_sub_of_mem (y := main_v160) (by decide), single_sub_of_mem (y := main_v161) (by decide), single_sub_of_mem (y := main_v162) (by decide), single_sub_of_mem (y := main_v163) (by decide)⟩

/-- The arrays region 0's windows stand on. -/
abbrev arrs0 : List (Ref sig .tc) := [main_v60, main_v107, main_v109, main_v113, main_v111, main_v114, main_v115_0, main_v115_1]
theorem arr_mem0 : ∀ w : Fin cfg0.W, Pipeline.arrRef spec0 w ∈ arrs0 := by decide
theorem arr_ne0 {r : Ref sig .tc} (h : r ∉ arrs0) : ∀ w : Fin cfg0.W, Pipeline.arrRef spec0 w ≠ r :=
  fun w e => h (e ▸ arr_mem0 w)

/-- The arrays region 1's windows stand on. -/
abbrev arrs1 : List (Ref sig .tc) := [main_v134, main_v135, main_v154, main_v155, main_v156_0, main_v156_1]
theorem arr_mem1 : ∀ w : Fin cfg1.W, Pipeline.arrRef spec1 w ∈ arrs1 := by decide
theorem arr_ne1 {r : Ref sig .tc} (h : r ∉ arrs1) : ∀ w : Fin cfg1.W, Pipeline.arrRef spec1 w ≠ r :=
  fun w e => h (e ▸ arr_mem1 w)

/-- The arrays region 2's windows stand on. -/
abbrev arrs2 : List (Ref sig .tc) := [main_v156_0, main_v158, main_v159]
theorem arr_mem2 : ∀ w : Fin cfg2.W, Pipeline.arrRef spec2 w ∈ arrs2 := by decide
theorem arr_ne2 {r : Ref sig .tc} (h : r ∉ arrs2) : ∀ w : Fin cfg2.W, Pipeline.arrRef spec2 w ≠ r :=
  fun w e => h (e ▸ arr_mem2 w)

/-- The arrays region 3's windows stand on. -/
abbrev arrs3 : List (Ref sig .tc) := [main_v156_0, main_v158, main_v161, main_v162, main_v163, main_v164]
theorem arr_mem3 : ∀ w : Fin cfg3.W, Pipeline.arrRef spec3 w ∈ arrs3 := by decide
theorem arr_ne3 {r : Ref sig .tc} (h : r ∉ arrs3) : ∀ w : Fin cfg3.W, Pipeline.arrRef spec3 w ≠ r :=
  fun w e => h (e ▸ arr_mem3 w)

/-- A reference no host operation writes and no window stands on holds at the end what it held at launch. -/
theorem kept (c : Dev nD) {r : Ref sig .tc} (h0 : r ∉ written0) (h01 : r ∉ written0_1) (h02 : r ∉ written0_2)
    (h1 : r ∉ written1) (h2 : r ∉ written2) (h3 : r ∉ written3)
    (a0 : r ∉ arrs0) (a1 : r ∉ arrs1) (a2 : r ∉ arrs2) (a3 : r ∉ arrs3) :
    W8 m ρ c (Proc.devRef .tc r) = m ((c : Thread nD τ).loc r) :=
  calc W8 m ρ c (Proc.devRef .tc r)
    _ = W7 m ρ c (Proc.devRef .tc r) := W8_of_ne m ρ c r (arr_ne3 a3)
    _ = W6 m ρ c (Proc.devRef .tc r) := StableHlo.after_of_writes_sub hostOps3 _ hostOps3_writes h3
    _ = W5 m ρ c (Proc.devRef .tc r) := W6_of_ne m ρ c r (arr_ne2 a2)
    _ = W4 m ρ c (Proc.devRef .tc r) := StableHlo.after_of_writes_sub hostOps2 _ hostOps2_writes h2
    _ = W3 m ρ c (Proc.devRef .tc r) := W4_of_ne m ρ c r (arr_ne1 a1)
    _ = W2 m ρ c (Proc.devRef .tc r) := StableHlo.after_of_writes_sub hostOps1 _ hostOps1_writes h1
    _ = W1 m ρ c (Proc.devRef .tc r) := W2_of_ne m ρ c r (arr_ne0 a0)
    _ = W1b m ρ c (Proc.devRef .tc r) := StableHlo.after_of_writes_sub hostOps0_2 _ hostOps0_2_writes h02
    _ = W1a m ρ c (Proc.devRef .tc r) := StableHlo.after_of_writes_sub hostOps0_1 _ hostOps0_1_writes h01
    _ = W0 m ρ c (Proc.devRef .tc r) := StableHlo.after_of_writes_sub hostOps0 _ hostOps0_writes h0
    _ = m ((c : Thread nD τ).loc r) := rfl

/-! ### The arguments end as launched -/

theorem W8_main_arg0 (c : Dev nD) : W8 m ρ c (Proc.devRef .tc main_arg0) = m ((c : Thread nD τ).loc main_arg0) :=
  kept m ρ c (by decide) (by decide) (by decide) (by decide) (by decide) (by decide) (by decide) (by decide) (by decide) (by decide)
theorem W8_main_arg1 (c : Dev nD) : W8 m ρ c (Proc.devRef .tc main_arg1) = m ((c : Thread nD τ).loc main_arg1) :=
  kept m ρ c (by decide) (by decide) (by decide) (by decide) (by decide) (by decide) (by decide) (by decide) (by decide) (by decide)
theorem W8_main_arg2 (c : Dev nD) : W8 m ρ c (Proc.devRef .tc main_arg2) = m ((c : Thread nD τ).loc main_arg2) :=
  kept m ρ c (by decide) (by decide) (by decide) (by decide) (by decide) (by decide) (by decide) (by decide) (by decide) (by decide)
theorem W8_main_arg3 (c : Dev nD) : W8 m ρ c (Proc.devRef .tc main_arg3) = m ((c : Thread nD τ).loc main_arg3) :=
  kept m ρ c (by decide) (by decide) (by decide) (by decide) (by decide) (by decide) (by decide) (by decide) (by decide) (by decide)
theorem W8_main_arg4 (c : Dev nD) : W8 m ρ c (Proc.devRef .tc main_arg4) = m ((c : Thread nD τ).loc main_arg4) :=
  kept m ρ c (by decide) (by decide) (by decide) (by decide) (by decide) (by decide) (by decide) (by decide) (by decide) (by decide)
theorem W8_main_arg5 (c : Dev nD) : W8 m ρ c (Proc.devRef .tc main_arg5) = m ((c : Thread nD τ).loc main_arg5) :=
  kept m ρ c (by decide) (by decide) (by decide) (by decide) (by decide) (by decide) (by decide) (by decide) (by decide) (by decide)
theorem W8_main_arg6 (c : Dev nD) : W8 m ρ c (Proc.devRef .tc main_arg6) = m ((c : Thread nD τ).loc main_arg6) :=
  kept m ρ c (by decide) (by decide) (by decide) (by decide) (by decide) (by decide) (by decide) (by decide) (by decide) (by decide)
theorem W8_main_arg7 (c : Dev nD) : W8 m ρ c (Proc.devRef .tc main_arg7) = m ((c : Thread nD τ).loc main_arg7) :=
  kept m ρ c (by decide) (by decide) (by decide) (by decide) (by decide) (by decide) (by decide) (by decide) (by decide) (by decide)
theorem W8_main_arg8 (c : Dev nD) : W8 m ρ c (Proc.devRef .tc main_arg8) = m ((c : Thread nD τ).loc main_arg8) :=
  kept m ρ c (by decide) (by decide) (by decide) (by decide) (by decide) (by decide) (by decide) (by decide) (by decide) (by decide)
theorem W8_main_arg9 (c : Dev nD) : W8 m ρ c (Proc.devRef .tc main_arg9) = m ((c : Thread nD τ).loc main_arg9) :=
  kept m ρ c (by decide) (by decide) (by decide) (by decide) (by decide) (by decide) (by decide) (by decide) (by decide) (by decide)
theorem W8_main_arg10 (c : Dev nD) : W8 m ρ c (Proc.devRef .tc main_arg10) = m ((c : Thread nD τ).loc main_arg10) :=
  kept m ρ c (by decide) (by decide) (by decide) (by decide) (by decide) (by decide) (by decide) (by decide) (by decide) (by decide)
theorem W8_main_arg11 (c : Dev nD) : W8 m ρ c (Proc.devRef .tc main_arg11) = m ((c : Thread nD τ).loc main_arg11) :=
  kept m ρ c (by decide) (by decide) (by decide) (by decide) (by decide) (by decide) (by decide) (by decide) (by decide) (by decide)
theorem W8_main_arg12 (c : Dev nD) : W8 m ρ c (Proc.devRef .tc main_arg12) = m ((c : Thread nD τ).loc main_arg12) :=
  kept m ρ c (by decide) (by decide) (by decide) (by decide) (by decide) (by decide) (by decide) (by decide) (by decide) (by decide)
theorem W8_main_arg13 (c : Dev nD) : W8 m ρ c (Proc.devRef .tc main_arg13) = m ((c : Thread nD τ).loc main_arg13) :=
  kept m ρ c (by decide) (by decide) (by decide) (by decide) (by decide) (by decide) (by decide) (by decide) (by decide) (by decide)
theorem W8_main_arg14 (c : Dev nD) : W8 m ρ c (Proc.devRef .tc main_arg14) = m ((c : Thread nD τ).loc main_arg14) :=
  kept m ρ c (by decide) (by decide) (by decide) (by decide) (by decide) (by decide) (by decide) (by decide) (by decide) (by decide)
theorem W8_main_arg15 (c : Dev nD) : W8 m ρ c (Proc.devRef .tc main_arg15) = m ((c : Thread nD τ).loc main_arg15) :=
  kept m ρ c (by decide) (by decide) (by decide) (by decide) (by decide) (by decide) (by decide) (by decide) (by decide) (by decide)
theorem W8_main_arg16 (c : Dev nD) : W8 m ρ c (Proc.devRef .tc main_arg16) = m ((c : Thread nD τ).loc main_arg16) :=
  kept m ρ c (by decide) (by decide) (by decide) (by decide) (by decide) (by decide) (by decide) (by decide) (by decide) (by decide)
theorem W8_main_arg17 (c : Dev nD) : W8 m ρ c (Proc.devRef .tc main_arg17) = m ((c : Thread nD τ).loc main_arg17) :=
  kept m ρ c (by decide) (by decide) (by decide) (by decide) (by decide) (by decide) (by decide) (by decide) (by decide) (by decide)
theorem W8_main_arg18 (c : Dev nD) : W8 m ρ c (Proc.devRef .tc main_arg18) = m ((c : Thread nD τ).loc main_arg18) :=
  kept m ρ c (by decide) (by decide) (by decide) (by decide) (by decide) (by decide) (by decide) (by decide) (by decide) (by decide)

end Cert.Kernel.Frame

end
-- ==== Proof.KBRun.lean ====
/-
  The run of the kernel program's @main: the segments in @main's order, @main as their run, the launch over them —
  every weakly fair execution terminates without a fault with every unscoped buffer at the last boundary's contents —
  and from it the argument arrays as launched and the result array at the last region's exit contents.
-/
import proofs.«159553_j62680752718518_1_alg».proof.Proof.KBSegs
import proofs.«159553_j62680752718518_1_alg».proof.Proof.KBKept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 10 segments in order: a host segment per list of host operations from its boundary's contents, a region
    per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1a m ρ)),
    .host (hseg hostOps0_2 hostOps0_2_sub hostOps0_2_fresh (W1b m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- At the compiled mesh, from any memory with zero counters, every weakly fair execution of @main on the TensorCores
    terminates, nothing faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- A final memory with every unscoped buffer at the last boundary's contents has the argument arrays as launched. -/
theorem args_kept {mem : (ℓ : Loc nD τ sig) → Buf (Elt F) ℓ}
    (h : ∀ c : Dev nD, ∀ b ∈ Pipeline.ucRefs τ sig, mem (((c : Thread nD τ)).1, b) = W8 m ρ c b) (c : Dev nD) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)
    ∧ mem ((c.tc : Thread nD τ).loc main_arg18) = m ((c.tc : Thread nD τ).loc main_arg18) :=
  ⟨(h c _ (mem_uc main_arg0 (by decide))).trans (W8_main_arg0 m ρ c),
   (h c _ (mem_uc main_arg1 (by decide))).trans (W8_main_arg1 m ρ c),
   (h c _ (mem_uc main_arg2 (by decide))).trans (W8_main_arg2 m ρ c),
   (h c _ (mem_uc main_arg3 (by decide))).trans (W8_main_arg3 m ρ c),
   (h c _ (mem_uc main_arg4 (by decide))).trans (W8_main_arg4 m ρ c),
   (h c _ (mem_uc main_arg5 (by decide))).trans (W8_main_arg5 m ρ c),
   (h c _ (mem_uc main_arg6 (by decide))).trans (W8_main_arg6 m ρ c),
   (h c _ (mem_uc main_arg7 (by decide))).trans (W8_main_arg7 m ρ c),
   (h c _ (mem_uc main_arg8 (by decide))).trans (W8_main_arg8 m ρ c),
   (h c _ (mem_uc main_arg9 (by decide))).trans (W8_main_arg9 m ρ c),
   (h c _ (mem_uc main_arg10 (by decide))).trans (W8_main_arg10 m ρ c),
   (h c _ (mem_uc main_arg11 (by decide))).trans (W8_main_arg11 m ρ c),
   (h c _ (mem_uc main_arg12 (by decide))).trans (W8_main_arg12 m ρ c),
   (h c _ (mem_uc main_arg13 (by decide))).trans (W8_main_arg13 m ρ c),
   (h c _ (mem_uc main_arg14 (by decide))).trans (W8_main_arg14 m ρ c),
   (h c _ (mem_uc main_arg15 (by decide))).trans (W8_main_arg15 m ρ c),
   (h c _ (mem_uc main_arg16 (by decide))).trans (W8_main_arg16 m ρ c),
   (h c _ (mem_uc main_arg17 (by decide))).trans (W8_main_arg17 m ρ c),
   (h c _ (mem_uc main_arg18 (by decide))).trans (W8_main_arg18 m ρ c)⟩

/-- THE FRAME, at any `F`: at the compiled mesh, from any memory with zero counters, every weakly fair execution of
    @main on the TensorCores terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m ρ h c) (run_main m ρ)

/-- The same run, with the result array at the last region's exit contents beside the arguments as launched. -/
theorem run_value : θ_run defs (onTc (τ := τ) (main (F := F))) ⟨m, fun _ => 0, ρ⟩ (fun r => ∀ c : Dev nD,
      r.2.mem ((c.tc : Thread nD τ).loc main_v164) = W8 m ρ c (Proc.devRef .tc main_v164)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨h c _ (mem_uc main_v164 (by decide)), args_kept m ρ h c⟩) (run_main m ρ)

/-- info: 'Cert.Kernel.Frame.frame' depends on axioms: [propext, Classical.choice, Quot.sound] -/
#guard_msgs in #print axioms frame

end Cert.Kernel.Frame

end
-- ==== Proof.KWalk.lean ====
/-
  Reading the boundary contents of the kernel program's @main: what a host stretch or a region leaves alone is as the
  boundary before it has it; an input window's array leaves its region as it entered; an output window's array
  leaves at what the region's write-backs make of it. From these, the arrays the later regions read are traced
  back to the boundary where they were made.
-/
import proofs.«159553_j62680752718518_1_alg».proof.Proof.KKept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One boundary back -/

theorem W1_keep (c : Dev nD) {r : Ref sig .tc} (h0 : r ∉ written0) (h01 : r ∉ written0_1) (h02 : r ∉ written0_2) :
    W1 m ρ c (Proc.devRef .tc r) = W0 m ρ c (Proc.devRef .tc r) :=
  calc W1 m ρ c (Proc.devRef .tc r)
    _ = W1b m ρ c (Proc.devRef .tc r) := StableHlo.after_of_writes_sub hostOps0_2 _ hostOps0_2_writes h02
    _ = W1a m ρ c (Proc.devRef .tc r) := StableHlo.after_of_writes_sub hostOps0_1 _ hostOps0_1_writes h01
    _ = W0 m ρ c (Proc.devRef .tc r) := StableHlo.after_of_writes_sub hostOps0 _ hostOps0_writes h0
theorem W2_keep (c : Dev nD) {r : Ref sig .tc} (h : r ∉ arrs0) : W2 m ρ c (Proc.devRef .tc r) = W1 m ρ c (Proc.devRef .tc r) :=
  W2_of_ne m ρ c r (arr_ne0 h)
theorem W3_keep (c : Dev nD) {r : Ref sig .tc} (h : r ∉ written1) : W3 m ρ c (Proc.devRef .tc r) = W2 m ρ c (Proc.devRef .tc r) :=
  StableHlo.after_of_writes_sub hostOps1 _ hostOps1_writes h
theorem W4_keep (c : Dev nD) {r : Ref sig .tc} (h : r ∉ arrs1) : W4 m ρ c (Proc.devRef .tc r) = W3 m ρ c (Proc.devRef .tc r) :=
  W4_of_ne m ρ c r (arr_ne1 h)
theorem W5_keep (c : Dev nD) {r : Ref sig .tc} (h : r ∉ written2) : W5 m ρ c (Proc.devRef .tc r) = W4 m ρ c (Proc.devRef .tc r) :=
  StableHlo.after_of_writes_sub hostOps2 _ hostOps2_writes h
theorem W6_keep (c : Dev nD) {r : Ref sig .tc} (h : r ∉ arrs2) : W6 m ρ c (Proc.devRef .tc r) = W5 m ρ c (Proc.devRef .tc r) :=
  W6_of_ne m ρ c r (arr_ne2 h)
theorem W7_keep (c : Dev nD) {r : Ref sig .tc} (h : r ∉ written3) : W7 m ρ c (Proc.devRef .tc r) = W6 m ρ c (Proc.devRef .tc r) :=
  StableHlo.after_of_writes_sub hostOps3 _ hostOps3_writes h
theorem W8_keep (c : Dev nD) {r : Ref sig .tc} (h : r ∉ arrs3) : W8 m ρ c (Proc.devRef .tc r) = W7 m ρ c (Proc.devRef .tc r) :=
  W8_of_ne m ρ c r (arr_ne3 h)

/-! ## An input window's array leaves its region as it entered -/

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-! ## The regions' results, by name -/

/-- The result array: what region 3's write-backs make of it. -/
theorem W8_v164 (c : Dev nD) : W8 m ρ c (Proc.devRef .tc main_v164) = (dat3 (V7 m ρ) c).arrAt 5 cfg3.N := W8_arr m ρ c 5
/-- Region 2's accumulator at its exit. -/
theorem W6_v159 (c : Dev nD) : W6 m ρ c (Proc.devRef .tc main_v159) = (dat2 (V5 m ρ) c).arrAt 2 cfg2.N := W6_arr m ρ c 2
/-- Region 1's per-tile result and its accumulator at its exit. -/
theorem W4_v156_0 (c : Dev nD) : W4 m ρ c (Proc.devRef .tc main_v156_0) = (dat1 (V3 m ρ) c).arrAt 4 cfg1.N := W4_arr m ρ c 4
theorem W4_v156_1 (c : Dev nD) : W4 m ρ c (Proc.devRef .tc main_v156_1) = (dat1 (V3 m ρ) c).arrAt 5 cfg1.N := W4_arr m ρ c 5
/-- Region 0's two products at its exit. -/
theorem W2_v115_0 (c : Dev nD) : W2 m ρ c (Proc.devRef .tc main_v115_0) = (dat0 (V1 m ρ) c).arrAt 6 cfg0.N := W2_arr m ρ c 6
theorem W2_v115_1 (c : Dev nD) : W2 m ρ c (Proc.devRef .tc main_v115_1) = (dat0 (V1 m ρ) c).arrAt 7 cfg0.N := W2_arr m ρ c 7

/-! ## What the later regions read, traced back to where it was made -/

/-- Region 2 reads region 1's per-tile result as region 1 left it. -/
theorem V5_v156_0 (c : Dev nD) : V5 m ρ c main_v156_0 = (dat1 (V3 m ρ) c).arrAt 4 cfg1.N :=
  (W5_keep m ρ c (r := main_v156_0) (by decide)).trans (W4_v156_0 m ρ c)
/-- So does region 3: region 2 only reads it, and no host operation between writes it. -/
theorem V7_v156_0 (c : Dev nD) : V7 m ρ c main_v156_0 = (dat1 (V3 m ρ) c).arrAt 4 cfg1.N :=
  calc V7 m ρ c main_v156_0
    _ = W6 m ρ c (Proc.devRef .tc main_v156_0) := W7_keep m ρ c (r := main_v156_0) (by decide)
    _ = W5 m ρ c (Proc.devRef .tc main_v156_0) := W6_in m ρ c 0 rfl
    _ = (dat1 (V3 m ρ) c).arrAt 4 cfg1.N := V5_v156_0 m ρ c
/-- Region 3 reads the mean as the host stretch before region 2 made it. -/
theorem V7_v158 (c : Dev nD) : V7 m ρ c main_v158 = W5 m ρ c (Proc.devRef .tc main_v158) :=
  calc V7 m ρ c main_v158
    _ = W6 m ρ c (Proc.devRef .tc main_v158) := W7_keep m ρ c (r := main_v158) (by decide)
    _ = W5 m ρ c (Proc.devRef .tc main_v158) := W6_in m ρ c 1 rfl
/-- The host stretch before region 2 reads region 1's accumulator as region 1 left it. -/
theorem W4_read_v156_1 (c : Dev nD) : W4 m ρ c (Proc.devRef .tc main_v156_1) = (dat1 (V3 m ρ) c).arrAt 5 cfg1.N := W4_v156_1 m ρ c
/-- The host stretch before region 3 reads region 2's accumulator as region 2 left it. -/
theorem W6_read_v159 (c : Dev nD) : W6 m ρ c (Proc.devRef .tc main_v159) = (dat2 (V5 m ρ) c).arrAt 2 cfg2.N := W6_v159 m ρ c

/-! ## A reference nothing has touched yet holds its launch contents at every boundary -/

theorem kept2 (c : Dev nD) {r : Ref sig .tc} (h0 : r ∉ written0) (h01 : r ∉ written0_1) (h02 : r ∉ written0_2) (a0 : r ∉ arrs0) :
    W2 m ρ c (Proc.devRef .tc r) = m ((c : Thread nD τ).loc r) :=
  (W2_keep m ρ c a0).trans (W1_keep m ρ c h0 h01 h02)
theorem kept4 (c : Dev nD) {r : Ref sig .tc} (h0 : r ∉ written0) (h01 : r ∉ written0_1) (h02 : r ∉ written0_2) (a0 : r ∉ arrs0)
    (h1 : r ∉ written1) (a1 : r ∉ arrs1) : W4 m ρ c (Proc.devRef .tc r) = m ((c : Thread nD τ).loc r) :=
  (W4_keep m ρ c a1).trans ((W3_keep m ρ c h1).trans (kept2 m ρ c h0 h01 h02 a0))
theorem kept6 (c : Dev nD) {r : Ref sig .tc} (h0 : r ∉ written0) (h01 : r ∉ written0_1) (h02 : r ∉ written0_2) (a0 : r ∉ arrs0)
    (h1 : r ∉ written1) (a1 : r ∉ arrs1) (h2 : r ∉ written2) (a2 : r ∉ arrs2) : W6 m ρ c (Proc.devRef .tc r) = m ((c : Thread nD τ).loc r) :=
  (W6_keep m ρ c a2).trans ((W5_keep m ρ c h2).trans (kept4 m ρ c h0 h01 h02 a0 h1 a1))
/-- The two arguments the last host stretch reshapes are as launched when it reads them. -/
theorem W6_main_arg17 (c : Dev nD) : W6 m ρ c (Proc.devRef .tc main_arg17) = m ((c : Thread nD τ).loc main_arg17) :=
  kept6 m ρ c (by decide) (by decide) (by decide) (by decide) (by decide) (by decide) (by decide) (by decide)
theorem W6_main_arg18 (c : Dev nD) : W6 m ρ c (Proc.devRef .tc main_arg18) = m ((c : Thread nD τ).loc main_arg18) :=
  kept6 m ρ c (by decide) (by decide) (by decide) (by decide) (by decide) (by decide) (by decide) (by decide)

/-! ## Back to region 0's entry -/

/-- What neither region 0 … 2 nor the host stretches between them touch is at region 2's exit as at region 0's entry. -/
theorem W6_eq_W1 (c : Dev nD) {r : Ref sig .tc} (a0 : r ∉ arrs0) (h1 : r ∉ written1) (a1 : r ∉ arrs1) (h2 : r ∉ written2) (a2 : r ∉ arrs2) :
    W6 m ρ c (Proc.devRef .tc r) = W1 m ρ c (Proc.devRef .tc r) :=
  (W6_keep m ρ c a2).trans ((W5_keep m ρ c h2).trans ((W4_keep m ρ c a1).trans ((W3_keep m ρ c h1).trans (W2_keep m ρ c a0))))
theorem W4_eq_W1 (c : Dev nD) {r : Ref sig .tc} (a0 : r ∉ arrs0) (h1 : r ∉ written1) (a1 : r ∉ arrs1) :
    W4 m ρ c (Proc.devRef .tc r) = W1 m ρ c (Proc.devRef .tc r) :=
  (W4_keep m ρ c a1).trans ((W3_keep m ρ c h1).trans (W2_keep m ρ c a0))
/-- The edge indices, the edge norms and the weight argument the hops read are at region 0's exit as at its entry. -/
theorem W2_v62 (c : Dev nD) : W2 m ρ c (Proc.devRef .tc main_v62) = W1 m ρ c (Proc.devRef .tc main_v62) := W2_keep m ρ c (by decide)
theorem W2_v64 (c : Dev nD) : W2 m ρ c (Proc.devRef .tc main_v64) = W1 m ρ c (Proc.devRef .tc main_v64) := W2_keep m ρ c (by decide)
theorem W2_v89 (c : Dev nD) : W2 m ρ c (Proc.devRef .tc main_v89) = W1 m ρ c (Proc.devRef .tc main_v89) := W2_keep m ρ c (by decide)
theorem W2_arg13 (c : Dev nD) : W2 m ρ c (Proc.devRef .tc main_arg13) = W1 m ρ c (Proc.devRef .tc main_arg13) := W2_keep m ρ c (by decide)
/-- The two arguments the last host stretch reshapes are, when it reads them, as at region 0's entry. -/
theorem W6_arg17 (c : Dev nD) : W6 m ρ c (Proc.devRef .tc main_arg17) = W1 m ρ c (Proc.devRef .tc main_arg17) :=
  W6_eq_W1 m ρ c (by decide) (by decide) (by decide) (by decide) (by decide)
theorem W6_arg18 (c : Dev nD) : W6 m ρ c (Proc.devRef .tc main_arg18) = W1 m ρ c (Proc.devRef .tc main_arg18) :=
  W6_eq_W1 m ρ c (by decide) (by decide) (by decide) (by decide) (by decide)
/-- And at region 0's entry these three arguments are as launched. -/
theorem W1_arg13 (c : Dev nD) : W1 m ρ c (Proc.devRef .tc main_arg13) = W0 m ρ c (Proc.devRef .tc main_arg13) := W1_keep m ρ c (by decide) (by decide) (by decide)
theorem W1_arg17 (c : Dev nD) : W1 m ρ c (Proc.devRef .tc main_arg17) = W0 m ρ c (Proc.devRef .tc main_arg17) := W1_keep m ρ c (by decide) (by decide) (by decide)
theorem W1_arg18 (c : Dev nD) : W1 m ρ c (Proc.devRef .tc main_arg18) = W0 m ρ c (Proc.devRef .tc main_arg18) := W1_keep m ρ c (by decide) (by decide) (by decide)

end Cert.KernelIdeal.Frame

end
-- ==== Proof.KPre.lean ====
/-
  What the host operations before the first grid leave in the four stacked weight arrays: each is its argument array
  with the hop axis moved inside the row axis (a transpose) and the two hops' columns laid side by side (a reshape);
  the stacked bias is its argument array reshaped. No other operation before the first grid writes them.
-/
import proofs.«159553_j62680752718518_1_alg».proof.Proof.Gen.KernelIdeal.Launch
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.SL.Sem Idealize.ShloMosaic.StableHlo

variable {F : FTy → Type} [FloatOps F]

/-- The fold over two lines joined is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxHeartbeats 4000000 in
/-- The first hop-stacked feature weights: argument 12 transposed and reshaped to 85 × 256. -/
theorem stretch0_v109 (V : Valuation τ sig (Elt F)) :
    after hostOps0_2 (after hostOps0_1 (after hostOps0 V)) (Proc.devRef .tc main_v109)
      = (shapeCast S85x256 (transpose S85x2x128 [1, 0, 2] (V (Proc.devRef .tc main_arg12) : (⟨S2x85x128, .f32⟩ : BufTy).Contents (Elt F)) transposes_S2x85x128_S85x2x128_1_0_2) shapeCasts_S85x2x128_S85x256 : (⟨S85x256, .f32⟩ : BufTy).Contents (Elt F)) := by
  simp only [hostOps0, hostOps0_1, hostOps0_2]
  after_results_simp
  rfl

set_option maxHeartbeats 4000000 in
/-- The second hop-stacked feature weights: argument 16 transposed and reshaped to 85 × 256. -/
theorem stretch0_v111 (V : Valuation τ sig (Elt F)) :
    after hostOps0_2 (after hostOps0_1 (after hostOps0 V)) (Proc.devRef .tc main_v111)
      = (shapeCast S85x256 (transpose S85x2x128 [1, 0, 2] (V (Proc.devRef .tc main_arg16) : (⟨S2x85x128, .f32⟩ : BufTy).Contents (Elt F)) transposes_S2x85x128_S85x2x128_1_0_2) shapeCasts_S85x2x128_S85x256 : (⟨S85x256, .f32⟩ : BufTy).Contents (Elt F)) := by
  simp only [hostOps0, hostOps0_1, hostOps0_2]
  after_results_simp
  rfl

set_option maxHeartbeats 4000000 in
/-- The hop-stacked aggregate weights: argument 14 transposed and reshaped to 64 × 256. -/
theorem stretch0_v113 (V : Valuation τ sig (Elt F)) :
    after hostOps0_2 (after hostOps0_1 (after hostOps0 V)) (Proc.devRef .tc main_v113)
      = (shapeCast S64x256 (transpose S64x2x128 [1, 0, 2] (V (Proc.devRef .tc main_arg14) : (⟨S2x64x128, .f32⟩ : BufTy).Contents (Elt F)) transposes_S2x64x128_S64x2x128_1_0_2) shapeCasts_S64x2x128_S64x256 : (⟨S64x256, .f32⟩ : BufTy).Contents (Elt F)) := by
  simp only [hostOps0, hostOps0_1, hostOps0_2]
  after_results_simp
  rfl

set_option maxHeartbeats 4000000 in
/-- The hop-stacked bias: argument 15 reshaped to 1 × 256. -/
theorem stretch0_v114 (V : Valuation τ sig (Elt F)) :
    after hostOps0_2 (after hostOps0_1 (after hostOps0 V)) (Proc.devRef .tc main_v114)
      = (shapeCast S1x256 (V (Proc.devRef .tc main_arg15) : (⟨S2x128, .f32⟩ : BufTy).Contents (Elt F)) shapeCasts_S2x128_S1x256 : (⟨S1x256, .f32⟩ : BufTy).Contents (Elt F)) := by
  simp only [hostOps0, hostOps0_1, hostOps0_2]
  after_results_simp
  rfl

end Cert.KernelIdeal.Frame

end
-- ==== Proof.RefCut.lean ====
/-
  The reference's line cut after the mean-aggregated comment features (statement %107): the first 136 operations build the
  user features, the degree normalisation, the edge norms and the aggregated comment features from the arguments; the
  remaining 124 are the two hops, the leaky-relu sum and the batch normalisation. The fold over the whole line is the
  tail's fold over the prefix's, and a buffer the tail never writes holds after the whole line what the prefix left.
-/
import proofs.«159553_j62680752718518_1_alg».proof.Proof.RefRun

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Window 2's first 14 operations: the comment features gathered by edge, summed by user and divided by the counts (%96 … %107). -/
abbrev ops2a : List (HloOp τ sig (Elt F)) :=
  [ StableHlo.binary main_arg4 main_v95 main_v96 (cmpi .slt : (⟨S1000000, .i32⟩ : BufTy).Contents (Elt F) → (⟨S1000000, .i32⟩ : BufTy).Contents (Elt F) → (⟨S1000000, .i1⟩ : BufTy).Contents (Elt F)),
    StableHlo.nullary main_c_22 (constantI S_ 32 200000#32),
    StableHlo.unary main_c_22 main_v97 (broadcastInDim S1000000 ![] bcast_S_S1000000 : (⟨S_, .i32⟩ : BufTy).Contents (Elt F) → (⟨S1000000, .i32⟩ : BufTy).Contents (Elt F)),
    StableHlo.binary main_arg4 main_v97 main_v98 (addi : (⟨S1000000, .i32⟩ : BufTy).Contents (Elt F) → (⟨S1000000, .i32⟩ : BufTy).Contents (Elt F) → (⟨S1000000, .i32⟩ : BufTy).Contents (Elt F)),
    StableHlo.ternary main_v96 main_v98 main_arg4 main_v99 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v99 main_v100 (broadcastInDim S1000000x1 ![0] bcast_S1000000_S1000000x1_0 : (⟨S1000000, .i32⟩ : BufTy).Contents (Elt F) → (⟨S1000000x1, .i32⟩ : BufTy).Contents (Elt F)),
    StableHlo.binary main_arg2 main_v100 main_v101 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    StableHlo.nullary main_cst_23 (constant S_ .f32 0x00000000#32),
    StableHlo.unary main_cst_23 main_v102 (broadcastInDim S100000x64 ![] bcast_S_S100000x64 : (⟨S_, .f32⟩ : BufTy).Contents (Elt F) → (⟨S100000x64, .f32⟩ : BufTy).Contents (Elt F)),
    StableHlo.unary main_arg5 main_v103 (broadcastInDim S1000000x1 ![0] bcast_S1000000_S1000000x1_0 : (⟨S1000000, .i32⟩ : BufTy).Contents (Elt F) → (⟨S1000000x1, .i32⟩ : BufTy).Contents (Elt F)),
    StableHlo.ternary main_v102 main_v103 main_v101 main_v104 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v94 main_v105 (broadcastInDim S100000x1 ![0] bcast_S100000_S100000x1_0 : (⟨S100000, .f32⟩ : BufTy).Contents (Elt F) → (⟨S100000x1, .f32⟩ : BufTy).Contents (Elt F)),
    StableHlo.unary main_v105 main_v106 (broadcastInDim S100000x64 ![0, 1] bcast_S100000x1_S100000x64_0_1 : (⟨S100000x1, .f32⟩ : BufTy).Contents (Elt F) → (⟨S100000x64, .f32⟩ : BufTy).Contents (Elt F)),
    StableHlo.binary main_v104 main_v106 main_v107 (Host.divf : (⟨S100000x64, .f32⟩ : BufTy).Contents (Elt F) → (⟨S100000x64, .f32⟩ : BufTy).Contents (Elt F) → (⟨S100000x64, .f32⟩ : BufTy).Contents (Elt F)) ]

/-- The references `ops2a` writes. -/
abbrev written_ops2a : List (Ref sig .tc) :=
  [main_v96, main_c_22, main_v97, main_v98, main_v99, main_v100, main_v101, main_cst_23, main_v102, main_v103, main_v104, main_v105, main_v106, main_v107]

set_option maxRecDepth 8192 in
theorem ops2a_writes : (ops2a : List (HloOp τ sig (Elt F))).Forall fun op => op.writes ⊆ (written_ops2a.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- Window 2's remaining 52 operations (%cst_24 … %c_29): the first hop and the second hop's projection. -/
abbrev ops2b : List (HloOp τ sig (Elt F)) :=
  [ StableHlo.nullary main_cst_24 (constant S_ .f32 0x00000000#32),
    StableHlo.unary main_cst_24 main_v108 (broadcastInDim S100000x128 ![] bcast_S_S100000x128 : (⟨S_, .f32⟩ : BufTy).Contents (Elt F) → (⟨S100000x128, .f32⟩ : BufTy).Contents (Elt F)),
    StableHlo.unary main_arg12 main_v109 ((extractStridedSlice S1x85x128 ![0, 0, 0] · slices_S2x85x128_S1x85x128_0_0_0) : (⟨S2x85x128, .f32⟩ : BufTy).Contents (Elt F) → (⟨S1x85x128, .f32⟩ : BufTy).Contents (Elt F)),
    StableHlo.reshape main_v109 main_v110 rfl shapeCasts_S1x85x128_S85x128,
    StableHlo.binary main_v60 main_v110 main_v111 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.nullary main_c_25 (constantI S_ 32 0#32),
    StableHlo.unary main_c_25 main_v112 (broadcastInDim S1000000 ![] bcast_S_S1000000 : (⟨S_, .i32⟩ : BufTy).Contents (Elt F) → (⟨S1000000, .i32⟩ : BufTy).Contents (Elt F)),
    StableHlo.binary main_v62 main_v112 main_v113 (cmpi .slt : (⟨S1000000, .i32⟩ : BufTy).Contents (Elt F) → (⟨S1000000, .i32⟩ : BufTy).Contents (Elt F) → (⟨S1000000, .i1⟩ : BufTy).Contents (Elt F)),
    StableHlo.nullary main_c_26 (constantI S_ 32 100000#32),
    StableHlo.unary main_c_26 main_v114 (broadcastInDim S1000000 ![] bcast_S_S1000000 : (⟨S_, .i32⟩ : BufTy).Contents (Elt F) → (⟨S1000000, .i32⟩ : BufTy).Contents (Elt F)),
    StableHlo.binary main_v62 main_v114 main_v115 (addi : (⟨S1000000, .i32⟩ : BufTy).Contents (Elt F) → (⟨S1000000, .i32⟩ : BufTy).Contents (Elt F) → (⟨S1000000, .i32⟩ : BufTy).Contents (Elt F)),
    StableHlo.ternary main_v113 main_v115 main_v62 main_v116 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v116 main_v117 (broadcastInDim S1000000x1 ![0] bcast_S1000000_S1000000x1_0 : (⟨S1000000, .i32⟩ : BufTy).Contents (Elt F) → (⟨S1000000x1, .i32⟩ : BufTy).Contents (Elt F)),
    StableHlo.binary main_v111 main_v117 main_v118 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_v89 main_v119 (broadcastInDim S1000000x1 ![0] bcast_S1000000_S1000000x1_0 : (⟨S1000000, .f32⟩ : BufTy).Contents (Elt F) → (⟨S1000000x1, .f32⟩ : BufTy).Contents (Elt F)),
    StableHlo.unary main_v119 main_v120 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v118 main_v120 main_v121 (mulf : (⟨S1000000x128, .f32⟩ : BufTy).Contents (Elt F) → (⟨S1000000x128, .f32⟩ : BufTy).Contents (Elt F) → (⟨S1000000x128, .f32⟩ : BufTy).Contents (Elt F)),
    StableHlo.nullary main_cst_27 (constant S_ .f32 0x00000000#32),
    StableHlo.unary main_cst_27 main_v122 (broadcastInDim S100000x128 ![] bcast_S_S100000x128 : (⟨S_, .f32⟩ : BufTy).Contents (Elt F) → (⟨S100000x128, .f32⟩ : BufTy).Contents (Elt F)),
    StableHlo.unary main_v64 main_v123 (broadcastInDim S1000000x1 ![0] bcast_S1000000_S1000000x1_0 : (⟨S1000000, .i32⟩ : BufTy).Contents (Elt F) → (⟨S1000000x1, .i32⟩ : BufTy).Contents (Elt F)),
    StableHlo.ternary main_v122 main_v123 main_v121 main_v124 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.unary main_arg13 main_v125 ((extractStridedSlice S1x128 ![0, 0] · slices_S2x128_S1x128_0_0) : (⟨S2x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v128 main_v129 (addf : (⟨S100000x128, .f32⟩ : BufTy).Contents (Elt F) → (⟨S100000x128, .f32⟩ : BufTy).Contents (Elt F) → (⟨S100000x128, .f32⟩ : BufTy).Contents (Elt F)),
    StableHlo.unary main_arg14 main_v130 ((extractStridedSlice S1x64x128 ![0, 0, 0] · slices_S2x64x128_S1x64x128_0_0_0) : (⟨S2x64x128, .f32⟩ : BufTy).Contents (Elt F) → (⟨S1x64x128, .f32⟩ : BufTy).Contents (Elt F)),
    StableHlo.reshape main_v130 main_v131 rfl shapeCasts_S1x64x128_S64x128,
    StableHlo.binary main_v107 main_v131 main_v132 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg15 main_v133 ((extractStridedSlice S1x128 ![0, 0] · slices_S2x128_S1x128_0_0) : (⟨S2x128, .f32⟩ : BufTy).Contents (Elt F) → (⟨S1x128, .f32⟩ : BufTy).Contents (Elt F)),
    StableHlo.reshape main_v133 main_v134 rfl shapeCasts_S1x128_S128,
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v136 main_v137 (addf : (⟨S100000x128, .f32⟩ : BufTy).Contents (Elt F) → (⟨S100000x128, .f32⟩ : BufTy).Contents (Elt F) → (⟨S100000x128, .f32⟩ : BufTy).Contents (Elt F)),
    StableHlo.unary main_arg16 main_v138 ((extractStridedSlice S1x85x128 ![0, 0, 0] · slices_S2x85x128_S1x85x128_0_0_0) : (⟨S2x85x128, .f32⟩ : BufTy).Contents (Elt F) → (⟨S1x85x128, .f32⟩ : BufTy).Contents (Elt F)),
    StableHlo.reshape main_v138 main_v139 rfl shapeCasts_S1x85x128_S85x128,
    StableHlo.binary main_v60 main_v139 main_v140 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.binary main_v137 main_v140 main_v141 (addf : (⟨S100000x128, .f32⟩ : BufTy).Contents (Elt F) → (⟨S100000x128, .f32⟩ : BufTy).Contents (Elt F) → (⟨S100000x128, .f32⟩ : BufTy).Contents (Elt F)),
    StableHlo.binary main_v129 main_v141 main_v142 (addf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3E99999A#32),
    StableHlo.TRef.nullary main_call1.cst (constant S_ .f32 0x00000000#32),
    StableHlo.TRef.unary main_call1.cst main_call1.v0 (broadcastInDim S100000x128 ![] bcast_S_S100000x128),
    StableHlo.TRef.binary (.of main_v142 : StableHlo.TRef sig ⟨S100000x128, .f32⟩) main_call1.v0 main_call1.v1 (cmpf .oge),
    StableHlo.TRef.unary (.of main_cst_28 : StableHlo.TRef sig ⟨S_, .f32⟩) main_call1.v2 id,
    StableHlo.TRef.unary main_call1.v2 main_call1.v3 (broadcastInDim S100000x128 ![] bcast_S_S100000x128),
    StableHlo.TRef.binary main_call1.v3 (.of main_v142 : StableHlo.TRef sig ⟨S100000x128, .f32⟩) main_call1.v4 mulf,
    StableHlo.TRef.ternary main_call1.v1 (.of main_v142 : StableHlo.TRef sig ⟨S100000x128, .f32⟩) main_call1.v4 main_call1.call0.v0 select,
    StableHlo.binary main_v108 main_v143 main_v144 (addf : (⟨S100000x128, .f32⟩ : BufTy).Contents (Elt F) → (⟨S100000x128, .f32⟩ : BufTy).Contents (Elt F) → (⟨S100000x128, .f32⟩ : BufTy).Contents (Elt F)),
    StableHlo.unary main_arg12 main_v145 ((extractStridedSlice S1x85x128 ![1, 0, 0] · slices_S2x85x128_S1x85x128_1_0_0) : (⟨S2x85x128, .f32⟩ : BufTy).Contents (Elt F) → (⟨S1x85x128, .f32⟩ : BufTy).Contents (Elt F)),
    StableHlo.reshape main_v145 main_v146 rfl shapeCasts_S1x85x128_S85x128,
    StableHlo.binary main_v60 main_v146 main_v147 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.nullary main_c_29 (constantI S_ 32 0#32) ]

/-- The references `ops2b` writes. -/
abbrev written_ops2b : List (Ref sig .tc) :=
  [main_cst_24, main_v108, main_v109, main_v110, main_v111, main_c_25, main_v112, main_v113, main_c_26, main_v114, main_v115, main_v116, main_v117, main_v118, main_v119, main_v120, main_v121, main_cst_27, main_v122, main_v123, main_v124, main_v125, main_v126, main_v127, main_v128, main_v129, main_v130, main_v131, main_v132, main_v133, main_v134, main_v135, main_v136, main_v137, main_v138, main_v139, main_v140, main_v141, main_v142, main_cst_28, main_call1_cst, main_call1_v0, main_call1_v1, main_call1_v2, main_call1_v3, main_call1_v4, main_v143, main_v144, main_v145, main_v146, main_v147, main_c_29]

set_option maxRecDepth 8192 in
theorem ops2b_writes : (ops2b : List (HloOp τ sig (Elt F))).Forall fun op => op.writes ⊆ (written_ops2b.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

set_option maxRecDepth 8192 in
theorem ops2_cut : (ops2 : List (HloOp τ sig (Elt F))) = ops2a ++ ops2b := rfl

/-- The prefix: the 136 operations through %107. -/
abbrev opsPre : List (HloOp τ sig (Elt F)) := ops0 ++ (ops1 ++ ops2a)
/-- The tail: the 124 operations from %108 on. -/
abbrev opsTail : List (HloOp τ sig (Elt F)) := ops2b ++ (ops3 ++ ops4)

theorem ops_cut : (ops : List (HloOp τ sig (Elt F))) = opsPre ++ opsTail := by
  simp only [ops, opsPre, opsTail, ops2_cut, List.append_assoc]

/-- The whole line's fold is the tail's over the prefix's. -/
theorem after_cut (V : Valuation τ sig (Elt F)) : after (ops (F := F)) V = after opsTail (after opsPre V) := by
  rw [ops_cut, after_append]

/-- A reference the tail never writes holds after the tail what it held before. -/
theorem kept_tail (V : Valuation τ sig (Elt F)) {r : Ref sig .tc}
    (h2 : r ∉ written_ops2b) (h3 : r ∉ written3) (h4 : r ∉ written4) :
    after (opsTail (F := F)) V (Proc.devRef .tc r) = V (Proc.devRef .tc r) := by
  rw [opsTail, after_append, after_append,
    after_of_writes_sub ops4 _ ops4_writes h4, after_of_writes_sub ops3 _ ops3_writes h3,
    after_of_writes_sub ops2b _ ops2b_writes h2]

/-- A reference the prefix never writes holds after the prefix what it held before. -/
theorem kept_pre (V : Valuation τ sig (Elt F)) {r : Ref sig .tc}
    (h0 : r ∉ written0) (h1 : r ∉ written1) (h2 : r ∉ written_ops2a) :
    after (opsPre (F := F)) V (Proc.devRef .tc r) = V (Proc.devRef .tc r) := by
  rw [opsPre, after_append, after_append,
    after_of_writes_sub ops2a _ ops2a_writes h2, after_of_writes_sub ops1 _ ops1_writes h1,
    after_of_writes_sub ops0 _ ops0_writes h0]

set_option maxRecDepth 8192 in
/-- The five arrays the hops read — user features, aggregated comment features, edge norms, the two edge index rows —
    hold after the whole line what the prefix computed. -/
theorem after_ops_v60 (V : Valuation τ sig (Elt F)) : after (ops (F := F)) V (Proc.devRef .tc main_v60) = after opsPre V (Proc.devRef .tc main_v60) := by
  rw [after_cut]; exact kept_tail _ (by decide) (by decide) (by decide)
set_option maxRecDepth 8192 in
theorem after_ops_v107 (V : Valuation τ sig (Elt F)) : after (ops (F := F)) V (Proc.devRef .tc main_v107) = after opsPre V (Proc.devRef .tc main_v107) := by
  rw [after_cut]; exact kept_tail _ (by decide) (by decide) (by decide)
set_option maxRecDepth 8192 in
theorem after_ops_v89 (V : Valuation τ sig (Elt F)) : after (ops (F := F)) V (Proc.devRef .tc main_v89) = after opsPre V (Proc.devRef .tc main_v89) := by
  rw [after_cut]; exact kept_tail _ (by decide) (by decide) (by decide)
set_option maxRecDepth 8192 in
theorem after_ops_v62 (V : Valuation τ sig (Elt F)) : after (ops (F := F)) V (Proc.devRef .tc main_v62) = after opsPre V (Proc.devRef .tc main_v62) := by
  rw [after_cut]; exact kept_tail _ (by decide) (by decide) (by decide)
set_option maxRecDepth 8192 in
theorem after_ops_v64 (V : Valuation τ sig (Elt F)) : after (ops (F := F)) V (Proc.devRef .tc main_v64) = after opsPre V (Proc.devRef .tc main_v64) := by
  rw [after_cut]; exact kept_tail _ (by decide) (by decide) (by decide)

end Cert.ReferenceIdeal.Line

end
-- ==== Proof.SimPre.lean ====
/-
  The shared prefix. The kernel program and the reference begin with the same 136 host operations — the user
  features (six embedding rows gathered by index and two raw slices, side by side, over the gathered rows), the edge
  index rows, the degree normalisation and the edge norms, and the comment features gathered by edge, summed by user
  and divided by the counts — written over each program's own shapes and references. Launched on the same nineteen
  argument arrays, the two programs therefore hold the same user features, aggregated comment features, edge norms
  and edge index rows when the kernel program's first grid starts; in the reference no later operation writes them.
  Each array is read back on both sides as a term over the argument arrays, and the two terms are the same term.
  A concatenation's pieces are compared piece by piece.
-/
import proofs.«159553_j62680752718518_1_alg».proof.Proof.Gen.KernelIdeal.Launch
import proofs.«159553_j62680752718518_1_alg».proof.Proof.RefCut
import Idealize.ShloMosaic.PureOps.Ideal

set_option maxRecDepth 16384

noncomputable section

namespace Cert.Bridge

open Idealize.ShloMosaic Idealize.ShloMosaic.TcCoe Idealize.SL.Sem Idealize.ShloMosaic.StableHlo

section Congr
variable {α : Type} {t : Shape} {a : Fin t.rank}

/-- Two two-piece concatenations agree when their pieces do. -/
theorem concat2_congr {s1 s2 : Shape} {x1 y1 : s1.Idx → α} {x2 y2 : s2.Idx → α}
    (h : Shape.Concatenates ([(⟨s1, x1⟩ : (s : Shape) × (s.Idx → α)), ⟨s2, x2⟩].map (·.1)) t a)
    (h' : Shape.Concatenates ([(⟨s1, y1⟩ : (s : Shape) × (s.Idx → α)), ⟨s2, y2⟩].map (·.1)) t a)
    (e1 : x1 = y1) (e2 : x2 = y2) :
    concatenate t a [⟨s1, x1⟩, ⟨s2, x2⟩] h = concatenate t a [⟨s1, y1⟩, ⟨s2, y2⟩] h' := by
  subst e1; subst e2; rfl

/-- Two seven-piece concatenations agree when their pieces do. -/
theorem concat7_congr {s1 s2 s3 s4 s5 s6 s7 : Shape} {x1 y1 : s1.Idx → α} {x2 y2 : s2.Idx → α} {x3 y3 : s3.Idx → α}
    {x4 y4 : s4.Idx → α} {x5 y5 : s5.Idx → α} {x6 y6 : s6.Idx → α} {x7 y7 : s7.Idx → α}
    (h : Shape.Concatenates ([(⟨s1, x1⟩ : (s : Shape) × (s.Idx → α)), ⟨s2, x2⟩, ⟨s3, x3⟩, ⟨s4, x4⟩, ⟨s5, x5⟩, ⟨s6, x6⟩, ⟨s7, x7⟩].map (·.1)) t a)
    (h' : Shape.Concatenates ([(⟨s1, y1⟩ : (s : Shape) × (s.Idx → α)), ⟨s2, y2⟩, ⟨s3, y3⟩, ⟨s4, y4⟩, ⟨s5, y5⟩, ⟨s6, y6⟩, ⟨s7, y7⟩].map (·.1)) t a)
    (e1 : x1 = y1) (e2 : x2 = y2) (e3 : x3 = y3) (e4 : x4 = y4) (e5 : x5 = y5) (e6 : x6 = y6) (e7 : x7 = y7) :
    concatenate t a [⟨s1, x1⟩, ⟨s2, x2⟩, ⟨s3, x3⟩, ⟨s4, x4⟩, ⟨s5, x5⟩, ⟨s6, x6⟩, ⟨s7, x7⟩] h
      = concatenate t a [⟨s1, y1⟩, ⟨s2, y2⟩, ⟨s3, y3⟩, ⟨s4, y4⟩, ⟨s5, y5⟩, ⟨s6, y6⟩, ⟨s7, y7⟩] h' := by
  subst e1; subst e2; subst e3; subst e4; subst e5; subst e6; subst e7; rfl
end Congr

open Cert.KernelIdeal Cert.KernelIdeal.Gen in
/-- The kernel program's concatenation of the seven feature pieces along the feature axis, as one operation. -/
def kcat : HloOp Cert.KernelIdeal.τ Cert.KernelIdeal.sig (Elt Ideal) :=
  StableHlo.nary ![main_v16, main_v57, main_v26, main_v58, main_v36, main_v46, main_v56] main_v59 (fun u => concatenate S50000x85 1 [⟨S50000x16, u 0⟩, ⟨S50000x2, u 1⟩, ⟨S50000x16, u 2⟩, ⟨S50000x3, u 3⟩, ⟨S50000x16, u 4⟩, ⟨S50000x16, u 5⟩, ⟨S50000x16, u 6⟩] concatenates_S50000x16_S50000x2_S50000x16_S50000x3_S50000x16_S50000x16_S50000x16_S50000x85_d1)

open Cert.KernelIdeal Cert.KernelIdeal.Gen in
theorem kcat_def : (StableHlo.nary ![main_v16, main_v57, main_v26, main_v58, main_v36, main_v46, main_v56] main_v59 (fun u => concatenate S50000x85 1 [⟨S50000x16, u 0⟩, ⟨S50000x2, u 1⟩, ⟨S50000x16, u 2⟩, ⟨S50000x3, u 3⟩, ⟨S50000x16, u 4⟩, ⟨S50000x16, u 5⟩, ⟨S50000x16, u 6⟩] concatenates_S50000x16_S50000x2_S50000x16_S50000x3_S50000x16_S50000x16_S50000x16_S50000x85_d1) : HloOp Cert.KernelIdeal.τ Cert.KernelIdeal.sig (Elt Ideal)) = kcat := rfl

open Cert.KernelIdeal Cert.KernelIdeal.Gen in
/-- It leaves in its result the seven pieces side by side, each read at its own reference. -/
theorem kcat_result (W : Valuation Cert.KernelIdeal.τ Cert.KernelIdeal.sig (Elt Ideal)) :
    kcat.result W (no_index (Proc.devRef .tc main_v59))
      = concatenate S50000x85 1 [⟨S50000x16, W (Proc.devRef .tc main_v16)⟩, ⟨S50000x2, W (Proc.devRef .tc main_v57)⟩, ⟨S50000x16, W (Proc.devRef .tc main_v26)⟩, ⟨S50000x3, W (Proc.devRef .tc main_v58)⟩, ⟨S50000x16, W (Proc.devRef .tc main_v36)⟩, ⟨S50000x16, W (Proc.devRef .tc main_v46)⟩, ⟨S50000x16, W (Proc.devRef .tc main_v56)⟩] concatenates_S50000x16_S50000x2_S50000x16_S50000x3_S50000x16_S50000x16_S50000x16_S50000x85_d1 := by
  unfold kcat; rw [nary_result]; rfl

open Cert.KernelIdeal Cert.KernelIdeal.Gen in
/-- It leaves every other reference as it was. -/
theorem kcat_result_ne (W : Valuation Cert.KernelIdeal.τ Cert.KernelIdeal.sig (Elt Ideal)) {r : Ref Cert.KernelIdeal.sig .tc} (h : r ≠ main_v59) :
    kcat.result W (no_index (Proc.devRef .tc r)) = W (Proc.devRef .tc r) := by
  unfold kcat; rw [nary_result_ne]; exact h

open Cert.ReferenceIdeal Cert.ReferenceIdeal.Gen in
/-- The reference's concatenation of the seven feature pieces along the feature axis, as one operation. -/
def rcat : HloOp Cert.ReferenceIdeal.τ Cert.ReferenceIdeal.sig (Elt Ideal) :=
  StableHlo.nary ![main_v16, main_v57, main_v26, main_v58, main_v36, main_v46, main_v56] main_v59 (fun u => concatenate S50000x85 1 [⟨S50000x16, u 0⟩, ⟨S50000x2, u 1⟩, ⟨S50000x16, u 2⟩, ⟨S50000x3, u 3⟩, ⟨S50000x16, u 4⟩, ⟨S50000x16, u 5⟩, ⟨S50000x16, u 6⟩] concatenates_S50000x16_S50000x2_S50000x16_S50000x3_S50000x16_S50000x16_S50000x16_S50000x85_d1)

open Cert.ReferenceIdeal Cert.ReferenceIdeal.Gen in
theorem rcat_def : (StableHlo.nary ![main_v16, main_v57, main_v26, main_v58, main_v36, main_v46, main_v56] main_v59 (fun u => concatenate S50000x85 1 [⟨S50000x16, u 0⟩, ⟨S50000x2, u 1⟩, ⟨S50000x16, u 2⟩, ⟨S50000x3, u 3⟩, ⟨S50000x16, u 4⟩, ⟨S50000x16, u 5⟩, ⟨S50000x16, u 6⟩] concatenates_S50000x16_S50000x2_S50000x16_S50000x3_S50000x16_S50000x16_S50000x16_S50000x85_d1) : HloOp Cert.ReferenceIdeal.τ Cert.ReferenceIdeal.sig (Elt Ideal)) = rcat := rfl

open Cert.ReferenceIdeal Cert.ReferenceIdeal.Gen in
/-- It leaves in its result the seven pieces side by side, each read at its own reference. -/
theorem rcat_result (W : Valuation Cert.ReferenceIdeal.τ Cert.ReferenceIdeal.sig (Elt Ideal)) :
    rcat.result W (no_index (Proc.devRef .tc main_v59))
      = concatenate S50000x85 1 [⟨S50000x16, W (Proc.devRef .tc main_v16)⟩, ⟨S50000x2, W (Proc.devRef .tc main_v57)⟩, ⟨S50000x16, W (Proc.devRef .tc main_v26)⟩, ⟨S50000x3, W (Proc.devRef .tc main_v58)⟩, ⟨S50000x16, W (Proc.devRef .tc main_v36)⟩, ⟨S50000x16, W (Proc.devRef .tc main_v46)⟩, ⟨S50000x16, W (Proc.devRef .tc main_v56)⟩] concatenates_S50000x16_S50000x2_S50000x16_S50000x3_S50000x16_S50000x16_S50000x16_S50000x85_d1 := by
  unfold rcat; rw [nary_result]; rfl

open Cert.ReferenceIdeal Cert.ReferenceIdeal.Gen in
/-- It leaves every other reference as it was. -/
theorem rcat_result_ne (W : Valuation Cert.ReferenceIdeal.τ Cert.ReferenceIdeal.sig (Elt Ideal)) {r : Ref Cert.ReferenceIdeal.sig .tc} (h : r ≠ main_v59) :
    rcat.result W (no_index (Proc.devRef .tc r)) = W (Proc.devRef .tc r) := by
  unfold rcat; rw [nary_result_ne]; exact h

/-- The line's results in one pass, the seven-piece concatenations read through their own two facts. -/
macro "after_results_cat" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      kcat_result, kcat_result_ne, rcat_result, rcat_result_ne]))

/-- The two programs are launched on the same nineteen argument arrays. -/
structure Agree (Vk : Valuation Cert.KernelIdeal.τ Cert.KernelIdeal.sig (Elt Ideal)) (Vr : Valuation Cert.ReferenceIdeal.τ Cert.ReferenceIdeal.sig (Elt Ideal)) : Prop where
  a0 : Vr (Proc.devRef .tc Cert.ReferenceIdeal.main_arg0) = Vk (Proc.devRef .tc Cert.KernelIdeal.main_arg0)
  a1 : Vr (Proc.devRef .tc Cert.ReferenceIdeal.main_arg1) = Vk (Proc.devRef .tc Cert.KernelIdeal.main_arg1)
  a2 : Vr (Proc.devRef .tc Cert.ReferenceIdeal.main_arg2) = Vk (Proc.devRef .tc Cert.KernelIdeal.main_arg2)
  a3 : Vr (Proc.devRef .tc Cert.ReferenceIdeal.main_arg3) = Vk (Proc.devRef .tc Cert.KernelIdeal.main_arg3)
  a4 : Vr (Proc.devRef .tc Cert.ReferenceIdeal.main_arg4) = Vk (Proc.devRef .tc Cert.KernelIdeal.main_arg4)
  a5 : Vr (Proc.devRef .tc Cert.ReferenceIdeal.main_arg5) = Vk (Proc.devRef .tc Cert.KernelIdeal.main_arg5)
  a6 : Vr (Proc.devRef .tc Cert.ReferenceIdeal.main_arg6) = Vk (Proc.devRef .tc Cert.KernelIdeal.main_arg6)
  a7 : Vr (Proc.devRef .tc Cert.ReferenceIdeal.main_arg7) = Vk (Proc.devRef .tc Cert.KernelIdeal.main_arg7)
  a8 : Vr (Proc.devRef .tc Cert.ReferenceIdeal.main_arg8) = Vk (Proc.devRef .tc Cert.KernelIdeal.main_arg8)
  a9 : Vr (Proc.devRef .tc Cert.ReferenceIdeal.main_arg9) = Vk (Proc.devRef .tc Cert.KernelIdeal.main_arg9)
  a10 : Vr (Proc.devRef .tc Cert.ReferenceIdeal.main_arg10) = Vk (Proc.devRef .tc Cert.KernelIdeal.main_arg10)
  a11 : Vr (Proc.devRef .tc Cert.ReferenceIdeal.main_arg11) = Vk (Proc.devRef .tc Cert.KernelIdeal.main_arg11)
  a12 : Vr (Proc.devRef .tc Cert.ReferenceIdeal.main_arg12) = Vk (Proc.devRef .tc Cert.KernelIdeal.main_arg12)
  a13 : Vr (Proc.devRef .tc Cert.ReferenceIdeal.main_arg13) = Vk (Proc.devRef .tc Cert.KernelIdeal.main_arg13)
  a14 : Vr (Proc.devRef .tc Cert.ReferenceIdeal.main_arg14) = Vk (Proc.devRef .tc Cert.KernelIdeal.main_arg14)
  a15 : Vr (Proc.devRef .tc Cert.ReferenceIdeal.main_arg15) = Vk (Proc.devRef .tc Cert.KernelIdeal.main_arg15)
  a16 : Vr (Proc.devRef .tc Cert.ReferenceIdeal.main_arg16) = Vk (Proc.devRef .tc Cert.KernelIdeal.main_arg16)
  a17 : Vr (Proc.devRef .tc Cert.ReferenceIdeal.main_arg17) = Vk (Proc.devRef .tc Cert.KernelIdeal.main_arg17)
  a18 : Vr (Proc.devRef .tc Cert.ReferenceIdeal.main_arg18) = Vk (Proc.devRef .tc Cert.KernelIdeal.main_arg18)

set_option maxHeartbeats 8000000 in
/-- The first edge index row: row 0 of the edge array, flattened. -/
theorem pre_v62 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v62)
      = after Cert.ReferenceIdeal.Line.opsPre Vr (Proc.devRef .tc Cert.ReferenceIdeal.main_v62) := by
  obtain ⟨h0, h1, h2, h3, h4, h5, h6, h7, h8, h9, h10, h11, h12, h13, h14, h15, h16, h17, h18⟩ := h
  simp only [Cert.KernelIdeal.Gen.hostOps0, Cert.KernelIdeal.Gen.hostOps0_1, Cert.KernelIdeal.Gen.hostOps0_2,
    Cert.ReferenceIdeal.Line.opsPre, Cert.ReferenceIdeal.Line.ops0, Cert.ReferenceIdeal.Line.ops1, Cert.ReferenceIdeal.Line.ops2a,
    List.cons_append, List.nil_append, List.append_assoc]
  after_results_simp
  simp only [h3]
  rfl

set_option maxHeartbeats 8000000 in
/-- The second edge index row: row 1 of the edge array, flattened. -/
theorem pre_v64 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v64)
      = after Cert.ReferenceIdeal.Line.opsPre Vr (Proc.devRef .tc Cert.ReferenceIdeal.main_v64) := by
  obtain ⟨h0, h1, h2, h3, h4, h5, h6, h7, h8, h9, h10, h11, h12, h13, h14, h15, h16, h17, h18⟩ := h
  simp only [Cert.KernelIdeal.Gen.hostOps0, Cert.KernelIdeal.Gen.hostOps0_1, Cert.KernelIdeal.Gen.hostOps0_2,
    Cert.ReferenceIdeal.Line.opsPre, Cert.ReferenceIdeal.Line.ops0, Cert.ReferenceIdeal.Line.ops1, Cert.ReferenceIdeal.Line.ops2a,
    List.cons_append, List.nil_append, List.append_assoc]
  after_results_simp
  simp only [h3]
  rfl

set_option maxHeartbeats 8000000 in
/-- The edge norms: the product of the two end points' inverse square root degrees. -/
theorem pre_v89 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v89)
      = after Cert.ReferenceIdeal.Line.opsPre Vr (Proc.devRef .tc Cert.ReferenceIdeal.main_v89) := by
  obtain ⟨h0, h1, h2, h3, h4, h5, h6, h7, h8, h9, h10, h11, h12, h13, h14, h15, h16, h17, h18⟩ := h
  simp only [Cert.KernelIdeal.Gen.hostOps0, Cert.KernelIdeal.Gen.hostOps0_1, Cert.KernelIdeal.Gen.hostOps0_2,
    Cert.ReferenceIdeal.Line.opsPre, Cert.ReferenceIdeal.Line.ops0, Cert.ReferenceIdeal.Line.ops1, Cert.ReferenceIdeal.Line.ops2a,
    List.cons_append, List.nil_append, List.append_assoc]
  after_results_simp
  simp only [h3]
  rfl

set_option maxHeartbeats 8000000 in
/-- The aggregated comment features: gathered by edge, summed by user, divided by the counts. -/
theorem pre_v107 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v107)
      = after Cert.ReferenceIdeal.Line.opsPre Vr (Proc.devRef .tc Cert.ReferenceIdeal.main_v107) := by
  obtain ⟨h0, h1, h2, h3, h4, h5, h6, h7, h8, h9, h10, h11, h12, h13, h14, h15, h16, h17, h18⟩ := h
  simp only [Cert.KernelIdeal.Gen.hostOps0, Cert.KernelIdeal.Gen.hostOps0_1, Cert.KernelIdeal.Gen.hostOps0_2,
    Cert.ReferenceIdeal.Line.opsPre, Cert.ReferenceIdeal.Line.ops0, Cert.ReferenceIdeal.Line.ops1, Cert.ReferenceIdeal.Line.ops2a,
    List.cons_append, List.nil_append, List.append_assoc]
  after_results_simp
  simp only [h2, h4, h5]
  rfl

set_option maxHeartbeats 16000000 in
/-- The user features: the six gathered embeddings and the two raw slices side by side, over the gathered rows. -/
theorem pre_v60 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v60)
      = after Cert.ReferenceIdeal.Line.opsPre Vr (Proc.devRef .tc Cert.ReferenceIdeal.main_v60) := by
  obtain ⟨h0, h1, h2, h3, h4, h5, h6, h7, h8, h9, h10, h11, h12, h13, h14, h15, h16, h17, h18⟩ := h
  simp only [Cert.KernelIdeal.Gen.hostOps0, Cert.KernelIdeal.Gen.hostOps0_1, Cert.KernelIdeal.Gen.hostOps0_2,
    Cert.ReferenceIdeal.Line.opsPre, Cert.ReferenceIdeal.Line.ops0, Cert.ReferenceIdeal.Line.ops1, Cert.ReferenceIdeal.Line.ops2a,
    List.cons_append, List.nil_append, List.append_assoc]
  rw [kcat_def, rcat_def]
  after_results_cat
  refine concat2_congr _ _ ?_ ?_
  · after_results_cat
    refine concat7_congr _ _ ?_ ?_ ?_ ?_ ?_ ?_ ?_
    all_goals (after_results_cat; simp only [h0, h1, h6, h7, h8, h9, h10, h11]; try rfl)
  · after_results_cat
    simp only [h0, h1, h6, h7, h8, h9, h10, h11]
    rfl

/-- The same against the whole reference line: no later operation writes this array. -/
theorem line_v60 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v60)
      = after Cert.ReferenceIdeal.Line.ops Vr (Proc.devRef .tc Cert.ReferenceIdeal.main_v60) :=
  (pre_v60 h).trans (Cert.ReferenceIdeal.Line.after_ops_v60 Vr).symm

/-- The same against the whole reference line: no later operation writes this array. -/
theorem line_v107 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v107)
      = after Cert.ReferenceIdeal.Line.ops Vr (Proc.devRef .tc Cert.ReferenceIdeal.main_v107) :=
  (pre_v107 h).trans (Cert.ReferenceIdeal.Line.after_ops_v107 Vr).symm

/-- The same against the whole reference line: no later operation writes this array. -/
theorem line_v89 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v89)
      = after Cert.ReferenceIdeal.Line.ops Vr (Proc.devRef .tc Cert.ReferenceIdeal.main_v89) :=
  (pre_v89 h).trans (Cert.ReferenceIdeal.Line.after_ops_v89 Vr).symm

/-- The same against the whole reference line: no later operation writes this array. -/
theorem line_v62 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v62)
      = after Cert.ReferenceIdeal.Line.ops Vr (Proc.devRef .tc Cert.ReferenceIdeal.main_v62) :=
  (pre_v62 h).trans (Cert.ReferenceIdeal.Line.after_ops_v62 Vr).symm

/-- The same against the whole reference line: no later operation writes this array. -/
theorem line_v64 {Vk : Valuation Cert.KernelIdeal.τ Cert.KernelIdeal.sig (Elt Ideal)} {Vr : Valuation Cert.ReferenceIdeal.τ Cert.ReferenceIdeal.sig (Elt Ideal)} (h : Agree Vk Vr) :
    after Cert.KernelIdeal.Gen.hostOps0_2 (after Cert.KernelIdeal.Gen.hostOps0_1 (after Cert.KernelIdeal.Gen.hostOps0 Vk)) (Proc.devRef .tc Cert.KernelIdeal.main_v64)
      = after Cert.ReferenceIdeal.Line.ops Vr (Proc.devRef .tc Cert.ReferenceIdeal.main_v64) :=
  (pre_v64 h).trans (Cert.ReferenceIdeal.Line.after_ops_v64 Vr).symm

end Cert.Bridge

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Pay0.lean ====
/-
  Region 0's two stored values, read at one entry of a row tile.

  Both are plain matrix products of the tile's rows with whole weight matrices, into a zero accumulator; narrowing an
  operand to a shorter float format changes nothing on the extended reals. The first is the tile's feature rows times the
  graph-convolution weights; the second is the aggregated rows times one weight matrix plus the feature rows times another,
  plus the bias row broadcast over the tile's rows.
-/
import proofs.«159553_j62680752718518_1_alg».proof.Proof.Gen.KernelIdeal.Skeleton
import proofs.«159553_j62680752718518_1_alg».proof.Proof.LibPlainProduct
import Idealize.ShloMosaic.Lib.ValueLayout

noncomputable section

namespace Cert.KernelIdeal.Val

open Cert.KernelIdeal Cert.KernelIdeal.Gen
open Idealize.ShloMosaic Idealize.ShloMosaic.ValueIdx

/-- A [4000, 85] by [85, 256] product into the zero accumulator, at entry (p, q). -/
theorem product85_entry {φ₁ φ₂ : FTy} (l : FVec Ideal S4000x85 φ₁) (r : FVec Ideal S85x256 φ₂) (p : Fin 4000) (q : Fin 256) :
    FloatOps.matmul dot_S4000x85_S85x256_S4000x256_1_0_0_1_n_n none l r (constant (F := Ideal) S4000x256 .f32 0x00000000#32) (ix2 p q)
      = ∑ e : Fin 85, l (ix2 p e) * r (ix2 e q) :=
  Cert.PlainProduct.matmul_zero_entry (M := 4000) (K := 85) (N := 256) dot_S4000x85_S85x256_S4000x256_1_0_0_1_n_n rfl rfl
    (fun j k => by simp [DotDims.lhsIdx, dot_S4000x85_S85x256_S4000x256_1_0_0_1_n_n]; rfl)
    (fun j k => DotDims.lhsIdx_val_of_single _ rfl j k)
    (fun j k => DotDims.rhsIdx_val_of_single _ rfl j k)
    (fun j k => by simp [DotDims.rhsIdx, dot_S4000x85_S85x256_S4000x256_1_0_0_1_n_n]; rfl)
    l r p q

/-- A [4000, 64] by [64, 256] product into the zero accumulator, at entry (p, q). -/
theorem product64_entry {φ₁ φ₂ : FTy} (l : FVec Ideal S4000x64 φ₁) (r : FVec Ideal S64x256 φ₂) (p : Fin 4000) (q : Fin 256) :
    FloatOps.matmul dot_S4000x64_S64x256_S4000x256_1_0_0_1_n_n none l r (constant (F := Ideal) S4000x256 .f32 0x00000000#32) (ix2 p q)
      = ∑ e : Fin 64, l (ix2 p e) * r (ix2 e q) :=
  Cert.PlainProduct.matmul_zero_entry (M := 4000) (K := 64) (N := 256) dot_S4000x64_S64x256_S4000x256_1_0_0_1_n_n rfl rfl
    (fun j k => by simp [DotDims.lhsIdx, dot_S4000x64_S64x256_S4000x256_1_0_0_1_n_n]; rfl)
    (fun j k => DotDims.lhsIdx_val_of_single _ rfl j k)
    (fun j k => DotDims.rhsIdx_val_of_single _ rfl j k)
    (fun j k => by simp [DotDims.rhsIdx, dot_S4000x64_S64x256_S4000x256_1_0_0_1_n_n]; rfl)
    l r p q

/-- The first stored value at (p, q): the feature rows times the first weight matrix. -/
theorem pay2_entry (x0 : Vec Ideal S4000x85 .f32) (x6 : Vec Ideal S85x256 .f32) (p : Fin 4000) (q : Fin 256) :
    k0_pay2 x0 x6 (ix2 p q) = ∑ e : Fin 85, x0 (ix2 p e) * x6 (ix2 e q) := by
  unfold k0_pay2 k0_pay1
  simp only [shapeCast_self]
  exact product85_entry (φ₁ := .bf16) (φ₂ := .bf16) x0 x6 p q

/-- The second stored value at (p, q): aggregated rows times their weights, plus feature rows times theirs, plus the bias. -/
theorem pay3_entry (x0 : Vec Ideal S4000x85 .f32) (x3 : Vec Ideal S4000x64 .f32) (x9 : Vec Ideal S64x256 .f32)
    (x12 : Vec Ideal S85x256 .f32) (x19 : Vec Ideal S1x256 .f32) (p : Fin 4000) (q : Fin 256) :
    k0_pay3 x0 x3 x9 x12 x19 (ix2 p q)
      = (∑ e : Fin 64, x3 (ix2 p e) * x9 (ix2 e q) + ∑ e : Fin 85, x0 (ix2 p e) * x12 (ix2 e q)) + x19 (ix2 (0 : Fin 1) q) := by
  have hb : broadcastTo S4000x256 x19 broadcasts_S1x256_S4000x256 (ix2 p q) = x19 (ix2 (0 : Fin 1) q) :=
    broadcastTo_1b_ab_apply (a := 4000) (b := 256) x19 broadcasts_S1x256_S4000x256 p q
  unfold k0_pay3 k0_pay1
  simp only [shapeCast_self]
  rw [← product64_entry (φ₁ := .bf16) (φ₂ := .bf16) x3 x9 p q, ← product85_entry (φ₁ := .bf16) (φ₂ := .bf16) x0 x12 p q, ← hb]
  rfl

end Cert.KernelIdeal.Val

end
-- ==== Proof.ValSpec.lean ====
/-
  What regions 0 and 3 of the kernel compute, as whole-array functions of their input arrays, index by index.

  Region 0: the node features times the graph-convolution weights, and the aggregated neighbour features times one weight
  matrix plus the node features times another plus a bias row. Region 3: each entry minus its column's mean, times the
  reciprocal square root of the column's variance plus a small constant, times the column's scale, plus the column's shift.
-/
import Idealize.ShloMosaic.Lib.ValueIdx
import Idealize.ShloMosaic.PureOps.Ideal.Laws

noncomputable section

namespace Cert.KernelIdeal.Val

open Idealize.ShloMosaic Idealize.ShloMosaic.ValueIdx

/-- Features times weights: entry (i, k) is the sum over e of X[i, e] * Wg[e, k]. -/
def xwOf (X : (⟨2, ![100000, 85]⟩ : Shape).Idx → EReal) (Wg : (⟨2, ![85, 256]⟩ : Shape).Idx → EReal) :
    (⟨2, ![100000, 256]⟩ : Shape).Idx → EReal :=
  fun i => ∑ e : Fin 85, X (ix2 (n0 := 100000) (i 0) e) * Wg (ix2 (n1 := 256) e (i 1))

/-- Aggregated features times their weights, plus features times theirs, plus the bias row. -/
def sageOf (A : (⟨2, ![100000, 64]⟩ : Shape).Idx → EReal) (X : (⟨2, ![100000, 85]⟩ : Shape).Idx → EReal)
    (Wl : (⟨2, ![64, 256]⟩ : Shape).Idx → EReal) (Wr : (⟨2, ![85, 256]⟩ : Shape).Idx → EReal)
    (bl : (⟨2, ![1, 256]⟩ : Shape).Idx → EReal) : (⟨2, ![100000, 256]⟩ : Shape).Idx → EReal :=
  fun i => (∑ e : Fin 64, A (ix2 (n0 := 100000) (i 0) e) * Wl (ix2 (n1 := 256) e (i 1))
      + ∑ e : Fin 85, X (ix2 (n0 := 100000) (i 0) e) * Wr (ix2 (n1 := 256) e (i 1)))
    + bl (ix2 (n1 := 256) (0 : Fin 1) (i 1))

/-- The normalisation: ((nu - mean) * rsqrt (var + eps)) * gamma + beta, the four rows read at the entry's column. -/
def bnOf (nu : (⟨2, ![100000, 128]⟩ : Shape).Idx → EReal) (mean var gamma beta : (⟨2, ![1, 128]⟩ : Shape).Idx → EReal) :
    (⟨2, ![100000, 128]⟩ : Shape).Idx → EReal :=
  fun i => ((nu i - mean (ix2 (n1 := 128) (0 : Fin 1) (i 1)))
        * Ideal.rsqrt (var (ix2 (n1 := 128) (0 : Fin 1) (i 1)) + Ideal.ofBits .f32 0x3727C5AC#32))
      * gamma (ix2 (n1 := 128) (0 : Fin 1) (i 1))
    + beta (ix2 (n1 := 128) (0 : Fin 1) (i 1))

end Cert.KernelIdeal.Val

end
-- ==== Proof.Arr0.lean ====
/-
  Region 0, from row tiles to whole arrays.

  The region walks 25 row tiles of 4000 rows. At tile t the two written windows hold, for rows t * 4000 .. t * 4000 + 3999, the
  products of those rows of the read arrays with the whole weight matrices. Every row lies in exactly the tile r / 4000, so
  after the walk each written array is one function of the read arrays, index by index.
-/
import proofs.«159553_j62680752718518_1_alg».proof.Proof.Gen.KernelIdeal.Launch
import proofs.«159553_j62680752718518_1_alg».proof.Proof.Gen.KernelIdeal.Points
import proofs.«159553_j62680752718518_1_alg».proof.Proof.Pay0
import proofs.«159553_j62680752718518_1_alg».proof.Proof.ValSpec
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

/-- The block index maps over the grid: the row-tiled windows sit at block (t, 0), the whole-array windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

section
variable {c : Dev nD} (dat : Dat τ (Elt Ideal) Unit ℕ (UR sig nD τ) ℕ cfg0 c)
variable (X : S100000x85.Idx → EReal) (A : S100000x64.Idx → EReal) (Wg : S85x256.Idx → EReal) (Wl : S64x256.Idx → EReal)
  (Wr : S85x256.Idx → EReal) (bl : S1x256.Idx → EReal)

/-- What tile t writes back to the first written array is tile t of the features-times-weights array. -/
theorem flushed6_eq
    (hafter : ∀ t, dat.after 6 t = k0_pay2 (((cfg0.win 0).blk t).view.read (Elt Ideal) X) (((cfg0.win 2).blk t).view.read (Elt Ideal) Wg))
    (t : Fin cfg0.N) :
    dat.flushed 6 t = ((cfg0.win 6).blk t).view.read (Elt Ideal) (xwOf X Wg) := by
  show (cfg0.win 6).cut (grid0.coords t) (dat.after 6 t) = _
  rw [hafter]
  obtain ⟨e00, e01, e10, e11, e20, e21, e30, e31, e40, e41, e50, e51, e60, e61, e70, e71⟩ := idx_facts0 t
  funext j
  obtain ⟨p, q, rfl⟩ : ∃ (p : Fin 4000) (q : Fin 256), j = ix2 p q := ⟨j 0, j 1, eq_ix2 j⟩
  show k0_pay2 (((cfg0.win 0).blk t).view.read (Elt Ideal) X) (((cfg0.win 2).blk t).view.read (Elt Ideal) Wg) (ix2 p q)
      = xwOf X Wg (((cfg0.win 6).blk t).view.emb (ix2 p q))
  rw [pay2_entry]
  unfold xwOf
  refine Finset.sum_congr rfl fun e _ => ?_
  show X (((cfg0.win 0).blk t).view.emb (ix2 p e)) * Wg (((cfg0.win 2).blk t).view.emb (ix2 e q)) = _
  have h0 : ((cfg0.win 0).blk t).view.emb (ix2 p e) = ix2 (n0 := 100000) ((((cfg0.win 6).blk t).view.emb (ix2 p q)) 0) e := by
    funext a; apply Fin.ext
    match a with
    | ⟨0, _⟩ => show win0_0.index t (0 : Fin 2) * 4000 + 1 * p.val = win0_6.index t (0 : Fin 2) * 4000 + 1 * p.val; omega
    | ⟨1, _⟩ => show win0_0.index t (1 : Fin 2) * 85 + 1 * e.val = e.val; omega
  have h2 : ((cfg0.win 2).blk t).view.emb (ix2 e q) = ix2 (n1 := 256) e ((((cfg0.win 6).blk t).view.emb (ix2 p q)) 1) := by
    funext a; apply Fin.ext
    match a with
    | ⟨0, _⟩ => show win0_2.index t (0 : Fin 2) * 85 + 1 * e.val = e.val; omega
    | ⟨1, _⟩ => show win0_2.index t (1 : Fin 2) * 256 + 1 * q.val = win0_6.index t (1 : Fin 2) * 256 + 1 * q.val; omega
  rw [h0, h2]

/-- What tile t writes back to the second written array is tile t of the aggregation array. -/
theorem flushed7_eq
    (hafter : ∀ t, dat.after 7 t = k0_pay3 (((cfg0.win 0).blk t).view.read (Elt Ideal) X) (((cfg0.win 1).blk t).view.read (Elt Ideal) A)
      (((cfg0.win 3).blk t).view.read (Elt Ideal) Wl) (((cfg0.win 4).blk t).view.read (Elt Ideal) Wr) (((cfg0.win 5).blk t).view.read (Elt Ideal) bl))
    (t : Fin cfg0.N) :
    dat.flushed 7 t = ((cfg0.win 7).blk t).view.read (Elt Ideal) (sageOf A X Wl Wr bl) := by
  show (cfg0.win 7).cut (grid0.coords t) (dat.after 7 t) = _
  rw [hafter]
  obtain ⟨e00, e01, e10, e11, e20, e21, e30, e31, e40, e41, e50, e51, e60, e61, e70, e71⟩ := idx_facts0 t
  funext j
  obtain ⟨p, q, rfl⟩ : ∃ (p : Fin 4000) (q : Fin 256), j = ix2 p q := ⟨j 0, j 1, eq_ix2 j⟩
  show k0_pay3 (((cfg0.win 0).blk t).view.read (Elt Ideal) X) (((cfg0.win 1).blk t).view.read (Elt Ideal) A)
      (((cfg0.win 3).blk t).view.read (Elt Ideal) Wl) (((cfg0.win 4).blk t).view.read (Elt Ideal) Wr) (((cfg0.win 5).blk t).view.read (Elt Ideal) bl) (ix2 p q)
      = sageOf A X Wl Wr bl (((cfg0.win 7).blk t).view.emb (ix2 p q))
  rw [pay3_entry]
  unfold sageOf
  have hX (e : Fin 85) : ((cfg0.win 0).blk t).view.emb (ix2 p e) = ix2 (n0 := 100000) ((((cfg0.win 7).blk t).view.emb (ix2 p q)) 0) e := by
    funext a; apply Fin.ext
    match a with
    | ⟨0, _⟩ => show win0_0.index t (0 : Fin 2) * 4000 + 1 * p.val = win0_7.index t (0 : Fin 2) * 4000 + 1 * p.val; omega
    | ⟨1, _⟩ => show win0_0.index t (1 : Fin 2) * 85 + 1 * e.val = e.val; omega
  have hA (e : Fin 64) : ((cfg0.win 1).blk t).view.emb (ix2 p e) = ix2 (n0 := 100000) ((((cfg0.win 7).blk t).view.emb (ix2 p q)) 0) e := by
    funext a; apply Fin.ext
    match a with
    | ⟨0, _⟩ => show win0_1.index t (0 : Fin 2) * 4000 + 1 * p.val = win0_7.index t (0 : Fin 2) * 4000 + 1 * p.val; omega
    | ⟨1, _⟩ => show win0_1.index t (1 : Fin 2) * 64 + 1 * e.val = e.val; omega
  have hWl (e : Fin 64) : ((cfg0.win 3).blk t).view.emb (ix2 e q) = ix2 (n1 := 256) e ((((cfg0.win 7).blk t).view.emb (ix2 p q)) 1) := by
    funext a; apply Fin.ext
    match a with
    | ⟨0, _⟩ => show win0_3.index t (0 : Fin 2) * 64 + 1 * e.val = e.val; omega
    | ⟨1, _⟩ => show win0_3.index t (1 : Fin 2) * 256 + 1 * q.val = win0_7.index t (1 : Fin 2) * 256 + 1 * q.val; omega
  have hWr (e : Fin 85) : ((cfg0.win 4).blk t).view.emb (ix2 e q) = ix2 (n1 := 256) e ((((cfg0.win 7).blk t).view.emb (ix2 p q)) 1) := by
    funext a; apply Fin.ext
    match a with
    | ⟨0, _⟩ => show win0_4.index t (0 : Fin 2) * 85 + 1 * e.val = e.val; omega
    | ⟨1, _⟩ => show win0_4.index t (1 : Fin 2) * 256 + 1 * q.val = win0_7.index t (1 : Fin 2) * 256 + 1 * q.val; omega
  have hb : ((cfg0.win 5).blk t).view.emb (ix2 (0 : Fin 1) q) = ix2 (n1 := 256) (0 : Fin 1) ((((cfg0.win 7).blk t).view.emb (ix2 p q)) 1) := by
    funext a; apply Fin.ext
    match a with
    | ⟨0, _⟩ => show win0_5.index t (0 : Fin 2) * 1 + 1 * 0 = 0; omega
    | ⟨1, _⟩ => show win0_5.index t (1 : Fin 2) * 256 + 1 * q.val = win0_7.index t (1 : Fin 2) * 256 + 1 * q.val; omega
  refine congrArg₂ (· + ·) (congrArg₂ (· + ·) (Finset.sum_congr rfl fun e _ => ?_) (Finset.sum_congr rfl fun e _ => ?_)) ?_
  · show A (((cfg0.win 1).blk t).view.emb (ix2 p e)) * Wl (((cfg0.win 3).blk t).view.emb (ix2 e q)) = _
    rw [hA, hWl]
  · show X (((cfg0.win 0).blk t).view.emb (ix2 p e)) * Wr (((cfg0.win 4).blk t).view.emb (ix2 e q)) = _
    rw [hX, hWr]
  · show bl (((cfg0.win 5).blk t).view.emb (ix2 (0 : Fin 1) q)) = _
    rw [hb]

end

/-! ## Every row lies in one tile -/

/-- An index of the first written array is in tile t iff each coordinate is in the tile's range on its axis. -/
theorem mem_blk6 (t : Fin cfg0.N) (i : S100000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v115_0).slice (win0_6.rect t)).set ↔ _
  rw [View.set_slice_whole, Rect.mem_set_unit]
  exact Iff.rfl

/-- The same for the second written array. -/
theorem mem_blk7 (t : Fin cfg0.N) (i : S100000x256.Idx) :
    i ∈ ((cfg0.win 7).blk t).view.set ↔ ∀ a : Fin 2, win0_7.index t a * S4000x256.size a ≤ (i a).val ∧ (i a).val < win0_7.index t a * S4000x256.size a + S4000x256.size a := by
  show i ∈ ((View.whole main_v115_1).slice (win0_7.rect t)).set ↔ _
  rw [View.set_slice_whole, Rect.mem_set_unit]
  exact Iff.rfl

/-- Row r of the first written array is written back by tile r / 4000. -/
theorem cover6 (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  have ht : (i 0).val / 4000 < cfg0.N := Nat.lt_of_lt_of_eq (by omega : (i 0).val / 4000 < 25) N_0.symm
  obtain ⟨e00, e01, e10, e11, e20, e21, e30, e31, e40, e41, e50, e51, e60, e61, e70, e71⟩ := idx_facts0 ⟨(i 0).val / 4000, ht⟩
  refine ⟨⟨(i 0).val / 4000, ht⟩, flush0_6 _, ?_⟩
  rw [mem_blk6]
  intro a
  match a with
  | ⟨0, _⟩ =>
    show win0_6.index ⟨(i 0).val / 4000, ht⟩ (0 : Fin 2) * 4000 ≤ (i 0).val ∧ (i 0).val < win0_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win0_6.index ⟨(i 0).val / 4000, ht⟩ (1 : Fin 2) * 256 ≤ (i 1).val ∧ (i 1).val < win0_6.index ⟨(i 0).val / 4000, ht⟩ (1 : Fin 2) * 256 + 256
    rw [e61]; omega

/-- Row r of the second written array is written back by tile r / 4000. -/
theorem cover7 (i : S100000x256.Idx) : ∃ t : Fin cfg0.N, (cfg0.win 7).flush t = true ∧ i ∈ ((cfg0.win 7).blk t).view.set := by
  have hi0 : (i 0).val < 100000 := (i 0).isLt
  have hi1 : (i 1).val < 256 := (i 1).isLt
  have ht : (i 0).val / 4000 < cfg0.N := Nat.lt_of_lt_of_eq (by omega : (i 0).val / 4000 < 25) N_0.symm
  obtain ⟨e00, e01, e10, e11, e20, e21, e30, e31, e40, e41, e50, e51, e60, e61, e70, e71⟩ := idx_facts0 ⟨(i 0).val / 4000, ht⟩
  refine ⟨⟨(i 0).val / 4000, ht⟩, flush0_7 _, ?_⟩
  rw [mem_blk7]
  intro a
  match a with
  | ⟨0, _⟩ =>
    show win0_7.index ⟨(i 0).val / 4000, ht⟩ (0 : Fin 2) * 4000 ≤ (i 0).val ∧ (i 0).val < win0_7.index ⟨(i 0).val / 4000, ht⟩ (0 : Fin 2) * 4000 + 4000
    rw [e70]; show (i 0).val / 4000 * 4000 ≤ (i 0).val ∧ (i 0).val < (i 0).val / 4000 * 4000 + 4000; omega
  | ⟨1, _⟩ =>
    show win0_7.index ⟨(i 0).val / 4000, ht⟩ (1 : Fin 2) * 256 ≤ (i 1).val ∧ (i 1).val < win0_7.index ⟨(i 0).val / 4000, ht⟩ (1 : Fin 2) * 256 + 256
    rw [e71]; omega

/-! ## The written arrays after the walk -/

section
variable {c : Dev nD} (dat : Dat τ (Elt Ideal) Unit ℕ (UR sig nD τ) ℕ cfg0 c)
variable (X : S100000x85.Idx → EReal) (A : S100000x64.Idx → EReal) (Wg : S85x256.Idx → EReal) (Wl : S64x256.Idx → EReal)
  (Wr : S85x256.Idx → EReal) (bl : S1x256.Idx → EReal)

/-- The first written array ends as the features-times-weights array. -/
theorem arr6_of
    (hafter : ∀ t, dat.after 6 t = k0_pay2 (((cfg0.win 0).blk t).view.read (Elt Ideal) X) (((cfg0.win 2).blk t).view.read (Elt Ideal) Wg)) :
    dat.arrAt 6 cfg0.N = xwOf X Wg :=
  dat.arrAt_eq_of_cover 6 (xwOf X Wg) (fun t _ => flushed6_eq dat X Wg hafter t) cover6

/-- The second written array ends as the aggregation array. -/
theorem arr7_of
    (hafter : ∀ t, dat.after 7 t = k0_pay3 (((cfg0.win 0).blk t).view.read (Elt Ideal) X) (((cfg0.win 1).blk t).view.read (Elt Ideal) A)
      (((cfg0.win 3).blk t).view.read (Elt Ideal) Wl) (((cfg0.win 4).blk t).view.read (Elt Ideal) Wr) (((cfg0.win 5).blk t).view.read (Elt Ideal) bl)) :
    dat.arrAt 7 cfg0.N = sageOf A X Wl Wr bl :=
  dat.arrAt_eq_of_cover 7 (sageOf A X Wl Wr bl) (fun t _ => flushed7_eq dat X A Wl Wr bl hafter t) cover7

end

end Cert.KernelIdeal.Val

end
-- ==== Proof.Val0.lean ====
/-
  The arrays region 0 writes, as functions of the arrays it reads.

  The region's proof data leaves in each written window, at tile t, the stored value of the read windows' tiles; a store of
  a whole buffer leaves exactly its value and a load of a whole buffer reads exactly its contents, so the tile-to-array step
  applies: the first written array is the features times the graph-convolution weights, the second the aggregated features
  times their weights plus the features times theirs plus the bias row.
-/
import proofs.«159553_j62680752718518_1_alg».proof.Proof.K0
import proofs.«159553_j62680752718518_1_alg».proof.Proof.Arr0

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset of a whole-buffer access is zero on both axes. -/
theorem offset_zero0 : (![0, 0] : Fin 2 → Nat) = fun _ => 0 := funext fun a => by fin_cases a <;> rfl

/-- The first written array after region 0: the features times the graph-convolution weights. -/
theorem arr0_6 (c : Dev nD) :
    (dat0 V c).arrAt 6 cfg0.N = xwOf (V c (Pipeline.arrRef spec0 0)) (V c (Pipeline.arrRef spec0 2)) :=
  arr6_of (dat0 V c) (V c (Pipeline.arrRef spec0 0)) (V c (Pipeline.arrRef spec0 2)) fun t => by
    rw [after0_6]; unfold out0_6 iblk0
    rw [View.canon_unit_zero offset_zero0, View.ld_unit_zero (S := S4000x85) offset_zero0, View.ld_unit_zero (S := S85x256) offset_zero0]

/-- The second written array after region 0: aggregated features times their weights, plus features times theirs, plus bias. -/
theorem arr0_7 (c : Dev nD) :
    (dat0 V c).arrAt 7 cfg0.N = sageOf (V c (Pipeline.arrRef spec0 1)) (V c (Pipeline.arrRef spec0 0)) (V c (Pipeline.arrRef spec0 3))
      (V c (Pipeline.arrRef spec0 4)) (V c (Pipeline.arrRef spec0 5)) :=
  arr7_of (dat0 V c) (V c (Pipeline.arrRef spec0 0)) (V c (Pipeline.arrRef spec0 1)) (V c (Pipeline.arrRef spec0 3))
    (V c (Pipeline.arrRef spec0 4)) (V c (Pipeline.arrRef spec0 5)) fun t => by
    rw [after0_7]; unfold out0_7 iblk0
    rw [View.canon_unit_zero offset_zero0, View.ld_unit_zero (S := S4000x85) offset_zero0, View.ld_unit_zero (S := S4000x64) offset_zero0,
      View.ld_unit_zero (S := S64x256) offset_zero0, View.ld_unit_zero (S := S85x256) offset_zero0, View.ld_unit_zero (S := S1x256) offset_zero0]

end Cert.KernelIdeal.Val

end
-- ==== Proof.ValSpec12.lean ====
/-
  What regions 1 and 2 of the kernel compute, as whole-array functions of their input arrays, index by index.

  Region 1: at every row and lane, the leaky rectifier of one sum of two inputs plus the leaky rectifier of another; and, lane by
  lane, the sum of those values over all the rows. Region 2: lane by lane, the sum over all the rows of the square of the value
  less the lane's mean.
-/
import Idealize.ShloMosaic.Lib.ValueIdx
import Idealize.ShloMosaic.PureOps.Ideal.Laws

noncomputable section

namespace Cert.KernelIdeal.Val

open Idealize.ShloMosaic Idealize.ShloMosaic.ValueIdx

/-- The leaky rectifier of slope word `0x3E99999A`: `x` where `x` is at least the zero word's value, the slope times `x` elsewhere. -/
def lk (x : EReal) : EReal :=
  Scalar.select (Ideal.cmp .oge x (Ideal.ofBits .f32 0x00000000#32)) x (Ideal.ofBits .f32 0x3E99999A#32 * x)

/-- The two rectified sums, added, at every row and lane. -/
def nuOf (g0 s0 g1 s1 : (⟨2, ![100000, 128]⟩ : Shape).Idx → EReal) : (⟨2, ![100000, 128]⟩ : Shape).Idx → EReal :=
  fun i => lk (g0 i + s0 i) + lk (g1 i + s1 i)

/-- The sum over all the rows, lane by lane. -/
def colSumOf (Y : (⟨2, ![100000, 128]⟩ : Shape).Idx → EReal) : (⟨2, ![1, 128]⟩ : Shape).Idx → EReal :=
  fun i => ∑ r : Fin 100000, Y (ix2 (n1 := 128) r (i 1))

/-- The sum over all the rows of the squared distance to the lane's mean, lane by lane. -/
def ssqOf (nu : (⟨2, ![100000, 128]⟩ : Shape).Idx → EReal) (mean : (⟨2, ![1, 128]⟩ : Shape).Idx → EReal) :
    (⟨2, ![1, 128]⟩ : Shape).Idx → EReal :=
  fun i => ∑ r : Fin 100000, (nu (ix2 (n1 := 128) r (i 1)) - mean (ix2 (n1 := 128) (0 : Fin 1) (i 1)))
    * (nu (ix2 (n1 := 128) r (i 1)) - mean (ix2 (n1 := 128) (0 : Fin 1) (i 1)))

end Cert.KernelIdeal.Val

end
-- ==== Proof.LibTileSum.lean ====
/-
  A sum over the rows of an array cut into equal row tiles, regrouped tile by tile.

  An array of `T * R` rows read in `T` consecutive tiles of `R` rows each: row `t * R + p` is row `p` of tile `t`.
  Over any commutative additive monoid the sum over all the rows is the sum, over the tiles, of each tile's sum over
  its own rows — associativity and commutativity of the addition only.
-/
import Mathlib.Algebra.BigOperators.Fin
import Mathlib.Algebra.BigOperators.Group.Finset.Basic
import Mathlib.Logic.Equiv.Fin.Basic

namespace Cert.LibTileSum

open Finset

/-- Row `p` of tile `t`, among `T` tiles of `R` rows, is a row of the whole: `t * R + p < T * R`. -/
theorem tile_lt {T R : ℕ} (t : Fin T) (p : Fin R) : t.val * R + p.val < T * R :=
  calc t.val * R + p.val < t.val * R + R := Nat.add_lt_add_left p.isLt _
    _ = (t.val + 1) * R := (Nat.succ_mul _ _).symm
    _ ≤ T * R := Nat.mul_le_mul_right R t.isLt

/-- The sum over the `T * R` rows is the sum over the `T` tiles of the sum over each tile's `R` rows, row `p` of
    tile `t` being row `t * R + p` of the whole. -/
theorem sum_rows_eq_sum_tiles {M : Type*} [AddCommMonoid M] {N : ℕ} (T R : ℕ) (h : N = T * R) (f : Fin N → M) :
    ∑ i : Fin N, f i = ∑ t : Fin T, ∑ p : Fin R, f ⟨t.val * R + p.val, h ▸ tile_lt t p⟩ := by
  subst h
  rw [← Equiv.sum_comp (finProdFinEquiv (m := T) (n := R)) f, Fintype.sum_prod_type]
  refine Finset.sum_congr rfl fun t _ => Finset.sum_congr rfl fun p _ => ?_
  congr 1
  apply Fin.ext
  show p.val + R * t.val = t.val * R + p.val
  rw [Nat.mul_comm, Nat.add_comm]

/-- The same with the tiles counted by a natural number below `T`: the form a fold over the grid's points unrolls to.
    `g s` is tile `s`'s contribution, a function of every natural number. -/
theorem sum_range_eq_sum_fin {M : Type*} [AddCommMonoid M] (T : ℕ) (g : ℕ → M) :
    ∑ s ∈ Finset.range T, g s = ∑ t : Fin T, g t.val :=
  (Fin.sum_univ_eq_sum_range g T).symm

end Cert.LibTileSum
-- ==== Proof.Val1.lean ====
/-
  The values of region 1 of the kernel program (the leaky-rectified sums and their column sums), at the ideal instance.

  The region reads four arrays g0, s0, g1, s1 of 100000 rows and 128 lanes in 25 tiles of 4000 rows. At every point it
  stores, in the tile of its first output, the leaky rectifier of g0 + s0 plus the leaky rectifier of g1 + s1, entry by
  entry; and it keeps, in a one-row second output that is zeroed at the first point and written back after the last, the
  running sum over the tiles of each tile's column sums.

  Proved here, at the extended reals: each payload read at an index; a block of an input read at an index is the array's
  entry at the tile's row; the first output's array ends holding the rectified sums at every row and lane (every row lies
  in the tile of exactly the point its number divided by 4000 names); the running sum after point n is the sum of the
  column sums of tiles 0 … n (induction on the point); and the second output's array ends holding, lane by lane, the sum
  over all 100000 rows — the 25 tile sums of 4000 rows regrouped as one sum, by associativity and commutativity of the
  addition only.
-/
import proofs.«159553_j62680752718518_1_alg».proof.Proof.K1
import proofs.«159553_j62680752718518_1_alg».proof.Proof.ValSpec12
import proofs.«159553_j62680752718518_1_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The payloads, index by index -/

theorem colSumOf_apply (Y : S100000x128.Idx → Ideal .f32) (idx : S1x128.Idx) :
    colSumOf Y idx = ∑ r : Fin 100000, Y (ix2 r (idx 1)) := rfl

theorem pay1_apply (idx : S1x128.Idx) : k1_pay1 (F := Ideal) idx = 0 := by
  unfold k1_pay1
  show Ideal.ofBits .f32 0x00000000#32 = 0
  exact Ideal.ofBits_zero_f32

theorem pay2_apply (v3 v5 v8 v10 : Vec Ideal S4000x128 .f32) (idx : S4000x128.Idx) :
    k1_pay2 (F := Ideal) v3 v5 v8 v10 idx = lk (v3 idx + v5 idx) + lk (v8 idx + v10 idx) := by
  unfold k1_pay2
  simp only [shapeCast_self]
  rfl

theorem pay3_apply (v3 v5 v8 v10 : Vec Ideal S4000x128 .f32) (v25 : Vec Ideal S1x128 .f32) (idx : S1x128.Idx) :
    k1_pay3 (F := Ideal) v3 v5 v8 v10 v25 idx
      = v25 idx + ∑ p : Fin 4000, k1_pay2 (F := Ideal) v3 v5 v8 v10 (ix2 p (idx 1)) := by
  unfold k1_pay3
  simp only [shapeCast_self]
  show v25 idx + shapeCast S1x128 (multiReduction .add [0] S128 (k1_pay2 v3 v5 v8 v10) 0x00000000#32 reduces_S4000x128_S128 (.inl rfl) rfl) shapeCasts_S128_S1x128 idx = _
  congr 1
  rw [shapeCast_apply _ shapeCasts_S128_S1x128 idx (ix1 (idx 1)) ?hk]
  · refine (Ideal.multiReduction_add_single (φ := .f32) (k1_pay2 (F := Ideal) v3 v5 v8 v10) _ reduces_S4000x128_S128 _ _ (ix1 (idx 1))).trans ?_
    refine Finset.sum_congr rfl fun p _ => ?_
    congr 1
    funext a
    apply Fin.ext
    match a with
    | ⟨0, _⟩ => rfl
    | ⟨1, _⟩ => rfl
  case hk =>
    rw [Shape.rowMajor_val_one, Shape.rowMajor_val_two]
    have h0 : (idx 0).val = 0 := by have := (idx 0).isLt; simp at this; omega
    show (idx 1).val = (idx 0).val * 128 + (idx 1).val
    omega

/-! ## A block is its rows of the array -/

/-- The block index of every row-tiled window of region 1 at point `t` is `(t, 0)`; of the running sum's, `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0 :=
  (by decide +kernel : ∀ t : Fin grid1.N, _)

/-- Row `p` of the tile at point `t`, as a row of the whole array. -/
def row (t : ℕ) (ht : t < 25) (p : Fin 4000) : Fin 100000 := ⟨t * 4000 + p.val, by have := p.isLt; omega⟩

theorem iblk1_0_apply (c : Dev nD) (t : Fin cfg1.N) (y : S4000x128.Idx) :
    (iblk1 V c 0 t : Vec Ideal S4000x128 .f32) y = V c (Pipeline.arrRef spec1 0) (ix2 (row t.val t.isLt (y 0)) (y 1)) := by
  unfold iblk1
  rw [View.read_apply]
  show V c main_v134 _ = V c main_v134 _
  congr 1
  funext a
  apply Fin.ext
  have e := idx_facts1 t
  match a with
  | ⟨0, _⟩ => show win1_0.index t 0 * 4000 + 1 * (y 0).val = t.val * 4000 + (y 0).val; omega
  | ⟨1, _⟩ => show win1_0.index t 1 * 128 + 1 * (y 1).val = (y 1).val; omega

theorem iblk1_1_apply (c : Dev nD) (t : Fin cfg1.N) (y : S4000x128.Idx) :
    (iblk1 V c 1 t : Vec Ideal S4000x128 .f32) y = V c (Pipeline.arrRef spec1 1) (ix2 (row t.val t.isLt (y 0)) (y 1)) := by
  unfold iblk1
  rw [View.read_apply]
  show V c main_v135 _ = V c main_v135 _
  congr 1
  funext a
  apply Fin.ext
  have e := idx_facts1 t
  match a with
  | ⟨0, _⟩ => show win1_1.index t 0 * 4000 + 1 * (y 0).val = t.val * 4000 + (y 0).val; omega
  | ⟨1, _⟩ => show win1_1.index t 1 * 128 + 1 * (y 1).val = (y 1).val; omega

theorem iblk1_2_apply (c : Dev nD) (t : Fin cfg1.N) (y : S4000x128.Idx) :
    (iblk1 V c 2 t : Vec Ideal S4000x128 .f32) y = V c (Pipeline.arrRef spec1 2) (ix2 (row t.val t.isLt (y 0)) (y 1)) := by
  unfold iblk1
  rw [View.read_apply]
  show V c main_v154 _ = V c main_v154 _
  congr 1
  funext a
  apply Fin.ext
  have e := idx_facts1 t
  match a with
  | ⟨0, _⟩ => show win1_2.index t 0 * 4000 + 1 * (y 0).val = t.val * 4000 + (y 0).val; omega
  | ⟨1, _⟩ => show win1_2.index t 1 * 128 + 1 * (y 1).val = (y 1).val; omega

theorem iblk1_3_apply (c : Dev nD) (t : Fin cfg1.N) (y : S4000x128.Idx) :
    (iblk1 V c 3 t : Vec Ideal S4000x128 .f32) y = V c (Pipeline.arrRef spec1 3) (ix2 (row t.val t.isLt (y 0)) (y 1)) := by
  unfold iblk1
  rw [View.read_apply]
  show V c main_v155 _ = V c main_v155 _
  congr 1
  funext a
  apply Fin.ext
  have e := idx_facts1 t
  match a with
  | ⟨0, _⟩ => show win1_3.index t 0 * 4000 + 1 * (y 0).val = t.val * 4000 + (y 0).val; omega
  | ⟨1, _⟩ => show win1_3.index t 1 * 128 + 1 * (y 1).val = (y 1).val; omega

/-! ## Output window 4: the rectified sums, tile by tile -/

/-- What the tile at point `t` holds after the body, index by index. -/
theorem tile1_apply (c : Dev nD) (t : Fin cfg1.N) (y : S4000x128.Idx) :
    k1_pay2 (F := Ideal) (iblk1 V c 0 t) (iblk1 V c 1 t) (iblk1 V c 2 t) (iblk1 V c 3 t) y
      = nuOf (V c (Pipeline.arrRef spec1 0)) (V c (Pipeline.arrRef spec1 1)) (V c (Pipeline.arrRef spec1 2)) (V c (Pipeline.arrRef spec1 3))
          (ix2 (row t.val t.isLt (y 0)) (y 1)) := by
  rw [pay2_apply, iblk1_0_apply, iblk1_1_apply, iblk1_2_apply, iblk1_3_apply]
  rfl

/-- What point `t` writes back is block `t` of the whole-array function. -/
theorem flushed1_4_eq (c : Dev nD) (t : Fin cfg1.N) :
    (dat1 V c).flushed 4 t = ((cfg1.win 4).blk t).view.read (Elt Ideal)
      (nuOf (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S4000x128) hz]
  funext j
  show k1_pay2 (F := Ideal) (iblk1 V c 0 t) (iblk1 V c 1 t) (iblk1 V c 2 t) (iblk1 V c 3 t) j = _
  rw [tile1_apply, View.read_apply]
  show nuOf _ _ _ _ _ = nuOf _ _ _ _ _
  congr 1
  funext a
  apply Fin.ext
  have e := idx_facts1 t
  match a with
  | ⟨0, _⟩ => show t.val * 4000 + (j 0).val = win1_4.index t 0 * 4000 + 1 * (j 0).val; omega
  | ⟨1, _⟩ => show (j 1).val = win1_4.index t 1 * 128 + 1 * (j 1).val; omega

theorem N1 : cfg1.N = 25 := N_1

/-- An index of the array is in point `t`'s block of window 4 iff each coordinate is in the block's range on its axis. -/
theorem mem_blk1_4 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v156_0).slice (win1_4.rect t)).set ↔ _
  rw [View.set_slice_whole, Rect.mem_set_unit]
  exact Iff.rfl

/-- THE ARRAY of output window 4 after the region: the rectified sums at every row and lane. -/
theorem arr1_4 (c : Dev nD) : (dat1 V c).arrAt 4 cfg1.N = nuOf (V c (Pipeline.arrRef spec1 0)) (V c (Pipeline.arrRef spec1 1)) (V c (Pipeline.arrRef spec1 2)) (V c (Pipeline.arrRef spec1 3)) :=
  (dat1 V c).arrAt_eq_of_cover 4 _ (fun t _ => flushed1_4_eq V c t) fun i => by
    have hi0 : (i 0).val < 100000 := (i 0).isLt
    have hi1 : (i 1).val < 128 := (i 1).isLt
    have ht : (i 0).val / 4000 < cfg1.N := by rw [N1]; omega
    obtain ⟨t, htv⟩ : ∃ t : Fin cfg1.N, t.val = (i 0).val / 4000 := ⟨⟨_, ht⟩, rfl⟩
    refine ⟨t, flush1_4 _, ?_⟩
    rw [mem_blk1_4]
    intro a
    have e := idx_facts1 t
    match a with
    | ⟨0, _⟩ => show win1_4.index t 0 * 4000 ≤ (i 0).val ∧ (i 0).val < win1_4.index t 0 * 4000 + 4000; omega
    | ⟨1, _⟩ => show win1_4.index t 1 * 128 ≤ (i 1).val ∧ (i 1).val < win1_4.index t 1 * 128 + 128; omega

/-! ## Output window 5: the running column sums -/

theorem zero1_eq : zero1 (F := Ideal) = k1_pay1 (F := Ideal) := by
  unfold zero1; exact View.canon_unit_zero hz _ _

theorem step1_apply (x0 x1 x2 x3 : Vec Ideal S4000x128 .f32) (a : Vec Ideal S1x128 .f32) (idx : S1x128.Idx) :
    step1 x0 x1 x2 x3 a idx = a idx + ∑ p : Fin 4000, k1_pay2 (F := Ideal) x0 x1 x2 x3 (ix2 p (idx 1)) := by
  unfold step1
  rw [View.canon_unit_zero hz]
  simp only [View.ld_unit_zero (S := S4000x128) hz, View.ld_unit_zero (S := S1x128) hz]
  exact pay3_apply ..

/-- The column sums of the tile at point `s` (zero past the grid). -/
def colsum1 (c : Dev nD) (s : ℕ) (j : Fin 128) : Ideal .f32 :=
  if h : s < cfg1.N then
    ∑ p : Fin 4000, k1_pay2 (F := Ideal) (iblk1 V c 0 ⟨s, h⟩) (iblk1 V c 1 ⟨s, h⟩) (iblk1 V c 2 ⟨s, h⟩) (iblk1 V c 3 ⟨s, h⟩) (ix2 p j)
  else 0

theorem colsum1_of_lt (c : Dev nD) (s : ℕ) (h : s < cfg1.N) (j : Fin 128) : colsum1 V c s j =
    ∑ p : Fin 4000, k1_pay2 (F := Ideal) (iblk1 V c 0 ⟨s, h⟩) (iblk1 V c 1 ⟨s, h⟩) (iblk1 V c 2 ⟨s, h⟩) (iblk1 V c 3 ⟨s, h⟩) (ix2 p j) := by
  unfold colsum1; rw [dif_pos h]

/-- The running sum after point `n` is the sum of the column sums of the tiles at points `0 … n`. -/
theorem acc1_apply (c : Dev nD) : ∀ (n : ℕ) (h : n < cfg1.N) (idx : S1x128.Idx),
    acc1 V c n h idx = ∑ s ∈ Finset.range (n + 1), colsum1 V c s (idx 1)
  | 0, h, idx => by
    rw [acc1_zero, step1_apply, zero1_eq, pay1_apply, zero_add, Finset.sum_range_one]
    exact (colsum1_of_lt V c 0 h (idx 1)).symm
  | n + 1, h, idx => by
    rw [acc1_succ, step1_apply, acc1_apply c n (Nat.lt_of_succ_lt h) idx, Finset.sum_range_succ _ (n + 1)]
    exact congrArg _ (colsum1_of_lt V c (n + 1) h (idx 1)).symm

/-- A tile's column sums are the sums of the region's value over the tile's rows of the array. -/
theorem colsum1_rows (c : Dev nD) (s : ℕ) (h : s < cfg1.N) (j : Fin 128) : colsum1 V c s j =
    ∑ p : Fin 4000, nuOf (V c (Pipeline.arrRef spec1 0)) (V c (Pipeline.arrRef spec1 1)) (V c (Pipeline.arrRef spec1 2)) (V c (Pipeline.arrRef spec1 3)) (ix2 (row s (lt_of_lt_of_eq h N1) p) j) := by
  rw [colsum1_of_lt V c s h]
  refine Finset.sum_congr rfl fun p _ => ?_
  exact tile1_apply V c ⟨s, h⟩ (ix2 p j)

/-- The one write-back of the running sum, at the last point, writes the sum over all the rows. -/
theorem flushed1_5_eq (c : Dev nD) (t : Fin cfg1.N) (hf : (cfg1.win 5).flush t = true) :
    (dat1 V c).flushed 5 t = ((cfg1.win 5).blk t).view.read (Elt Ideal) (colSumOf (nuOf (V c (Pipeline.arrRef spec1 0)) (V c (Pipeline.arrRef spec1 1)) (V c (Pipeline.arrRef spec1 2)) (V c (Pipeline.arrRef spec1 3)))) := by
  have h25 : t.val + 1 = 25 := by have := (flush1_5 t).mp hf; have := lt_of_lt_of_eq t.isLt N1; omega
  show (cfg1.win 5).cut (grid1.coords t) ((dat1 V c).after 5 t) = _
  rw [after1_5]
  have e := idx_facts1 t
  have hz' : (fun a => win1_5.index t a * main_v156_1.ty.shape.size a) = fun _ => 0 := funext fun a => by
    match a with
    | ⟨0, _⟩ => show win1_5.index t 0 * 1 = 0; omega
    | ⟨1, _⟩ => show win1_5.index t 1 * 128 = 0; omega
  refine Eq.trans ?_ (Memref.read_access_unit_zero (Elt Ideal) main_v156_1 hz' (fun a => by rw [congrFun hz' a]; simp)
    (colSumOf (nuOf (V c (Pipeline.arrRef spec1 0)) (V c (Pipeline.arrRef spec1 1)) (V c (Pipeline.arrRef spec1 2)) (V c (Pipeline.arrRef spec1 3))))).symm
  refine funext fun (j : S1x128.Idx) => ?_
  change acc1 V c t.val t.isLt j = _
  rw [colSumOf_apply, acc1_apply V c t.val t.isLt j, h25, Cert.LibTileSum.sum_range_eq_sum_fin 25,
    Cert.LibTileSum.sum_rows_eq_sum_tiles 25 4000 rfl]
  refine Finset.sum_congr rfl fun s _ => ?_
  exact colsum1_rows V c s.val (lt_of_lt_of_eq s.isLt N1.symm) (j 1)

/-- THE ARRAY of output window 5 after the region: at every lane, the sum of the region's value over all the rows. -/
theorem arr1_5 (c : Dev nD) : (dat1 V c).arrAt 5 cfg1.N = colSumOf (nuOf (V c (Pipeline.arrRef spec1 0)) (V c (Pipeline.arrRef spec1 1)) (V c (Pipeline.arrRef spec1 2)) (V c (Pipeline.arrRef spec1 3))) :=
  (dat1 V c).arrAt_eq_of_cover 5 _ (flushed1_5_eq V c) fun i => by
    have hi0 : (i 0).val < 1 := (i 0).isLt
    have hi1 : (i 1).val < 128 := (i 1).isLt
    obtain ⟨t, htv⟩ : ∃ t : Fin cfg1.N, t.val = 24 := ⟨⟨24, by rw [N1]; omega⟩, rfl⟩
    refine ⟨t, (flush1_5 t).mpr (by omega), ?_⟩
    show i ∈ ((View.whole main_v156_1).slice (win1_5.rect t)).set
    rw [View.set_slice_whole, Rect.mem_set_unit]
    intro a
    have e := idx_facts1 t
    match a with
    | ⟨0, _⟩ => show win1_5.index t 0 * 1 ≤ (i 0).val ∧ (i 0).val < win1_5.index t 0 * 1 + 1; omega
    | ⟨1, _⟩ => show win1_5.index t 1 * 128 ≤ (i 1).val ∧ (i 1).val < win1_5.index t 1 * 128 + 128; omega

end Cert.KernelIdeal.Val

end
-- ==== Proof.Val2.lean ====
/-
  What region 2 of the kernel program's @main leaves in its result array: lane by lane, the sum over all the rows of
  the square of the value less the lane's mean.
  The running sum after a point is the sum of the tiles' column sums up to that point (induction on the point); a
  tile's rows are consecutive rows of the array; the one write-back, at the last point, writes the whole row.
-/
import proofs.«159553_j62680752718518_1_alg».proof.Proof.Gen.KernelIdeal.Launch
import proofs.«159553_j62680752718518_1_alg».proof.Proof.Gen.KernelIdeal.Skeleton
import proofs.«159553_j62680752718518_1_alg».proof.Proof.Gen.KernelIdeal.Points
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«159553_j62680752718518_1_alg».proof.Proof.LibTileSum
import proofs.«159553_j62680752718518_1_alg».proof.Proof.ValSpec12
import proofs.«159553_j62680752718518_1_alg».proof.Proof.K2

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

theorem N2 : cfg2.N = 25 := N_2

/-! ## The payloads, index by index -/

/-- The square of a row's value less the lane's mean. -/
def ssqRow (nu : S100000x128.Idx → Ideal .f32) (mean : S1x128.Idx → Ideal .f32) (r : Fin 100000) (j : Fin 128) : Ideal .f32 :=
  (nu (ix2 r j) - mean (ix2 0 j)) * (nu (ix2 r j) - mean (ix2 0 j))

theorem ssqOf_apply (nu : S100000x128.Idx → Ideal .f32) (mean : S1x128.Idx → Ideal .f32) (idx : S1x128.Idx) :
    ssqOf nu mean idx = ∑ r : Fin 100000, ssqRow nu mean r (idx 1) := rfl

theorem pay2_1_apply (idx : S1x128.Idx) : k2_pay1 (F := Ideal) idx = 0 := by
  unfold k2_pay1
  show Ideal.ofBits .f32 0x00000000#32 = 0
  exact Ideal.ofBits_zero_f32

/-- The sum of a tile down its rows, read at a lane. -/
theorem colsum_apply (X : FVec Ideal S4000x128 .f32) (idx : S1x128.Idx) :
    shapeCast S1x128 (multiReduction .add [0] S128 X 0x00000000#32 reduces_S4000x128_S128 (.inl rfl) rfl) shapeCasts_S128_S1x128 idx
      = ∑ p : Fin 4000, X (ix2 p (idx 1)) := by
  rw [shapeCast_apply _ shapeCasts_S128_S1x128 idx (ix1 (idx 1)) ?hk]
  · refine (Ideal.multiReduction_add_single (φ := .f32) X _ reduces_S4000x128_S128 _ _ (ix1 (idx 1))).trans ?_
    refine Finset.sum_congr rfl fun p _ => ?_
    congr 1
    funext a
    apply Fin.ext
    match a with
    | ⟨0, _⟩ => rfl
    | ⟨1, _⟩ => rfl
  case hk =>
    rw [Shape.rowMajor_val_one, Shape.rowMajor_val_two]
    have h0 : (idx 0).val = 0 := by have := (idx 0).isLt; simp at this; omega
    show (idx 1).val = (idx 0).val * 128 + (idx 1).val
    omega

/-- The sum over a tile's rows of the squares of its values less the lane's mean. -/
def tileSsq (x0 : Vec Ideal S4000x128 .f32) (x1 : Vec Ideal S1x128 .f32) (j : Fin 128) : Ideal .f32 :=
  ∑ p : Fin 4000, (x0 (ix2 p j) - x1 (ix2 0 j)) * (x0 (ix2 p j) - x1 (ix2 0 j))

theorem pay2_2_apply (v3 : Vec Ideal S4000x128 .f32) (v5 v9 : Vec Ideal S1x128 .f32) (idx : S1x128.Idx) :
    k2_pay2 (F := Ideal) v3 v5 v9 idx = v9 idx + tileSsq v3 v5 (idx 1) := by
  unfold k2_pay2 tileSsq
  simp only [shapeCast_self]
  refine (congrArg (fun z => v9 idx + z) (colsum_apply _ idx)).trans ?_
  congr 1
  refine Finset.sum_congr rfl fun p _ => ?_
  have hb : broadcastTo S4000x128 v5 broadcasts_S1x128_S4000x128 (ix2 p (idx 1)) = v5 (ix2 0 (idx 1)) :=
    broadcastTo_apply v5 broadcasts_S1x128_S4000x128 (ix2 p (idx 1)) (ix2 0 (idx 1)) (fun a => by
      match a with
      | ⟨0, _⟩ => rfl
      | ⟨1, _⟩ => rfl)
  show (v3 (ix2 p (idx 1)) - broadcastTo S4000x128 v5 broadcasts_S1x128_S4000x128 (ix2 p (idx 1)))
      * (v3 (ix2 p (idx 1)) - broadcastTo S4000x128 v5 broadcasts_S1x128_S4000x128 (ix2 p (idx 1))) = _
  rw [hb]

/-! ## A block is its rows of the array -/

/-- The block index of the row-tiled window of region 2 at point `t` is `(t, 0)`; of the mean's and the running sum's, `(0, 0)`. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- Row `p` of the tile at point `t`, as a row of the whole array. -/
def row2 (t : ℕ) (ht : t < 25) (p : Fin 4000) : Fin 100000 := ⟨t * 4000 + p.val, by have := p.isLt; omega⟩

theorem iblk2_0_apply (c : Dev nD) (t : Fin cfg2.N) (y : S4000x128.Idx) :
    (iblk2 V c 0 t : Vec Ideal S4000x128 .f32) y = V c (Pipeline.arrRef spec2 0) (ix2 (row2 t.val (lt_of_lt_of_eq t.isLt N2) (y 0)) (y 1)) := by
  unfold iblk2
  rw [View.read_apply]
  show V c main_v156_0 _ = V c main_v156_0 _
  congr 1
  funext a
  apply Fin.ext
  have e := idx_facts2 t
  match a with
  | ⟨0, _⟩ => show win2_0.index t 0 * 4000 + 1 * (y 0).val = t.val * 4000 + (y 0).val; omega
  | ⟨1, _⟩ => show win2_0.index t 1 * 128 + 1 * (y 1).val = (y 1).val; omega

theorem iblk2_1_apply (c : Dev nD) (t : Fin cfg2.N) (y : S1x128.Idx) :
    (iblk2 V c 1 t : Vec Ideal S1x128 .f32) y = V c (Pipeline.arrRef spec2 1) (ix2 0 (y 1)) := by
  unfold iblk2
  rw [View.read_apply]
  show V c main_v158 _ = V c main_v158 _
  congr 1
  funext a
  apply Fin.ext
  have e := idx_facts2 t
  have h0 : (y 0).val = 0 := by have := (y 0).isLt; simp at this; omega
  match a with
  | ⟨0, _⟩ => show win2_1.index t 0 * 1 + 1 * (y 0).val = 0; omega
  | ⟨1, _⟩ => show win2_1.index t 1 * 128 + 1 * (y 1).val = (y 1).val; omega

/-! ## Output window 2: the running column sums of the centred squares -/

theorem zero2_eq : zero2 (F := Ideal) = k2_pay1 (F := Ideal) := by
  unfold zero2; exact View.canon_unit_zero hz2 _ _

theorem step2_apply (x0 : Vec Ideal S4000x128 .f32) (x1 a : Vec Ideal S1x128 .f32) (idx : S1x128.Idx) :
    step2 x0 x1 a idx = a idx + tileSsq x0 x1 (idx 1) := by
  unfold step2
  rw [View.canon_unit_zero hz2]
  simp only [View.ld_unit_zero (S := S4000x128) hz2, View.ld_unit_zero (S := S1x128) hz2]
  exact pay2_2_apply ..

/-- The column sums of the centred squares of the tile at point `s` (zero past the grid). -/
def colsum2 (c : Dev nD) (s : ℕ) (j : Fin 128) : Ideal .f32 :=
  if h : s < cfg2.N then tileSsq (iblk2 V c 0 ⟨s, h⟩) (iblk2 V c 1 ⟨s, h⟩) j else 0

theorem colsum2_of_lt (c : Dev nD) (s : ℕ) (h : s < cfg2.N) (j : Fin 128) :
    colsum2 V c s j = tileSsq (iblk2 V c 0 ⟨s, h⟩) (iblk2 V c 1 ⟨s, h⟩) j := by
  unfold colsum2; rw [dif_pos h]

/-- The running sum after point `n` is the sum of the column sums of the tiles at points `0 … n`. -/
theorem acc2_apply (c : Dev nD) : ∀ (n : ℕ) (h : n < cfg2.N) (idx : S1x128.Idx),
    acc2 V c n h idx = ∑ s ∈ Finset.range (n + 1), colsum2 V c s (idx 1)
  | 0, h, idx => by
    rw [acc2_zero, step2_apply, zero2_eq, pay2_1_apply, zero_add, Finset.sum_range_one]
    exact (colsum2_of_lt V c 0 h (idx 1)).symm
  | n + 1, h, idx => by
    rw [acc2_succ, step2_apply, acc2_apply c n (Nat.lt_of_succ_lt h) idx, Finset.sum_range_succ _ (n + 1)]
    exact congrArg _ (colsum2_of_lt V c (n + 1) h (idx 1)).symm

/-- A tile's column sums are the sums of the centred squares over the tile's rows of the array. -/
theorem colsum2_rows (c : Dev nD) (s : ℕ) (h : s < cfg2.N) (j : Fin 128) : colsum2 V c s j =
    ∑ p : Fin 4000, ssqRow (V c (Pipeline.arrRef spec2 0)) (V c (Pipeline.arrRef spec2 1)) (row2 s (lt_of_lt_of_eq h N2) p) j := by
  rw [colsum2_of_lt V c s h]
  unfold tileSsq ssqRow
  refine Finset.sum_congr rfl fun p _ => ?_
  rw [iblk2_0_apply, iblk2_1_apply]

/-- The one write-back of the running sum, at the last point, writes the sum over all the rows. -/
theorem flushed2_2_eq (c : Dev nD) (t : Fin cfg2.N) (hf : (cfg2.win 2).flush t = true) :
    (dat2 V c).flushed 2 t = ((cfg2.win 2).blk t).view.read (Elt Ideal)
      (ssqOf (V c (Pipeline.arrRef spec2 0)) (V c (Pipeline.arrRef spec2 1))) := by
  have h25 : t.val + 1 = 25 := by have := (flush2_2 t).mp hf; have := lt_of_lt_of_eq t.isLt N2; omega
  show (cfg2.win 2).cut (grid2.coords t) ((dat2 V c).after 2 t) = _
  rw [after2_2]
  have e := idx_facts2 t
  have hz' : (fun a => win2_2.index t a * main_v159.ty.shape.size a) = fun _ => 0 := funext fun a => by
    match a with
    | ⟨0, _⟩ => show win2_2.index t 0 * 1 = 0; omega
    | ⟨1, _⟩ => show win2_2.index t 1 * 128 = 0; omega
  refine Eq.trans ?_ (Memref.read_access_unit_zero (Elt Ideal) main_v159 hz' (fun a => by rw [congrFun hz' a]; simp)
    (ssqOf (V c (Pipeline.arrRef spec2 0)) (V c (Pipeline.arrRef spec2 1)))).symm
  refine funext fun (j : S1x128.Idx) => ?_
  change acc2 V c t.val t.isLt j = _
  rw [ssqOf_apply, acc2_apply V c t.val t.isLt j, h25, Cert.LibTileSum.sum_range_eq_sum_fin 25,
    Cert.LibTileSum.sum_rows_eq_sum_tiles 25 4000 rfl]
  refine Finset.sum_congr rfl fun s _ => ?_
  exact colsum2_rows V c s.val (lt_of_lt_of_eq s.isLt N2.symm) (j 1)

/-- THE ARRAY of output window 2 after the region: at every lane, the sum of the centred squares over all the rows. -/
theorem arr2_2 (c : Dev nD) : (dat2 V c).arrAt 2 cfg2.N = ssqOf (V c (Pipeline.arrRef spec2 0)) (V c (Pipeline.arrRef spec2 1)) :=
  (dat2 V c).arrAt_eq_of_cover 2 _ (flushed2_2_eq V c) fun i => by
    have hi0 : (i 0).val < 1 := (i 0).isLt
    have hi1 : (i 1).val < 128 := (i 1).isLt
    obtain ⟨t, htv⟩ : ∃ t : Fin cfg2.N, t.val = 24 := ⟨⟨24, by rw [N2]; omega⟩, rfl⟩
    refine ⟨t, (flush2_2 t).mpr (by omega), ?_⟩
    show i ∈ ((View.whole main_v159).slice (win2_2.rect t)).set
    rw [View.set_slice_whole, Rect.mem_set_unit]
    intro a
    have e := idx_facts2 t
    match a with
    | ⟨0, _⟩ => show win2_2.index t 0 * 1 ≤ (i 0).val ∧ (i 0).val < win2_2.index t 0 * 1 + 1; omega
    | ⟨1, _⟩ => show win2_2.index t 1 * 128 ≤ (i 1).val ∧ (i 1).val < win2_2.index t 1 * 128 + 128; omega

end Cert.KernelIdeal.Val

end
-- ==== Proof.Pay3.lean ====
/-
  Region 3's stored value, read at one entry of a row tile.

  Each entry is the node value minus the column's mean, times the reciprocal square root of the column's variance plus a
  small constant, times the column's scale, plus the column's shift; the four per-column rows are broadcast over the tile's
  rows.
-/
import proofs.«159553_j62680752718518_1_alg».proof.Proof.Gen.KernelIdeal.Skeleton
import Idealize.ShloMosaic.Lib.ValueLayout

noncomputable section

namespace Cert.KernelIdeal.Val

open Cert.KernelIdeal Cert.KernelIdeal.Gen
open Idealize.ShloMosaic Idealize.ShloMosaic.ValueIdx

/-- The normalised value at (p, q), from the tile's rows x0, the variance row xv, the mean row xm, the scale row xg and the
    shift row xb. -/
theorem pay1_entry (x0 : Vec Ideal S4000x128 .f32) (xv xm xg xb : Vec Ideal S1x128 .f32) (p : Fin 4000) (q : Fin 128) :
    k3_pay1 x0 xv xm xg xb (ix2 p q)
      = ((x0 (ix2 p q) - xm (ix2 (0 : Fin 1) q)) * Ideal.rsqrt (xv (ix2 (0 : Fin 1) q) + Ideal.ofBits .f32 0x3727C5AC#32))
          * xg (ix2 (0 : Fin 1) q) + xb (ix2 (0 : Fin 1) q) := by
  have h (v : Vec Ideal S1x128 .f32) : broadcastTo S4000x128 v broadcasts_S1x128_S4000x128 (ix2 p q) = v (ix2 (0 : Fin 1) q) :=
    broadcastTo_1b_ab_apply (a := 4000) (b := 128) v broadcasts_S1x128_S4000x128 p q
  unfold k3_pay1
  simp only [shapeCast_self]
  show ((x0 (ix2 p q) - broadcastTo S4000x128 xm broadcasts_S1x128_S4000x128 (ix2 p q))
        * broadcastTo S4000x128 (rsqrt (addf xv (broadcast S1x128 (Scalar.ofBits (F := Ideal) .f32 0x3727C5AC#32)))) broadcasts_S1x128_S4000x128 (ix2 p q))
        * broadcastTo S4000x128 xg broadcasts_S1x128_S4000x128 (ix2 p q)
      + broadcastTo S4000x128 xb broadcasts_S1x128_S4000x128 (ix2 p q) = _
  rw [h, h, h, h]
  rfl

end Cert.KernelIdeal.Val

end
-- ==== Proof.Arr3.lean ====
/-
  Region 3, from row tiles to the whole array.

  The region walks 25 row tiles of 4000 rows; at tile t the written window holds the normalised values of rows
  t * 4000 .. t * 4000 + 3999, the four per-column rows being the same whole arrays at every tile. Every row lies in exactly
  the tile r / 4000, so after the walk the written array is one function of the read arrays, index by index.
-/
import proofs.«159553_j62680752718518_1_alg».proof.Proof.Gen.KernelIdeal.Launch
import proofs.«159553_j62680752718518_1_alg».proof.Proof.Gen.KernelIdeal.Points
import proofs.«159553_j62680752718518_1_alg».proof.Proof.Pay3
import proofs.«159553_j62680752718518_1_alg».proof.Proof.ValSpec
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

/-- The block index maps over the grid: the row-tiled windows sit at block (t, 0), the one-row windows at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- An index of the written array is in tile t iff each coordinate is in the tile's range on its axis. -/
theorem mem_blk5 (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v164).slice (win3_5.rect t)).set ↔ _
  rw [View.set_slice_whole, Rect.mem_set_unit]
  exact Iff.rfl

/-- Row r of the written array is written back by tile r / 4000. -/
theorem cover5 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 4000 < cfg3.N := Nat.lt_of_lt_of_eq (by omega : (i 0).val / 4000 < 25) N_3.symm
  obtain ⟨e00, e01, e10, e11, e20, e21, e30, e31, e40, e41, e50, e51⟩ := idx_facts3 ⟨(i 0).val / 4000, ht⟩
  refine ⟨⟨(i 0).val / 4000, ht⟩, flush3_5 _, ?_⟩
  rw [mem_blk5]
  intro a
  match a with
  | ⟨0, _⟩ =>
    show win3_5.index ⟨(i 0).val / 4000, ht⟩ (0 : Fin 2) * 4000 ≤ (i 0).val ∧ (i 0).val < win3_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win3_5.index ⟨(i 0).val / 4000, ht⟩ (1 : Fin 2) * 128 ≤ (i 1).val ∧ (i 1).val < win3_5.index ⟨(i 0).val / 4000, ht⟩ (1 : Fin 2) * 128 + 128
    rw [e51]; omega

section
variable {c : Dev nD} (dat : Dat τ (Elt Ideal) Unit ℕ (UR sig nD τ) ℕ cfg3 c)
variable (nu : S100000x128.Idx → EReal) (mean var gamma beta : S1x128.Idx → EReal)

/-- What tile t writes back is tile t of the normalised array. -/
theorem flushed5_eq
    (hafter : ∀ t, dat.after 5 t = k3_pay1 (((cfg3.win 0).blk t).view.read (Elt Ideal) nu) (((cfg3.win 2).blk t).view.read (Elt Ideal) var)
      (((cfg3.win 1).blk t).view.read (Elt Ideal) mean) (((cfg3.win 3).blk t).view.read (Elt Ideal) gamma) (((cfg3.win 4).blk t).view.read (Elt Ideal) beta))
    (t : Fin cfg3.N) :
    dat.flushed 5 t = ((cfg3.win 5).blk t).view.read (Elt Ideal) (bnOf nu mean var gamma beta) := by
  show (cfg3.win 5).cut (grid3.coords t) (dat.after 5 t) = _
  rw [hafter]
  obtain ⟨e00, e01, e10, e11, e20, e21, e30, e31, e40, e41, e50, e51⟩ := idx_facts3 t
  funext j
  obtain ⟨p, q, rfl⟩ : ∃ (p : Fin 4000) (q : Fin 128), j = ix2 p q := ⟨j 0, j 1, eq_ix2 j⟩
  show k3_pay1 (((cfg3.win 0).blk t).view.read (Elt Ideal) nu) (((cfg3.win 2).blk t).view.read (Elt Ideal) var)
      (((cfg3.win 1).blk t).view.read (Elt Ideal) mean) (((cfg3.win 3).blk t).view.read (Elt Ideal) gamma) (((cfg3.win 4).blk t).view.read (Elt Ideal) beta) (ix2 p q)
      = bnOf nu mean var gamma beta (((cfg3.win 5).blk t).view.emb (ix2 p q))
  rw [pay1_entry]
  unfold bnOf
  have h0 : ((cfg3.win 0).blk t).view.emb (ix2 p q) = ((cfg3.win 5).blk t).view.emb (ix2 p q) := by
    funext a; apply Fin.ext
    match a with
    | ⟨0, _⟩ => show win3_0.index t (0 : Fin 2) * 4000 + 1 * p.val = win3_5.index t (0 : Fin 2) * 4000 + 1 * p.val; omega
    | ⟨1, _⟩ => show win3_0.index t (1 : Fin 2) * 128 + 1 * q.val = win3_5.index t (1 : Fin 2) * 128 + 1 * q.val; omega
  have h1 : ((cfg3.win 1).blk t).view.emb (ix2 (0 : Fin 1) q) = ix2 (n1 := 128) (0 : Fin 1) ((((cfg3.win 5).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_5.index t (1 : Fin 2) * 128 + 1 * q.val; omega
  have h2 : ((cfg3.win 2).blk t).view.emb (ix2 (0 : Fin 1) q) = ix2 (n1 := 128) (0 : Fin 1) ((((cfg3.win 5).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_5.index t (1 : Fin 2) * 128 + 1 * q.val; omega
  have h3 : ((cfg3.win 3).blk t).view.emb (ix2 (0 : Fin 1) q) = ix2 (n1 := 128) (0 : Fin 1) ((((cfg3.win 5).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 128 + 1 * q.val = win3_5.index t (1 : Fin 2) * 128 + 1 * q.val; omega
  have h4 : ((cfg3.win 4).blk t).view.emb (ix2 (0 : Fin 1) q) = ix2 (n1 := 128) (0 : Fin 1) ((((cfg3.win 5).blk t).view.emb (ix2 p q)) 1) := by
    funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega
  show ((nu (((cfg3.win 0).blk t).view.emb (ix2 p q)) - mean (((cfg3.win 1).blk t).view.emb (ix2 (0 : Fin 1) q)))
        * Ideal.rsqrt (var (((cfg3.win 2).blk t).view.emb (ix2 (0 : Fin 1) q)) + Ideal.ofBits .f32 0x3727C5AC#32))
      * gamma (((cfg3.win 3).blk t).view.emb (ix2 (0 : Fin 1) q))
    + beta (((cfg3.win 4).blk t).view.emb (ix2 (0 : Fin 1) q)) = _
  rw [h0, h1, h2, h3, h4]

/-- The written array ends as the normalised array. -/
theorem arr5_of
    (hafter : ∀ t, dat.after 5 t = k3_pay1 (((cfg3.win 0).blk t).view.read (Elt Ideal) nu) (((cfg3.win 2).blk t).view.read (Elt Ideal) var)
      (((cfg3.win 1).blk t).view.read (Elt Ideal) mean) (((cfg3.win 3).blk t).view.read (Elt Ideal) gamma) (((cfg3.win 4).blk t).view.read (Elt Ideal) beta)) :
    dat.arrAt 5 cfg3.N = bnOf nu mean var gamma beta :=
  dat.arrAt_eq_of_cover 5 (bnOf nu mean var gamma beta) (fun t _ => flushed5_eq dat nu mean var gamma beta hafter t) cover5

end

end Cert.KernelIdeal.Val

end
-- ==== Proof.Val3.lean ====
/-
  The array region 3 writes, as a function of the arrays it reads.

  The region's proof data leaves in the written window, at tile t, the stored value of the read windows' tiles; a store of a
  whole buffer leaves exactly its value and a load of a whole buffer reads exactly its contents, so the tile-to-array step
  applies: the written array is the normalisation of the node values by the per-column mean, variance, scale and shift.
-/
import proofs.«159553_j62680752718518_1_alg».proof.Proof.K3
import proofs.«159553_j62680752718518_1_alg».proof.Proof.Arr3

set_option maxRecDepth 16384

noncomputable section

namespace Cert.KernelIdeal.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offset of a whole-buffer access is zero on both axes. -/
theorem offset_zero3 : (![0, 0] : Fin 2 → Nat) = fun _ => 0 := funext fun a => by fin_cases a <;> rfl

/-- The written array after region 3: window 0 the node values, 1 the mean row, 2 the variance row, 3 the scale, 4 the shift. -/
theorem arr3_5 (c : Dev nD) :
    (dat3 V c).arrAt 5 cfg3.N = bnOf (V c (Pipeline.arrRef spec3 0)) (V c (Pipeline.arrRef spec3 1)) (V c (Pipeline.arrRef spec3 2))
      (V c (Pipeline.arrRef spec3 3)) (V c (Pipeline.arrRef spec3 4)) :=
  arr5_of (dat3 V c) (V c (Pipeline.arrRef spec3 0)) (V c (Pipeline.arrRef spec3 1)) (V c (Pipeline.arrRef spec3 2))
    (V c (Pipeline.arrRef spec3 3)) (V c (Pipeline.arrRef spec3 4)) fun t => by
    rw [after3_5]; unfold out3_5 iblk3
    rw [View.canon_unit_zero offset_zero3, View.ld_unit_zero (S := S4000x128) offset_zero3]
    simp only [View.ld_unit_zero (S := S1x128) offset_zero3]

end Cert.KernelIdeal.Val

end
-- ==== Proof.RefStages.lean ====
/-
  The reference's tail (the 124 operations from %108 on) cut into eleven consecutive stages, each ending at an array the
  two programs are compared at: per hop the projection, the graph convolution and the SAGE term; the node features after
  each leaky-relu term; the column means and variances; the result. The tail's fold is the stages' folds nested in order,
  and a buffer a stage never writes passes through it unchanged.
-/
import proofs.«159553_j62680752718518_1_alg».proof.Proof.RefCut

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Stage 1: hop 0's projection X·Wg[0] (%109 … %111, after the zero matrix %108). -/
abbrev stage1 : List (HloOp τ sig (Elt F)) :=
  [ StableHlo.nullary main_cst_24 (constant S_ .f32 0x00000000#32),
    StableHlo.unary main_cst_24 main_v108 (broadcastInDim S100000x128 ![] bcast_S_S100000x128 : (⟨S_, .f32⟩ : BufTy).Contents (Elt F) → (⟨S100000x128, .f32⟩ : BufTy).Contents (Elt F)),
    StableHlo.unary main_arg12 main_v109 ((extractStridedSlice S1x85x128 ![0, 0, 0] · slices_S2x85x128_S1x85x128_0_0_0) : (⟨S2x85x128, .f32⟩ : BufTy).Contents (Elt F) → (⟨S1x85x128, .f32⟩ : BufTy).Contents (Elt F)),
    StableHlo.reshape main_v109 main_v110 rfl shapeCasts_S1x85x128_S85x128,
    StableHlo.binary main_v60 main_v110 main_v111 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)) ]

/-- The references `stage1` writes. -/
abbrev written_stage1 : List (Ref sig .tc) :=
  [main_cst_24, main_v108, main_v109, main_v110, main_v111]

set_option maxRecDepth 8192 in
theorem stage1_writes : (stage1 : List (HloOp τ sig (Elt F))).Forall fun op => op.writes ⊆ (written_stage1.map (Proc.devRef (τ := τ) .tc)).toFinset :=
  ⟨single_sub_of_mem (by decide), single_sub_of_mem (by decide), single_sub_of_mem (by decide), single_sub_of_mem (by decide), single_sub_of_mem (by decide)⟩

/-- A reference stage 1 never writes passes through it unchanged. -/
theorem kept_stage1 (V : Valuation τ sig (Elt F)) {r : Ref sig .tc} (h : r ∉ written_stage1) :
    after (stage1 (F := F)) V (Proc.devRef .tc r) = V (Proc.devRef .tc r) :=
  after_of_writes_sub stage1 V stage1_writes h

/-- Stage 2: hop 0's graph convolution: gather by row, times the edge norms, scatter-add by col, plus the bias (%112 … %129). -/
abbrev stage2 : List (HloOp τ sig (Elt F)) :=
  [ StableHlo.nullary main_c_25 (constantI S_ 32 0#32),
    StableHlo.unary main_c_25 main_v112 (broadcastInDim S1000000 ![] bcast_S_S1000000 : (⟨S_, .i32⟩ : BufTy).Contents (Elt F) → (⟨S1000000, .i32⟩ : BufTy).Contents (Elt F)),
    StableHlo.binary main_v62 main_v112 main_v113 (cmpi .slt : (⟨S1000000, .i32⟩ : BufTy).Contents (Elt F) → (⟨S1000000, .i32⟩ : BufTy).Contents (Elt F) → (⟨S1000000, .i1⟩ : BufTy).Contents (Elt F)),
    StableHlo.nullary main_c_26 (constantI S_ 32 100000#32),
    StableHlo.unary main_c_26 main_v114 (broadcastInDim S1000000 ![] bcast_S_S1000000 : (⟨S_, .i32⟩ : BufTy).Contents (Elt F) → (⟨S1000000, .i32⟩ : BufTy).Contents (Elt F)),
    StableHlo.binary main_v62 main_v114 main_v115 (addi : (⟨S1000000, .i32⟩ : BufTy).Contents (Elt F) → (⟨S1000000, .i32⟩ : BufTy).Contents (Elt F) → (⟨S1000000, .i32⟩ : BufTy).Contents (Elt F)),
    StableHlo.ternary main_v113 main_v115 main_v62 main_v116 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v116 main_v117 (broadcastInDim S1000000x1 ![0] bcast_S1000000_S1000000x1_0 : (⟨S1000000, .i32⟩ : BufTy).Contents (Elt F) → (⟨S1000000x1, .i32⟩ : BufTy).Contents (Elt F)),
    StableHlo.binary main_v111 main_v117 main_v118 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_v89 main_v119 (broadcastInDim S1000000x1 ![0] bcast_S1000000_S1000000x1_0 : (⟨S1000000, .f32⟩ : BufTy).Contents (Elt F) → (⟨S1000000x1, .f32⟩ : BufTy).Contents (Elt F)),
    StableHlo.unary main_v119 main_v120 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v118 main_v120 main_v121 (mulf : (⟨S1000000x128, .f32⟩ : BufTy).Contents (Elt F) → (⟨S1000000x128, .f32⟩ : BufTy).Contents (Elt F) → (⟨S1000000x128, .f32⟩ : BufTy).Contents (Elt F)),
    StableHlo.nullary main_cst_27 (constant S_ .f32 0x00000000#32),
    StableHlo.unary main_cst_27 main_v122 (broadcastInDim S100000x128 ![] bcast_S_S100000x128 : (⟨S_, .f32⟩ : BufTy).Contents (Elt F) → (⟨S100000x128, .f32⟩ : BufTy).Contents (Elt F)),
    StableHlo.unary main_v64 main_v123 (broadcastInDim S1000000x1 ![0] bcast_S1000000_S1000000x1_0 : (⟨S1000000, .i32⟩ : BufTy).Contents (Elt F) → (⟨S1000000x1, .i32⟩ : BufTy).Contents (Elt F)),
    StableHlo.ternary main_v122 main_v123 main_v121 main_v124 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.unary main_arg13 main_v125 ((extractStridedSlice S1x128 ![0, 0] · slices_S2x128_S1x128_0_0) : (⟨S2x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v128 main_v129 (addf : (⟨S100000x128, .f32⟩ : BufTy).Contents (Elt F) → (⟨S100000x128, .f32⟩ : BufTy).Contents (Elt F) → (⟨S100000x128, .f32⟩ : BufTy).Contents (Elt F)) ]

/-- The references `stage2` writes. -/
abbrev written_stage2 : List (Ref sig .tc) :=
  [main_c_25, main_v112, main_v113, main_c_26, main_v114, main_v115, main_v116, main_v117, main_v118, main_v119, main_v120, main_v121, main_cst_27, main_v122, main_v123, main_v124, main_v125, main_v126, main_v127, main_v128, main_v129]

set_option maxRecDepth 8192 in
theorem stage2_writes : (stage2 : List (HloOp τ sig (Elt F))).Forall fun op => op.writes ⊆ (written_stage2.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage 2 never writes passes through it unchanged. -/
theorem kept_stage2 (V : Valuation τ sig (Elt F)) {r : Ref sig .tc} (h : r ∉ written_stage2) :
    after (stage2 (F := F)) V (Proc.devRef .tc r) = V (Proc.devRef .tc r) :=
  after_of_writes_sub stage2 V stage2_writes h

/-- Stage 3: hop 0's SAGE term (A·Wl[0] + b) + X·Wr[0] (%130 … %141). -/
abbrev stage3 : List (HloOp τ sig (Elt F)) :=
  [ StableHlo.unary main_arg14 main_v130 ((extractStridedSlice S1x64x128 ![0, 0, 0] · slices_S2x64x128_S1x64x128_0_0_0) : (⟨S2x64x128, .f32⟩ : BufTy).Contents (Elt F) → (⟨S1x64x128, .f32⟩ : BufTy).Contents (Elt F)),
    StableHlo.reshape main_v130 main_v131 rfl shapeCasts_S1x64x128_S64x128,
    StableHlo.binary main_v107 main_v131 main_v132 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg15 main_v133 ((extractStridedSlice S1x128 ![0, 0] · slices_S2x128_S1x128_0_0) : (⟨S2x128, .f32⟩ : BufTy).Contents (Elt F) → (⟨S1x128, .f32⟩ : BufTy).Contents (Elt F)),
    StableHlo.reshape main_v133 main_v134 rfl shapeCasts_S1x128_S128,
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v136 main_v137 (addf : (⟨S100000x128, .f32⟩ : BufTy).Contents (Elt F) → (⟨S100000x128, .f32⟩ : BufTy).Contents (Elt F) → (⟨S100000x128, .f32⟩ : BufTy).Contents (Elt F)),
    StableHlo.unary main_arg16 main_v138 ((extractStridedSlice S1x85x128 ![0, 0, 0] · slices_S2x85x128_S1x85x128_0_0_0) : (⟨S2x85x128, .f32⟩ : BufTy).Contents (Elt F) → (⟨S1x85x128, .f32⟩ : BufTy).Contents (Elt F)),
    StableHlo.reshape main_v138 main_v139 rfl shapeCasts_S1x85x128_S85x128,
    StableHlo.binary main_v60 main_v139 main_v140 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.binary main_v137 main_v140 main_v141 (addf : (⟨S100000x128, .f32⟩ : BufTy).Contents (Elt F) → (⟨S100000x128, .f32⟩ : BufTy).Contents (Elt F) → (⟨S100000x128, .f32⟩ : BufTy).Contents (Elt F)) ]

/-- The references `stage3` writes. -/
abbrev written_stage3 : List (Ref sig .tc) :=
  [main_v130, main_v131, main_v132, main_v133, main_v134, main_v135, main_v136, main_v137, main_v138, main_v139, main_v140, main_v141]

set_option maxRecDepth 8192 in
theorem stage3_writes : (stage3 : List (HloOp τ sig (Elt F))).Forall fun op => op.writes ⊆ (written_stage3.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage 3 never writes passes through it unchanged. -/
theorem kept_stage3 (V : Valuation τ sig (Elt F)) {r : Ref sig .tc} (h : r ∉ written_stage3) :
    after (stage3 (F := F)) V (Proc.devRef .tc r) = V (Proc.devRef .tc r) :=
  after_of_writes_sub stage3 V stage3_writes h

/-- Stage 4: the first leaky-relu term added to the zero matrix (%142 … %144). -/
abbrev stage4 : List (HloOp τ sig (Elt F)) :=
  [ StableHlo.binary main_v129 main_v141 main_v142 (addf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x3E99999A#32),
    StableHlo.TRef.nullary main_call1.cst (constant S_ .f32 0x00000000#32),
    StableHlo.TRef.unary main_call1.cst main_call1.v0 (broadcastInDim S100000x128 ![] bcast_S_S100000x128),
    StableHlo.TRef.binary (.of main_v142 : StableHlo.TRef sig ⟨S100000x128, .f32⟩) main_call1.v0 main_call1.v1 (cmpf .oge),
    StableHlo.TRef.unary (.of main_cst_28 : StableHlo.TRef sig ⟨S_, .f32⟩) main_call1.v2 id,
    StableHlo.TRef.unary main_call1.v2 main_call1.v3 (broadcastInDim S100000x128 ![] bcast_S_S100000x128),
    StableHlo.TRef.binary main_call1.v3 (.of main_v142 : StableHlo.TRef sig ⟨S100000x128, .f32⟩) main_call1.v4 mulf,
    StableHlo.TRef.ternary main_call1.v1 (.of main_v142 : StableHlo.TRef sig ⟨S100000x128, .f32⟩) main_call1.v4 main_call1.call0.v0 select,
    StableHlo.binary main_v108 main_v143 main_v144 (addf : (⟨S100000x128, .f32⟩ : BufTy).Contents (Elt F) → (⟨S100000x128, .f32⟩ : BufTy).Contents (Elt F) → (⟨S100000x128, .f32⟩ : BufTy).Contents (Elt F)) ]

/-- The references `stage4` writes. -/
abbrev written_stage4 : List (Ref sig .tc) :=
  [main_v142, main_cst_28, main_call1_cst, main_call1_v0, main_call1_v1, main_call1_v2, main_call1_v3, main_call1_v4, main_v143, main_v144]

set_option maxRecDepth 8192 in
theorem stage4_writes : (stage4 : List (HloOp τ sig (Elt F))).Forall fun op => op.writes ⊆ (written_stage4.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage 4 never writes passes through it unchanged. -/
theorem kept_stage4 (V : Valuation τ sig (Elt F)) {r : Ref sig .tc} (h : r ∉ written_stage4) :
    after (stage4 (F := F)) V (Proc.devRef .tc r) = V (Proc.devRef .tc r) :=
  after_of_writes_sub stage4 V stage4_writes h

/-- Stage 5: hop 1's projection X·Wg[1] (%145 … %147). -/
abbrev stage5 : List (HloOp τ sig (Elt F)) :=
  [ StableHlo.unary main_arg12 main_v145 ((extractStridedSlice S1x85x128 ![1, 0, 0] · slices_S2x85x128_S1x85x128_1_0_0) : (⟨S2x85x128, .f32⟩ : BufTy).Contents (Elt F) → (⟨S1x85x128, .f32⟩ : BufTy).Contents (Elt F)),
    StableHlo.reshape main_v145 main_v146 rfl shapeCasts_S1x85x128_S85x128,
    StableHlo.binary main_v60 main_v146 main_v147 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)) ]

/-- The references `stage5` writes. -/
abbrev written_stage5 : List (Ref sig .tc) :=
  [main_v145, main_v146, main_v147]

set_option maxRecDepth 8192 in
theorem stage5_writes : (stage5 : List (HloOp τ sig (Elt F))).Forall fun op => op.writes ⊆ (written_stage5.map (Proc.devRef (τ := τ) .tc)).toFinset :=
  ⟨single_sub_of_mem (by decide), single_sub_of_mem (by decide), single_sub_of_mem (by decide)⟩

/-- A reference stage 5 never writes passes through it unchanged. -/
theorem kept_stage5 (V : Valuation τ sig (Elt F)) {r : Ref sig .tc} (h : r ∉ written_stage5) :
    after (stage5 (F := F)) V (Proc.devRef .tc r) = V (Proc.devRef .tc r) :=
  after_of_writes_sub stage5 V stage5_writes h

/-- Stage 6: hop 1's graph convolution (%c_29 … %165). -/
abbrev stage6 : List (HloOp τ sig (Elt F)) :=
  [ StableHlo.nullary main_c_29 (constantI S_ 32 0#32),
    StableHlo.unary main_c_29 main_v148 (broadcastInDim S1000000 ![] bcast_S_S1000000 : (⟨S_, .i32⟩ : BufTy).Contents (Elt F) → (⟨S1000000, .i32⟩ : BufTy).Contents (Elt F)),
    StableHlo.binary main_v62 main_v148 main_v149 (cmpi .slt : (⟨S1000000, .i32⟩ : BufTy).Contents (Elt F) → (⟨S1000000, .i32⟩ : BufTy).Contents (Elt F) → (⟨S1000000, .i1⟩ : BufTy).Contents (Elt F)),
    StableHlo.nullary main_c_30 (constantI S_ 32 100000#32),
    StableHlo.unary main_c_30 main_v150 (broadcastInDim S1000000 ![] bcast_S_S1000000 : (⟨S_, .i32⟩ : BufTy).Contents (Elt F) → (⟨S1000000, .i32⟩ : BufTy).Contents (Elt F)),
    StableHlo.binary main_v62 main_v150 main_v151 (addi : (⟨S1000000, .i32⟩ : BufTy).Contents (Elt F) → (⟨S1000000, .i32⟩ : BufTy).Contents (Elt F) → (⟨S1000000, .i32⟩ : BufTy).Contents (Elt F)),
    StableHlo.ternary main_v149 main_v151 main_v62 main_v152 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v152 main_v153 (broadcastInDim S1000000x1 ![0] bcast_S1000000_S1000000x1_0 : (⟨S1000000, .i32⟩ : BufTy).Contents (Elt F) → (⟨S1000000x1, .i32⟩ : BufTy).Contents (Elt F)),
    StableHlo.binary main_v147 main_v153 main_v154 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    StableHlo.unary main_v89 main_v155 (broadcastInDim S1000000x1 ![0] bcast_S1000000_S1000000x1_0 : (⟨S1000000, .f32⟩ : BufTy).Contents (Elt F) → (⟨S1000000x1, .f32⟩ : BufTy).Contents (Elt F)),
    StableHlo.unary main_v155 main_v156 (broadcastInDim S1000000x128 ![0, 1] bcast_S1000000x1_S1000000x128_0_1 : (⟨S1000000x1, .f32⟩ : BufTy).Contents (Elt F) → (⟨S1000000x128, .f32⟩ : BufTy).Contents (Elt F)),
    StableHlo.binary main_v154 main_v156 main_v157 (mulf : (⟨S1000000x128, .f32⟩ : BufTy).Contents (Elt F) → (⟨S1000000x128, .f32⟩ : BufTy).Contents (Elt F) → (⟨S1000000x128, .f32⟩ : BufTy).Contents (Elt F)),
    StableHlo.nullary main_cst_31 (constant S_ .f32 0x00000000#32),
    StableHlo.unary main_cst_31 main_v158 (broadcastInDim S100000x128 ![] bcast_S_S100000x128 : (⟨S_, .f32⟩ : BufTy).Contents (Elt F) → (⟨S100000x128, .f32⟩ : BufTy).Contents (Elt F)),
    StableHlo.unary main_v64 main_v159 (broadcastInDim S1000000x1 ![0] bcast_S1000000_S1000000x1_0 : (⟨S1000000, .i32⟩ : BufTy).Contents (Elt F) → (⟨S1000000x1, .i32⟩ : BufTy).Contents (Elt F)),
    StableHlo.ternary main_v158 main_v159 main_v157 main_v160 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    StableHlo.unary main_arg13 main_v161 ((extractStridedSlice S1x128 ![1, 0] · slices_S2x128_S1x128_1_0) : (⟨S2x128, .f32⟩ : BufTy).Contents (Elt F) → (⟨S1x128, .f32⟩ : BufTy).Contents (Elt F)),
    StableHlo.reshape main_v161 main_v162 rfl shapeCasts_S1x128_S128,
    StableHlo.unary main_v162 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S100000x128 ![0, 1] bcast_S1x128_S100000x128_0_1 : (⟨S1x128, .f32⟩ : BufTy).Contents (Elt F) → (⟨S100000x128, .f32⟩ : BufTy).Contents (Elt F)),
    StableHlo.binary main_v160 main_v164 main_v165 (addf : (⟨S100000x128, .f32⟩ : BufTy).Contents (Elt F) → (⟨S100000x128, .f32⟩ : BufTy).Contents (Elt F) → (⟨S100000x128, .f32⟩ : BufTy).Contents (Elt F)) ]

/-- The references `stage6` writes. -/
abbrev written_stage6 : List (Ref sig .tc) :=
  [main_c_29, main_v148, main_v149, main_c_30, main_v150, main_v151, main_v152, main_v153, main_v154, main_v155, main_v156, main_v157, main_cst_31, main_v158, main_v159, main_v160, main_v161, main_v162, main_v163, main_v164, main_v165]

set_option maxRecDepth 8192 in
theorem stage6_writes : (stage6 : List (HloOp τ sig (Elt F))).Forall fun op => op.writes ⊆ (written_stage6.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage 6 never writes passes through it unchanged. -/
theorem kept_stage6 (V : Valuation τ sig (Elt F)) {r : Ref sig .tc} (h : r ∉ written_stage6) :
    after (stage6 (F := F)) V (Proc.devRef .tc r) = V (Proc.devRef .tc r) :=
  after_of_writes_sub stage6 V stage6_writes h

/-- Stage 7: hop 1's SAGE term (%166 … %177). -/
abbrev stage7 : List (HloOp τ sig (Elt F)) :=
  [ StableHlo.unary main_arg14 main_v166 ((extractStridedSlice S1x64x128 ![1, 0, 0] · slices_S2x64x128_S1x64x128_1_0_0) : (⟨S2x64x128, .f32⟩ : BufTy).Contents (Elt F) → (⟨S1x64x128, .f32⟩ : BufTy).Contents (Elt F)),
    StableHlo.reshape main_v166 main_v167 rfl shapeCasts_S1x64x128_S64x128,
    StableHlo.binary main_v107 main_v167 main_v168 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.unary main_arg15 main_v169 ((extractStridedSlice S1x128 ![1, 0] · slices_S2x128_S1x128_1_0) : (⟨S2x128, .f32⟩ : BufTy).Contents (Elt F) → (⟨S1x128, .f32⟩ : BufTy).Contents (Elt F)),
    StableHlo.reshape main_v169 main_v170 rfl shapeCasts_S1x128_S128,
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S100000x128 ![0, 1] bcast_S1x128_S100000x128_0_1 : (⟨S1x128, .f32⟩ : BufTy).Contents (Elt F) → (⟨S100000x128, .f32⟩ : BufTy).Contents (Elt F)),
    StableHlo.binary main_v168 main_v172 main_v173 (addf : (⟨S100000x128, .f32⟩ : BufTy).Contents (Elt F) → (⟨S100000x128, .f32⟩ : BufTy).Contents (Elt F) → (⟨S100000x128, .f32⟩ : BufTy).Contents (Elt F)),
    StableHlo.unary main_arg16 main_v174 ((extractStridedSlice S1x85x128 ![1, 0, 0] · slices_S2x85x128_S1x85x128_1_0_0) : (⟨S2x85x128, .f32⟩ : BufTy).Contents (Elt F) → (⟨S1x85x128, .f32⟩ : BufTy).Contents (Elt F)),
    StableHlo.reshape main_v174 main_v175 rfl shapeCasts_S1x85x128_S85x128,
    StableHlo.binary main_v60 main_v175 main_v176 ((fun l r => Host.dotGeneral dot_S100000x85_S85x128_S100000x128_1_0_0_1_n_n none l r) : (⟨S100000x85, .f32⟩ : BufTy).Contents (Elt F) → (⟨S85x128, .f32⟩ : BufTy).Contents (Elt F) → (⟨S100000x128, .f32⟩ : BufTy).Contents (Elt F)),
    StableHlo.binary main_v173 main_v176 main_v177 (addf : (⟨S100000x128, .f32⟩ : BufTy).Contents (Elt F) → (⟨S100000x128, .f32⟩ : BufTy).Contents (Elt F) → (⟨S100000x128, .f32⟩ : BufTy).Contents (Elt F)) ]

/-- The references `stage7` writes. -/
abbrev written_stage7 : List (Ref sig .tc) :=
  [main_v166, main_v167, main_v168, main_v169, main_v170, main_v171, main_v172, main_v173, main_v174, main_v175, main_v176, main_v177]

set_option maxRecDepth 8192 in
theorem stage7_writes : (stage7 : List (HloOp τ sig (Elt F))).Forall fun op => op.writes ⊆ (written_stage7.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage 7 never writes passes through it unchanged. -/
theorem kept_stage7 (V : Valuation τ sig (Elt F)) {r : Ref sig .tc} (h : r ∉ written_stage7) :
    after (stage7 (F := F)) V (Proc.devRef .tc r) = V (Proc.devRef .tc r) :=
  after_of_writes_sub stage7 V stage7_writes h

/-- Stage 8: the second leaky-relu term added: the node features (%178 … %180). -/
abbrev stage8 : List (HloOp τ sig (Elt F)) :=
  [ StableHlo.binary main_v165 main_v177 main_v178 (addf : (⟨S100000x128, .f32⟩ : BufTy).Contents (Elt F) → (⟨S100000x128, .f32⟩ : BufTy).Contents (Elt F) → (⟨S100000x128, .f32⟩ : BufTy).Contents (Elt F)),
    StableHlo.nullary main_cst_32 (constant S_ .f32 0x3E99999A#32),
    StableHlo.TRef.nullary main_call2.cst (constant S_ .f32 0x00000000#32),
    StableHlo.TRef.unary main_call2.cst main_call2.v0 (broadcastInDim S100000x128 ![] bcast_S_S100000x128),
    StableHlo.TRef.binary (.of main_v178 : StableHlo.TRef sig ⟨S100000x128, .f32⟩) main_call2.v0 main_call2.v1 (cmpf .oge),
    StableHlo.TRef.unary (.of main_cst_32 : StableHlo.TRef sig ⟨S_, .f32⟩) main_call2.v2 id,
    StableHlo.TRef.unary main_call2.v2 main_call2.v3 (broadcastInDim S100000x128 ![] bcast_S_S100000x128),
    StableHlo.TRef.binary main_call2.v3 (.of main_v178 : StableHlo.TRef sig ⟨S100000x128, .f32⟩) main_call2.v4 mulf,
    StableHlo.TRef.ternary main_call2.v1 (.of main_v178 : StableHlo.TRef sig ⟨S100000x128, .f32⟩) main_call2.v4 main_call2.call0.v0 select,
    StableHlo.binary main_v144 main_v179 main_v180 (addf : (⟨S100000x128, .f32⟩ : BufTy).Contents (Elt F) → (⟨S100000x128, .f32⟩ : BufTy).Contents (Elt F) → (⟨S100000x128, .f32⟩ : BufTy).Contents (Elt F)) ]

/-- The references `stage8` writes. -/
abbrev written_stage8 : List (Ref sig .tc) :=
  [main_v178, main_cst_32, main_call2_cst, main_call2_v0, main_call2_v1, main_call2_v2, main_call2_v3, main_call2_v4, main_v179, main_v180]

set_option maxRecDepth 8192 in
theorem stage8_writes : (stage8 : List (HloOp τ sig (Elt F))).Forall fun op => op.writes ⊆ (written_stage8.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage 8 never writes passes through it unchanged. -/
theorem kept_stage8 (V : Valuation τ sig (Elt F)) {r : Ref sig .tc} (h : r ∉ written_stage8) :
    after (stage8 (F := F)) V (Proc.devRef .tc r) = V (Proc.devRef .tc r) :=
  after_of_writes_sub stage8 V stage8_writes h

/-- Stage 9: the column means (%cst_33 … %183). -/
abbrev stage9 : List (HloOp τ sig (Elt F)) :=
  [ StableHlo.nullary main_cst_33 (constant S_ .f32 0x00000000#32),
    StableHlo.binary main_v180 main_cst_33 main_v181 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_34 (constant S_ .f32 0x47C35000#32),
    StableHlo.unary main_cst_34 main_v182 (broadcastInDim S128 ![] bcast_S_S128 : (⟨S_, .f32⟩ : BufTy).Contents (Elt F) → (⟨S128, .f32⟩ : BufTy).Contents (Elt F)),
    StableHlo.binary main_v181 main_v182 main_v183 (Host.divf : (⟨S128, .f32⟩ : BufTy).Contents (Elt F) → (⟨S128, .f32⟩ : BufTy).Contents (Elt F) → (⟨S128, .f32⟩ : BufTy).Contents (Elt F)) ]

/-- The references `stage9` writes. -/
abbrev written_stage9 : List (Ref sig .tc) :=
  [main_cst_33, main_v181, main_cst_34, main_v182, main_v183]

set_option maxRecDepth 8192 in
theorem stage9_writes : (stage9 : List (HloOp τ sig (Elt F))).Forall fun op => op.writes ⊆ (written_stage9.map (Proc.devRef (τ := τ) .tc)).toFinset :=
  ⟨single_sub_of_mem (by decide), single_sub_of_mem (by decide), single_sub_of_mem (by decide), single_sub_of_mem (by decide), single_sub_of_mem (by decide)⟩

/-- A reference stage 9 never writes passes through it unchanged. -/
theorem kept_stage9 (V : Valuation τ sig (Elt F)) {r : Ref sig .tc} (h : r ∉ written_stage9) :
    after (stage9 (F := F)) V (Proc.devRef .tc r) = V (Proc.devRef .tc r) :=
  after_of_writes_sub stage9 V stage9_writes h

/-- Stage 10: the column variances (%184 … %190). -/
abbrev stage10 : List (HloOp τ sig (Elt F)) :=
  [ StableHlo.unary main_v183 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v185 main_v186 (subf : (⟨S100000x128, .f32⟩ : BufTy).Contents (Elt F) → (⟨S100000x128, .f32⟩ : BufTy).Contents (Elt F) → (⟨S100000x128, .f32⟩ : BufTy).Contents (Elt F)),
    StableHlo.binary main_v186 main_v186 main_v187 (mulf : (⟨S100000x128, .f32⟩ : BufTy).Contents (Elt F) → (⟨S100000x128, .f32⟩ : BufTy).Contents (Elt F) → (⟨S100000x128, .f32⟩ : BufTy).Contents (Elt F)),
    StableHlo.nullary main_cst_35 (constant S_ .f32 0x00000000#32),
    StableHlo.binary main_v187 main_cst_35 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_36 (constant S_ .f32 0x47C35000#32),
    StableHlo.unary main_cst_36 main_v189 (broadcastInDim S128 ![] bcast_S_S128 : (⟨S_, .f32⟩ : BufTy).Contents (Elt F) → (⟨S128, .f32⟩ : BufTy).Contents (Elt F)),
    StableHlo.binary main_v188 main_v189 main_v190 (Host.divf : (⟨S128, .f32⟩ : BufTy).Contents (Elt F) → (⟨S128, .f32⟩ : BufTy).Contents (Elt F) → (⟨S128, .f32⟩ : BufTy).Contents (Elt F)) ]

/-- The references `stage10` writes. -/
abbrev written_stage10 : List (Ref sig .tc) :=
  [main_v184, main_v185, main_v186, main_v187, main_cst_35, main_v188, main_cst_36, main_v189, main_v190]

set_option maxRecDepth 8192 in
theorem stage10_writes : (stage10 : List (HloOp τ sig (Elt F))).Forall fun op => op.writes ⊆ (written_stage10.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage 10 never writes passes through it unchanged. -/
theorem kept_stage10 (V : Valuation τ sig (Elt F)) {r : Ref sig .tc} (h : r ∉ written_stage10) :
    after (stage10 (F := F)) V (Proc.devRef .tc r) = V (Proc.devRef .tc r) :=
  after_of_writes_sub stage10 V stage10_writes h

/-- Stage 11: the normalised, scaled and shifted result (%191 … %205). -/
abbrev stage11 : List (HloOp τ sig (Elt F)) :=
  [ StableHlo.unary main_v183 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v192 main_v193 (subf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3727C5AC#32),
    StableHlo.unary main_cst_37 main_v194 (broadcastInDim S128 ![] bcast_S_S128 : (⟨S_, .f32⟩ : BufTy).Contents (Elt F) → (⟨S128, .f32⟩ : BufTy).Contents (Elt F)),
    StableHlo.binary main_v190 main_v194 main_v195 (addf : (⟨S128, .f32⟩ : BufTy).Contents (Elt F) → (⟨S128, .f32⟩ : BufTy).Contents (Elt F) → (⟨S128, .f32⟩ : BufTy).Contents (Elt F)),
    StableHlo.unary main_v195 main_v196 (Host.rsqrt : (⟨S128, .f32⟩ : BufTy).Contents (Elt F) → (⟨S128, .f32⟩ : BufTy).Contents (Elt F)),
    StableHlo.unary main_v196 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v198 main_v199 (mulf : (⟨S100000x128, .f32⟩ : BufTy).Contents (Elt F) → (⟨S100000x128, .f32⟩ : BufTy).Contents (Elt F) → (⟨S100000x128, .f32⟩ : BufTy).Contents (Elt F)),
    StableHlo.unary main_arg17 main_v200 (broadcastInDim S1x128 ![1] bcast_S128_S1x128_1 : (⟨S128, .f32⟩ : BufTy).Contents (Elt F) → (⟨S1x128, .f32⟩ : BufTy).Contents (Elt F)),
    StableHlo.unary main_v200 main_v201 (broadcastInDim S100000x128 ![0, 1] bcast_S1x128_S100000x128_0_1 : (⟨S1x128, .f32⟩ : BufTy).Contents (Elt F) → (⟨S100000x128, .f32⟩ : BufTy).Contents (Elt F)),
    StableHlo.binary main_v199 main_v201 main_v202 (mulf : (⟨S100000x128, .f32⟩ : BufTy).Contents (Elt F) → (⟨S100000x128, .f32⟩ : BufTy).Contents (Elt F) → (⟨S100000x128, .f32⟩ : BufTy).Contents (Elt F)),
    StableHlo.unary main_arg18 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S100000x128 ![0, 1] bcast_S1x128_S100000x128_0_1 : (⟨S1x128, .f32⟩ : BufTy).Contents (Elt F) → (⟨S100000x128, .f32⟩ : BufTy).Contents (Elt F)),
    StableHlo.binary main_v202 main_v204 main_v205 (addf : (⟨S100000x128, .f32⟩ : BufTy).Contents (Elt F) → (⟨S100000x128, .f32⟩ : BufTy).Contents (Elt F) → (⟨S100000x128, .f32⟩ : BufTy).Contents (Elt F)) ]

/-- The references `stage11` writes. -/
abbrev written_stage11 : List (Ref sig .tc) :=
  [main_v191, main_v192, main_v193, main_cst_37, main_v194, main_v195, main_v196, main_v197, main_v198, main_v199, main_v200, main_v201, main_v202, main_v203, main_v204, main_v205]

set_option maxRecDepth 8192 in
theorem stage11_writes : (stage11 : List (HloOp τ sig (Elt F))).Forall fun op => op.writes ⊆ (written_stage11.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A reference stage 11 never writes passes through it unchanged. -/
theorem kept_stage11 (V : Valuation τ sig (Elt F)) {r : Ref sig .tc} (h : r ∉ written_stage11) :
    after (stage11 (F := F)) V (Proc.devRef .tc r) = V (Proc.devRef .tc r) :=
  after_of_writes_sub stage11 V stage11_writes h

set_option maxRecDepth 8192 in
/-- The tail is the eleven stages in order. -/
theorem opsTail_stages : (opsTail : List (HloOp τ sig (Elt F))) =
    stage1 ++ (stage2 ++ (stage3 ++ (stage4 ++ (stage5 ++ (stage6 ++ (stage7 ++ (stage8 ++ (stage9 ++ (stage10 ++ stage11))))))))) := rfl

/-- The tail's fold is the stages' folds nested in order. -/
theorem after_tail_stages (V : Valuation τ sig (Elt F)) : after (opsTail (F := F)) V =
    after stage11 (after stage10 (after stage9 (after stage8 (after stage7 (after stage6 (after stage5 (after stage4
      (after stage3 (after stage2 (after stage1 V)))))))))) := by
  rw [opsTail_stages]; simp only [after_append]

end Cert.ReferenceIdeal.Line

end
-- ==== Proof.LibFoldSplit.lean ====
/-
  Two general facts about a straight line of host operations, for reading such a line back a stretch at a time.

  * `after_append`, `after_take_drop`: the contents after a list of operations is the contents after its tail from the
    contents after its head — so a long line can be cut at any position, the first part read once, and the second part read
    over the first part's buffers as opaque arrays.
  * `ofBuf_toBuf`: an operation of an outlined function is stated over typed references, whose contents are moved to the
    buffer's own type and back along the reference's type equation; a value moved there and back is the value. Unlike a
    rewrite that must recognise each move as the identity, this cancels the pair as it stands, whatever the buffer's
    position in the signature.
-/
import Idealize.ShloMosaic.Lib.StableHlo.Run

noncomputable section

namespace Cert.FoldSplit

open Idealize.ShloMosaic Idealize.ShloMosaic.StableHlo

variable {τ : Topo} {sig : RefSig} {Val : EltTy → Type}

/-- The contents after two lists of operations run one after the other: the second list's, from the first's. -/
theorem after_append (l1 l2 : List (HloOp τ sig Val)) (V : Valuation τ sig Val) :
    after (l1 ++ l2) V = after l2 (after l1 V) := by
  induction l1 generalizing V with
  | nil => rfl
  | cons op l ih => exact ih _

/-- A list of operations cut at position `n`: its first `n` operations, then the rest from what they leave. -/
theorem after_take_drop (n : ℕ) (l : List (HloOp τ sig Val)) (V : Valuation τ sig Val) :
    after l V = after (l.drop n) (after (l.take n) V) :=
  (congrArg (fun k => after k V) (List.take_append_drop n l).symm).trans (after_append _ _ _)

/-- Contents moved to a typed reference's own buffer type and back are the contents. -/
theorem ofBuf_toBuf {T : BufTy} (x : TRef sig T) (v : T.Contents Val) : x.ofBuf (x.toBuf v) = v := by
  obtain ⟨r, h, h1, h2⟩ := x
  subst h
  rfl

end Cert.FoldSplit

end
-- ==== Proof.BridgeRef.lean ====
/-
  The reference's tail read stage by stage: what each of the eleven stages leaves in the array it ends at, as a function of
  the arrays it starts from. Per hop: the projection, the graph convolution (gather by row, times the edge norms,
  scatter-add by column, plus the bias), the three-term sum; the leaky-relu terms added up; the column means and
  variances; the normalised, scaled and shifted result.
-/
import proofs.«159553_j62680752718518_1_alg».proof.Proof.RefStages
import proofs.«159553_j62680752718518_1_alg».proof.Proof.LibFoldSplit

noncomputable section

namespace Cert.Bridge

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F]

/-- One hop's graph convolution: the rows of `xw` gathered by the (wrapped) row indices, scaled by the edge norms,
    scatter-added by the column indices into zeros, plus the hop's bias row. -/
def hop (xw : (⟨S100000x128, .f32⟩ : BufTy).Contents (Elt F)) (row : (⟨S1000000, .i32⟩ : BufTy).Contents (Elt F))
    (nrm : (⟨S1000000, .f32⟩ : BufTy).Contents (Elt F)) (col : (⟨S1000000, .i32⟩ : BufTy).Contents (Elt F))
    (b : (⟨S1x128, .f32⟩ : BufTy).Contents (Elt F)) : (⟨S100000x128, .f32⟩ : BufTy).Contents (Elt F) :=
  addf
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0 col)
      (mulf
        (Host.gather gather_S100000x128_S1000000x1_S1000000x128_1_0_n_n_0_1_1128 xw
          (broadcastInDim S1000000x1 ![0] bcast_S1000000_S1000000x1_0
            (select (cmpi .slt row (broadcastInDim S1000000 ![] bcast_S_S1000000 (constantI S_ 32 0#32)))
              (addi row (broadcastInDim S1000000 ![] bcast_S_S1000000 (constantI S_ 32 100000#32))) row)))
        (broadcastInDim S1000000x128 ![0, 1] bcast_S1000000x1_S1000000x128_0_1
          (broadcastInDim S1000000x1 ![0] bcast_S1000000_S1000000x1_0 nrm))))
    (broadcastInDim S100000x128 ![0, 1] bcast_S1x128_S100000x128_0_1
      (broadcastInDim S1x128 ![1] bcast_S128_S1x128_1 (shapeCast S128 b shapeCasts_S1x128_S128)))

/-- The leaky relu: `x` where `x ≥ 0`, the slope word times `x` elsewhere. -/
def leaky (x : (⟨S100000x128, .f32⟩ : BufTy).Contents (Elt F)) : (⟨S100000x128, .f32⟩ : BufTy).Contents (Elt F) :=
  select (cmpf .oge x (broadcastInDim S100000x128 ![] bcast_S_S100000x128 (constant S_ .f32 0x00000000#32))) x
    (mulf (broadcastInDim S100000x128 ![] bcast_S_S100000x128 (constant S_ .f32 0x3E99999A#32)) x)

/-- A `[128]` vector laid along every row of a `[100000, 128]` array. -/
def rows (v : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 v)

variable (V : Valuation τ sig (Elt F))

theorem stage1_v108 : after (stage1 (F := F)) V (Proc.devRef .tc main_v108)
    = broadcastInDim S100000x128 ![] bcast_S_S100000x128 (constant S_ .f32 0x00000000#32) := by
  after_results_simp

theorem stage1_v111 : after (stage1 (F := F)) V (Proc.devRef .tc main_v111)
    = Host.dotGeneral dot_S100000x85_S85x128_S100000x128_1_0_0_1_n_n none (V (Proc.devRef .tc main_v60))
        (shapeCast S85x128 (extractStridedSlice S1x85x128 ![0, 0, 0] (V (Proc.devRef .tc main_arg12)) slices_S2x85x128_S1x85x128_0_0_0)
          shapeCasts_S1x85x128_S85x128) := by
  after_results_simp
  rfl

theorem stage2_v129 : after (stage2 (F := F)) V (Proc.devRef .tc main_v129)
    = hop (V (Proc.devRef .tc main_v111)) (V (Proc.devRef .tc main_v62)) (V (Proc.devRef .tc main_v89)) (V (Proc.devRef .tc main_v64))
        (extractStridedSlice S1x128 ![0, 0] (V (Proc.devRef .tc main_arg13)) slices_S2x128_S1x128_0_0) := by
  after_results_simp
  rfl

theorem stage3_v141 : after (stage3 (F := F)) V (Proc.devRef .tc main_v141)
    = addf (addf
        (Host.dotGeneral dot_S100000x64_S64x128_S100000x128_1_0_0_1_n_n none (V (Proc.devRef .tc main_v107))
          (shapeCast S64x128 (extractStridedSlice S1x64x128 ![0, 0, 0] (V (Proc.devRef .tc main_arg14)) slices_S2x64x128_S1x64x128_0_0_0)
            shapeCasts_S1x64x128_S64x128))
        (rows (shapeCast S128 (extractStridedSlice S1x128 ![0, 0] (V (Proc.devRef .tc main_arg15)) slices_S2x128_S1x128_0_0) shapeCasts_S1x128_S128)))
      (Host.dotGeneral dot_S100000x85_S85x128_S100000x128_1_0_0_1_n_n none (V (Proc.devRef .tc main_v60))
        (shapeCast S85x128 (extractStridedSlice S1x85x128 ![0, 0, 0] (V (Proc.devRef .tc main_arg16)) slices_S2x85x128_S1x85x128_0_0_0)
          shapeCasts_S1x85x128_S85x128)) := by
  after_results_simp
  rfl

theorem stage4_v144 : after (stage4 (F := F)) V (Proc.devRef .tc main_v144)
    = addf (V (Proc.devRef .tc main_v108)) (leaky (addf (V (Proc.devRef .tc main_v129)) (V (Proc.devRef .tc main_v141)))) := by
  after_results_simp
  rfl

theorem stage5_v147 : after (stage5 (F := F)) V (Proc.devRef .tc main_v147)
    = Host.dotGeneral dot_S100000x85_S85x128_S100000x128_1_0_0_1_n_n none (V (Proc.devRef .tc main_v60))
        (shapeCast S85x128 (extractStridedSlice S1x85x128 ![1, 0, 0] (V (Proc.devRef .tc main_arg12)) slices_S2x85x128_S1x85x128_1_0_0)
          shapeCasts_S1x85x128_S85x128) := by
  after_results_simp
  rfl

theorem stage6_v165 : after (stage6 (F := F)) V (Proc.devRef .tc main_v165)
    = hop (V (Proc.devRef .tc main_v147)) (V (Proc.devRef .tc main_v62)) (V (Proc.devRef .tc main_v89)) (V (Proc.devRef .tc main_v64))
        (extractStridedSlice S1x128 ![1, 0] (V (Proc.devRef .tc main_arg13)) slices_S2x128_S1x128_1_0) := by
  after_results_simp
  rfl

theorem stage7_v177 : after (stage7 (F := F)) V (Proc.devRef .tc main_v177)
    = addf (addf
        (Host.dotGeneral dot_S100000x64_S64x128_S100000x128_1_0_0_1_n_n none (V (Proc.devRef .tc main_v107))
          (shapeCast S64x128 (extractStridedSlice S1x64x128 ![1, 0, 0] (V (Proc.devRef .tc main_arg14)) slices_S2x64x128_S1x64x128_1_0_0)
            shapeCasts_S1x64x128_S64x128))
        (rows (shapeCast S128 (extractStridedSlice S1x128 ![1, 0] (V (Proc.devRef .tc main_arg15)) slices_S2x128_S1x128_1_0) shapeCasts_S1x128_S128)))
      (Host.dotGeneral dot_S100000x85_S85x128_S100000x128_1_0_0_1_n_n none (V (Proc.devRef .tc main_v60))
        (shapeCast S85x128 (extractStridedSlice S1x85x128 ![1, 0, 0] (V (Proc.devRef .tc main_arg16)) slices_S2x85x128_S1x85x128_1_0_0)
          shapeCasts_S1x85x128_S85x128)) := by
  after_results_simp
  rfl

theorem stage8_v180 : after (stage8 (F := F)) V (Proc.devRef .tc main_v180)
    = addf (V (Proc.devRef .tc main_v144)) (leaky (addf (V (Proc.devRef .tc main_v165)) (V (Proc.devRef .tc main_v177)))) := by
  after_results_simp
  rfl

theorem stage9_v183 : after (stage9 (F := F)) V (Proc.devRef .tc main_v183)
    = Host.divf (Host.reduceAdd (V (Proc.devRef .tc main_v180)) (constant S_ .f32 0x00000000#32) reducesTo_S100000x128_S128_d0 h_S_)
        (broadcastInDim S128 ![] bcast_S_S128 (constant S_ .f32 0x47C35000#32)) := by
  after_results_simp

theorem stage10_v190 : after (stage10 (F := F)) V (Proc.devRef .tc main_v190)
    = Host.divf
        (Host.reduceAdd
          (mulf (subf (V (Proc.devRef .tc main_v180)) (rows (V (Proc.devRef .tc main_v183))))
            (subf (V (Proc.devRef .tc main_v180)) (rows (V (Proc.devRef .tc main_v183)))))
          (constant S_ .f32 0x00000000#32) reducesTo_S100000x128_S128_d0 h_S_)
        (broadcastInDim S128 ![] bcast_S_S128 (constant S_ .f32 0x47C35000#32)) := by
  after_results_simp
  rfl

theorem stage11_v205 : after (stage11 (F := F)) V (Proc.devRef .tc main_v205)
    = addf
        (mulf
          (mulf (subf (V (Proc.devRef .tc main_v180)) (rows (V (Proc.devRef .tc main_v183))))
            (rows (Host.rsqrt (addf (V (Proc.devRef .tc main_v190)) (broadcastInDim S128 ![] bcast_S_S128 (constant S_ .f32 0x3727C5AC#32))))))
          (rows (V (Proc.devRef .tc main_arg17))))
        (rows (V (Proc.devRef .tc main_arg18))) := by
  after_results_simp
  rfl

end Cert.Bridge

end
-- ==== Proof.BridgeKHost.lean ====
/-
  The kernel program's host stretches between its regions, read at the arrays the next region takes: per hop the lane
  slice of the stacked projection put through the graph convolution, and the lane slice of the stacked three-term sum;
  the column sums divided by the row count's word; the scale and shift vectors as rows.
-/
import proofs.«159553_j62680752718518_1_alg».proof.Proof.Gen.KernelIdeal.Launch
import proofs.«159553_j62680752718518_1_alg».proof.Proof.BridgeRef

noncomputable section

namespace Cert.Bridge

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

theorem k_v134 : after (hostOps1 (F := F)) W (Proc.devRef .tc main_v134)
    = hop (extractStridedSlice S100000x128 ![0, 0] (W (Proc.devRef .tc main_v115_0)) slices_S100000x256_S100000x128_0_0)
        (W (Proc.devRef .tc main_v62)) (W (Proc.devRef .tc main_v89)) (W (Proc.devRef .tc main_v64))
        (extractStridedSlice S1x128 ![0, 0] (W (Proc.devRef .tc main_arg13)) slices_S2x128_S1x128_0_0) := by
  after_results_simp
  rfl

theorem k_v135 : after (hostOps1 (F := F)) W (Proc.devRef .tc main_v135)
    = extractStridedSlice S100000x128 ![0, 0] (W (Proc.devRef .tc main_v115_1)) slices_S100000x256_S100000x128_0_0 := by
  after_results_simp

theorem k_v154 : after (hostOps1 (F := F)) W (Proc.devRef .tc main_v154)
    = hop (extractStridedSlice S100000x128 ![0, 128] (W (Proc.devRef .tc main_v115_0)) slices_S100000x256_S100000x128_0_128)
        (W (Proc.devRef .tc main_v62)) (W (Proc.devRef .tc main_v89)) (W (Proc.devRef .tc main_v64))
        (extractStridedSlice S1x128 ![1, 0] (W (Proc.devRef .tc main_arg13)) slices_S2x128_S1x128_1_0) := by
  after_results_simp
  rfl

theorem k_v155 : after (hostOps1 (F := F)) W (Proc.devRef .tc main_v155)
    = extractStridedSlice S100000x128 ![0, 128] (W (Proc.devRef .tc main_v115_1)) slices_S100000x256_S100000x128_0_128 := by
  after_results_simp

theorem k_v158 : after (hostOps2 (F := F)) W (Proc.devRef .tc main_v158)
    = Host.divf (W (Proc.devRef .tc main_v156_1)) (broadcastInDim S1x128 ![] bcast_S_S1x128 (constant S_ .f32 0x47C35000#32)) := by
  after_results_simp

theorem k_v161 : after (hostOps3 (F := F)) W (Proc.devRef .tc main_v161)
    = Host.divf (W (Proc.devRef .tc main_v159)) (broadcastInDim S1x128 ![] bcast_S_S1x128 (constant S_ .f32 0x47C35000#32)) := by
  after_results_simp

theorem k_v162 : after (hostOps3 (F := F)) W (Proc.devRef .tc main_v162)
    = shapeCast S1x128 (W (Proc.devRef .tc main_arg17)) shapeCasts_S128_S1x128 := by
  after_results_simp
  rfl

theorem k_v163 : after (hostOps3 (F := F)) W (Proc.devRef .tc main_v163)
    = shapeCast S1x128 (W (Proc.devRef .tc main_arg18)) shapeCasts_S128_S1x128 := by
  after_results_simp
  rfl

end Cert.Bridge

end
-- ==== Proof.BridgeK.lean ====
/-
  The kernel program's result as one expression of the arrays its first region is entered with: the projection and the
  three-term sum of region 0, cut per hop and put through the graph convolution, rectified and added (region 1), its column
  sums divided by the row count (the mean), the column sums of the squared distances divided likewise (the variance), and
  the normalisation of region 3 with the scale and shift rows.
-/
import proofs.«159553_j62680752718518_1_alg».proof.Proof.KFold
import proofs.«159553_j62680752718518_1_alg».proof.Proof.KKept
import proofs.«159553_j62680752718518_1_alg».proof.Proof.Val0
import proofs.«159553_j62680752718518_1_alg».proof.Proof.Val1
import proofs.«159553_j62680752718518_1_alg».proof.Proof.Val2
import proofs.«159553_j62680752718518_1_alg».proof.Proof.Val3
import proofs.«159553_j62680752718518_1_alg».proof.Proof.BridgeKHost
import proofs.«159553_j62680752718518_1_alg».proof.Proof.ValSpec
import proofs.«159553_j62680752718518_1_alg».proof.Proof.ValSpec12

set_option maxRecDepth 16384
-- reading a buffer's contents as an array of its shape unfolds the buffer's type at its reference, once per occurrence
set_option maxHeartbeats 4000000

noncomputable section

namespace Cert.Bridge

open Cert.KernelIdeal Cert.KernelIdeal.Gen Cert.KernelIdeal.Frame Cert.KernelIdeal.Val
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The expression -/

/-- The features times the stacked graph-convolution weights. -/
def kXW := xwOf (W1 m ρ c (Proc.devRef .tc main_v60)) (W1 m ρ c (Proc.devRef .tc main_v109))
/-- The aggregated features times their stacked weights, plus the features times theirs, plus the stacked bias row. -/
def kSG := sageOf (W1 m ρ c (Proc.devRef .tc main_v107)) (W1 m ρ c (Proc.devRef .tc main_v60)) (W1 m ρ c (Proc.devRef .tc main_v113)) (W1 m ρ c (Proc.devRef .tc main_v111)) (W1 m ρ c (Proc.devRef .tc main_v114))
/-- The node values: per hop the graph convolution of the projection's lane slice plus the three-term sum's lane slice, rectified; the two hops added. -/
def kNU := nuOf (hop (F := Ideal) (extractStridedSlice S100000x128 ![0, 0] (kXW m ρ c) slices_S100000x256_S100000x128_0_0) (W1 m ρ c (Proc.devRef .tc main_v62)) (W1 m ρ c (Proc.devRef .tc main_v89)) (W1 m ρ c (Proc.devRef .tc main_v64)) (extractStridedSlice S1x128 ![0, 0] (W1 m ρ c (Proc.devRef .tc main_arg13)) slices_S2x128_S1x128_0_0)) (extractStridedSlice S100000x128 ![0, 0] (kSG m ρ c) slices_S100000x256_S100000x128_0_0)
    (hop (F := Ideal) (extractStridedSlice S100000x128 ![0, 128] (kXW m ρ c) slices_S100000x256_S100000x128_0_128) (W1 m ρ c (Proc.devRef .tc main_v62)) (W1 m ρ c (Proc.devRef .tc main_v89)) (W1 m ρ c (Proc.devRef .tc main_v64)) (extractStridedSlice S1x128 ![1, 0] (W1 m ρ c (Proc.devRef .tc main_arg13)) slices_S2x128_S1x128_1_0)) (extractStridedSlice S100000x128 ![0, 128] (kSG m ρ c) slices_S100000x256_S100000x128_0_128)
/-- The column means. -/
def kMEAN := Host.divf (F := Ideal) (φ := .f32) (colSumOf (kNU m ρ c)) (broadcastInDim S1x128 ![] bcast_S_S1x128 (constant S_ .f32 0x47C35000#32))
/-- The column variances. -/
def kVAR := Host.divf (F := Ideal) (φ := .f32) (ssqOf (kNU m ρ c) (kMEAN m ρ c)) (broadcastInDim S1x128 ![] bcast_S_S1x128 (constant S_ .f32 0x47C35000#32))

/-! ## Region 0's exit and the host stretch after it -/

theorem w2_v115_0 : W2 m ρ c (Proc.devRef .tc main_v115_0) = kXW m ρ c := (W2_arr m ρ c 6).trans (arr0_6 (V1 m ρ) c)
theorem w2_v115_1 : W2 m ρ c (Proc.devRef .tc main_v115_1) = kSG m ρ c := (W2_arr m ρ c 7).trans (arr0_7 (V1 m ρ) c)
theorem w2_v62 : W2 m ρ c (Proc.devRef .tc main_v62) = W1 m ρ c (Proc.devRef .tc main_v62) := W2_of_ne m ρ c main_v62 (arr_ne0 (by decide))
theorem w2_v64 : W2 m ρ c (Proc.devRef .tc main_v64) = W1 m ρ c (Proc.devRef .tc main_v64) := W2_of_ne m ρ c main_v64 (arr_ne0 (by decide))
theorem w2_v89 : W2 m ρ c (Proc.devRef .tc main_v89) = W1 m ρ c (Proc.devRef .tc main_v89) := W2_of_ne m ρ c main_v89 (arr_ne0 (by decide))
theorem w2_arg13 : W2 m ρ c (Proc.devRef .tc main_arg13) = W1 m ρ c (Proc.devRef .tc main_arg13) := W2_of_ne m ρ c main_arg13 (arr_ne0 (by decide))

theorem w3_v134 : W3 m ρ c (Proc.devRef .tc main_v134) = (hop (F := Ideal) (extractStridedSlice S100000x128 ![0, 0] (kXW m ρ c) slices_S100000x256_S100000x128_0_0) (W1 m ρ c (Proc.devRef .tc main_v62)) (W1 m ρ c (Proc.devRef .tc main_v89)) (W1 m ρ c (Proc.devRef .tc main_v64)) (extractStridedSlice S1x128 ![0, 0] (W1 m ρ c (Proc.devRef .tc main_arg13)) slices_S2x128_S1x128_0_0)) := by
  have h := k_v134 (F := Ideal) (W2 m ρ c)
  rw [w2_v115_0, w2_v62, w2_v89, w2_v64, w2_arg13] at h
  exact h
theorem w3_v135 : W3 m ρ c (Proc.devRef .tc main_v135) = (extractStridedSlice S100000x128 ![0, 0] (kSG m ρ c) slices_S100000x256_S100000x128_0_0) := by
  have h := k_v135 (F := Ideal) (W2 m ρ c)
  rw [w2_v115_1] at h
  exact h
theorem w3_v154 : W3 m ρ c (Proc.devRef .tc main_v154) = (hop (F := Ideal) (extractStridedSlice S100000x128 ![0, 128] (kXW m ρ c) slices_S100000x256_S100000x128_0_128) (W1 m ρ c (Proc.devRef .tc main_v62)) (W1 m ρ c (Proc.devRef .tc main_v89)) (W1 m ρ c (Proc.devRef .tc main_v64)) (extractStridedSlice S1x128 ![1, 0] (W1 m ρ c (Proc.devRef .tc main_arg13)) slices_S2x128_S1x128_1_0)) := by
  have h := k_v154 (F := Ideal) (W2 m ρ c)
  rw [w2_v115_0, w2_v62, w2_v89, w2_v64, w2_arg13] at h
  exact h
theorem w3_v155 : W3 m ρ c (Proc.devRef .tc main_v155) = (extractStridedSlice S100000x128 ![0, 128] (kSG m ρ c) slices_S100000x256_S100000x128_0_128) := by
  have h := k_v155 (F := Ideal) (W2 m ρ c)
  rw [w2_v115_1] at h
  exact h

/-! ## Regions 1 and 2 (their written arrays as functions of the arrays they read) -/

theorem w4_v156_0 : W4 m ρ c (Proc.devRef .tc main_v156_0) = kNU m ρ c := by
  have h := (W4_arr m ρ c 4).trans (arr1_4 (V3 m ρ) c)
  have e0 : V3 m ρ c (Pipeline.arrRef spec1 0) = _ := w3_v134 m ρ c
  have e1 : V3 m ρ c (Pipeline.arrRef spec1 1) = _ := w3_v135 m ρ c
  have e2 : V3 m ρ c (Pipeline.arrRef spec1 2) = _ := w3_v154 m ρ c
  have e3 : V3 m ρ c (Pipeline.arrRef spec1 3) = _ := w3_v155 m ρ c
  rw [e0, e1, e2, e3] at h
  exact h

theorem w4_v156_1 : W4 m ρ c (Proc.devRef .tc main_v156_1) = colSumOf (kNU m ρ c) := by
  have h := (W4_arr m ρ c 5).trans (arr1_5 (V3 m ρ) c)
  have e0 : V3 m ρ c (Pipeline.arrRef spec1 0) = _ := w3_v134 m ρ c
  have e1 : V3 m ρ c (Pipeline.arrRef spec1 1) = _ := w3_v135 m ρ c
  have e2 : V3 m ρ c (Pipeline.arrRef spec1 2) = _ := w3_v154 m ρ c
  have e3 : V3 m ρ c (Pipeline.arrRef spec1 3) = _ := w3_v155 m ρ c
  rw [e0, e1, e2, e3] at h
  exact h

theorem w5_v156_0 : W5 m ρ c (Proc.devRef .tc main_v156_0) = kNU m ρ c :=
  (StableHlo.after_of_writes_sub hostOps2 _ hostOps2_writes (by decide)).trans (w4_v156_0 m ρ c)

theorem w5_v158 : W5 m ρ c (Proc.devRef .tc main_v158) = kMEAN m ρ c := by
  have h := k_v158 (F := Ideal) (W4 m ρ c)
  rw [w4_v156_1 m ρ c] at h
  exact h

theorem w6_v156_0 : W6 m ρ c (Proc.devRef .tc main_v156_0) = kNU m ρ c :=
  ((W6_arr m ρ c 0).trans (((dat2 (V5 m ρ) c).arrAt_in 0 rfl _).trans (A_eq2 (V5 m ρ) c 0))).trans (w5_v156_0 m ρ c)

theorem w6_v158 : W6 m ρ c (Proc.devRef .tc main_v158) = kMEAN m ρ c :=
  ((W6_arr m ρ c 1).trans (((dat2 (V5 m ρ) c).arrAt_in 1 rfl _).trans (A_eq2 (V5 m ρ) c 1))).trans (w5_v158 m ρ c)

theorem w6_v159 : W6 m ρ c (Proc.devRef .tc main_v159) = ssqOf (kNU m ρ c) (kMEAN m ρ c) := by
  have h := (W6_arr m ρ c 2).trans (arr2_2 (V5 m ρ) c)
  have e0 : V5 m ρ c (Pipeline.arrRef spec2 0) = _ := w5_v156_0 m ρ c
  have e1 : V5 m ρ c (Pipeline.arrRef spec2 1) = _ := w5_v158 m ρ c
  rw [e0, e1] at h
  exact h

/-! ## The last host stretch and region 3 -/

theorem w7_v156_0 : W7 m ρ c (Proc.devRef .tc main_v156_0) = kNU m ρ c :=
  (StableHlo.after_of_writes_sub hostOps3 _ hostOps3_writes (by decide)).trans (w6_v156_0 m ρ c)

theorem w7_v158 : W7 m ρ c (Proc.devRef .tc main_v158) = kMEAN m ρ c :=
  (StableHlo.after_of_writes_sub hostOps3 _ hostOps3_writes (by decide)).trans (w6_v158 m ρ c)

theorem w7_v161 : W7 m ρ c (Proc.devRef .tc main_v161) = kVAR m ρ c := by
  have h := k_v161 (F := Ideal) (W6 m ρ c)
  rw [w6_v159 m ρ c] at h
  exact h

/-- A reference that is no array of regions 0, 1, 2 and no result of the two host stretches between them holds at
    region 2's exit what it held at region 0's entry. -/
theorem w6_kept {r : Ref sig .tc} (a0 : r ∉ arrs0) (h1 : r ∉ written1) (a1 : r ∉ arrs1) (h2 : r ∉ written2) (a2 : r ∉ arrs2) :
    W6 m ρ c (Proc.devRef .tc r) = W1 m ρ c (Proc.devRef .tc r) :=
  calc W6 m ρ c (Proc.devRef .tc r)
    _ = W5 m ρ c (Proc.devRef .tc r) := W6_of_ne m ρ c r (arr_ne2 a2)
    _ = W4 m ρ c (Proc.devRef .tc r) := StableHlo.after_of_writes_sub hostOps2 _ hostOps2_writes h2
    _ = W3 m ρ c (Proc.devRef .tc r) := W4_of_ne m ρ c r (arr_ne1 a1)
    _ = W2 m ρ c (Proc.devRef .tc r) := StableHlo.after_of_writes_sub hostOps1 _ hostOps1_writes h1
    _ = W1 m ρ c (Proc.devRef .tc r) := W2_of_ne m ρ c r (arr_ne0 a0)

theorem w7_v162 : W7 m ρ c (Proc.devRef .tc main_v162) = shapeCast S1x128 (W1 m ρ c (Proc.devRef .tc main_arg17)) shapeCasts_S128_S1x128 := by
  have h := k_v162 (F := Ideal) (W6 m ρ c)
  rw [w6_kept m ρ c (r := main_arg17) (by decide) (by decide) (by decide) (by decide) (by decide)] at h
  exact h

theorem w7_v163 : W7 m ρ c (Proc.devRef .tc main_v163) = shapeCast S1x128 (W1 m ρ c (Proc.devRef .tc main_arg18)) shapeCasts_S128_S1x128 := by
  have h := k_v163 (F := Ideal) (W6 m ρ c)
  rw [w6_kept m ρ c (r := main_arg18) (by decide) (by decide) (by decide) (by decide) (by decide)] at h
  exact h

/-- The kernel program's result array. -/
theorem kernel_value : W8 m ρ c (Proc.devRef .tc main_v164)
    = bnOf (kNU m ρ c) (kMEAN m ρ c) (kVAR m ρ c) (shapeCast S1x128 (W1 m ρ c (Proc.devRef .tc main_arg17)) shapeCasts_S128_S1x128)
        (shapeCast S1x128 (W1 m ρ c (Proc.devRef .tc main_arg18)) shapeCasts_S128_S1x128) := by
  have h := (W8_arr m ρ c 5).trans (arr3_5 (V7 m ρ) c)
  have e0 : V7 m ρ c (Pipeline.arrRef spec3 0) = _ := w7_v156_0 m ρ c
  have e1 : V7 m ρ c (Pipeline.arrRef spec3 1) = _ := w7_v158 m ρ c
  have e2 : V7 m ρ c (Pipeline.arrRef spec3 2) = _ := w7_v161 m ρ c
  have e3 : V7 m ρ c (Pipeline.arrRef spec3 3) = _ := w7_v162 m ρ c
  have e4 : V7 m ρ c (Pipeline.arrRef spec3 4) = _ := w7_v163 m ρ c
  rw [e0, e1, e2, e3, e4] at h
  exact h

end Cert.Bridge

end
-- ==== Proof.BridgeLayout.lean ====
/-
  Layout operations read at an entry: the middle axis of a rank-3 array merged into the last by a shape cast, the
  first two axes of a rank-3 array exchanged by a transpose, one leading slab cut out of a rank-3 array, a row cut out of
  a matrix and a row of a matrix stretched over the lane axis by a shape cast.
-/
import Idealize.ShloMosaic.Lib.Pipeline.Value
import Idealize.ShloMosaic.Lib.ValueIdx
import Idealize.ShloMosaic.Lib.ValueLayout

noncomputable section

namespace Cert.BridgeLayout

open Idealize.ShloMosaic Idealize.ShloMosaic.ValueIdx

variable {α : Type}

/-- An `[a, b, c]` array cast to `[a, n]` with `n = b · c` reads, at `(i, k)` with `k = h · c + j`, the operand at `(i, h, j)`. -/
theorem shapeCast_abc_an_apply {a b c n : ℕ} (x : (⟨3, ![a, b, c]⟩ : Shape).Idx → α)
    (hc : (⟨3, ![a, b, c]⟩ : Shape).ShapeCasts ⟨2, ![a, n]⟩) (hn : n = b * c)
    (i : Fin a) (h : Fin b) (j : Fin c) (k : Fin n) (hk : k.val = h.val * c + j.val) :
    shapeCast ⟨2, ![a, n]⟩ x hc (ix2 i k) = x (ix3 i h j) :=
  shapeCast_apply x hc _ _ (by
    rw [Shape.rowMajor_val_three, Shape.rowMajor_val_two]
    show (i.val * b + h.val) * c + j.val = i.val * n + k.val
    rw [hk, hn, Nat.add_mul, Nat.mul_assoc, Nat.add_assoc])

/-- A `[b, c]` matrix cast to `[1, n]` with `n = b · c` reads, at `(u, k)` with `k = h · c + j`, the operand at `(h, j)`. -/
theorem shapeCast_bc_1n_apply {b c n : ℕ} (x : (⟨2, ![b, c]⟩ : Shape).Idx → α)
    (hc : (⟨2, ![b, c]⟩ : Shape).ShapeCasts ⟨2, ![1, n]⟩)
    (u : Fin 1) (h : Fin b) (j : Fin c) (k : Fin n) (hk : k.val = h.val * c + j.val) :
    shapeCast ⟨2, ![1, n]⟩ x hc (ix2 u k) = x (ix2 h j) :=
  shapeCast_apply x hc _ _ (by
    have hu : u.val = 0 := by omega
    rw [Shape.rowMajor_val_two, Shape.rowMajor_val_two]
    show h.val * c + j.val = u.val * n + k.val
    rw [hu, hk, Nat.zero_mul, Nat.zero_add])

/-- A rank-3 array with its first two axes exchanged reads, at `(i, k, j)`, the operand at `(k, i, j)`. -/
theorem transpose_ix3_102_apply {m a b : ℕ} (x : (⟨3, ![m, a, b]⟩ : Shape).Idx → α)
    (h : (⟨3, ![m, a, b]⟩ : Shape).Transposes [1, 0, 2] ⟨3, ![a, m, b]⟩) (i : Fin a) (k : Fin m) (j : Fin b) :
    transpose ⟨3, ![a, m, b]⟩ [1, 0, 2] x h (ix3 i k j) = x (ix3 k i j) :=
  transpose_apply _ x h _ _ fun c => match c with | ⟨0, _⟩ => rfl | ⟨1, _⟩ => rfl | ⟨2, _⟩ => rfl

/-- A rank-3 array cut along its leading axis from `o` reads, at `(u, i, j)`, the source at `(k, i, j)` with `k = o + u`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (u : Fin m) (i : Fin n1) (j : Fin n2) (k : Fin n0) (hk : k.val = o + u.val) :
    extractStridedSlice ⟨3, ![m, n1, n2]⟩ ![o, 0, 0] X h (ix3 u i j) = X (ix3 k i j) :=
  extractStridedSlice_apply _ _ _ _ _ (fun ax => by
    match ax with
    | ⟨0, _⟩ => exact hk
    | ⟨1, _⟩ => exact (Nat.zero_add _).symm
    | ⟨2, _⟩ => exact (Nat.zero_add _).symm)

end Cert.BridgeLayout

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.BridgeHop.lean ====
/-
  The products with the hops' weights stacked along the lane axis, cut back per hop.
  The stacked weight is the rank-3 weight with its first two axes exchanged and the last two merged: its entry
  (e, h·128 + j) is the hop-h matrix's entry (e, j). So the lane slice [h·128, (h+1)·128) of the product with the stacked
  weight is the product with hop h's matrix, and the same slice of the three-term sum is the hop's own three-term sum,
  regrouped.
-/
import proofs.«159553_j62680752718518_1_alg».proof.Proof.Gen.ReferenceIdeal
import proofs.«159553_j62680752718518_1_alg».proof.Proof.BridgeLayout
import proofs.«159553_j62680752718518_1_alg».proof.Proof.LibHostProduct
import proofs.«159553_j62680752718518_1_alg».proof.Proof.LibHostLayout
import proofs.«159553_j62680752718518_1_alg».proof.Proof.ValSpec

noncomputable section

namespace Cert.Bridge

open Idealize.ShloMosaic Idealize.ShloMosaic.ValueIdx

/-- The stacked weight's entry `(e, o·128 + j)` is hop `o`'s matrix's entry `(e, j)`: both are the rank-3 weight at `(o, e, j)`. -/
theorem stack_entry {α : Type} {a : ℕ} (o : ℕ) (W3 : (⟨3, ![2, a, 128]⟩ : Shape).Idx → α)
    (ht : (⟨3, ![2, a, 128]⟩ : Shape).Transposes [1, 0, 2] ⟨3, ![a, 2, 128]⟩)
    (hc : (⟨3, ![a, 2, 128]⟩ : Shape).ShapeCasts ⟨2, ![a, 256]⟩)
    (hs : (⟨3, ![2, a, 128]⟩ : Shape).Slices ![o, 0, 0] ⟨3, ![1, a, 128]⟩)
    (hc' : (⟨3, ![1, a, 128]⟩ : Shape).ShapeCasts ⟨2, ![a, 128]⟩)
    (ho : o < 2) (e : Fin a) (j : Fin 128) (k : Fin 256) (hk : k.val = o * 128 + j.val) :
    shapeCast ⟨2, ![a, 256]⟩ (transpose ⟨3, ![a, 2, 128]⟩ [1, 0, 2] W3 ht) hc (ix2 e k)
      = shapeCast ⟨2, ![a, 128]⟩ (extractStridedSlice ⟨3, ![1, a, 128]⟩ ![o, 0, 0] W3 hs) hc' (ix2 e j) := by
  rw [BridgeLayout.shapeCast_abc_an_apply _ hc rfl e ⟨o, ho⟩ j k hk, BridgeLayout.transpose_ix3_102_apply,
    shapeCast_1ab_ab_apply, BridgeLayout.slice3_axis0_apply o W3 hs (0 : Fin 1) e j ⟨o, ho⟩ rfl]

/-- The stacked bias's entry `(0, o·128 + j)` is hop `o`'s bias at `j`. -/
theorem stack_bias_entry {α : Type} (o : ℕ) (B : (⟨2, ![2, 128]⟩ : Shape).Idx → α)
    (hc : (⟨2, ![2, 128]⟩ : Shape).ShapeCasts ⟨2, ![1, 256]⟩)
    (hs : (⟨2, ![2, 128]⟩ : Shape).Slices ![o, 0] ⟨2, ![1, 128]⟩)
    (hc' : (⟨2, ![1, 128]⟩ : Shape).ShapeCasts ⟨1, ![128]⟩)
    (ho : o < 2) (j : Fin 128) (k : Fin 256) (hk : k.val = o * 128 + j.val) :
    shapeCast ⟨2, ![1, 256]⟩ B hc (ix2 (0 : Fin 1) k)
      = shapeCast ⟨1, ![128]⟩ (extractStridedSlice ⟨2, ![1, 128]⟩ ![o, 0] B hs) hc' (ix1 j) := by
  rw [BridgeLayout.shapeCast_bc_1n_apply B hc (0 : Fin 1) ⟨o, ho⟩ j k hk, shapeCast_1a_a_apply,
    slice2_axis0_apply o B hs (0 : Fin 1) j ⟨o, ho⟩ rfl]

open Cert.ReferenceIdeal in
/-- The host's `[100000, 85]` by `[85, 128]` product at an entry is the plain sum. -/
theorem dot85_entry [Cert.ReferenceIdeal.Facts] (l : FVec Ideal S100000x85 .f32) (r : FVec Ideal S85x128 .f32) (p : Fin 100000) (c : Fin 128) :
    Host.dotGeneral (F := Ideal) dot_S100000x85_S85x128_S100000x128_1_0_0_1_n_n none l r (ix2 p c)
      = ∑ k : Fin 85, l (ix2 p k) * r (ix2 k c) :=
  Cert.HostProduct.dotGeneral_entry _ rfl rfl (fun _ _ => rfl) (fun _ _ => rfl) (fun _ _ => rfl) (fun _ _ => rfl) l r p c

open Cert.ReferenceIdeal in
/-- The host's `[100000, 64]` by `[64, 128]` product at an entry is the plain sum. -/
theorem dot64_entry [Cert.ReferenceIdeal.Facts] (l : FVec Ideal S100000x64 .f32) (r : FVec Ideal S64x128 .f32) (p : Fin 100000) (c : Fin 128) :
    Host.dotGeneral (F := Ideal) dot_S100000x64_S64x128_S100000x128_1_0_0_1_n_n none l r (ix2 p c)
      = ∑ k : Fin 64, l (ix2 p k) * r (ix2 k c) :=
  Cert.HostProduct.dotGeneral_entry _ rfl rfl (fun _ _ => rfl) (fun _ _ => rfl) (fun _ _ => rfl) (fun _ _ => rfl) l r p c

open Cert.ReferenceIdeal Cert.KernelIdeal.Val in
/-- The lane slice `[o·128, (o+1)·128)` of the features times the stacked weight is the features times hop `o`'s matrix. -/
theorem xw_slice [Cert.ReferenceIdeal.Facts] (o off : ℕ) (ho : o < 2) (hoff : off = o * 128)
    (X : (⟨2, ![100000, 85]⟩ : Shape).Idx → EReal) (W3 : (⟨3, ![2, 85, 128]⟩ : Shape).Idx → EReal)
    (ht : (⟨3, ![2, 85, 128]⟩ : Shape).Transposes [1, 0, 2] ⟨3, ![85, 2, 128]⟩)
    (hc : (⟨3, ![85, 2, 128]⟩ : Shape).ShapeCasts ⟨2, ![85, 256]⟩)
    (hsl : (⟨2, ![100000, 256]⟩ : Shape).Slices ![0, off] ⟨2, ![100000, 128]⟩)
    (hs : (⟨3, ![2, 85, 128]⟩ : Shape).Slices ![o, 0, 0] ⟨3, ![1, 85, 128]⟩)
    (hc' : (⟨3, ![1, 85, 128]⟩ : Shape).ShapeCasts ⟨2, ![85, 128]⟩) :
    extractStridedSlice ⟨2, ![100000, 128]⟩ ![0, off]
        (xwOf X (shapeCast ⟨2, ![85, 256]⟩ (transpose ⟨3, ![85, 2, 128]⟩ [1, 0, 2] W3 ht) hc)) hsl
      = Host.dotGeneral (F := Ideal) (φ₁ := .f32) (φ₂ := .f32) dot_S100000x85_S85x128_S100000x128_1_0_0_1_n_n none X
          (shapeCast ⟨2, ![85, 128]⟩ (extractStridedSlice ⟨3, ![1, 85, 128]⟩ ![o, 0, 0] W3 hs) hc') := by
  funext idx
  obtain ⟨i, j, rfl⟩ : ∃ i j, idx = ix2 i j := ⟨idx 0, idx 1, eq_ix2 idx⟩
  have hlt : off + j.val < 256 := by have := j.isLt; omega
  rw [slice2_axis1_apply off _ hsl i j ⟨off + j.val, hlt⟩ rfl, dot85_entry]
  unfold xwOf
  refine Finset.sum_congr rfl fun e _ => ?_
  exact congrArg (X (ix2 i e) * ·) (stack_entry o W3 ht hc hs hc' ho e j ⟨off + j.val, hlt⟩ (congrArg (· + j.val) hoff))

open Cert.ReferenceIdeal Cert.KernelIdeal.Val in
/-- The lane slice `[o·128, (o+1)·128)` of the three-term sum with the stacked weights and the stacked bias is hop `o`'s
    own three-term sum with the bias added second: `(a + c) + b = (a + b) + c`. -/
theorem sage_slice [Cert.ReferenceIdeal.Facts] (o off : ℕ) (ho : o < 2) (hoff : off = o * 128)
    (A : (⟨2, ![100000, 64]⟩ : Shape).Idx → EReal) (X : (⟨2, ![100000, 85]⟩ : Shape).Idx → EReal)
    (W14 : (⟨3, ![2, 64, 128]⟩ : Shape).Idx → EReal) (W16 : (⟨3, ![2, 85, 128]⟩ : Shape).Idx → EReal)
    (B15 : (⟨2, ![2, 128]⟩ : Shape).Idx → EReal)
    (ht14 : (⟨3, ![2, 64, 128]⟩ : Shape).Transposes [1, 0, 2] ⟨3, ![64, 2, 128]⟩)
    (hc14 : (⟨3, ![64, 2, 128]⟩ : Shape).ShapeCasts ⟨2, ![64, 256]⟩)
    (ht16 : (⟨3, ![2, 85, 128]⟩ : Shape).Transposes [1, 0, 2] ⟨3, ![85, 2, 128]⟩)
    (hc16 : (⟨3, ![85, 2, 128]⟩ : Shape).ShapeCasts ⟨2, ![85, 256]⟩)
    (hcb : (⟨2, ![2, 128]⟩ : Shape).ShapeCasts ⟨2, ![1, 256]⟩)
    (hsl : (⟨2, ![100000, 256]⟩ : Shape).Slices ![0, off] ⟨2, ![100000, 128]⟩)
    (hs14 : (⟨3, ![2, 64, 128]⟩ : Shape).Slices ![o, 0, 0] ⟨3, ![1, 64, 128]⟩)
    (hc14' : (⟨3, ![1, 64, 128]⟩ : Shape).ShapeCasts ⟨2, ![64, 128]⟩)
    (hs16 : (⟨3, ![2, 85, 128]⟩ : Shape).Slices ![o, 0, 0] ⟨3, ![1, 85, 128]⟩)
    (hc16' : (⟨3, ![1, 85, 128]⟩ : Shape).ShapeCasts ⟨2, ![85, 128]⟩)
    (hsb : (⟨2, ![2, 128]⟩ : Shape).Slices ![o, 0] ⟨2, ![1, 128]⟩)
    (hcb' : (⟨2, ![1, 128]⟩ : Shape).ShapeCasts ⟨1, ![128]⟩)
    (hb1 : (⟨1, ![128]⟩ : Shape).BroadcastsInDim ⟨2, ![1, 128]⟩ ![1])
    (hb2 : (⟨2, ![1, 128]⟩ : Shape).BroadcastsInDim ⟨2, ![100000, 128]⟩ ![0, 1]) :
    extractStridedSlice ⟨2, ![100000, 128]⟩ ![0, off]
        (sageOf A X (shapeCast ⟨2, ![64, 256]⟩ (transpose ⟨3, ![64, 2, 128]⟩ [1, 0, 2] W14 ht14) hc14)
          (shapeCast ⟨2, ![85, 256]⟩ (transpose ⟨3, ![85, 2, 128]⟩ [1, 0, 2] W16 ht16) hc16)
          (shapeCast ⟨2, ![1, 256]⟩ B15 hcb)) hsl
      = addf (F := Ideal) (s := ⟨2, ![100000, 128]⟩) (φ := .f32)
          (addf (F := Ideal) (s := ⟨2, ![100000, 128]⟩) (φ := .f32)
            (Host.dotGeneral (F := Ideal) (φ₁ := .f32) (φ₂ := .f32) dot_S100000x64_S64x128_S100000x128_1_0_0_1_n_n none A
              (shapeCast ⟨2, ![64, 128]⟩ (extractStridedSlice ⟨3, ![1, 64, 128]⟩ ![o, 0, 0] W14 hs14) hc14'))
            (broadcastInDim (s := ⟨2, ![1, 128]⟩) (α := EReal) ⟨2, ![100000, 128]⟩ ![0, 1] hb2
              (broadcastInDim (s := ⟨1, ![128]⟩) (α := EReal) ⟨2, ![1, 128]⟩ ![1] hb1
                (shapeCast ⟨1, ![128]⟩ (extractStridedSlice ⟨2, ![1, 128]⟩ ![o, 0] B15 hsb) hcb'))))
          (Host.dotGeneral (F := Ideal) (φ₁ := .f32) (φ₂ := .f32) dot_S100000x85_S85x128_S100000x128_1_0_0_1_n_n none X
            (shapeCast ⟨2, ![85, 128]⟩ (extractStridedSlice ⟨3, ![1, 85, 128]⟩ ![o, 0, 0] W16 hs16) hc16')) := by
  funext idx
  obtain ⟨i, j, rfl⟩ : ∃ i j, idx = ix2 i j := ⟨idx 0, idx 1, eq_ix2 idx⟩
  have hlt : off + j.val < 256 := by have := j.isLt; omega
  have hk : (⟨off + j.val, hlt⟩ : Fin 256).val = o * 128 + j.val := congrArg (· + j.val) hoff
  rw [slice2_axis1_apply off _ hsl i j ⟨off + j.val, hlt⟩ rfl, addf_apply, addf_apply, dot64_entry, dot85_entry,
    Cert.HostLayout.broadcastInDim_1b_ab_apply, Cert.HostLayout.broadcastInDim_b_1b_apply,
    ← stack_bias_entry o B15 hcb hsb hcb' ho j ⟨off + j.val, hlt⟩ hk, add_right_comm]
  unfold sageOf
  refine congrArg₂ (· + ·) (congrArg₂ (· + ·) ?_ ?_) rfl
  · refine Finset.sum_congr rfl fun e _ => ?_
    exact congrArg (A (ix2 i e) * ·) (stack_entry o W14 ht14 hc14 hs14 hc14' ho e j ⟨off + j.val, hlt⟩ hk)
  · refine Finset.sum_congr rfl fun e _ => ?_
    exact congrArg (X (ix2 i e) * ·) (stack_entry o W16 ht16 hc16 hs16 hc16' ho e j ⟨off + j.val, hlt⟩ hk)

end Cert.Bridge

end
-- ==== Proof.BridgeStats.lean ====
/-
  The column statistics. The host's sum over the rows of a [100000, 128] array, from zero, read at a column is the plain
  sum over the rows; so a row of column sums divided by the row count's word is, column by column, the host's column sum
  divided by the same word.
-/
import Idealize.ShloMosaic.Lib.IdealHost
import Idealize.ShloMosaic.Lib.ValueLayout

noncomputable section

namespace Cert.Bridge

open Idealize.ShloMosaic Idealize.ShloMosaic.ValueIdx

/-- The host's sum over the rows, from the zero word, at column `j` is the sum of the column's entries. -/
theorem colsum_entry (Y : (⟨2, ![100000, 128]⟩ : Shape).Idx → EReal)
    (hred : (⟨2, ![100000, 128]⟩ : Shape).ReducesTo [(0 : Fin 2)] ⟨1, ![128]⟩) (hu : 0 < (⟨0, ![]⟩ : Shape).numel) (j : Fin 128) :
    Host.reduceAdd (F := Ideal) (φ := .f32) (s := ⟨2, ![100000, 128]⟩) Y (constant ⟨0, ![]⟩ .f32 0x00000000#32) hred hu (ix1 j)
      = ∑ i : Fin 100000, Y (ix2 i j) := by
  have hR : (⟨2, ![100000, 128]⟩ : Shape).Reduces [(0 : Fin 2)] ⟨1, ![128]⟩ := by decide
  rw [hostReduceAdd_apply, Ideal.hostReduceAdd_single hred hR, constant_apply, Ideal.ofBits_zero_f32, zero_add]
  refine Finset.sum_congr rfl fun k _ => congrArg Y ?_
  funext c
  apply Fin.ext
  match c with
  | ⟨0, _⟩ => rfl
  | ⟨1, _⟩ => rfl

/-- A row of column sums over the row count's word is, at column `j`, the host's column sum over the same word. -/
theorem mean_entry (Y : (⟨2, ![100000, 128]⟩ : Shape).Idx → EReal) (SUM : (⟨2, ![1, 128]⟩ : Shape).Idx → EReal)
    (hSUM : ∀ j : Fin 128, SUM (ix2 (0 : Fin 1) j) = ∑ i : Fin 100000, Y (ix2 i j))
    (hred : (⟨2, ![100000, 128]⟩ : Shape).ReducesTo [(0 : Fin 2)] ⟨1, ![128]⟩) (hu : 0 < (⟨0, ![]⟩ : Shape).numel)
    (hb : (⟨0, ![]⟩ : Shape).BroadcastsInDim ⟨2, ![1, 128]⟩ ![]) (hb' : (⟨0, ![]⟩ : Shape).BroadcastsInDim ⟨1, ![128]⟩ ![])
    (w : BitVec 32) (j : Fin 128) :
    Host.divf (F := Ideal) (φ := .f32) SUM (broadcastInDim ⟨2, ![1, 128]⟩ ![] hb (constant ⟨0, ![]⟩ .f32 w)) (ix2 (0 : Fin 1) j)
      = Host.divf (F := Ideal) (φ := .f32)
          (Host.reduceAdd (F := Ideal) (φ := .f32) (s := ⟨2, ![100000, 128]⟩) Y (constant ⟨0, ![]⟩ .f32 0x00000000#32) hred hu)
          (broadcastInDim ⟨1, ![128]⟩ ![] hb' (constant ⟨0, ![]⟩ .f32 w)) (ix1 j) := by
  rw [hostDivf_apply, hostDivf_apply, broadcastInDim_scalar_apply, broadcastInDim_scalar_apply, colsum_entry, hSUM]

end Cert.Bridge

end
-- ==== Proof.BridgeMath.lean ====
/-
  The node features, the column statistics and the result, compared entry by entry.
  The two leaky-relu terms added up are the reference's zero matrix plus the first term plus the second; a row of column
  sums over the row count's word is the host's column sum over the same word; and the last formula read at an entry is the
  same expression on both sides, the [1, 128] rows of the one being the [128] vectors of the other.
-/
import proofs.«159553_j62680752718518_1_alg».proof.Proof.BridgeRef
import proofs.«159553_j62680752718518_1_alg».proof.Proof.BridgeStats
import proofs.«159553_j62680752718518_1_alg».proof.Proof.ValSpec
import proofs.«159553_j62680752718518_1_alg».proof.Proof.ValSpec12
import proofs.«159553_j62680752718518_1_alg».proof.Proof.LibHostLayout

noncomputable section

namespace Cert.Bridge

open Cert.ReferenceIdeal Cert.ReferenceIdeal.Gen
open Idealize.ShloMosaic Idealize.ShloMosaic.ValueIdx Cert.KernelIdeal.Val

/-- A vector laid along every row reads, at `(i, j)`, its entry `j`. -/
theorem rows_apply (v : (⟨1, ![128]⟩ : Shape).Idx → EReal) (i : Fin 100000) (j : Fin 128) :
    rows (F := Ideal) v (ix2 i j) = v (ix1 j) := by
  unfold rows
  rw [Cert.HostLayout.broadcastInDim_1b_ab_apply, Cert.HostLayout.broadcastInDim_b_1b_apply]

/-- The leaky relu at an entry. -/
theorem leaky_apply (x : (⟨2, ![100000, 128]⟩ : Shape).Idx → EReal) (idx : (⟨2, ![100000, 128]⟩ : Shape).Idx) :
    leaky (F := Ideal) x idx = lk (x idx) := by
  unfold leaky lk
  rw [select_apply, cmpf_apply, mulf_apply, broadcastInDim_scalar_apply, broadcastInDim_scalar_apply, constant_apply, constant_apply]
  rfl

/-- The two leaky-relu terms added are the zero matrix plus the first plus the second. -/
theorem nu_eq (g0 s0 g1 s1 : (⟨2, ![100000, 128]⟩ : Shape).Idx → EReal) :
    nuOf g0 s0 g1 s1
      = addf (F := Ideal) (φ := .f32) (addf (F := Ideal) (φ := .f32)
          (broadcastInDim S100000x128 ![] bcast_S_S100000x128 (constant (F := Ideal) S_ .f32 0x00000000#32))
          (leaky (F := Ideal) (addf (F := Ideal) (φ := .f32) g0 s0))) (leaky (F := Ideal) (addf (F := Ideal) (φ := .f32) g1 s1)) := by
  funext idx
  rw [addf_apply, addf_apply, leaky_apply, leaky_apply, addf_apply, addf_apply, broadcastInDim_scalar_apply, constant_apply,
    Ideal.ofBits_zero_f32, zero_add]
  rfl

/-- The means: the row of column sums over the count's word is the host's column sum over the same word. -/
theorem mean_eq (NU : (⟨2, ![100000, 128]⟩ : Shape).Idx → EReal)
    (hb : (⟨0, ![]⟩ : Shape).BroadcastsInDim ⟨2, ![1, 128]⟩ ![]) (w : BitVec 32) (j : Fin 128) :
    Host.divf (F := Ideal) (φ := .f32) (colSumOf NU) (broadcastInDim ⟨2, ![1, 128]⟩ ![] hb (constant ⟨0, ![]⟩ .f32 w)) (ix2 (0 : Fin 1) j)
      = Host.divf (F := Ideal) (φ := .f32)
          (Host.reduceAdd (F := Ideal) (φ := .f32) (s := S100000x128) NU (constant S_ .f32 0x00000000#32) reducesTo_S100000x128_S128_d0 h_S_)
          (broadcastInDim S128 ![] bcast_S_S128 (constant S_ .f32 w)) (ix1 j) :=
  mean_entry NU (colSumOf NU) (fun j => rfl) reducesTo_S100000x128_S128_d0 h_S_ hb bcast_S_S128 w j

/-- The variances: the row of column sums of squared distances to the mean over the count's word is the host's. -/
theorem var_eq (NU : (⟨2, ![100000, 128]⟩ : Shape).Idx → EReal) (MEAN : (⟨2, ![1, 128]⟩ : Shape).Idx → EReal)
    (mean : (⟨1, ![128]⟩ : Shape).Idx → EReal) (hMEAN : ∀ j : Fin 128, MEAN (ix2 (0 : Fin 1) j) = mean (ix1 j))
    (hb : (⟨0, ![]⟩ : Shape).BroadcastsInDim ⟨2, ![1, 128]⟩ ![]) (w : BitVec 32) (j : Fin 128) :
    Host.divf (F := Ideal) (φ := .f32) (ssqOf NU MEAN) (broadcastInDim ⟨2, ![1, 128]⟩ ![] hb (constant ⟨0, ![]⟩ .f32 w)) (ix2 (0 : Fin 1) j)
      = Host.divf (F := Ideal) (φ := .f32)
          (Host.reduceAdd (F := Ideal) (φ := .f32) (s := S100000x128)
            (mulf (F := Ideal) (φ := .f32) (subf (F := Ideal) (φ := .f32) NU (rows (F := Ideal) mean)) (subf (F := Ideal) (φ := .f32) NU (rows (F := Ideal) mean)))
            (constant S_ .f32 0x00000000#32) reducesTo_S100000x128_S128_d0 h_S_)
          (broadcastInDim S128 ![] bcast_S_S128 (constant S_ .f32 w)) (ix1 j) :=
  mean_entry _ (ssqOf NU MEAN) (fun j => by
    show (∑ r : Fin 100000, (NU (ix2 r j) - MEAN (ix2 (0 : Fin 1) j)) * (NU (ix2 r j) - MEAN (ix2 (0 : Fin 1) j))) = _
    refine Finset.sum_congr rfl fun r _ => ?_
    rw [mulf_apply, subf_apply, rows_apply, hMEAN]) reducesTo_S100000x128_S128_d0 h_S_ hb bcast_S_S128 w j

/-- The result: the normalisation read at an entry is the reference's last formula. -/
theorem out_eq (NU : (⟨2, ![100000, 128]⟩ : Shape).Idx → EReal) (MEAN VAR GAM BET : (⟨2, ![1, 128]⟩ : Shape).Idx → EReal)
    (mean var a17 a18 : (⟨1, ![128]⟩ : Shape).Idx → EReal)
    (hMEAN : ∀ j : Fin 128, MEAN (ix2 (0 : Fin 1) j) = mean (ix1 j)) (hVAR : ∀ j : Fin 128, VAR (ix2 (0 : Fin 1) j) = var (ix1 j))
    (hGAM : ∀ j : Fin 128, GAM (ix2 (0 : Fin 1) j) = a17 (ix1 j)) (hBET : ∀ j : Fin 128, BET (ix2 (0 : Fin 1) j) = a18 (ix1 j)) :
    bnOf NU MEAN VAR GAM BET
      = addf (F := Ideal) (φ := .f32)
          (mulf (F := Ideal) (φ := .f32)
            (mulf (F := Ideal) (φ := .f32) (subf (F := Ideal) (φ := .f32) NU (rows (F := Ideal) mean))
              (rows (F := Ideal) (Host.rsqrt (F := Ideal) (φ := .f32)
                (addf (F := Ideal) (φ := .f32) var (broadcastInDim S128 ![] bcast_S_S128 (constant S_ .f32 0x3727C5AC#32))))))
            (rows (F := Ideal) a17))
          (rows (F := Ideal) a18) := by
  funext idx
  obtain ⟨i, j, rfl⟩ : ∃ (i : Fin 100000) (j : Fin 128), idx = ix2 i j := ⟨idx 0, idx 1, eq_ix2 idx⟩
  rw [addf_apply, mulf_apply, mulf_apply, subf_apply, rows_apply, rows_apply, rows_apply, rows_apply]
  show ((NU (ix2 i j) - MEAN (ix2 (0 : Fin 1) j)) * Ideal.rsqrt (VAR (ix2 (0 : Fin 1) j) + Ideal.ofBits .f32 0x3727C5AC#32))
      * GAM (ix2 (0 : Fin 1) j) + BET (ix2 (0 : Fin 1) j) = _
  rw [hMEAN, hVAR, hGAM, hBET]
  show _ = ((NU (ix2 i j) - mean (ix1 j)) * Ideal.rsqrt ((addf (F := Ideal) (φ := .f32) var _) (ix1 j))) * a17 (ix1 j) + a18 (ix1 j)
  rw [addf_apply, broadcastInDim_scalar_apply, constant_apply]

end Cert.Bridge

end
-- ==== Proof.BridgeRefVal.lean ====
/-
  The reference's result as one function of the arrays its tail starts from: the eleven stages' readings composed. A buffer
  a stage never writes passes through it unchanged, so each stage's inputs are read back to the stage that wrote them, or
  to the tail's start.
-/
import proofs.«159553_j62680752718518_1_alg».proof.Proof.BridgeRef

noncomputable section

namespace Cert.Bridge

open Cert.ReferenceIdeal Cert.ReferenceIdeal.Gen Cert.ReferenceIdeal.Line
open Idealize.ShloMosaic Idealize.ShloMosaic.TcCoe Idealize.SL.Sem Idealize.ShloMosaic.StableHlo

variable {F : FTy → Type} [FloatOps F]

/-- Hop 0's projection. -/
def xwR0 (X : (⟨S100000x85, .f32⟩ : BufTy).Contents (Elt F)) (a12 : (⟨S2x85x128, .f32⟩ : BufTy).Contents (Elt F)) : (⟨S100000x128, .f32⟩ : BufTy).Contents (Elt F) :=
  Host.dotGeneral dot_S100000x85_S85x128_S100000x128_1_0_0_1_n_n none X
    (shapeCast S85x128 (extractStridedSlice S1x85x128 ![0, 0, 0] a12 slices_S2x85x128_S1x85x128_0_0_0) shapeCasts_S1x85x128_S85x128)
/-- Hop 1's projection. -/
def xwR1 (X : (⟨S100000x85, .f32⟩ : BufTy).Contents (Elt F)) (a12 : (⟨S2x85x128, .f32⟩ : BufTy).Contents (Elt F)) : (⟨S100000x128, .f32⟩ : BufTy).Contents (Elt F) :=
  Host.dotGeneral dot_S100000x85_S85x128_S100000x128_1_0_0_1_n_n none X
    (shapeCast S85x128 (extractStridedSlice S1x85x128 ![1, 0, 0] a12 slices_S2x85x128_S1x85x128_1_0_0) shapeCasts_S1x85x128_S85x128)
/-- Hop 0's three-term sum. -/
def sageR0 (A : (⟨S100000x64, .f32⟩ : BufTy).Contents (Elt F)) (X : (⟨S100000x85, .f32⟩ : BufTy).Contents (Elt F)) (a14 : (⟨S2x64x128, .f32⟩ : BufTy).Contents (Elt F)) (a15 : (⟨S2x128, .f32⟩ : BufTy).Contents (Elt F))
    (a16 : (⟨S2x85x128, .f32⟩ : BufTy).Contents (Elt F)) : (⟨S100000x128, .f32⟩ : BufTy).Contents (Elt F) :=
  addf (addf
      (Host.dotGeneral dot_S100000x64_S64x128_S100000x128_1_0_0_1_n_n none A
        (shapeCast S64x128 (extractStridedSlice S1x64x128 ![0, 0, 0] a14 slices_S2x64x128_S1x64x128_0_0_0) shapeCasts_S1x64x128_S64x128))
      (rows (shapeCast S128 (extractStridedSlice S1x128 ![0, 0] a15 slices_S2x128_S1x128_0_0) shapeCasts_S1x128_S128)))
    (Host.dotGeneral dot_S100000x85_S85x128_S100000x128_1_0_0_1_n_n none X
      (shapeCast S85x128 (extractStridedSlice S1x85x128 ![0, 0, 0] a16 slices_S2x85x128_S1x85x128_0_0_0) shapeCasts_S1x85x128_S85x128))
/-- Hop 1's three-term sum. -/
def sageR1 (A : (⟨S100000x64, .f32⟩ : BufTy).Contents (Elt F)) (X : (⟨S100000x85, .f32⟩ : BufTy).Contents (Elt F)) (a14 : (⟨S2x64x128, .f32⟩ : BufTy).Contents (Elt F)) (a15 : (⟨S2x128, .f32⟩ : BufTy).Contents (Elt F))
    (a16 : (⟨S2x85x128, .f32⟩ : BufTy).Contents (Elt F)) : (⟨S100000x128, .f32⟩ : BufTy).Contents (Elt F) :=
  addf (addf
      (Host.dotGeneral dot_S100000x64_S64x128_S100000x128_1_0_0_1_n_n none A
        (shapeCast S64x128 (extractStridedSlice S1x64x128 ![1, 0, 0] a14 slices_S2x64x128_S1x64x128_1_0_0) shapeCasts_S1x64x128_S64x128))
      (rows (shapeCast S128 (extractStridedSlice S1x128 ![1, 0] a15 slices_S2x128_S1x128_1_0) shapeCasts_S1x128_S128)))
    (Host.dotGeneral dot_S100000x85_S85x128_S100000x128_1_0_0_1_n_n none X
      (shapeCast S85x128 (extractStridedSlice S1x85x128 ![1, 0, 0] a16 slices_S2x85x128_S1x85x128_1_0_0) shapeCasts_S1x85x128_S85x128))

/-- The node features: the zero matrix plus hop 0's leaky-relu term plus hop 1's. -/
def nuR (g0 s0 g1 s1 : (⟨S100000x128, .f32⟩ : BufTy).Contents (Elt F)) : (⟨S100000x128, .f32⟩ : BufTy).Contents (Elt F) :=
  addf (addf (broadcastInDim S100000x128 ![] bcast_S_S100000x128 (constant S_ .f32 0x00000000#32)) (leaky (addf g0 s0))) (leaky (addf g1 s1))

/-- The column means. -/
def meanR (nu : (⟨S100000x128, .f32⟩ : BufTy).Contents (Elt F)) : (⟨S128, .f32⟩ : BufTy).Contents (Elt F) :=
  Host.divf (Host.reduceAdd nu (constant S_ .f32 0x00000000#32) reducesTo_S100000x128_S128_d0 h_S_)
    (broadcastInDim S128 ![] bcast_S_S128 (constant S_ .f32 0x47C35000#32))

/-- The column variances. -/
def varR (nu : (⟨S100000x128, .f32⟩ : BufTy).Contents (Elt F)) (mean : (⟨S128, .f32⟩ : BufTy).Contents (Elt F)) : (⟨S128, .f32⟩ : BufTy).Contents (Elt F) :=
  Host.divf
    (Host.reduceAdd (mulf (subf nu (rows mean)) (subf nu (rows mean))) (constant S_ .f32 0x00000000#32) reducesTo_S100000x128_S128_d0 h_S_)
    (broadcastInDim S128 ![] bcast_S_S128 (constant S_ .f32 0x47C35000#32))

/-- The result. -/
def outR (nu : (⟨S100000x128, .f32⟩ : BufTy).Contents (Elt F)) (mean var a17 a18 : (⟨S128, .f32⟩ : BufTy).Contents (Elt F)) : (⟨S100000x128, .f32⟩ : BufTy).Contents (Elt F) :=
  addf
    (mulf
      (mulf (subf nu (rows mean))
        (rows (Host.rsqrt (addf var (broadcastInDim S128 ![] bcast_S_S128 (constant S_ .f32 0x3727C5AC#32))))))
      (rows a17))
    (rows a18)

variable (V : Valuation τ sig (Elt F))

/-- The contents after the first `k` stages. -/
abbrev T1 : Valuation τ sig (Elt F) := after (stage1 (F := F)) V
abbrev T2 : Valuation τ sig (Elt F) := after (stage2 (F := F)) (T1 V)
abbrev T3 : Valuation τ sig (Elt F) := after (stage3 (F := F)) (T2 V)
abbrev T4 : Valuation τ sig (Elt F) := after (stage4 (F := F)) (T3 V)
abbrev T5 : Valuation τ sig (Elt F) := after (stage5 (F := F)) (T4 V)
abbrev T6 : Valuation τ sig (Elt F) := after (stage6 (F := F)) (T5 V)
abbrev T7 : Valuation τ sig (Elt F) := after (stage7 (F := F)) (T6 V)
abbrev T8 : Valuation τ sig (Elt F) := after (stage8 (F := F)) (T7 V)
abbrev T9 : Valuation τ sig (Elt F) := after (stage9 (F := F)) (T8 V)
abbrev T10 : Valuation τ sig (Elt F) := after (stage10 (F := F)) (T9 V)

section Kept
variable {r : Ref sig .tc}
theorem T1_kept (h1 : r ∉ written_stage1) : T1 V (Proc.devRef .tc r) = V (Proc.devRef .tc r) := kept_stage1 V h1
theorem T2_kept (h1 : r ∉ written_stage1) (h2 : r ∉ written_stage2) : T2 V (Proc.devRef .tc r) = V (Proc.devRef .tc r) :=
  (kept_stage2 _ h2).trans (T1_kept V h1)
theorem T3_kept (h1 : r ∉ written_stage1) (h2 : r ∉ written_stage2) (h3 : r ∉ written_stage3) :
    T3 V (Proc.devRef .tc r) = V (Proc.devRef .tc r) := (kept_stage3 _ h3).trans (T2_kept V h1 h2)
theorem T4_kept (h1 : r ∉ written_stage1) (h2 : r ∉ written_stage2) (h3 : r ∉ written_stage3) (h4 : r ∉ written_stage4) :
    T4 V (Proc.devRef .tc r) = V (Proc.devRef .tc r) := (kept_stage4 _ h4).trans (T3_kept V h1 h2 h3)
theorem T5_kept (h1 : r ∉ written_stage1) (h2 : r ∉ written_stage2) (h3 : r ∉ written_stage3) (h4 : r ∉ written_stage4)
    (h5 : r ∉ written_stage5) : T5 V (Proc.devRef .tc r) = V (Proc.devRef .tc r) := (kept_stage5 _ h5).trans (T4_kept V h1 h2 h3 h4)
theorem T6_kept (h1 : r ∉ written_stage1) (h2 : r ∉ written_stage2) (h3 : r ∉ written_stage3) (h4 : r ∉ written_stage4)
    (h5 : r ∉ written_stage5) (h6 : r ∉ written_stage6) : T6 V (Proc.devRef .tc r) = V (Proc.devRef .tc r) :=
  (kept_stage6 _ h6).trans (T5_kept V h1 h2 h3 h4 h5)
theorem T10_kept (h1 : r ∉ written_stage1) (h2 : r ∉ written_stage2) (h3 : r ∉ written_stage3) (h4 : r ∉ written_stage4)
    (h5 : r ∉ written_stage5) (h6 : r ∉ written_stage6) (h7 : r ∉ written_stage7) (h8 : r ∉ written_stage8)
    (h9 : r ∉ written_stage9) (h10 : r ∉ written_stage10) : T10 V (Proc.devRef .tc r) = V (Proc.devRef .tc r) :=
  (kept_stage10 _ h10).trans ((kept_stage9 _ h9).trans ((kept_stage8 _ h8).trans ((kept_stage7 _ h7).trans (T6_kept V h1 h2 h3 h4 h5 h6))))
end Kept

theorem T1_v111 : T1 V (Proc.devRef .tc main_v111) = xwR0 (V (Proc.devRef .tc main_v60)) (V (Proc.devRef .tc main_arg12)) := stage1_v111 V

theorem T2_v129 : T2 V (Proc.devRef .tc main_v129)
    = hop (xwR0 (V (Proc.devRef .tc main_v60)) (V (Proc.devRef .tc main_arg12))) (V (Proc.devRef .tc main_v62)) (V (Proc.devRef .tc main_v89)) (V (Proc.devRef .tc main_v64))
        (extractStridedSlice S1x128 ![0, 0] (V (Proc.devRef .tc main_arg13)) slices_S2x128_S1x128_0_0) := by
  refine (stage2_v129 (T1 V)).trans ?_
  rw [T1_v111, T1_kept V (r := main_v62) (by decide), T1_kept V (r := main_v89) (by decide), T1_kept V (r := main_v64) (by decide),
    T1_kept V (r := main_arg13) (by decide)]

theorem T3_v141 : T3 V (Proc.devRef .tc main_v141)
    = sageR0 (V (Proc.devRef .tc main_v107)) (V (Proc.devRef .tc main_v60)) (V (Proc.devRef .tc main_arg14)) (V (Proc.devRef .tc main_arg15)) (V (Proc.devRef .tc main_arg16)) := by
  refine (stage3_v141 (T2 V)).trans ?_
  rw [T2_kept V (r := main_v107) (by decide) (by decide), T2_kept V (r := main_v60) (by decide) (by decide),
    T2_kept V (r := main_arg14) (by decide) (by decide), T2_kept V (r := main_arg15) (by decide) (by decide),
    T2_kept V (r := main_arg16) (by decide) (by decide)]
  rfl

theorem T4_v144 : T4 V (Proc.devRef .tc main_v144)
    = addf (broadcastInDim S100000x128 ![] bcast_S_S100000x128 (constant S_ .f32 0x00000000#32))
        (leaky (addf
          (hop (xwR0 (V (Proc.devRef .tc main_v60)) (V (Proc.devRef .tc main_arg12))) (V (Proc.devRef .tc main_v62)) (V (Proc.devRef .tc main_v89)) (V (Proc.devRef .tc main_v64))
            (extractStridedSlice S1x128 ![0, 0] (V (Proc.devRef .tc main_arg13)) slices_S2x128_S1x128_0_0))
          (sageR0 (V (Proc.devRef .tc main_v107)) (V (Proc.devRef .tc main_v60)) (V (Proc.devRef .tc main_arg14)) (V (Proc.devRef .tc main_arg15)) (V (Proc.devRef .tc main_arg16))))) := by
  refine (stage4_v144 (T3 V)).trans ?_
  rw [T3_v141, (show T3 V (Proc.devRef .tc main_v129) = T2 V (Proc.devRef .tc main_v129) from kept_stage3 (T2 V) (by decide)), T2_v129,
    (show T3 V (Proc.devRef .tc main_v108) = T2 V (Proc.devRef .tc main_v108) from kept_stage3 (T2 V) (by decide)), (show T2 V (Proc.devRef .tc main_v108) = T1 V (Proc.devRef .tc main_v108) from kept_stage2 (T1 V) (by decide)),
    (show T1 V (Proc.devRef .tc main_v108) = broadcastInDim S100000x128 ![] bcast_S_S100000x128 (constant S_ .f32 0x00000000#32) from stage1_v108 V)]

theorem T5_v147 : T5 V (Proc.devRef .tc main_v147) = xwR1 (V (Proc.devRef .tc main_v60)) (V (Proc.devRef .tc main_arg12)) := by
  refine (stage5_v147 (T4 V)).trans ?_
  rw [T4_kept V (r := main_v60) (by decide) (by decide) (by decide) (by decide),
    T4_kept V (r := main_arg12) (by decide) (by decide) (by decide) (by decide)]
  rfl

theorem T6_v165 : T6 V (Proc.devRef .tc main_v165)
    = hop (xwR1 (V (Proc.devRef .tc main_v60)) (V (Proc.devRef .tc main_arg12))) (V (Proc.devRef .tc main_v62)) (V (Proc.devRef .tc main_v89)) (V (Proc.devRef .tc main_v64))
        (extractStridedSlice S1x128 ![1, 0] (V (Proc.devRef .tc main_arg13)) slices_S2x128_S1x128_1_0) := by
  refine (stage6_v165 (T5 V)).trans ?_
  rw [T5_v147, T5_kept V (r := main_v62) (by decide) (by decide) (by decide) (by decide) (by decide),
    T5_kept V (r := main_v89) (by decide) (by decide) (by decide) (by decide) (by decide),
    T5_kept V (r := main_v64) (by decide) (by decide) (by decide) (by decide) (by decide),
    T5_kept V (r := main_arg13) (by decide) (by decide) (by decide) (by decide) (by decide)]

theorem T7_v177 : T7 V (Proc.devRef .tc main_v177)
    = sageR1 (V (Proc.devRef .tc main_v107)) (V (Proc.devRef .tc main_v60)) (V (Proc.devRef .tc main_arg14)) (V (Proc.devRef .tc main_arg15)) (V (Proc.devRef .tc main_arg16)) := by
  refine (stage7_v177 (T6 V)).trans ?_
  rw [T6_kept V (r := main_v107) (by decide) (by decide) (by decide) (by decide) (by decide) (by decide),
    T6_kept V (r := main_v60) (by decide) (by decide) (by decide) (by decide) (by decide) (by decide),
    T6_kept V (r := main_arg14) (by decide) (by decide) (by decide) (by decide) (by decide) (by decide),
    T6_kept V (r := main_arg15) (by decide) (by decide) (by decide) (by decide) (by decide) (by decide),
    T6_kept V (r := main_arg16) (by decide) (by decide) (by decide) (by decide) (by decide) (by decide)]
  rfl

/-- The node features after stage 8, as the function of the tail's starting arrays. -/
def nuV : (⟨S100000x128, .f32⟩ : BufTy).Contents (Elt F) :=
  nuR
    (hop (xwR0 (V (Proc.devRef .tc main_v60)) (V (Proc.devRef .tc main_arg12))) (V (Proc.devRef .tc main_v62)) (V (Proc.devRef .tc main_v89)) (V (Proc.devRef .tc main_v64))
      (extractStridedSlice S1x128 ![0, 0] (V (Proc.devRef .tc main_arg13)) slices_S2x128_S1x128_0_0))
    (sageR0 (V (Proc.devRef .tc main_v107)) (V (Proc.devRef .tc main_v60)) (V (Proc.devRef .tc main_arg14)) (V (Proc.devRef .tc main_arg15)) (V (Proc.devRef .tc main_arg16)))
    (hop (xwR1 (V (Proc.devRef .tc main_v60)) (V (Proc.devRef .tc main_arg12))) (V (Proc.devRef .tc main_v62)) (V (Proc.devRef .tc main_v89)) (V (Proc.devRef .tc main_v64))
      (extractStridedSlice S1x128 ![1, 0] (V (Proc.devRef .tc main_arg13)) slices_S2x128_S1x128_1_0))
    (sageR1 (V (Proc.devRef .tc main_v107)) (V (Proc.devRef .tc main_v60)) (V (Proc.devRef .tc main_arg14)) (V (Proc.devRef .tc main_arg15)) (V (Proc.devRef .tc main_arg16)))

theorem T8_v180 : T8 V (Proc.devRef .tc main_v180) = nuV V := by
  refine (stage8_v180 (T7 V)).trans ?_
  rw [T7_v177, (show T7 V (Proc.devRef .tc main_v165) = T6 V (Proc.devRef .tc main_v165) from kept_stage7 (T6 V) (by decide)), T6_v165,
    (show T7 V (Proc.devRef .tc main_v144) = T6 V (Proc.devRef .tc main_v144) from kept_stage7 (T6 V) (by decide)), (show T6 V (Proc.devRef .tc main_v144) = T5 V (Proc.devRef .tc main_v144) from kept_stage6 (T5 V) (by decide)),
    (show T5 V (Proc.devRef .tc main_v144) = T4 V (Proc.devRef .tc main_v144) from kept_stage5 (T4 V) (by decide)), T4_v144]
  rfl

theorem T9_v183 : T9 V (Proc.devRef .tc main_v183) = meanR (nuV V) := by
  refine (stage9_v183 (T8 V)).trans ?_
  rw [T8_v180]
  rfl

theorem T10_v190 : T10 V (Proc.devRef .tc main_v190) = varR (nuV V) (meanR (nuV V)) := by
  refine (stage10_v190 (T9 V)).trans ?_
  rw [T9_v183, (show T9 V (Proc.devRef .tc main_v180) = T8 V (Proc.devRef .tc main_v180) from kept_stage9 (T8 V) (by decide)), T8_v180]
  rfl

/-- The reference's result, from the arrays its tail starts from. -/
theorem ref_value : after (opsTail (F := F)) V (Proc.devRef .tc main_v205)
    = outR (nuV V) (meanR (nuV V)) (varR (nuV V) (meanR (nuV V))) (V (Proc.devRef .tc main_arg17)) (V (Proc.devRef .tc main_arg18)) := by
  rw [after_tail_stages]
  refine (stage11_v205 (T10 V)).trans ?_
  rw [T10_v190, (show T10 V (Proc.devRef .tc main_v183) = T9 V (Proc.devRef .tc main_v183) from kept_stage10 (T9 V) (by decide)), T9_v183,
    (show T10 V (Proc.devRef .tc main_v180) = T9 V (Proc.devRef .tc main_v180) from kept_stage10 (T9 V) (by decide)), (show T9 V (Proc.devRef .tc main_v180) = T8 V (Proc.devRef .tc main_v180) from kept_stage9 (T8 V) (by decide)), T8_v180,
    T10_kept V (r := main_arg17) (by decide) (by decide) (by decide) (by decide) (by decide) (by decide) (by decide) (by decide) (by decide) (by decide),
    T10_kept V (r := main_arg18) (by decide) (by decide) (by decide) (by decide) (by decide) (by decide) (by decide) (by decide) (by decide) (by decide)]
  rfl

end Cert.Bridge

end
-- ==== Proof.BridgeVal.lean ====
/-
  The kernel's value and the reference's, as functions of the same arrays, are one function.
  The node features: per hop the lane slice of the stacked projection is the hop's projection, so the graph convolutions
  agree; the lane slice of the stacked three-term sum is the hop's, regrouped; the two leaky-relu terms added are the
  reference's zero matrix plus the first plus the second. The statistics and the last formula then agree column by column.
-/
import proofs.«159553_j62680752718518_1_alg».proof.Proof.Gen.KernelIdeal.Launch
import proofs.«159553_j62680752718518_1_alg».proof.Proof.BridgeHop
import proofs.«159553_j62680752718518_1_alg».proof.Proof.BridgeMath
import proofs.«159553_j62680752718518_1_alg».proof.Proof.BridgeRefVal

noncomputable section

namespace Cert.Bridge

open Idealize.ShloMosaic Idealize.ShloMosaic.ValueIdx Cert.KernelIdeal.Val

/-- The reference's node features as a function of the arrays its tail starts from. -/
def nuA (X : (⟨Cert.ReferenceIdeal.S100000x85, .f32⟩ : BufTy).Contents (Elt Ideal)) (A : (⟨Cert.ReferenceIdeal.S100000x64, .f32⟩ : BufTy).Contents (Elt Ideal))
    (row : (⟨Cert.ReferenceIdeal.S1000000, .i32⟩ : BufTy).Contents (Elt Ideal)) (nrm : (⟨Cert.ReferenceIdeal.S1000000, .f32⟩ : BufTy).Contents (Elt Ideal)) (col : (⟨Cert.ReferenceIdeal.S1000000, .i32⟩ : BufTy).Contents (Elt Ideal))
    (a12 : (⟨Cert.ReferenceIdeal.S2x85x128, .f32⟩ : BufTy).Contents (Elt Ideal)) (a13 : (⟨Cert.ReferenceIdeal.S2x128, .f32⟩ : BufTy).Contents (Elt Ideal)) (a14 : (⟨Cert.ReferenceIdeal.S2x64x128, .f32⟩ : BufTy).Contents (Elt Ideal))
    (a15 : (⟨Cert.ReferenceIdeal.S2x128, .f32⟩ : BufTy).Contents (Elt Ideal)) (a16 : (⟨Cert.ReferenceIdeal.S2x85x128, .f32⟩ : BufTy).Contents (Elt Ideal)) : (⟨Cert.ReferenceIdeal.S100000x128, .f32⟩ : BufTy).Contents (Elt Ideal) :=
  nuR (F := Ideal)
    (hop (F := Ideal) (xwR0 (F := Ideal) X a12) row nrm col (extractStridedSlice Cert.ReferenceIdeal.S1x128 ![0, 0] a13 Cert.ReferenceIdeal.Gen.slices_S2x128_S1x128_0_0))
    (sageR0 (F := Ideal) A X a14 a15 a16)
    (hop (F := Ideal) (xwR1 (F := Ideal) X a12) row nrm col (extractStridedSlice Cert.ReferenceIdeal.S1x128 ![1, 0] a13 Cert.ReferenceIdeal.Gen.slices_S2x128_S1x128_1_0))
    (sageR1 (F := Ideal) A X a14 a15 a16)

/-- The kernel's node features, from the stacked weights, are the reference's. -/
theorem nu_bridge (X : (⟨Cert.ReferenceIdeal.S100000x85, .f32⟩ : BufTy).Contents (Elt Ideal)) (A : (⟨Cert.ReferenceIdeal.S100000x64, .f32⟩ : BufTy).Contents (Elt Ideal))
    (row : (⟨Cert.ReferenceIdeal.S1000000, .i32⟩ : BufTy).Contents (Elt Ideal)) (nrm : (⟨Cert.ReferenceIdeal.S1000000, .f32⟩ : BufTy).Contents (Elt Ideal)) (col : (⟨Cert.ReferenceIdeal.S1000000, .i32⟩ : BufTy).Contents (Elt Ideal))
    (a12 : (⟨Cert.ReferenceIdeal.S2x85x128, .f32⟩ : BufTy).Contents (Elt Ideal)) (a13 : (⟨Cert.ReferenceIdeal.S2x128, .f32⟩ : BufTy).Contents (Elt Ideal)) (a14 : (⟨Cert.ReferenceIdeal.S2x64x128, .f32⟩ : BufTy).Contents (Elt Ideal))
    (a15 : (⟨Cert.ReferenceIdeal.S2x128, .f32⟩ : BufTy).Contents (Elt Ideal)) (a16 : (⟨Cert.ReferenceIdeal.S2x85x128, .f32⟩ : BufTy).Contents (Elt Ideal))
    (Wg Wr : (⟨Cert.KernelIdeal.S85x256, .f32⟩ : BufTy).Contents (Elt Ideal)) (Wl : (⟨Cert.KernelIdeal.S64x256, .f32⟩ : BufTy).Contents (Elt Ideal)) (bl : (⟨Cert.KernelIdeal.S1x256, .f32⟩ : BufTy).Contents (Elt Ideal))
    (hWg : Wg = (shapeCast Cert.KernelIdeal.S85x256 (transpose Cert.KernelIdeal.S85x2x128 [1, 0, 2] a12 Cert.KernelIdeal.Gen.transposes_S2x85x128_S85x2x128_1_0_2) Cert.KernelIdeal.Gen.shapeCasts_S85x2x128_S85x256)) (hWr : Wr = (shapeCast Cert.KernelIdeal.S85x256 (transpose Cert.KernelIdeal.S85x2x128 [1, 0, 2] a16 Cert.KernelIdeal.Gen.transposes_S2x85x128_S85x2x128_1_0_2) Cert.KernelIdeal.Gen.shapeCasts_S85x2x128_S85x256)) (hWl : Wl = (shapeCast Cert.KernelIdeal.S64x256 (transpose Cert.KernelIdeal.S64x2x128 [1, 0, 2] a14 Cert.KernelIdeal.Gen.transposes_S2x64x128_S64x2x128_1_0_2) Cert.KernelIdeal.Gen.shapeCasts_S64x2x128_S64x256)) (hbl : bl = (shapeCast Cert.KernelIdeal.S1x256 a15 Cert.KernelIdeal.Gen.shapeCasts_S2x128_S1x256)) :
    (nuOf (hop (F := Ideal) (extractStridedSlice Cert.KernelIdeal.S100000x128 ![0, 0] (xwOf X Wg) Cert.KernelIdeal.Gen.slices_S100000x256_S100000x128_0_0) row nrm col (extractStridedSlice Cert.KernelIdeal.S1x128 ![0, 0] a13 Cert.KernelIdeal.Gen.slices_S2x128_S1x128_0_0)) (extractStridedSlice Cert.KernelIdeal.S100000x128 ![0, 0] (sageOf A X Wl Wr bl) Cert.KernelIdeal.Gen.slices_S100000x256_S100000x128_0_0)
        (hop (F := Ideal) (extractStridedSlice Cert.KernelIdeal.S100000x128 ![0, 128] (xwOf X Wg) Cert.KernelIdeal.Gen.slices_S100000x256_S100000x128_0_128) row nrm col (extractStridedSlice Cert.KernelIdeal.S1x128 ![1, 0] a13 Cert.KernelIdeal.Gen.slices_S2x128_S1x128_1_0)) (extractStridedSlice Cert.KernelIdeal.S100000x128 ![0, 128] (sageOf A X Wl Wr bl) Cert.KernelIdeal.Gen.slices_S100000x256_S100000x128_0_128))
      = nuA X A row nrm col a12 a13 a14 a15 a16 := by
  subst hWg hWr hWl hbl
  have e0 := xw_slice 0 0 (by decide) rfl X a12 Cert.KernelIdeal.Gen.transposes_S2x85x128_S85x2x128_1_0_2 Cert.KernelIdeal.Gen.shapeCasts_S85x2x128_S85x256
    Cert.KernelIdeal.Gen.slices_S100000x256_S100000x128_0_0 Cert.ReferenceIdeal.Gen.slices_S2x85x128_S1x85x128_0_0_0 Cert.ReferenceIdeal.Gen.shapeCasts_S1x85x128_S85x128
  have e1 := xw_slice 1 128 (by decide) rfl X a12 Cert.KernelIdeal.Gen.transposes_S2x85x128_S85x2x128_1_0_2 Cert.KernelIdeal.Gen.shapeCasts_S85x2x128_S85x256
    Cert.KernelIdeal.Gen.slices_S100000x256_S100000x128_0_128 Cert.ReferenceIdeal.Gen.slices_S2x85x128_S1x85x128_1_0_0 Cert.ReferenceIdeal.Gen.shapeCasts_S1x85x128_S85x128
  have s0 := sage_slice 0 0 (by decide) rfl A X a14 a16 a15 Cert.KernelIdeal.Gen.transposes_S2x64x128_S64x2x128_1_0_2 Cert.KernelIdeal.Gen.shapeCasts_S64x2x128_S64x256
    Cert.KernelIdeal.Gen.transposes_S2x85x128_S85x2x128_1_0_2 Cert.KernelIdeal.Gen.shapeCasts_S85x2x128_S85x256 Cert.KernelIdeal.Gen.shapeCasts_S2x128_S1x256
    Cert.KernelIdeal.Gen.slices_S100000x256_S100000x128_0_0 Cert.ReferenceIdeal.Gen.slices_S2x64x128_S1x64x128_0_0_0 Cert.ReferenceIdeal.Gen.shapeCasts_S1x64x128_S64x128
    Cert.ReferenceIdeal.Gen.slices_S2x85x128_S1x85x128_0_0_0 Cert.ReferenceIdeal.Gen.shapeCasts_S1x85x128_S85x128 Cert.ReferenceIdeal.Gen.slices_S2x128_S1x128_0_0 Cert.ReferenceIdeal.Gen.shapeCasts_S1x128_S128
    Cert.ReferenceIdeal.Gen.bcast_S128_S1x128_1 Cert.ReferenceIdeal.Gen.bcast_S1x128_S100000x128_0_1
  have s1 := sage_slice 1 128 (by decide) rfl A X a14 a16 a15 Cert.KernelIdeal.Gen.transposes_S2x64x128_S64x2x128_1_0_2 Cert.KernelIdeal.Gen.shapeCasts_S64x2x128_S64x256
    Cert.KernelIdeal.Gen.transposes_S2x85x128_S85x2x128_1_0_2 Cert.KernelIdeal.Gen.shapeCasts_S85x2x128_S85x256 Cert.KernelIdeal.Gen.shapeCasts_S2x128_S1x256
    Cert.KernelIdeal.Gen.slices_S100000x256_S100000x128_0_128 Cert.ReferenceIdeal.Gen.slices_S2x64x128_S1x64x128_1_0_0 Cert.ReferenceIdeal.Gen.shapeCasts_S1x64x128_S64x128
    Cert.ReferenceIdeal.Gen.slices_S2x85x128_S1x85x128_1_0_0 Cert.ReferenceIdeal.Gen.shapeCasts_S1x85x128_S85x128 Cert.ReferenceIdeal.Gen.slices_S2x128_S1x128_1_0 Cert.ReferenceIdeal.Gen.shapeCasts_S1x128_S128
    Cert.ReferenceIdeal.Gen.bcast_S128_S1x128_1 Cert.ReferenceIdeal.Gen.bcast_S1x128_S100000x128_0_1
  refine (nu_eq _ _ _ _).trans ?_
  rw [e0, e1, s0, s1]
  rfl

/-- The kernel's result, from the stacked weights, is the reference's. -/
theorem value_bridge (X : (⟨Cert.ReferenceIdeal.S100000x85, .f32⟩ : BufTy).Contents (Elt Ideal)) (A : (⟨Cert.ReferenceIdeal.S100000x64, .f32⟩ : BufTy).Contents (Elt Ideal))
    (row : (⟨Cert.ReferenceIdeal.S1000000, .i32⟩ : BufTy).Contents (Elt Ideal)) (nrm : (⟨Cert.ReferenceIdeal.S1000000, .f32⟩ : BufTy).Contents (Elt Ideal)) (col : (⟨Cert.ReferenceIdeal.S1000000, .i32⟩ : BufTy).Contents (Elt Ideal))
    (a12 : (⟨Cert.ReferenceIdeal.S2x85x128, .f32⟩ : BufTy).Contents (Elt Ideal)) (a13 : (⟨Cert.ReferenceIdeal.S2x128, .f32⟩ : BufTy).Contents (Elt Ideal)) (a14 : (⟨Cert.ReferenceIdeal.S2x64x128, .f32⟩ : BufTy).Contents (Elt Ideal))
    (a15 : (⟨Cert.ReferenceIdeal.S2x128, .f32⟩ : BufTy).Contents (Elt Ideal)) (a16 : (⟨Cert.ReferenceIdeal.S2x85x128, .f32⟩ : BufTy).Contents (Elt Ideal))
    (a17 a18 : (⟨Cert.ReferenceIdeal.S128, .f32⟩ : BufTy).Contents (Elt Ideal))
    (Wg Wr : (⟨Cert.KernelIdeal.S85x256, .f32⟩ : BufTy).Contents (Elt Ideal)) (Wl : (⟨Cert.KernelIdeal.S64x256, .f32⟩ : BufTy).Contents (Elt Ideal)) (bl : (⟨Cert.KernelIdeal.S1x256, .f32⟩ : BufTy).Contents (Elt Ideal))
    (hWg : Wg = (shapeCast Cert.KernelIdeal.S85x256 (transpose Cert.KernelIdeal.S85x2x128 [1, 0, 2] a12 Cert.KernelIdeal.Gen.transposes_S2x85x128_S85x2x128_1_0_2) Cert.KernelIdeal.Gen.shapeCasts_S85x2x128_S85x256)) (hWr : Wr = (shapeCast Cert.KernelIdeal.S85x256 (transpose Cert.KernelIdeal.S85x2x128 [1, 0, 2] a16 Cert.KernelIdeal.Gen.transposes_S2x85x128_S85x2x128_1_0_2) Cert.KernelIdeal.Gen.shapeCasts_S85x2x128_S85x256)) (hWl : Wl = (shapeCast Cert.KernelIdeal.S64x256 (transpose Cert.KernelIdeal.S64x2x128 [1, 0, 2] a14 Cert.KernelIdeal.Gen.transposes_S2x64x128_S64x2x128_1_0_2) Cert.KernelIdeal.Gen.shapeCasts_S64x2x128_S64x256)) (hbl : bl = (shapeCast Cert.KernelIdeal.S1x256 a15 Cert.KernelIdeal.Gen.shapeCasts_S2x128_S1x256))
    (NU : (⟨Cert.KernelIdeal.S100000x128, .f32⟩ : BufTy).Contents (Elt Ideal))
    (hNU : NU = (nuOf (hop (F := Ideal) (extractStridedSlice Cert.KernelIdeal.S100000x128 ![0, 0] (xwOf X Wg) Cert.KernelIdeal.Gen.slices_S100000x256_S100000x128_0_0) row nrm col (extractStridedSlice Cert.KernelIdeal.S1x128 ![0, 0] a13 Cert.KernelIdeal.Gen.slices_S2x128_S1x128_0_0)) (extractStridedSlice Cert.KernelIdeal.S100000x128 ![0, 0] (sageOf A X Wl Wr bl) Cert.KernelIdeal.Gen.slices_S100000x256_S100000x128_0_0)
        (hop (F := Ideal) (extractStridedSlice Cert.KernelIdeal.S100000x128 ![0, 128] (xwOf X Wg) Cert.KernelIdeal.Gen.slices_S100000x256_S100000x128_0_128) row nrm col (extractStridedSlice Cert.KernelIdeal.S1x128 ![1, 0] a13 Cert.KernelIdeal.Gen.slices_S2x128_S1x128_1_0)) (extractStridedSlice Cert.KernelIdeal.S100000x128 ![0, 128] (sageOf A X Wl Wr bl) Cert.KernelIdeal.Gen.slices_S100000x256_S100000x128_0_128))) :
    bnOf NU (Host.divf (F := Ideal) (φ := .f32) (colSumOf NU) (broadcastInDim Cert.KernelIdeal.S1x128 ![] Cert.KernelIdeal.Gen.bcast_S_S1x128 (constant Cert.KernelIdeal.S_ .f32 0x47C35000#32)))
        (Host.divf (F := Ideal) (φ := .f32) (ssqOf NU (Host.divf (F := Ideal) (φ := .f32) (colSumOf NU) (broadcastInDim Cert.KernelIdeal.S1x128 ![] Cert.KernelIdeal.Gen.bcast_S_S1x128 (constant Cert.KernelIdeal.S_ .f32 0x47C35000#32)))) (broadcastInDim Cert.KernelIdeal.S1x128 ![] Cert.KernelIdeal.Gen.bcast_S_S1x128 (constant Cert.KernelIdeal.S_ .f32 0x47C35000#32)))
        (shapeCast Cert.KernelIdeal.S1x128 a17 Cert.KernelIdeal.Gen.shapeCasts_S128_S1x128) (shapeCast Cert.KernelIdeal.S1x128 a18 Cert.KernelIdeal.Gen.shapeCasts_S128_S1x128)
      = outR (F := Ideal) (nuA X A row nrm col a12 a13 a14 a15 a16) (meanR (F := Ideal) (nuA X A row nrm col a12 a13 a14 a15 a16))
          (varR (F := Ideal) (nuA X A row nrm col a12 a13 a14 a15 a16) (meanR (F := Ideal) (nuA X A row nrm col a12 a13 a14 a15 a16))) a17 a18 := by
  have h := nu_bridge X A row nrm col a12 a13 a14 a15 a16 Wg Wr Wl bl hWg hWr hWl hbl
  rw [← hNU] at h
  subst h
  have hMEAN : ∀ j : Fin 128, (Host.divf (F := Ideal) (φ := .f32) (colSumOf (nuA X A row nrm col a12 a13 a14 a15 a16)) (broadcastInDim Cert.KernelIdeal.S1x128 ![] Cert.KernelIdeal.Gen.bcast_S_S1x128 (constant Cert.KernelIdeal.S_ .f32 0x47C35000#32))) (ix2 (0 : Fin 1) j)
      = meanR (F := Ideal) (nuA X A row nrm col a12 a13 a14 a15 a16) (ix1 j) :=
    fun j => mean_eq _ Cert.KernelIdeal.Gen.bcast_S_S1x128 0x47C35000#32 j
  exact out_eq _ _ _ _ _ _ _ a17 a18 hMEAN
    (fun j => var_eq _ _ _ hMEAN Cert.KernelIdeal.Gen.bcast_S_S1x128 0x47C35000#32 j)
    (fun j => shapeCast_a_1a_apply a17 Cert.KernelIdeal.Gen.shapeCasts_S128_S1x128 (0 : Fin 1) j)
    (fun j => shapeCast_a_1a_apply a18 Cert.KernelIdeal.Gen.shapeCasts_S128_S1x128 (0 : Fin 1) j)

end Cert.Bridge

end
-- ==== Proof.BridgeEnds.lean ====
/-
  The two ends of the comparison of the kernel program with the reference.

  The reference's run, restated with its result named: every weakly fair execution ends with the result buffer at the fold
  of the whole line over the launch contents and each argument as launched. The two launch memories agree on the nineteen
  arguments, so the two programs' starting contents agree on them. The weight-norm scalar and the normalisation's scale and
  shift are written by no operation of the kernel program's first host stretch, and the seven parameter arrays by none of
  the reference's prefix.
-/
import proofs.«159553_j62680752718518_1_alg».proof.Proof.RefCut
import proofs.«159553_j62680752718518_1_alg».proof.Proof.KKept
import Idealize.ShloMosaic.PureOps.Ideal

set_option maxRecDepth 16384

noncomputable section

namespace Cert.Bridge

open Idealize.ShloMosaic Idealize.ShloMosaic.TcCoe Idealize.SL.Sem Idealize.ShloMosaic.StableHlo

/-- The reference's run with its result named: if the whole line folded over the launch contents leaves v0 in the result
    buffer, every weakly fair execution ends with the result buffer at v0 and every argument as launched. -/
theorem ref_half (m' : (ℓ : Loc Cert.ReferenceIdeal.nD Cert.ReferenceIdeal.τ Cert.ReferenceIdeal.sig) → Buf (Elt Ideal) ℓ) (ρ' : Dev Cert.ReferenceIdeal.nD → PrngReg)
    (v0 : (c : Dev Cert.ReferenceIdeal.nD) → Buf (Elt Ideal) ((c.tc : Thread Cert.ReferenceIdeal.nD Cert.ReferenceIdeal.τ).loc Cert.ReferenceIdeal.main_v205))
    (hv : ∀ c, StableHlo.after (Cert.ReferenceIdeal.Line.ops (F := Ideal)) (launchContents m' c) (Proc.devRef .tc Cert.ReferenceIdeal.main_v205) = v0 c) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)) :=
  (θ_run (Cert.ReferenceIdeal.defs (F := Ideal)) _ _).mono (fun _ h c => ⟨(h c Cert.ReferenceIdeal.main_v205).trans (hv c),
    (h c Cert.ReferenceIdeal.main_arg0).trans (Cert.ReferenceIdeal.Line.kept _ (by decide) (by decide) (by decide) (by decide) (by decide)),
    (h c Cert.ReferenceIdeal.main_arg1).trans (Cert.ReferenceIdeal.Line.kept _ (by decide) (by decide) (by decide) (by decide) (by decide)),
    (h c Cert.ReferenceIdeal.main_arg2).trans (Cert.ReferenceIdeal.Line.kept _ (by decide) (by decide) (by decide) (by decide) (by decide)),
    (h c Cert.ReferenceIdeal.main_arg3).trans (Cert.ReferenceIdeal.Line.kept _ (by decide) (by decide) (by decide) (by decide) (by decide)),
    (h c Cert.ReferenceIdeal.main_arg4).trans (Cert.ReferenceIdeal.Line.kept _ (by decide) (by decide) (by decide) (by decide) (by decide)),
    (h c Cert.ReferenceIdeal.main_arg5).trans (Cert.ReferenceIdeal.Line.kept _ (by decide) (by decide) (by decide) (by decide) (by decide)),
    (h c Cert.ReferenceIdeal.main_arg6).trans (Cert.ReferenceIdeal.Line.kept _ (by decide) (by decide) (by decide) (by decide) (by decide)),
    (h c Cert.ReferenceIdeal.main_arg7).trans (Cert.ReferenceIdeal.Line.kept _ (by decide) (by decide) (by decide) (by decide) (by decide)),
    (h c Cert.ReferenceIdeal.main_arg8).trans (Cert.ReferenceIdeal.Line.kept _ (by decide) (by decide) (by decide) (by decide) (by decide)),
    (h c Cert.ReferenceIdeal.main_arg9).trans (Cert.ReferenceIdeal.Line.kept _ (by decide) (by decide) (by decide) (by decide) (by decide)),
    (h c Cert.ReferenceIdeal.main_arg10).trans (Cert.ReferenceIdeal.Line.kept _ (by decide) (by decide) (by decide) (by decide) (by decide)),
    (h c Cert.ReferenceIdeal.main_arg11).trans (Cert.ReferenceIdeal.Line.kept _ (by decide) (by decide) (by decide) (by decide) (by decide)),
    (h c Cert.ReferenceIdeal.main_arg12).trans (Cert.ReferenceIdeal.Line.kept _ (by decide) (by decide) (by decide) (by decide) (by decide)),
    (h c Cert.ReferenceIdeal.main_arg13).trans (Cert.ReferenceIdeal.Line.kept _ (by decide) (by decide) (by decide) (by decide) (by decide)),
    (h c Cert.ReferenceIdeal.main_arg14).trans (Cert.ReferenceIdeal.Line.kept _ (by decide) (by decide) (by decide) (by decide) (by decide)),
    (h c Cert.ReferenceIdeal.main_arg15).trans (Cert.ReferenceIdeal.Line.kept _ (by decide) (by decide) (by decide) (by decide) (by decide)),
    (h c Cert.ReferenceIdeal.main_arg16).trans (Cert.ReferenceIdeal.Line.kept _ (by decide) (by decide) (by decide) (by decide) (by decide)),
    (h c Cert.ReferenceIdeal.main_arg17).trans (Cert.ReferenceIdeal.Line.kept _ (by decide) (by decide) (by decide) (by decide) (by decide)),
    (h c Cert.ReferenceIdeal.main_arg18).trans (Cert.ReferenceIdeal.Line.kept _ (by decide) (by decide) (by decide) (by decide) (by decide))⟩)
    (Cert.ReferenceIdeal.Line.run m' ρ')

section
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- Memories agreeing on the nineteen arguments give starting contents agreeing on them. -/
theorem agree_launch
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.KernelIdeal.nD) :
    launchContents m' c (Proc.devRef .tc Cert.ReferenceIdeal.main_arg0) = Cert.KernelIdeal.Frame.W0 m ρ c (Proc.devRef .tc Cert.KernelIdeal.main_arg0)
    ∧ launchContents m' c (Proc.devRef .tc Cert.ReferenceIdeal.main_arg1) = Cert.KernelIdeal.Frame.W0 m ρ c (Proc.devRef .tc Cert.KernelIdeal.main_arg1)
    ∧ launchContents m' c (Proc.devRef .tc Cert.ReferenceIdeal.main_arg2) = Cert.KernelIdeal.Frame.W0 m ρ c (Proc.devRef .tc Cert.KernelIdeal.main_arg2)
    ∧ launchContents m' c (Proc.devRef .tc Cert.ReferenceIdeal.main_arg3) = Cert.KernelIdeal.Frame.W0 m ρ c (Proc.devRef .tc Cert.KernelIdeal.main_arg3)
    ∧ launchContents m' c (Proc.devRef .tc Cert.ReferenceIdeal.main_arg4) = Cert.KernelIdeal.Frame.W0 m ρ c (Proc.devRef .tc Cert.KernelIdeal.main_arg4)
    ∧ launchContents m' c (Proc.devRef .tc Cert.ReferenceIdeal.main_arg5) = Cert.KernelIdeal.Frame.W0 m ρ c (Proc.devRef .tc Cert.KernelIdeal.main_arg5)
    ∧ launchContents m' c (Proc.devRef .tc Cert.ReferenceIdeal.main_arg6) = Cert.KernelIdeal.Frame.W0 m ρ c (Proc.devRef .tc Cert.KernelIdeal.main_arg6)
    ∧ launchContents m' c (Proc.devRef .tc Cert.ReferenceIdeal.main_arg7) = Cert.KernelIdeal.Frame.W0 m ρ c (Proc.devRef .tc Cert.KernelIdeal.main_arg7)
    ∧ launchContents m' c (Proc.devRef .tc Cert.ReferenceIdeal.main_arg8) = Cert.KernelIdeal.Frame.W0 m ρ c (Proc.devRef .tc Cert.KernelIdeal.main_arg8)
    ∧ launchContents m' c (Proc.devRef .tc Cert.ReferenceIdeal.main_arg9) = Cert.KernelIdeal.Frame.W0 m ρ c (Proc.devRef .tc Cert.KernelIdeal.main_arg9)
    ∧ launchContents m' c (Proc.devRef .tc Cert.ReferenceIdeal.main_arg10) = Cert.KernelIdeal.Frame.W0 m ρ c (Proc.devRef .tc Cert.KernelIdeal.main_arg10)
    ∧ launchContents m' c (Proc.devRef .tc Cert.ReferenceIdeal.main_arg11) = Cert.KernelIdeal.Frame.W0 m ρ c (Proc.devRef .tc Cert.KernelIdeal.main_arg11)
    ∧ launchContents m' c (Proc.devRef .tc Cert.ReferenceIdeal.main_arg12) = Cert.KernelIdeal.Frame.W0 m ρ c (Proc.devRef .tc Cert.KernelIdeal.main_arg12)
    ∧ launchContents m' c (Proc.devRef .tc Cert.ReferenceIdeal.main_arg13) = Cert.KernelIdeal.Frame.W0 m ρ c (Proc.devRef .tc Cert.KernelIdeal.main_arg13)
    ∧ launchContents m' c (Proc.devRef .tc Cert.ReferenceIdeal.main_arg14) = Cert.KernelIdeal.Frame.W0 m ρ c (Proc.devRef .tc Cert.KernelIdeal.main_arg14)
    ∧ launchContents m' c (Proc.devRef .tc Cert.ReferenceIdeal.main_arg15) = Cert.KernelIdeal.Frame.W0 m ρ c (Proc.devRef .tc Cert.KernelIdeal.main_arg15)
    ∧ launchContents m' c (Proc.devRef .tc Cert.ReferenceIdeal.main_arg16) = Cert.KernelIdeal.Frame.W0 m ρ c (Proc.devRef .tc Cert.KernelIdeal.main_arg16)
    ∧ launchContents m' c (Proc.devRef .tc Cert.ReferenceIdeal.main_arg17) = Cert.KernelIdeal.Frame.W0 m ρ c (Proc.devRef .tc Cert.KernelIdeal.main_arg17)
    ∧ launchContents m' c (Proc.devRef .tc Cert.ReferenceIdeal.main_arg18) = Cert.KernelIdeal.Frame.W0 m ρ c (Proc.devRef .tc Cert.KernelIdeal.main_arg18) :=
  hagree c

/-- Argument 13 passes through the first host stretch of the kernel program unchanged. -/
theorem w1_arg13 (c : Dev Cert.KernelIdeal.nD) :
    Cert.KernelIdeal.Frame.W1 m ρ c (Proc.devRef .tc Cert.KernelIdeal.main_arg13) = Cert.KernelIdeal.Frame.W0 m ρ c (Proc.devRef .tc Cert.KernelIdeal.main_arg13) :=
  (StableHlo.after_of_writes_sub Cert.KernelIdeal.Gen.hostOps0_2 _ Cert.KernelIdeal.Frame.hostOps0_2_writes (by decide)).trans
    ((StableHlo.after_of_writes_sub Cert.KernelIdeal.Gen.hostOps0_1 _ Cert.KernelIdeal.Frame.hostOps0_1_writes (by decide)).trans
      (StableHlo.after_of_writes_sub Cert.KernelIdeal.Gen.hostOps0 _ Cert.KernelIdeal.Frame.hostOps0_writes (by decide)))

/-- Argument 17 passes through the first host stretch of the kernel program unchanged. -/
theorem w1_arg17 (c : Dev Cert.KernelIdeal.nD) :
    Cert.KernelIdeal.Frame.W1 m ρ c (Proc.devRef .tc Cert.KernelIdeal.main_arg17) = Cert.KernelIdeal.Frame.W0 m ρ c (Proc.devRef .tc Cert.KernelIdeal.main_arg17) :=
  (StableHlo.after_of_writes_sub Cert.KernelIdeal.Gen.hostOps0_2 _ Cert.KernelIdeal.Frame.hostOps0_2_writes (by decide)).trans
    ((StableHlo.after_of_writes_sub Cert.KernelIdeal.Gen.hostOps0_1 _ Cert.KernelIdeal.Frame.hostOps0_1_writes (by decide)).trans
      (StableHlo.after_of_writes_sub Cert.KernelIdeal.Gen.hostOps0 _ Cert.KernelIdeal.Frame.hostOps0_writes (by decide)))

/-- Argument 18 passes through the first host stretch of the kernel program unchanged. -/
theorem w1_arg18 (c : Dev Cert.KernelIdeal.nD) :
    Cert.KernelIdeal.Frame.W1 m ρ c (Proc.devRef .tc Cert.KernelIdeal.main_arg18) = Cert.KernelIdeal.Frame.W0 m ρ c (Proc.devRef .tc Cert.KernelIdeal.main_arg18) :=
  (StableHlo.after_of_writes_sub Cert.KernelIdeal.Gen.hostOps0_2 _ Cert.KernelIdeal.Frame.hostOps0_2_writes (by decide)).trans
    ((StableHlo.after_of_writes_sub Cert.KernelIdeal.Gen.hostOps0_1 _ Cert.KernelIdeal.Frame.hostOps0_1_writes (by decide)).trans
      (StableHlo.after_of_writes_sub Cert.KernelIdeal.Gen.hostOps0 _ Cert.KernelIdeal.Frame.hostOps0_writes (by decide)))

end

/-- Argument 12 passes through the reference's prefix unchanged. -/
theorem pre_arg12 (Vr : Valuation Cert.ReferenceIdeal.τ Cert.ReferenceIdeal.sig (Elt Ideal)) :
    StableHlo.after (Cert.ReferenceIdeal.Line.opsPre (F := Ideal)) Vr (Proc.devRef .tc Cert.ReferenceIdeal.main_arg12) = Vr (Proc.devRef .tc Cert.ReferenceIdeal.main_arg12) :=
  Cert.ReferenceIdeal.Line.kept_pre Vr (by decide) (by decide) (by decide)

/-- Argument 13 passes through the reference's prefix unchanged. -/
theorem pre_arg13 (Vr : Valuation Cert.ReferenceIdeal.τ Cert.ReferenceIdeal.sig (Elt Ideal)) :
    StableHlo.after (Cert.ReferenceIdeal.Line.opsPre (F := Ideal)) Vr (Proc.devRef .tc Cert.ReferenceIdeal.main_arg13) = Vr (Proc.devRef .tc Cert.ReferenceIdeal.main_arg13) :=
  Cert.ReferenceIdeal.Line.kept_pre Vr (by decide) (by decide) (by decide)

/-- Argument 14 passes through the reference's prefix unchanged. -/
theorem pre_arg14 (Vr : Valuation Cert.ReferenceIdeal.τ Cert.ReferenceIdeal.sig (Elt Ideal)) :
    StableHlo.after (Cert.ReferenceIdeal.Line.opsPre (F := Ideal)) Vr (Proc.devRef .tc Cert.ReferenceIdeal.main_arg14) = Vr (Proc.devRef .tc Cert.ReferenceIdeal.main_arg14) :=
  Cert.ReferenceIdeal.Line.kept_pre Vr (by decide) (by decide) (by decide)

/-- Argument 15 passes through the reference's prefix unchanged. -/
theorem pre_arg15 (Vr : Valuation Cert.ReferenceIdeal.τ Cert.ReferenceIdeal.sig (Elt Ideal)) :
    StableHlo.after (Cert.ReferenceIdeal.Line.opsPre (F := Ideal)) Vr (Proc.devRef .tc Cert.ReferenceIdeal.main_arg15) = Vr (Proc.devRef .tc Cert.ReferenceIdeal.main_arg15) :=
  Cert.ReferenceIdeal.Line.kept_pre Vr (by decide) (by decide) (by decide)

/-- Argument 16 passes through the reference's prefix unchanged. -/
theorem pre_arg16 (Vr : Valuation Cert.ReferenceIdeal.τ Cert.ReferenceIdeal.sig (Elt Ideal)) :
    StableHlo.after (Cert.ReferenceIdeal.Line.opsPre (F := Ideal)) Vr (Proc.devRef .tc Cert.ReferenceIdeal.main_arg16) = Vr (Proc.devRef .tc Cert.ReferenceIdeal.main_arg16) :=
  Cert.ReferenceIdeal.Line.kept_pre Vr (by decide) (by decide) (by decide)

/-- Argument 17 passes through the reference's prefix unchanged. -/
theorem pre_arg17 (Vr : Valuation Cert.ReferenceIdeal.τ Cert.ReferenceIdeal.sig (Elt Ideal)) :
    StableHlo.after (Cert.ReferenceIdeal.Line.opsPre (F := Ideal)) Vr (Proc.devRef .tc Cert.ReferenceIdeal.main_arg17) = Vr (Proc.devRef .tc Cert.ReferenceIdeal.main_arg17) :=
  Cert.ReferenceIdeal.Line.kept_pre Vr (by decide) (by decide) (by decide)

/-- Argument 18 passes through the reference's prefix unchanged. -/
theorem pre_arg18 (Vr : Valuation Cert.ReferenceIdeal.τ Cert.ReferenceIdeal.sig (Elt Ideal)) :
    StableHlo.after (Cert.ReferenceIdeal.Line.opsPre (F := Ideal)) Vr (Proc.devRef .tc Cert.ReferenceIdeal.main_arg18) = Vr (Proc.devRef .tc Cert.ReferenceIdeal.main_arg18) :=
  Cert.ReferenceIdeal.Line.kept_pre Vr (by decide) (by decide) (by decide)

end Cert.Bridge

end
-- ==== Proof.Bridge.lean ====
/-
  The two programs at the ideal instance end with equal results.
  The kernel's result is the last region's output array, a function of the arrays its first region is entered with; the
  reference's is its tail's fold, a function of the arrays the tail starts from. The shared prefix leaves the same
  arrays in both programs, the stacked weights are the arguments transposed and reshaped, and the two functions agree.
-/
import proofs.«159553_j62680752718518_1_alg».proof.Defs
import proofs.«159553_j62680752718518_1_alg».proof.Proof.Gen.KernelIdeal
import proofs.«159553_j62680752718518_1_alg».proof.Proof.Gen.ReferenceIdeal
import proofs.«159553_j62680752718518_1_alg».proof.Proof.Gen.Pre_finite_inputs
import proofs.«159553_j62680752718518_1_alg».proof.Proof.KRun
import proofs.«159553_j62680752718518_1_alg».proof.Proof.KWalk
import proofs.«159553_j62680752718518_1_alg».proof.Proof.KPre
import proofs.«159553_j62680752718518_1_alg».proof.Proof.SimPre
import proofs.«159553_j62680752718518_1_alg».proof.Proof.BridgeK
import proofs.«159553_j62680752718518_1_alg».proof.Proof.BridgeVal
import proofs.«159553_j62680752718518_1_alg».proof.Proof.BridgeEnds

noncomputable section

namespace Cert.Bridge

open Idealize.ShloMosaic Idealize.ShloMosaic.TcCoe Idealize.SL.Sem Idealize.ShloMosaic.StableHlo
open Cert.KernelIdeal.Frame (W0 W1 W8)

section Value

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The reference's result is the kernel's, on every device, from launch contents agreeing on the arguments. -/
theorem value_eq (c : Dev Cert.KernelIdeal.nD) (hag : Agree (W0 m ρ c) (launchContents m' c)) :
    after (Cert.ReferenceIdeal.Line.ops (F := Ideal)) (launchContents m' c) (Proc.devRef .tc Cert.ReferenceIdeal.main_v205)
      = W8 m ρ c (Proc.devRef .tc Cert.KernelIdeal.main_v164) := by
  rw [Cert.ReferenceIdeal.Line.after_cut, ref_value, kernel_value]
  have e60 := pre_v60 hag
  have e107 := pre_v107 hag
  have e89 := pre_v89 hag
  have e62 := pre_v62 hag
  have e64 := pre_v64 hag
  have k := value_bridge (W1 m ρ c (Proc.devRef .tc Cert.KernelIdeal.main_v60)) (W1 m ρ c (Proc.devRef .tc Cert.KernelIdeal.main_v107)) (W1 m ρ c (Proc.devRef .tc Cert.KernelIdeal.main_v62)) (W1 m ρ c (Proc.devRef .tc Cert.KernelIdeal.main_v89)) (W1 m ρ c (Proc.devRef .tc Cert.KernelIdeal.main_v64))
    (W0 m ρ c (Proc.devRef .tc Cert.KernelIdeal.main_arg12)) (W1 m ρ c (Proc.devRef .tc Cert.KernelIdeal.main_arg13)) (W0 m ρ c (Proc.devRef .tc Cert.KernelIdeal.main_arg14)) (W0 m ρ c (Proc.devRef .tc Cert.KernelIdeal.main_arg15)) (W0 m ρ c (Proc.devRef .tc Cert.KernelIdeal.main_arg16))
    (W1 m ρ c (Proc.devRef .tc Cert.KernelIdeal.main_arg17)) (W1 m ρ c (Proc.devRef .tc Cert.KernelIdeal.main_arg18))
    (W1 m ρ c (Proc.devRef .tc Cert.KernelIdeal.main_v109)) (W1 m ρ c (Proc.devRef .tc Cert.KernelIdeal.main_v111)) (W1 m ρ c (Proc.devRef .tc Cert.KernelIdeal.main_v113)) (W1 m ρ c (Proc.devRef .tc Cert.KernelIdeal.main_v114))
    (Cert.KernelIdeal.Frame.stretch0_v109 (W0 m ρ c)) (Cert.KernelIdeal.Frame.stretch0_v111 (W0 m ρ c))
    (Cert.KernelIdeal.Frame.stretch0_v113 (W0 m ρ c)) (Cert.KernelIdeal.Frame.stretch0_v114 (W0 m ρ c))
    (kNU m ρ c) rfl
  refine Eq.trans ?_ k.symm
  have a12 : after (Cert.ReferenceIdeal.Line.opsPre (F := Ideal)) (launchContents m' c) (Proc.devRef .tc Cert.ReferenceIdeal.main_arg12) = (W0 m ρ c (Proc.devRef .tc Cert.KernelIdeal.main_arg12)) :=
    (pre_arg12 _).trans hag.a12
  have a13 : after (Cert.ReferenceIdeal.Line.opsPre (F := Ideal)) (launchContents m' c) (Proc.devRef .tc Cert.ReferenceIdeal.main_arg13) = (W1 m ρ c (Proc.devRef .tc Cert.KernelIdeal.main_arg13)) :=
    ((pre_arg13 _).trans hag.a13).trans (w1_arg13 m ρ c).symm
  have a14 : after (Cert.ReferenceIdeal.Line.opsPre (F := Ideal)) (launchContents m' c) (Proc.devRef .tc Cert.ReferenceIdeal.main_arg14) = (W0 m ρ c (Proc.devRef .tc Cert.KernelIdeal.main_arg14)) :=
    (pre_arg14 _).trans hag.a14
  have a15 : after (Cert.ReferenceIdeal.Line.opsPre (F := Ideal)) (launchContents m' c) (Proc.devRef .tc Cert.ReferenceIdeal.main_arg15) = (W0 m ρ c (Proc.devRef .tc Cert.KernelIdeal.main_arg15)) :=
    (pre_arg15 _).trans hag.a15
  have a16 : after (Cert.ReferenceIdeal.Line.opsPre (F := Ideal)) (launchContents m' c) (Proc.devRef .tc Cert.ReferenceIdeal.main_arg16) = (W0 m ρ c (Proc.devRef .tc Cert.KernelIdeal.main_arg16)) :=
    (pre_arg16 _).trans hag.a16
  have a17 : after (Cert.ReferenceIdeal.Line.opsPre (F := Ideal)) (launchContents m' c) (Proc.devRef .tc Cert.ReferenceIdeal.main_arg17) = (W1 m ρ c (Proc.devRef .tc Cert.KernelIdeal.main_arg17)) :=
    ((pre_arg17 _).trans hag.a17).trans (w1_arg17 m ρ c).symm
  have a18 : after (Cert.ReferenceIdeal.Line.opsPre (F := Ideal)) (launchContents m' c) (Proc.devRef .tc Cert.ReferenceIdeal.main_arg18) = (W1 m ρ c (Proc.devRef .tc Cert.KernelIdeal.main_arg18)) :=
    ((pre_arg18 _).trans hag.a18).trans (w1_arg18 m ρ c).symm
  unfold nuV
  rw [a12, a13, a14, a15, a16, a17, a18, ← e60, ← e107, ← e89, ← e62, ← e64]
  rfl

end Value

/-- At the ideal instance, from memories agreeing on the arguments, both programs run and end with equal results and
    unchanged arguments. -/
theorem algebraic : Cert.algebraic_KernelIdeal_ReferenceIdeal := by
  intro m ρ m' ρ' _ hagree
  refine ⟨fun c => W8 m ρ c (Proc.devRef .tc Cert.KernelIdeal.main_v164), Cert.KernelIdeal.Frame.run_value m ρ, ?_⟩
  refine ref_half m' ρ' _ fun c => value_eq m ρ m' c ?_
  obtain ⟨h0, h1, h2, h3, h4, h5, h6, h7, h8, h9, h10, h11, h12, h13, h14, h15, h16, h17, h18⟩ := agree_launch m ρ m' hagree c
  exact ⟨h0, h1, h2, h3, h4, h5, h6, h7, h8, h9, h10, h11, h12, h13, h14, h15, h16, h17, h18⟩

end Cert.Bridge

end
-- ==== Proof.lean ====
/-
  The certificate's claims assembled.
  The reference program is a straight line of host operations: it runs to the end and no operation writes an argument.
  The kernel program is four grid regions among host operations: each region's body is run at every grid point against the
  pipeline's proof data, the host stretches are folds over the buffer contents, and an argument is read back through every
  segment to its launch contents. The idealization rewrote no operation, so it preserves the program as it stands. At the
  ideal instance the kernel's result and the reference's are one function of the arguments, index by index: the products
  with the weights stacked along the lane axis and sliced back are the products hop by hop, the sums differ only in
  grouping and order, and the column statistics accumulated tile by tile are the whole column sums.
-/
import proofs.«159553_j62680752718518_1_alg».proof.Defs
import proofs.«159553_j62680752718518_1_alg».proof.Proof.Gen.Kernel
import proofs.«159553_j62680752718518_1_alg».proof.Proof.Gen.KernelIdeal
import proofs.«159553_j62680752718518_1_alg».proof.Proof.Gen.ReferenceIdeal
import proofs.«159553_j62680752718518_1_alg».proof.Proof.Gen.Pre_finite_inputs
import proofs.«159553_j62680752718518_1_alg».proof.Proof.RefRun
import proofs.«159553_j62680752718518_1_alg».proof.Proof.KRun
import proofs.«159553_j62680752718518_1_alg».proof.Proof.KBRun
import proofs.«159553_j62680752718518_1_alg».proof.Proof.Bridge
import Idealize.ShloMosaic.Adequacy
import Idealize.ShloMosaic.Init

noncomputable section

namespace Cert.Proof

open Idealize.ShloMosaic Idealize.SL.Sem

/-- The reference runs to the end, faults nowhere and leaves its arguments as launched. -/
theorem frame_ri : Cert.frame_ReferenceIdeal := fun m ρ _ => Cert.ReferenceIdeal.Line.frame (F := Ideal) m ρ

/-- The kernel program as printed runs to the end, faults nowhere and leaves its arguments as launched. -/
theorem frame_k : Cert.frame_Kernel := fun m ρ _ => Cert.Kernel.Frame.frame (F := Bits) m ρ
/-- The idealized kernel program runs to the end, faults nowhere and leaves its arguments as launched. -/
theorem frame_ki : Cert.frame_KernelIdeal := fun m ρ _ => Cert.KernelIdeal.Frame.frame (F := Ideal) m ρ
/-- At the ideal instance, from memories agreeing on the arguments, the two idealized programs end with equal results. -/
theorem algebraic : Cert.algebraic_KernelIdeal_ReferenceIdeal := Cert.Bridge.algebraic

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
